-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v135) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x768 : Shape := ⟨2, ![2048, 768]⟩
abbrev S2048x2048 : Shape := ⟨2, ![2048, 2048]⟩
abbrev S1x2048x4 : Shape := ⟨3, ![1, 2048, 4]⟩
abbrev S4x768x192 : Shape := ⟨3, ![4, 768, 192]⟩
abbrev S4x192 : Shape := ⟨2, ![4, 192]⟩
abbrev S768x768 : Shape := ⟨2, ![768, 768]⟩
abbrev S768 : Shape := ⟨1, ![768]⟩
abbrev S_ : Shape := ⟨0, ![]⟩

class Facts : Prop where
  bcast_S_S2048x768 : S_.BroadcastsInDim S2048x768 (![] : Fin 0 → Fin S2048x768.rank)
  reducesTo_S2048x768_S_d0_1 : S2048x768.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S1x2048x4 : S_.BroadcastsInDim S1x2048x4 (![] : Fin 0 → Fin S1x2048x4.rank)
  reducesTo_S1x2048x4_S_d0_1_2 : S1x2048x4.ReducesTo [0, 1, 2] S_
  bcast_S_S4x768x192 : S_.BroadcastsInDim S4x768x192 (![] : Fin 0 → Fin S4x768x192.rank)
  reducesTo_S4x768x192_S_d0_1_2 : S4x768x192.ReducesTo [0, 1, 2] S_
  bcast_S_S4x192 : S_.BroadcastsInDim S4x192 (![] : Fin 0 → Fin S4x192.rank)
  reducesTo_S4x192_S_d0_1 : S4x192.ReducesTo [0, 1] S_
  bcast_S_S768x768 : S_.BroadcastsInDim S768x768 (![] : Fin 0 → Fin S768x768.rank)
  reducesTo_S768x768_S_d0_1 : S768x768.ReducesTo [0, 1] S_
  bcast_S_S768 : S_.BroadcastsInDim S768 (![] : Fin 0 → Fin S768.rank)
  reducesTo_S768_S_d0 : S768.ReducesTo [0] S_

variable [Facts]

def fn_part1 {F : FTy → Type} [FloatOps F] (main_arg4 : FVec F S4x192 .f32) (main_arg5 : FVec F S768x768 .f32) (main_arg6 : FVec F S768 .f32) (main_v13 : IVec S_ 1) (main_v16 : IVec S4x768x192 1) : IVec S_ 1 :=
  let main_c_5 : IVec S_ 1 := constantI S_ 1 1#1
  let main_v17 : IVec S_ 1 := (fun x v => Host.reduce IntOp.andi x v reducesTo_S4x768x192_S_d0_1_2 h_S_) main_v16 main_c_5
  let main_v18 : IVec S_ 1 := andi main_v13 main_v17
  let main_v19 : FVec F S4x192 .f32 := Host.absf main_arg4
  let main_cst_6 : FVec F S_ .f32 := constant S_ .f32 0x7F800000#32
  let main_v20 : FVec F S4x192 .f32 := broadcastInDim S4x192 ![] bcast_S_S4x192 main_cst_6
  let main_v21 : IVec S4x192 1 := cmpf .olt main_v19 main_v20
  let main_c_7 : IVec S_ 1 := constantI S_ 1 1#1
  let main_v22 : IVec S_ 1 := (fun x v => Host.reduce IntOp.andi x v reducesTo_S4x192_S_d0_1 h_S_) main_v21 main_c_7
  let main_v23 : IVec S_ 1 := andi main_v18 main_v22
  let main_v24 : FVec F S768x768 .f32 := Host.absf main_arg5
  let main_cst_8 : FVec F S_ .f32 := constant S_ .f32 0x7F800000#32
  let main_v25 : FVec F S768x768 .f32 := broadcastInDim S768x768 ![] bcast_S_S768x768 main_cst_8
  let main_v26 : IVec S768x768 1 := cmpf .olt main_v24 main_v25
  let main_c_9 : IVec S_ 1 := constantI S_ 1 1#1
  let main_v27 : IVec S_ 1 := (fun x v => Host.reduce IntOp.andi x v reducesTo_S768x768_S_d0_1 h_S_) main_v26 main_c_9
  let main_v28 : IVec S_ 1 := andi main_v23 main_v27
  let main_v29 : FVec F S768 .f32 := Host.absf main_arg6
  let main_cst_10 : FVec F S_ .f32 := constant S_ .f32 0x7F800000#32
  let main_v30 : FVec F S768 .f32 := broadcastInDim S768 ![] bcast_S_S768 main_cst_10
  let main_v31 : IVec S768 1 := cmpf .olt main_v29 main_v30
  let main_c_11 : IVec S_ 1 := constantI S_ 1 1#1
  let main_v32 : IVec S_ 1 := (fun x v => Host.reduce IntOp.andi x v reducesTo_S768_S_d0 h_S_) main_v31 main_c_11
  let main_v33 : IVec S_ 1 := andi main_v28 main_v32
  main_v33

def fn {F : FTy → Type} [FloatOps F] (main_arg0 : FVec F S2048x768 .f32) (main_arg1 : FVec F S2048x2048 .f32) (main_arg2 : FVec F S1x2048x4 .f32) (main_arg3 : FVec F S4x768x192 .f32) (main_arg4 : FVec F S4x192 .f32) (main_arg5 : FVec F S768x768 .f32) (main_arg6 : FVec F S768 .f32) : IVec S_ 1 :=
  let main_v0 : FVec F S2048x768 .f32 := Host.absf main_arg0
  let main_cst : FVec F S_ .f32 := constant S_ .f32 0x7F800000#32
  let main_v1 : FVec F S2048x768 .f32 := broadcastInDim S2048x768 ![] bcast_S_S2048x768 main_cst
  let main_v2 : IVec S2048x768 1 := cmpf .olt main_v0 main_v1
  let main_c : IVec S_ 1 := constantI S_ 1 1#1
  let main_v3 : IVec S_ 1 := (fun x v => Host.reduce IntOp.andi x v reducesTo_S2048x768_S_d0_1 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S1x2048x4 .f32 := Host.absf main_arg2
  let main_cst_2 : FVec F S_ .f32 := constant S_ .f32 0x7F800000#32
  let main_v10 : FVec F S1x2048x4 .f32 := broadcastInDim S1x2048x4 ![] bcast_S_S1x2048x4 main_cst_2
  let main_v11 : IVec S1x2048x4 1 := cmpf .olt main_v9 main_v10
  let main_c_3 : IVec S_ 1 := constantI S_ 1 1#1
  let main_v12 : IVec S_ 1 := (fun x v => Host.reduce IntOp.andi x v reducesTo_S1x2048x4_S_d0_1_2 h_S_) main_v11 main_c_3
  let main_v13 : IVec S_ 1 := andi main_v8 main_v12
  let main_v14 : FVec F S4x768x192 .f32 := Host.absf main_arg3
  let main_cst_4 : FVec F S_ .f32 := constant S_ .f32 0x7F800000#32
  let main_v15 : FVec F S4x768x192 .f32 := broadcastInDim S4x768x192 ![] bcast_S_S4x768x192 main_cst_4
  let main_v16 : IVec S4x768x192 1 := cmpf .olt main_v14 main_v15
  fn_part1 (F := F) main_arg4 main_arg5 main_arg6 main_v13 main_v16
-- ==== Kernel.lean ====
abbrev S2048x768 : Shape := ⟨2, ![2048, 768]⟩
abbrev S2048x2048 : Shape := ⟨2, ![2048, 2048]⟩
abbrev S1x2048x4 : Shape := ⟨3, ![1, 2048, 4]⟩
abbrev S4x768x192 : Shape := ⟨3, ![4, 768, 192]⟩
abbrev S4x192 : Shape := ⟨2, ![4, 192]⟩
abbrev S768x768 : Shape := ⟨2, ![768, 768]⟩
abbrev S768 : Shape := ⟨1, ![768]⟩
abbrev S2048x4 : Shape := ⟨2, ![2048, 4]⟩
abbrev S4x2048 : Shape := ⟨2, ![4, 2048]⟩
abbrev S4x2048x2048 : Shape := ⟨3, ![4, 2048, 2048]⟩
abbrev S256x2048 : Shape := ⟨2, ![256, 2048]⟩
abbrev S4x2048x256 : Shape := ⟨3, ![4, 2048, 256]⟩
abbrev S1x2048 : Shape := ⟨2, ![1, 2048]⟩
abbrev S2048 : Shape := ⟨1, ![2048]⟩
abbrev S2048x256 : Shape := ⟨2, ![2048, 256]⟩
abbrev S256 : Shape := ⟨1, ![256]⟩
abbrev S1x256 : Shape := ⟨2, ![1, 256]⟩
abbrev S1x2048x256 : Shape := ⟨3, ![1, 2048, 256]⟩
abbrev S4x2048x192 : Shape := ⟨3, ![4, 2048, 192]⟩
abbrev S512x768 : Shape := ⟨2, ![512, 768]⟩
abbrev S1x768x192 : Shape := ⟨3, ![1, 768, 192]⟩
abbrev S1x512x192 : Shape := ⟨3, ![1, 512, 192]⟩
abbrev S768x192 : Shape := ⟨2, ![768, 192]⟩
abbrev S512x192 : Shape := ⟨2, ![512, 192]⟩
abbrev S4x1x192 : Shape := ⟨3, ![4, 1, 192]⟩
abbrev S1x2048x2048 : Shape := ⟨3, ![1, 2048, 2048]⟩
abbrev S1x2048x192 : Shape := ⟨3, ![1, 2048, 192]⟩
abbrev S1x1x192 : Shape := ⟨3, ![1, 1, 192]⟩
abbrev S2048x192 : Shape := ⟨2, ![2048, 192]⟩
abbrev S1x192 : Shape := ⟨2, ![1, 192]⟩
abbrev S4x192x768 : Shape := ⟨3, ![4, 192, 768]⟩
abbrev S1x768 : Shape := ⟨2, ![1, 768]⟩
abbrev S1x1024x192 : Shape := ⟨3, ![1, 1024, 192]⟩
abbrev S1x192x768 : Shape := ⟨3, ![1, 192, 768]⟩
abbrev S1024x768 : Shape := ⟨2, ![1024, 768]⟩
abbrev S1024x192 : Shape := ⟨2, ![1024, 192]⟩
abbrev S192x768 : Shape := ⟨2, ![192, 768]⟩

abbrev nBuf : Space → Nat
  | .hbm => 20
  | .vmem => 28
  | .smem => 0
  | _ => 0

abbrev bufTy : (tb : Table) → Fin (tcTables nBuf tb) → BufTy
  | .hbm, ⟨0, _⟩ => ⟨S2048x768, .f32⟩
  | .hbm, ⟨1, _⟩ => ⟨S2048x2048, .f32⟩
  | .hbm, ⟨2, _⟩ => ⟨S1x2048x4, .f32⟩
  | .hbm, ⟨3, _⟩ => ⟨S4x768x192, .f32⟩
  | .hbm, ⟨4, _⟩ => ⟨S4x192, .f32⟩
  | .hbm, ⟨5, _⟩ => ⟨S768x768, .f32⟩
  | .hbm, ⟨6, _⟩ => ⟨S768, .f32⟩
  | .hbm, ⟨7, _⟩ => ⟨S2048x4, .f32⟩
  | .hbm, ⟨8, _⟩ => ⟨S4x2048, .f32⟩
  | .hbm, ⟨9, _⟩ => ⟨S2048x2048, .bf16⟩
  | .hbm, ⟨10, _⟩ => ⟨S4x2048x2048, .bf16⟩
  | .hbm, ⟨11, _⟩ => ⟨S2048x768, .bf16⟩
  | .hbm, ⟨12, _⟩ => ⟨S4x768x192, .bf16⟩
  | .hbm, ⟨13, _⟩ => ⟨S4x2048x192, .bf16⟩
  | .hbm, ⟨14, _⟩ => ⟨S4x1x192, .f32⟩
  | .hbm, ⟨15, _⟩ => ⟨S4x2048x192, .bf16⟩
  | .hbm, ⟨16, _⟩ => ⟨S768x768, .bf16⟩
  | .hbm, ⟨17, _⟩ => ⟨S4x192x768, .bf16⟩
  | .hbm, ⟨18, _⟩ => ⟨S1x768, .f32⟩
  | .hbm, ⟨19, _⟩ => ⟨S2048x768, .f32⟩
  | .local _ .vmem, ⟨0, _⟩ => ⟨S2048x2048, .bf16⟩
  | .local _ .vmem, ⟨1, _⟩ => ⟨S256x2048, .bf16⟩
  | .local _ .vmem, ⟨2, _⟩ => ⟨S256x2048, .bf16⟩
  | .local _ .vmem, ⟨3, _⟩ => ⟨S4x2048, .f32⟩
  | .local _ .vmem, ⟨4, _⟩ => ⟨S4x2048x256, .bf16⟩
  | .local _ .vmem, ⟨5, _⟩ => ⟨S4x2048x256, .bf16⟩
  | .local _ .vmem, ⟨6, _⟩ => ⟨S512x768, .bf16⟩
  | .local _ .vmem, ⟨7, _⟩ => ⟨S512x768, .bf16⟩
  | .local _ .vmem, ⟨8, _⟩ => ⟨S1x768x192, .bf16⟩
  | .local _ .vmem, ⟨9, _⟩ => ⟨S1x768x192, .bf16⟩
  | .local _ .vmem, ⟨10, _⟩ => ⟨S1x512x192, .bf16⟩
  | .local _ .vmem, ⟨11, _⟩ => ⟨S1x512x192, .bf16⟩
  | .local _ .vmem, ⟨12, _⟩ => ⟨S1x2048x2048, .bf16⟩
  | .local _ .vmem, ⟨13, _⟩ => ⟨S1x2048x2048, .bf16⟩
  | .local _ .vmem, ⟨14, _⟩ => ⟨S1x2048x192, .bf16⟩
  | .local _ .vmem, ⟨15, _⟩ => ⟨S1x2048x192, .bf16⟩
  | .local _ .vmem, ⟨16, _⟩ => ⟨S1x1x192, .f32⟩
  | .local _ .vmem, ⟨17, _⟩ => ⟨S1x1x192, .f32⟩
  | .local _ .vmem, ⟨18, _⟩ => ⟨S1x2048x192, .bf16⟩
  | .local _ .vmem, ⟨19, _⟩ => ⟨S1x2048x192, .bf16⟩
  | .local _ .vmem, ⟨20, _⟩ => ⟨S1x1024x192, .bf16⟩
  | .local _ .vmem, ⟨21, _⟩ => ⟨S1x1024x192, .bf16⟩
  | .local _ .vmem, ⟨22, _⟩ => ⟨S1x192x768, .bf16⟩
  | .local _ .vmem, ⟨23, _⟩ => ⟨S1x192x768, .bf16⟩
  | .local _ .vmem, ⟨24, _⟩ => ⟨S1x768, .f32⟩
  | .local _ .vmem, ⟨25, _⟩ => ⟨S1024x768, .f32⟩
  | .local _ .vmem, ⟨26, _⟩ => ⟨S1024x768, .f32⟩
  | .local _ .vmem, ⟨27, _⟩ => ⟨S1024x768, .f32⟩
  | _, _ => ⟨S2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg3_0 : Ref sig .tc := ⟨.vmem, 18, rfl⟩
abbrev cc2_stg3_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg1_1 : Ref sig .tc := ⟨.vmem, 23, rfl⟩
abbrev cc3_stg2_0 : Ref sig .tc := ⟨.vmem, 24, rfl⟩
abbrev cc3_stg3_0 : Ref sig .tc := ⟨.vmem, 25, rfl⟩
abbrev cc3_stg3_1 : Ref sig .tc := ⟨.vmem, 26, rfl⟩
abbrev cc3_scratch0 : Ref sig .tc := ⟨.vmem, 27, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc2_sem3_0 : DmaSem sig := 18
abbrev cc2_sem3_1 : DmaSem sig := 19
abbrev cc3_sem0_0 : DmaSem sig := 20
abbrev cc3_sem0_1 : DmaSem sig := 21
abbrev cc3_sem1_0 : DmaSem sig := 22
abbrev cc3_sem1_1 : DmaSem sig := 23
abbrev cc3_sem2_0 : DmaSem sig := 24
abbrev cc3_sem3_0 : DmaSem sig := 25
abbrev cc3_sem3_1 : DmaSem sig := 26

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4x2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![4, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S512x768 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S1x768x192 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x512x192 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨1, ![4], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_3 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1x2048x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1x2048x192 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1x1x192 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S1x2048x192 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨2, ![2, 4], ![false, false]⟩

def k3_cond2 (i : grid3.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_10 : BitVec 32 := 0#32
  let v15 : BitVec 1 := Scalar.cmpi .ne v14 c0_i32_10
  v15

def cc3_transform_0 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc3_transform_1 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage3_0 : Fin 2 → Memref sig .tc .vmem S1x1024x192 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S1x192x768 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 1 → Memref sig .tc .vmem S1x768 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false, false]

abbrev stage3_3 : Fin 2 → Memref sig .tc .vmem S1024x768 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, false]

class Facts₀ : Prop where
  shapeCasts_S1x2048x4_S2048x4 : S1x2048x4.ShapeCasts S2048x4
  transposes_S2048x4_S4x2048_1_0 : S2048x4.Transposes [1, 0] S4x2048
  bitsLt_bf16_f32 : FTy.bits .bf16 < FTy.bits .f32
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  inb_S4x2048_S1x2048_0_0 : ∀ a, (![0, 0] : Fin 2 → Nat) a + S1x2048.size a ≤ S4x2048.size a
  h_S1x2048 : 0 < S1x2048.numel
  shapeCasts_S1x2048_S2048 : S1x2048.ShapeCasts S2048
  shapeCasts_S2048_S1x2048 : S2048.ShapeCasts S1x2048
  broadcasts_S1x2048_S2048x2048 : S1x2048.Broadcasts S2048x2048
  reduces_S2048x256_S256 : S2048x256.Reduces [0] S256
  shapeCasts_S256_S1x256 : S256.ShapeCasts S1x256
  broadcasts_S1x256_S2048x256 : S1x256.Broadcasts S2048x256
  inb_S4x2048x256_S1x2048x256_0_0_0 : ∀ a, (![0, 0, 0] : Fin 3 → Nat) a + S1x2048x256.size a ≤ S4x2048x256.size a
  h_S1x2048x256 : 0 < S1x2048x256.numel
  shapeCasts_S1x2048x256_S2048x256 : S1x2048x256.ShapeCasts S2048x256
  shapeCasts_S2048x256_S1x2048x256 : S2048x256.ShapeCasts S1x2048x256
  packedbf16_S4x2048x256_S1x2048x256_0_0_0 : (Rect.unit (s := S4x2048x256) ![0, 0, 0] S1x2048x256.size inb_S4x2048x256_S1x2048x256_0_0_0).PackedRows (EltTy.packing .bf16)
  inb_S4x2048_S1x2048_1_0 : ∀ a, (![1, 0] : Fin 2 → Nat) a + S1x2048.size a ≤ S4x2048.size a
  inb_S4x2048x256_S1x2048x256_1_0_0 : ∀ a, (![1, 0, 0] : Fin 3 → Nat) a + S1x2048x256.size a ≤ S4x2048x256.size a
  packedbf16_S4x2048x256_S1x2048x256_1_0_0 : (Rect.unit (s := S4x2048x256) ![1, 0, 0] S1x2048x256.size inb_S4x2048x256_S1x2048x256_1_0_0).PackedRows (EltTy.packing .bf16)
  inb_S4x2048_S1x2048_2_0 : ∀ a, (![2, 0] : Fin 2 → Nat) a + S1x2048.size a ≤ S4x2048.size a
  inb_S4x2048x256_S1x2048x256_2_0_0 : ∀ a, (![2, 0, 0] : Fin 3 → Nat) a + S1x2048x256.size a ≤ S4x2048x256.size a
  packedbf16_S4x2048x256_S1x2048x256_2_0_0 : (Rect.unit (s := S4x2048x256) ![2, 0, 0] S1x2048x256.size inb_S4x2048x256_S1x2048x256_2_0_0).PackedRows (EltTy.packing .bf16)
  inb_S4x2048_S1x2048_3_0 : ∀ a, (![3, 0] : Fin 2 → Nat) a + S1x2048.size a ≤ S4x2048.size a
  inb_S4x2048x256_S1x2048x256_3_0_0 : ∀ a, (![3, 0, 0] : Fin 3 → Nat) a + S1x2048x256.size a ≤ S4x2048x256.size a
  packedbf16_S4x2048x256_S1x2048x256_3_0_0 : (Rect.unit (s := S4x2048x256) ![3, 0, 0] S1x2048x256.size inb_S4x2048x256_S1x2048x256_3_0_0).PackedRows (EltTy.packing .bf16)
  inb_S512x768_S512x768_0_0 : ∀ a, (![0, 0] : Fin 2 → Nat) a + S512x768.size a ≤ S512x768.size a
  h_S512x768 : 0 < S512x768.numel
  shapeCasts_S512x768_S512x768 : S512x768.ShapeCasts S512x768
  inb_S1x768x192_S1x768x192_0_0_0 : ∀ a, (![0, 0, 0] : Fin 3 → Nat) a + S1x768x192.size a ≤ S1x768x192.size a
  h_S1x768x192 : 0 < S1x768x192.numel
  shapeCasts_S1x768x192_S768x192 : S1x768x192.ShapeCasts S768x192
  inb_S1x512x192_S1x512x192_0_0_0 : ∀ a, (![0, 0, 0] : Fin 3 → Nat) a + S1x512x192.size a ≤ S1x512x192.size a
  h_S1x512x192 : 0 < S1x512x192.numel
  shapeCasts_S1x512x192_S512x192 : S1x512x192.ShapeCasts S512x192
  shapeCasts_S512x192_S1x512x192 : S512x192.ShapeCasts S1x512x192
  packedbf16_S1x512x192_S1x512x192_0_0_0 : (Rect.unit (s := S1x512x192) ![0, 0, 0] S1x512x192.size inb_S1x512x192_S1x512x192_0_0_0).PackedRows (EltTy.packing .bf16)
  shapeCasts_S4x192_S4x1x192 : S4x192.ShapeCasts S4x1x192
  inb_S1x2048x2048_S1x2048x2048_0_0_0 : ∀ a, (![0, 0, 0] : Fin 3 → Nat) a + S1x2048x2048.size a ≤ S1x2048x2048.size a
  h_S1x2048x2048 : 0 < S1x2048x2048.numel
  shapeCasts_S1x2048x2048_S2048x2048 : S1x2048x2048.ShapeCasts S2048x2048
  inb_S1x2048x192_S1x2048x192_0_0_0 : ∀ a, (![0, 0, 0] : Fin 3 → Nat) a + S1x2048x192.size a ≤ S1x2048x192.size a
  h_S1x2048x192 : 0 < S1x2048x192.numel
  shapeCasts_S1x2048x192_S2048x192 : S1x2048x192.ShapeCasts S2048x192
  inb_S1x1x192_S1x1x192_0_0_0 : ∀ a, (![0, 0, 0] : Fin 3 → Nat) a + S1x1x192.size a ≤ S1x1x192.size a
  h_S1x1x192 : 0 < S1x1x192.numel
  shapeCasts_S1x1x192_S1x192 : S1x1x192.ShapeCasts S1x192
  broadcasts_S1x192_S2048x192 : S1x192.Broadcasts S2048x192
  shapeCasts_S2048x192_S1x2048x192 : S2048x192.ShapeCasts S1x2048x192
  packedbf16_S1x2048x192_S1x2048x192_0_0_0 : (Rect.unit (s := S1x2048x192) ![0, 0, 0] S1x2048x192.size inb_S1x2048x192_S1x2048x192_0_0_0).PackedRows (EltTy.packing .bf16)
  shapeCasts_S768x768_S4x192x768 : S768x768.ShapeCasts S4x192x768
  shapeCasts_S768_S1x768 : S768.ShapeCasts S1x768
  inb_S1024x768_S1024x768_0_0 : ∀ a, (![0, 0] : Fin 2 → Nat) a + S1024x768.size a ≤ S1024x768.size a
  h_S1024x768 : 0 < S1024x768.numel
  shapeCasts_S1024x768_S1024x768 : S1024x768.ShapeCasts S1024x768
  inb_S1x1024x192_S1x1024x192_0_0_0 : ∀ a, (![0, 0, 0] : Fin 3 → Nat) a + S1x1024x192.size a ≤ S1x1024x192.size a
  h_S1x1024x192 : 0 < S1x1024x192.numel
  shapeCasts_S1x1024x192_S1024x192 : S1x1024x192.ShapeCasts S1024x192
  inb_S1x192x768_S1x192x768_0_0_0 : ∀ a, (![0, 0, 0] : Fin 3 → Nat) a + S1x192x768.size a ≤ S1x192x768.size a
  h_S1x192x768 : 0 < S1x192x768.numel
  shapeCasts_S1x192x768_S192x768 : S1x192x768.ShapeCasts S192x768
  inb_S1x768_S1x768_0_0 : ∀ a, (![0, 0] : Fin 2 → Nat) a + S1x768.size a ≤ S1x768.size a
  h_S1x768 : 0 < S1x768.numel
  shapeCasts_S1x768_S1x768 : S1x768.ShapeCasts S1x768
  broadcasts_S1x768_S1024x768 : S1x768.Broadcasts S1024x768
  dot_S2048x2048_S256x2048_S2048x256_1_1_0_0_n_n_wf : DotDims.WF S2048x2048 S256x2048 S2048x256 [1] [1] [0] [0] [] []
  dot_S512x768_S768x192_S512x192_1_0_0_1_n_n_wf : DotDims.WF S512x768 S768x192 S512x192 [1] [0] [0] [1] [] []
  dot_S2048x2048_S2048x192_S2048x192_0_0_1_1_n_n_wf : DotDims.WF S2048x2048 S2048x192 S2048x192 [0] [0] [1] [1] [] []
  dot_S1024x192_S192x768_S1024x768_1_0_0_1_n_n_wf : DotDims.WF S1024x192 S192x768 S1024x768 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S2048x2048.size a ≤ S2048x2048.size a
  hwx0_0 : ∀ i : grid0.Coords, EltTy.bits .bf16 = 32 ∨ (Rect.block (s := S2048x2048) S2048x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x2048.size a ≤ S2048x2048.size a
  hwx0_1 : ∀ i : grid0.Coords, EltTy.bits .bf16 = 32 ∨ (Rect.block (s := S2048x2048) S256x2048.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4x2048.size a ≤ S4x2048.size a
  hwx0_2 : ∀ i : grid0.Coords, EltTy.bits .f32 = 32 ∨ (Rect.block (s := S4x2048) S4x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4x2048x256.size a ≤ S4x2048x2048.size a
  hwx0_3 : ∀ i : grid0.Coords, EltTy.bits .bf16 = 32 ∨ (Rect.block (s := S4x2048x2048) S4x2048x256.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x768.size a ≤ S2048x768.size a
  hwx1_0 : ∀ i : grid1.Coords, EltTy.bits .bf16 = 32 ∨ (Rect.block (s := S2048x768) S512x768.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x768x192.size a ≤ S4x768x192.size a
  hwx1_1 : ∀ i : grid1.Coords, EltTy.bits .bf16 = 32 ∨ (Rect.block (s := S4x768x192) S1x768x192.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x512x192.size a ≤ S4x2048x192.size a
  hwx1_2 : ∀ i : grid1.Coords, EltTy.bits .bf16 = 32 ∨ (Rect.block (s := S4x2048x192) S1x512x192.size (cc1_transform_2 i) (hinb1_2 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x2048x2048.size a ≤ S4x2048x2048.size a
  hwx2_0 : ∀ i : grid2.Coords, EltTy.bits .bf16 = 32 ∨ (Rect.block (s := S4x2048x2048) S1x2048x2048.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x2048x192.size a ≤ S4x2048x192.size a
  hwx2_1 : ∀ i : grid2.Coords, EltTy.bits .bf16 = 32 ∨ (Rect.block (s := S4x2048x192) S1x2048x192.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x1x192.size a ≤ S4x1x192.size a
  hwx2_2 : ∀ i : grid2.Coords, EltTy.bits .f32 = 32 ∨ (Rect.block (s := S4x1x192) S1x1x192.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x2048x192.size a ≤ S4x2048x192.size a
  hwx2_3 : ∀ i : grid2.Coords, EltTy.bits .bf16 = 32 ∨ (Rect.block (s := S4x2048x192) S1x2048x192.size (cc2_transform_3 i) (hinb2_3 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1x1024x192.size a ≤ S4x2048x192.size a
  hwx3_0 : ∀ i : grid3.Coords, EltTy.bits .bf16 = 32 ∨ (Rect.block (s := S4x2048x192) S1x1024x192.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1x192x768.size a ≤ S4x192x768.size a
  hwx3_1 : ∀ i : grid3.Coords, EltTy.bits .bf16 = 32 ∨ (Rect.block (s := S4x192x768) S1x192x768.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x768.size a ≤ S1x768.size a
  hwx3_2 : ∀ i : grid3.Coords, EltTy.bits .f32 = 32 ∨ (Rect.block (s := S1x768) S1x768.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1024x768.size a ≤ S2048x768.size a
  hwx3_3 : ∀ i : grid3.Coords, EltTy.bits .f32 = 32 ∨ (Rect.block (s := S2048x768) S1024x768.size (cc3_transform_3 i) (hinb3_3 i)).WholeWords (EltTy.packing .f32)

variable [Facts₀]

def dot_S2048x2048_S256x2048_S2048x256_1_1_0_0_n_n : DotDims S2048x2048 S256x2048 S2048x256 where
  lhsContracting := [1]
  rhsContracting := [1]
  lhsNonContracting := [0]
  rhsNonContracting := [0]
  lhsBatch := []
  rhsBatch := []
  wf := dot_S2048x2048_S256x2048_S2048x256_1_1_0_0_n_n_wf
def dot_S512x768_S768x192_S512x192_1_0_0_1_n_n : DotDims S512x768 S768x192 S512x192 where
  lhsContracting := [1]
  rhsContracting := [0]
  lhsNonContracting := [0]
  rhsNonContracting := [1]
  lhsBatch := []
  rhsBatch := []
  wf := dot_S512x768_S768x192_S512x192_1_0_0_1_n_n_wf
def dot_S2048x2048_S2048x192_S2048x192_0_0_1_1_n_n : DotDims S2048x2048 S2048x192 S2048x192 where
  lhsContracting := [0]
  rhsContracting := [0]
  lhsNonContracting := [1]
  rhsNonContracting := [1]
  lhsBatch := []
  rhsBatch := []
  wf := dot_S2048x2048_S2048x192_S2048x192_0_0_1_1_n_n_wf
def dot_S1024x192_S192x768_S1024x768_1_0_0_1_n_n : DotDims S1024x192 S192x768 S1024x768 where
  lhsContracting := [1]
  rhsContracting := [0]
  lhsNonContracting := [0]
  rhsNonContracting := [1]
  lhsBatch := []
  rhsBatch := []
  wf := dot_S1024x192_S192x768_S1024x768_1_0_0_1_n_n_wf

abbrev win0_0 : Pipeline.Window sig grid0 :=
  Pipeline.Window.ofSpec (Memref.whole main_v2) S2048x2048.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v2) S256x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S4x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S4x2048x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v4) S512x768.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S1x768x192.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v6) S1x512x192.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v3) S1x2048x2048.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v6) S1x2048x192.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v7) S1x1x192.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v8) S1x2048x192.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v8) S1x1024x192.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v10) S1x192x768.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v11) S1x768.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v12) S1024x768.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev idle3 : Fin 4 → grid3.Coords → Bool := fun | 0 => fun _ => false | 1 => fun _ => false | 2 => fun _ => false | 3 => fun i => !(k3_cond2 i == 1#1) | ⟨_ + 4, h⟩ => absurd h (Nat.not_lt.2 (Nat.le_add_left _ _))

class Facts : Prop extends Facts₀ where

variable [Facts]
-- ==== ReferenceIdeal.lean ====
abbrev S2048x768 : Shape := ⟨2, ![2048, 768]⟩
abbrev S2048x2048 : Shape := ⟨2, ![2048, 2048]⟩
abbrev S1x2048x4 : Shape := ⟨3, ![1, 2048, 4]⟩
abbrev S4x768x192 : Shape := ⟨3, ![4, 768, 192]⟩
abbrev S4x192 : Shape := ⟨2, ![4, 192]⟩
abbrev S768x768 : Shape := ⟨2, ![768, 768]⟩
abbrev S768 : Shape := ⟨1, ![768]⟩
abbrev S2048x4 : Shape := ⟨2, ![2048, 4]⟩
abbrev S4x2048 : Shape := ⟨2, ![4, 2048]⟩
abbrev S1x2048 : Shape := ⟨2, ![1, 2048]⟩
abbrev S2048 : Shape := ⟨1, ![2048]⟩
abbrev S2048x1 : Shape := ⟨2, ![2048, 1]⟩
abbrev S_ : Shape := ⟨0, ![]⟩
abbrev S1x768x192 : Shape := ⟨3, ![1, 768, 192]⟩
abbrev S768x192 : Shape := ⟨2, ![768, 192]⟩
abbrev S2048x192 : Shape := ⟨2, ![2048, 192]⟩
abbrev S1x192 : Shape := ⟨2, ![1, 192]⟩
abbrev S192 : Shape := ⟨1, ![192]⟩
abbrev S1x768 : Shape := ⟨2, ![1, 768]⟩

abbrev nBuf : Space → Nat
  | .hbm => 177
  | .vmem => 0
  | .smem => 0
  | _ => 0

abbrev hbmTy0_0 (i : Nat) : BufTy := match i % 128 with
  | 0 => ⟨S2048x768, .f32⟩
  | 1 => ⟨S2048x2048, .f32⟩
  | 2 => ⟨S1x2048x4, .f32⟩
  | 3 => ⟨S4x768x192, .f32⟩
  | 4 => ⟨S4x192, .f32⟩
  | 5 => ⟨S768x768, .f32⟩
  | 6 => ⟨S768, .f32⟩
  | 7 => ⟨S2048x4, .f32⟩
  | 8 => ⟨S4x2048, .f32⟩
  | 9 => ⟨S1x2048, .f32⟩
  | 10 => ⟨S2048, .f32⟩
  | 11 => ⟨S2048x1, .f32⟩
  | 12 => ⟨S2048x2048, .f32⟩
  | 13 => ⟨S2048x2048, .f32⟩
  | 14 => ⟨S2048x2048, .f32⟩
  | 15 => ⟨S2048x2048, .f32⟩
  | 16 => ⟨S2048x2048, .f32⟩
  | 17 => ⟨S_, .f32⟩
  | 18 => ⟨S2048, .f32⟩
  | 19 => ⟨S1x2048, .f32⟩
  | 20 => ⟨S1x2048, .f32⟩
  | 21 => ⟨S_, .f32⟩
  | 22 => ⟨S1x2048, .f32⟩
  | 23 => ⟨S1x2048, .f32⟩
  | 24 => ⟨S2048x2048, .f32⟩
  | 25 => ⟨S2048x2048, .f32⟩
  | 26 => ⟨S2048x2048, .f32⟩
  | 27 => ⟨S_, .f32⟩
  | 28 => ⟨S2048x2048, .f32⟩
  | 29 => ⟨S2048x2048, .i1⟩
  | 30 => ⟨S_, .f32⟩
  | 31 => ⟨S_, .f32⟩
  | 32 => ⟨S2048x2048, .f32⟩
  | 33 => ⟨S2048x2048, .f32⟩
  | 34 => ⟨S2048x2048, .f32⟩
  | 35 => ⟨S1x768x192, .f32⟩
  | 36 => ⟨S768x192, .f32⟩
  | 37 => ⟨S2048x192, .f32⟩
  | 38 => ⟨S2048x192, .f32⟩
  | 39 => ⟨S1x192, .f32⟩
  | 40 => ⟨S192, .f32⟩
  | 41 => ⟨S1x192, .f32⟩
  | 42 => ⟨S2048x192, .f32⟩
  | 43 => ⟨S2048x192, .f32⟩
  | 44 => ⟨S_, .f32⟩
  | 45 => ⟨S2048x192, .f32⟩
  | 46 => ⟨S2048x192, .f32⟩
  | 47 => ⟨S2048x2048, .f32⟩
  | 48 => ⟨S2048x192, .f32⟩
  | 49 => ⟨S1x2048, .f32⟩
  | 50 => ⟨S2048, .f32⟩
  | 51 => ⟨S2048x1, .f32⟩
  | 52 => ⟨S2048x2048, .f32⟩
  | 53 => ⟨S2048x2048, .f32⟩
  | 54 => ⟨S2048x2048, .f32⟩
  | 55 => ⟨S2048x2048, .f32⟩
  | 56 => ⟨S2048x2048, .f32⟩
  | 57 => ⟨S_, .f32⟩
  | 58 => ⟨S2048, .f32⟩
  | 59 => ⟨S1x2048, .f32⟩
  | 60 => ⟨S1x2048, .f32⟩
  | 61 => ⟨S_, .f32⟩
  | 62 => ⟨S1x2048, .f32⟩
  | 63 => ⟨S1x2048, .f32⟩
  | 64 => ⟨S2048x2048, .f32⟩
  | 65 => ⟨S2048x2048, .f32⟩
  | 66 => ⟨S2048x2048, .f32⟩
  | 67 => ⟨S_, .f32⟩
  | 68 => ⟨S2048x2048, .f32⟩
  | 69 => ⟨S2048x2048, .i1⟩
  | 70 => ⟨S_, .f32⟩
  | 71 => ⟨S_, .f32⟩
  | 72 => ⟨S2048x2048, .f32⟩
  | 73 => ⟨S2048x2048, .f32⟩
  | 74 => ⟨S2048x2048, .f32⟩
  | 75 => ⟨S1x768x192, .f32⟩
  | 76 => ⟨S768x192, .f32⟩
  | 77 => ⟨S2048x192, .f32⟩
  | 78 => ⟨S2048x192, .f32⟩
  | 79 => ⟨S1x192, .f32⟩
  | 80 => ⟨S192, .f32⟩
  | 81 => ⟨S1x192, .f32⟩
  | 82 => ⟨S2048x192, .f32⟩
  | 83 => ⟨S2048x192, .f32⟩
  | 84 => ⟨S_, .f32⟩
  | 85 => ⟨S2048x192, .f32⟩
  | 86 => ⟨S2048x192, .f32⟩
  | 87 => ⟨S2048x2048, .f32⟩
  | 88 => ⟨S2048x192, .f32⟩
  | 89 => ⟨S1x2048, .f32⟩
  | 90 => ⟨S2048, .f32⟩
  | 91 => ⟨S2048x1, .f32⟩
  | 92 => ⟨S2048x2048, .f32⟩
  | 93 => ⟨S2048x2048, .f32⟩
  | 94 => ⟨S2048x2048, .f32⟩
  | 95 => ⟨S2048x2048, .f32⟩
  | 96 => ⟨S2048x2048, .f32⟩
  | 97 => ⟨S_, .f32⟩
  | 98 => ⟨S2048, .f32⟩
  | 99 => ⟨S1x2048, .f32⟩
  | 100 => ⟨S1x2048, .f32⟩
  | 101 => ⟨S_, .f32⟩
  | 102 => ⟨S1x2048, .f32⟩
  | 103 => ⟨S1x2048, .f32⟩
  | 104 => ⟨S2048x2048, .f32⟩
  | 105 => ⟨S2048x2048, .f32⟩
  | 106 => ⟨S2048x2048, .f32⟩
  | 107 => ⟨S_, .f32⟩
  | 108 => ⟨S2048x2048, .f32⟩
  | 109 => ⟨S2048x2048, .i1⟩
  | 110 => ⟨S_, .f32⟩
  | 111 => ⟨S_, .f32⟩
  | 112 => ⟨S2048x2048, .f32⟩
  | 113 => ⟨S2048x2048, .f32⟩
  | 114 => ⟨S2048x2048, .f32⟩
  | 115 => ⟨S1x768x192, .f32⟩
  | 116 => ⟨S768x192, .f32⟩
  | 117 => ⟨S2048x192, .f32⟩
  | 118 => ⟨S2048x192, .f32⟩
  | 119 => ⟨S1x192, .f32⟩
  | 120 => ⟨S192, .f32⟩
  | 121 => ⟨S1x192, .f32⟩
  | 122 => ⟨S2048x192, .f32⟩
  | 123 => ⟨S2048x192, .f32⟩
  | 124 => ⟨S_, .f32⟩
  | 125 => ⟨S2048x192, .f32⟩
  | 126 => ⟨S2048x192, .f32⟩
  | 127 => ⟨S2048x2048, .f32⟩
  | _ => ⟨S2048x768, .f32⟩

abbrev hbmTy0_1 (i : Nat) : BufTy := match i % 128 with
  | 0 => ⟨S2048x192, .f32⟩
  | 1 => ⟨S1x2048, .f32⟩
  | 2 => ⟨S2048, .f32⟩
  | 3 => ⟨S2048x1, .f32⟩
  | 4 => ⟨S2048x2048, .f32⟩
  | 5 => ⟨S2048x2048, .f32⟩
  | 6 => ⟨S2048x2048, .f32⟩
  | 7 => ⟨S2048x2048, .f32⟩
  | 8 => ⟨S2048x2048, .f32⟩
  | 9 => ⟨S_, .f32⟩
  | 10 => ⟨S2048, .f32⟩
  | 11 => ⟨S1x2048, .f32⟩
  | 12 => ⟨S1x2048, .f32⟩
  | 13 => ⟨S_, .f32⟩
  | 14 => ⟨S1x2048, .f32⟩
  | 15 => ⟨S1x2048, .f32⟩
  | 16 => ⟨S2048x2048, .f32⟩
  | 17 => ⟨S2048x2048, .f32⟩
  | 18 => ⟨S2048x2048, .f32⟩
  | 19 => ⟨S_, .f32⟩
  | 20 => ⟨S2048x2048, .f32⟩
  | 21 => ⟨S2048x2048, .i1⟩
  | 22 => ⟨S_, .f32⟩
  | 23 => ⟨S_, .f32⟩
  | 24 => ⟨S2048x2048, .f32⟩
  | 25 => ⟨S2048x2048, .f32⟩
  | 26 => ⟨S2048x2048, .f32⟩
  | 27 => ⟨S1x768x192, .f32⟩
  | 28 => ⟨S768x192, .f32⟩
  | 29 => ⟨S2048x192, .f32⟩
  | 30 => ⟨S2048x192, .f32⟩
  | 31 => ⟨S1x192, .f32⟩
  | 32 => ⟨S192, .f32⟩
  | 33 => ⟨S1x192, .f32⟩
  | 34 => ⟨S2048x192, .f32⟩
  | 35 => ⟨S2048x192, .f32⟩
  | 36 => ⟨S_, .f32⟩
  | 37 => ⟨S2048x192, .f32⟩
  | 38 => ⟨S2048x192, .f32⟩
  | 39 => ⟨S2048x2048, .f32⟩
  | 40 => ⟨S2048x192, .f32⟩
  | 41 => ⟨S2048x768, .f32⟩
  | 42 => ⟨S2048x768, .f32⟩
  | 43 => ⟨S1x768, .f32⟩
  | 44 => ⟨S2048x768, .f32⟩
  | 45 => ⟨S2048x768, .f32⟩
  | 46 => ⟨S_, .f32⟩
  | 47 => ⟨S2048x768, .f32⟩
  | 48 => ⟨S2048x768, .f32⟩
  | _ => ⟨S2048x768, .f32⟩

abbrev hbmTy (i : Nat) : BufTy := match i / 128 with
  | 0 => hbmTy0_0 i
  | 1 => hbmTy0_1 i
  | _ => ⟨S2048x768, .f32⟩

abbrev bufTy : (tb : Table) → Fin (tcTables nBuf tb) → BufTy
  | .hbm, ⟨i, _⟩ => hbmTy i
  | _, _ => ⟨S2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_0 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_1 : Ref sig .tc := ⟨.hbm, 27, rfl⟩
abbrev main_v18 : Ref sig .tc := ⟨.hbm, 28, rfl⟩
abbrev main_v19 : Ref sig .tc := ⟨.hbm, 29, rfl⟩
abbrev main_cst_2 : Ref sig .tc := ⟨.hbm, 30, rfl⟩
abbrev main_call0_v0 : Ref sig .tc := ⟨.hbm, 31, rfl⟩
abbrev main_call0_v1 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_call1_cst : Ref sig .tc := ⟨.hbm, 44, rfl⟩
abbrev main_call1_v0 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_3 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_4 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_cst_5 : Ref sig .tc := ⟨.hbm, 67, rfl⟩
abbrev main_v50 : Ref sig .tc := ⟨.hbm, 68, rfl⟩
abbrev main_v51 : Ref sig .tc := ⟨.hbm, 69, rfl⟩
abbrev main_cst_6 : Ref sig .tc := ⟨.hbm, 70, rfl⟩
abbrev main_call2_v0 : Ref sig .tc := ⟨.hbm, 71, rfl⟩
abbrev main_call2_v1 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_call3_cst : Ref sig .tc := ⟨.hbm, 84, rfl⟩
abbrev main_call3_v0 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_cst_7 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_cst_8 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_cst_9 : Ref sig .tc := ⟨.hbm, 107, rfl⟩
abbrev main_v82 : Ref sig .tc := ⟨.hbm, 108, rfl⟩
abbrev main_v83 : Ref sig .tc := ⟨.hbm, 109, rfl⟩
abbrev main_cst_10 : Ref sig .tc := ⟨.hbm, 110, rfl⟩
abbrev main_call4_v0 : Ref sig .tc := ⟨.hbm, 111, rfl⟩
abbrev main_call4_v1 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_call5_cst : Ref sig .tc := ⟨.hbm, 124, rfl⟩
abbrev main_call5_v0 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_cst_11 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_cst_12 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_cst_13 : Ref sig .tc := ⟨.hbm, 147, rfl⟩
abbrev main_v114 : Ref sig .tc := ⟨.hbm, 148, rfl⟩
abbrev main_v115 : Ref sig .tc := ⟨.hbm, 149, rfl⟩
abbrev main_cst_14 : Ref sig .tc := ⟨.hbm, 150, rfl⟩
abbrev main_call6_v0 : Ref sig .tc := ⟨.hbm, 151, rfl⟩
abbrev main_call6_v1 : Ref sig .tc := ⟨.hbm, 152, rfl⟩
abbrev main_v116 : Ref sig .tc := ⟨.hbm, 153, rfl⟩
abbrev main_v117 : Ref sig .tc := ⟨.hbm, 154, rfl⟩
abbrev main_v118 : Ref sig .tc := ⟨.hbm, 155, rfl⟩
abbrev main_v119 : Ref sig .tc := ⟨.hbm, 156, rfl⟩
abbrev main_v120 : Ref sig .tc := ⟨.hbm, 157, rfl⟩
abbrev main_v121 : Ref sig .tc := ⟨.hbm, 158, rfl⟩
abbrev main_v122 : Ref sig .tc := ⟨.hbm, 159, rfl⟩
abbrev main_v123 : Ref sig .tc := ⟨.hbm, 160, rfl⟩
abbrev main_v124 : Ref sig .tc := ⟨.hbm, 161, rfl⟩
abbrev main_v125 : Ref sig .tc := ⟨.hbm, 162, rfl⟩
abbrev main_v126 : Ref sig .tc := ⟨.hbm, 163, rfl⟩
abbrev main_call7_cst : Ref sig .tc := ⟨.hbm, 164, rfl⟩
abbrev main_call7_v0 : Ref sig .tc := ⟨.hbm, 165, rfl⟩
abbrev main_v127 : Ref sig .tc := ⟨.hbm, 166, rfl⟩
abbrev main_v128 : Ref sig .tc := ⟨.hbm, 167, rfl⟩
abbrev main_v129 : Ref sig .tc := ⟨.hbm, 168, rfl⟩
abbrev main_v130 : Ref sig .tc := ⟨.hbm, 169, rfl⟩
abbrev main_v131 : Ref sig .tc := ⟨.hbm, 170, rfl⟩
abbrev main_v132 : Ref sig .tc := ⟨.hbm, 171, rfl⟩
abbrev main_v133 : Ref sig .tc := ⟨.hbm, 172, rfl⟩
abbrev main_v134 : Ref sig .tc := ⟨.hbm, 173, rfl⟩
abbrev main_call8_cst : Ref sig .tc := ⟨.hbm, 174, rfl⟩
abbrev main_call8_v0 : Ref sig .tc := ⟨.hbm, 175, rfl⟩
abbrev main_v135 : Ref sig .tc := ⟨.hbm, 176, rfl⟩

abbrev nD : Nat := 1
abbrev τ : Topo := Topo.v7x

variable {F : FTy → Type} [FloatOps F]

class Facts₀ : Prop where
  shapeCasts_S1x2048x4_S2048x4 : S1x2048x4.ShapeCasts S2048x4
  transposes_S2048x4_S4x2048_1_0 : S2048x4.Transposes [1, 0] S4x2048
  slices_S4x2048_S1x2048_0_0 : S4x2048.Slices ![0, 0] S1x2048
  shapeCasts_S1x2048_S2048 : S1x2048.ShapeCasts S2048
  bcast_S2048_S2048x1_0 : S2048.BroadcastsInDim S2048x1 (![0] : Fin 1 → Fin S2048x1.rank)
  transposes_S2048x2048_S2048x2048_1_0 : S2048x2048.Transposes [1, 0] S2048x2048
  bcast_S2048x1_S2048x2048_0_1 : S2048x1.BroadcastsInDim S2048x2048 (![0, 1] : Fin 2 → Fin S2048x2048.rank)
  reducesTo_S2048x2048_S2048_d0 : S2048x2048.ReducesTo [0] S2048
  h_S_ : 0 < S_.numel
  bcast_S2048_S1x2048_1 : S2048.BroadcastsInDim S1x2048 (![1] : Fin 1 → Fin S1x2048.rank)
  bcast_S_S1x2048 : S_.BroadcastsInDim S1x2048 (![] : Fin 0 → Fin S1x2048.rank)
  bcast_S1x2048_S2048x2048_0_1 : S1x2048.BroadcastsInDim S2048x2048 (![0, 1] : Fin 2 → Fin S2048x2048.rank)
  bcast_S_S2048x2048 : S_.BroadcastsInDim S2048x2048 (![] : Fin 0 → Fin S2048x2048.rank)
  slices_S4x768x192_S1x768x192_0_0_0 : S4x768x192.Slices ![0, 0, 0] S1x768x192
  shapeCasts_S1x768x192_S768x192 : S1x768x192.ShapeCasts S768x192
  slices_S4x192_S1x192_0_0 : S4x192.Slices ![0, 0] S1x192
  shapeCasts_S1x192_S192 : S1x192.ShapeCasts S192
  bcast_S192_S1x192_1 : S192.BroadcastsInDim S1x192 (![1] : Fin 1 → Fin S1x192.rank)
  bcast_S1x192_S2048x192_0_1 : S1x192.BroadcastsInDim S2048x192 (![0, 1] : Fin 2 → Fin S2048x192.rank)
  bcast_S_S2048x192 : S_.BroadcastsInDim S2048x192 (![] : Fin 0 → Fin S2048x192.rank)
  slices_S4x2048_S1x2048_1_0 : S4x2048.Slices ![1, 0] S1x2048
  slices_S4x768x192_S1x768x192_1_0_0 : S4x768x192.Slices ![1, 0, 0] S1x768x192
  slices_S4x192_S1x192_1_0 : S4x192.Slices ![1, 0] S1x192
  slices_S4x2048_S1x2048_2_0 : S4x2048.Slices ![2, 0] S1x2048
  slices_S4x768x192_S1x768x192_2_0_0 : S4x768x192.Slices ![2, 0, 0] S1x768x192
  slices_S4x192_S1x192_2_0 : S4x192.Slices ![2, 0] S1x192
  slices_S4x2048_S1x2048_3_0 : S4x2048.Slices ![3, 0] S1x2048
  slices_S4x768x192_S1x768x192_3_0_0 : S4x768x192.Slices ![3, 0, 0] S1x768x192
  slices_S4x192_S1x192_3_0 : S4x192.Slices ![3, 0] S1x192
  concatenates_S2048x192_S2048x192_S2048x192_S2048x192_S2048x768_d1 : Shape.Concatenates [S2048x192, S2048x192, S2048x192, S2048x192] S2048x768 1
  bcast_S768_S1x768_1 : S768.BroadcastsInDim S1x768 (![1] : Fin 1 → Fin S1x768.rank)
  bcast_S1x768_S2048x768_0_1 : S1x768.BroadcastsInDim S2048x768 (![0, 1] : Fin 2 → Fin S2048x768.rank)
  bcast_S_S2048x768 : S_.BroadcastsInDim S2048x768 (![] : Fin 0 → Fin S2048x768.rank)
  dot_S2048x2048_S2048x2048_S2048x2048_1_0_0_1_n_n_wf : DotDims.WF S2048x2048 S2048x2048 S2048x2048 [1] [0] [0] [1] [] []
  dot_S2048x768_S768x192_S2048x192_1_0_0_1_n_n_wf : DotDims.WF S2048x768 S768x192 S2048x192 [1] [0] [0] [1] [] []
  dot_S2048x2048_S2048x192_S2048x192_1_0_0_1_n_n_wf : DotDims.WF S2048x2048 S2048x192 S2048x192 [1] [0] [0] [1] [] []
  dot_S2048x768_S768x768_S2048x768_1_0_0_1_n_n_wf : DotDims.WF S2048x768 S768x768 S2048x768 [1] [0] [0] [1] [] []

variable [Facts₀]

def dot_S2048x2048_S2048x2048_S2048x2048_1_0_0_1_n_n : DotDims S2048x2048 S2048x2048 S2048x2048 where
  lhsContracting := [1]
  rhsContracting := [0]
  lhsNonContracting := [0]
  rhsNonContracting := [1]
  lhsBatch := []
  rhsBatch := []
  wf := dot_S2048x2048_S2048x2048_S2048x2048_1_0_0_1_n_n_wf
def dot_S2048x768_S768x192_S2048x192_1_0_0_1_n_n : DotDims S2048x768 S768x192 S2048x192 where
  lhsContracting := [1]
  rhsContracting := [0]
  lhsNonContracting := [0]
  rhsNonContracting := [1]
  lhsBatch := []
  rhsBatch := []
  wf := dot_S2048x768_S768x192_S2048x192_1_0_0_1_n_n_wf
def dot_S2048x2048_S2048x192_S2048x192_1_0_0_1_n_n : DotDims S2048x2048 S2048x192 S2048x192 where
  lhsContracting := [1]
  rhsContracting := [0]
  lhsNonContracting := [0]
  rhsNonContracting := [1]
  lhsBatch := []
  rhsBatch := []
  wf := dot_S2048x2048_S2048x192_S2048x192_1_0_0_1_n_n_wf
def dot_S2048x768_S768x768_S2048x768_1_0_0_1_n_n : DotDims S2048x768 S768x768 S2048x768 where
  lhsContracting := [1]
  rhsContracting := [0]
  lhsNonContracting := [0]
  rhsNonContracting := [1]
  lhsBatch := []
  rhsBatch := []
  wf := dot_S2048x768_S768x768_S2048x768_1_0_0_1_n_n_wf

class Facts : Prop extends Facts₀ where

variable [Facts]
-- ==== Proof.K.R0.lean ====
/-
  The spectral-filter region: the frame half of its body.

  At each of the eight grid points the body reads three staged blocks — the whole eigenvector matrix e
  [2048,2048], the row block e(256·point .. 256·point+255, ·) [256,2048] of the same matrix, and the whole scale
  array s [4,2048] — and fills its output block [4,2048,256] by four stores, one slab [1,2048,256] per scale t,
  each slab a function of e, the row block and row t of s alone.  So the block the body leaves is the overlay of
  four pieces that tile it, and the body's triple says exactly that; the pipeline's proof data then name, point by
  point, what every staging buffer holds before and after the body.

  Nothing here depends on which float instance the program is read at.
-/
import proofs.«146850_j36850819399877_2_alg».proof.Proof.Gen.Kernel.Launch
import proofs.«146850_j36850819399877_2_alg».proof.Proof.Gen.Kernel.Skeleton
import proofs.«146850_j36850819399877_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
-- the TensorCore's buffer contents when the region is entered, and the share each input array is held at
variable (V : (c : Dev nD) → (b : Ref sig .tc) → Buf (Elt F) ((c : Thread nD τ).loc b))
variable (q : Fin cfg0.W → PosShare TreeShare)

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole matrix e is fetched at the first point only and its block index never moves, so its staging buffer
    holds the block at every point: an unfetched input keeps the block of the point before. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The row block of e is fetched at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The scale array s, like e, is fetched once and stays. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- All of e, and all of its row block. -/
abbrev r0_eig : Rect S2048x2048 := Rect.unit (s := S2048x2048) ![0, 0] S2048x2048.size inb_S2048x2048_S2048x2048_0_0
abbrev r0_rows : Rect S256x2048 := Rect.unit (s := S256x2048) ![0, 0] S256x2048.size inb_S256x2048_S256x2048_0_0
/-- Row t of the scale array. -/
abbrev r0_scale0 : Rect S4x2048 := Rect.unit (s := S4x2048) ![0, 0] S1x2048.size inb_S4x2048_S1x2048_0_0
abbrev r0_scale1 : Rect S4x2048 := Rect.unit (s := S4x2048) ![1, 0] S1x2048.size inb_S4x2048_S1x2048_1_0
abbrev r0_scale2 : Rect S4x2048 := Rect.unit (s := S4x2048) ![2, 0] S1x2048.size inb_S4x2048_S1x2048_2_0
abbrev r0_scale3 : Rect S4x2048 := Rect.unit (s := S4x2048) ![3, 0] S1x2048.size inb_S4x2048_S1x2048_3_0
/-- Slab t of the output block. -/
abbrev r0_slab0 : Rect S4x2048x256 := Rect.unit (s := S4x2048x256) ![0, 0, 0] S1x2048x256.size inb_S4x2048x256_S1x2048x256_0_0_0
abbrev r0_slab1 : Rect S4x2048x256 := Rect.unit (s := S4x2048x256) ![1, 0, 0] S1x2048x256.size inb_S4x2048x256_S1x2048x256_1_0_0
abbrev r0_slab2 : Rect S4x2048x256 := Rect.unit (s := S4x2048x256) ![2, 0, 0] S1x2048x256.size inb_S4x2048x256_S1x2048x256_2_0_0
abbrev r0_slab3 : Rect S4x2048x256 := Rect.unit (s := S4x2048x256) ![3, 0, 0] S1x2048x256.size inb_S4x2048x256_S1x2048x256_3_0_0

/-! ## What the body leaves in the output window's buffer -/

/-- The output block after the body, from the three input blocks: its four stores as pieces, the last store first.
    Slab t is computed from e, the row block and row t of s; the four payloads are four spellings of one function. -/
def out0_3 (x0 : Vec F S2048x2048 .bf16) (x1 : Vec F S256x2048 .bf16) (x2 : Vec F S4x2048 .f32) : Vec F S4x2048x256 .bf16 :=
  View.canon [
    ⟨r0_slab3, k0_pay1 (k0_pay2 (View.ld x0 r0_eig)) (k0_pay3 (View.ld x1 r0_rows)) (View.ld x2 r0_scale3)⟩,
    ⟨r0_slab2, k0_pay8 (k0_pay2 (View.ld x0 r0_eig)) (k0_pay3 (View.ld x1 r0_rows)) (View.ld x2 r0_scale2)⟩,
    ⟨r0_slab1, k0_pay7 (k0_pay5 (View.ld x0 r0_eig) (View.ld x1 r0_rows) (View.ld x2 r0_scale1))
                       (k0_pay6 (View.ld x0 r0_eig) (View.ld x1 r0_rows) (View.ld x2 r0_scale1))⟩,
    ⟨r0_slab0, k0_pay4 (View.ld x0 r0_eig) (View.ld x1 r0_rows) (View.ld x2 r0_scale0)⟩]

/-- The four slabs tile the block (checked by evaluation), so they cover it. -/
theorem cover0_3 (p3 p2 p1 p0 : Vec F S1x2048x256 .bf16) (y : S4x2048x256.Idx) :
    ∃ pc ∈ ([⟨r0_slab3, p3⟩, ⟨r0_slab2, p2⟩, ⟨r0_slab1, p1⟩, ⟨r0_slab0, p0⟩] : List (View.Piece (Elt F) S4x2048x256 .bf16)), y ∈ pc.1.set :=
  View.cover_of_tiled [⟨r0_slab3, p3⟩, ⟨r0_slab2, p2⟩, ⟨r0_slab1, p1⟩, ⟨r0_slab0, p0⟩] S1x2048x256.size (by rfl) y

/-! ## The body's triple -/

set_option maxHeartbeats 4000000 in
/-- The body on whole staging memrefs — the three inputs' at the contents read, the output's at anything — runs to
    the continuation holding the inputs' as they were and the output's at the overlay of its four slabs: the printed
    functions are their skeletons, which are run symbolically, through both part calls. -/
theorem sound_kernel0 (c : Dev nD) (E : Set ℕ) (i : grid0.Coords)
    (arg1 : Memref sig .tc .vmem S2048x2048 .bf16) (harg1 : arg1.IsWhole) (arg2 : Memref sig .tc .vmem S256x2048 .bf16) (harg2 : arg2.IsWhole)
    (arg3 : Memref sig .tc .vmem S4x2048 .f32) (harg3 : arg3.IsWhole) (arg4 : Memref sig .tc .vmem S4x2048x256 .bf16) (harg4 : arg4.IsWhole)
    (x0 : Vec F S2048x2048 .bf16) (x1 : Vec F S256x2048 .bf16) (x2 : Vec F S4x2048 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__spectral_kernel i arg1 harg1 arg2 harg2 arg3 harg3 arg4 harg4) K := by
  simp only [cc0__spectral_kernel_eq_skeleton, k0_part1_eq_skeleton, k0_part2_eq_skeleton]
  unfold cc0__spectral_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _ _ _ _)

/-! ## The pipeline's proof data -/

/-- The proof data of the region on core c: the arrays as the region finds them; after the body at point t each
    input's buffer at its block and the output's at the overlay of the four slabs computed from those blocks; the
    invariant is the rest of the core's state, untouched; the input arrays are held at the given shares; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q := q
  owed _ := 0

/-- The proof data's arrays are the region-entry contents. -/
theorem A_eq0 (c : Dev nD) (w : Fin cfg0.W) : (dat0 V q c).A w = V c (Pipeline.arrRef spec0 w) := by
  dsimp only [dat0]

/-- What the body leaves, window by window. -/
theorem after0_0 (c : Dev nD) (t : Fin cfg0.N) : (dat0 V q c).after 0 t = iblk0 V c 0 t := by dsimp only [dat0]
theorem after0_1 (c : Dev nD) (t : Fin cfg0.N) : (dat0 V q c).after 1 t = iblk0 V c 1 t := by dsimp only [dat0]
theorem after0_2 (c : Dev nD) (t : Fin cfg0.N) : (dat0 V q c).after 2 t = iblk0 V c 2 t := by dsimp only [dat0]
theorem after0_3 (c : Dev nD) (t : Fin cfg0.N) :
    (dat0 V q c).after 3 t = out0_3 (iblk0 V c 0 t) (iblk0 V c 1 t) (iblk0 V c 2 t) := by dsimp only [dat0]

/-- Each input's current staging buffer holds its block at every point, fetched there or not. -/
theorem before0_0 (c : Dev nD) (t : Fin cfg0.N) (d) : (dat0 V q c).before 0 t d = iblk0 V c 0 t :=
  before0_0_of V (dat0 V q c) (A_eq0 V q c 0) (after0_0 V q c) t d
theorem before0_1 (c : Dev nD) (t : Fin cfg0.N) (d) : (dat0 V q c).before 1 t d = iblk0 V c 1 t :=
  before0_1_of V (dat0 V q c) (A_eq0 V q c 1) (after0_1 V q c) t d
theorem before0_2 (c : Dev nD) (t : Fin cfg0.N) (d) : (dat0 V q c).before 2 t d = iblk0 V c 2 t :=
  before0_2_of V (dat0 V q c) (A_eq0 V q c 2) (after0_2 V q c) t d

/-! ## The body obligation, at a generic point -/

/-- What the body is called with at point t, the windows one by one, -/
def bodyPre0 (c : Dev nD) (t : Fin cfg0.N) : sProp 𝕄 :=
  iprop((dat0 V q c).Φ t.castSucc ∗ (dat0 V q c).owesAt () t.castSucc
    ∗ (∃ d, owns (c : Thread nD τ) (st0_0 t) fullShare ((dat0 V q c).before 0 t d))
    ∗ (∃ d, owns (c : Thread nD τ) (st0_1 t) fullShare ((dat0 V q c).before 1 t d))
    ∗ (∃ d, owns (c : Thread nD τ) (st0_2 t) fullShare ((dat0 V q c).before 2 t d))
    ∗ (∃ d, owns (c : Thread nD τ) (st0_3 t) fullShare ((dat0 V q c).before 3 t d)))

/-- and what it returns. -/
def bodyPost0 (c : Dev nD) (t : Fin cfg0.N) : sProp 𝕄 :=
  iprop((dat0 V q c).Φ t.succ ∗ (dat0 V q c).owesAt () t.succ
    ∗ owns (c : Thread nD τ) (st0_0 t) fullShare ((dat0 V q c).after 0 t)
    ∗ owns (c : Thread nD τ) (st0_1 t) fullShare ((dat0 V q c).after 1 t)
    ∗ owns (c : Thread nD τ) (st0_2 t) fullShare ((dat0 V q c).after 2 t)
    ∗ owns (c : Thread nD τ) (st0_3 t) fullShare ((dat0 V q c).after 3 t))

/-- The body at any point: the inputs' memrefs hold their blocks, so the body's triple applies; the invariant and
    what the core owes pass through unread. -/
theorem sound_body0 (c : Dev nD) (t : Fin cfg0.N) :
    bodyPre0 V q c t ⊢ wp frame (wpE (defs₀ (F := F)) Variants.none c none) Set.univ (bodyAt0 t) (fun _ => bodyPost0 V q c t) := by
  unfold bodyPre0 bodyPost0 bodyAt0
  simp only [before0_0, before0_1, before0_2]
  rw [show (dat0 V q c).Φ t.succ = (dat0 V q c).Φ t.castSucc from rfl,
    show (dat0 V q c).owesAt () t.succ = (dat0 V q c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V q c) (defs₀ (F := F)) Variants.none () Set.univ := fun t => by
  rw [bigSep_W0, bigSep_W0]
  exact sound_body0 V q c t

end Region0

end Cert.Kernel.Hand

end
-- ==== Proof.K.R1.lean ====
/- The frame half of region 1 of @main (the second TensorCore call, `cc1__xw_kernel`, on a 4×4 grid of 16 points):
   a batched matrix product. At grid point (b, r) the body reads a 512×768 row-block of the left matrix (window 0)
   and the b-th 768×192 right matrix (window 1), and writes their product, a 1×512×192 block, to window 2.
   Stated at ANY float instance and at a parameter `V`, the buffer contents when the region is entered:
   each window's block at a point, what the body leaves in the output's staging buffer as a function of the
   two input blocks, the body's triple, the pipeline's proof data and its body obligation. -/
import proofs.«146850_j36850819399877_2_alg».proof.Proof.Gen.Kernel.Launch
import proofs.«146850_j36850819399877_2_alg».proof.Proof.Gen.Kernel.Skeleton
import proofs.«146850_j36850819399877_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle with extents in the thousands is decided by a structural recursion
-- that goes one level deeper per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents at the moment the region is entered; everything below is a function of it
variable (V : (c : Dev nD) → (b : Ref sig .tc) → Buf (Elt F) ((c : Thread nD τ).loc b))

/-! ## The windows' blocks -/

/-- Window `w`'s block at point `t`: the sub-rectangle of its array, as `V` has it, that the window's index map
    selects at `t`. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Window 0 (the left matrix's row-block; its index moves at every point). For any proof data over `V`'s array
    whose body leaves the block where it found it, the current staging buffer holds the block at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Window 1 (the b-th right matrix). Its index depends on the outer grid coordinate only, so it is fetched at the
    points ≡ 0 (mod 4) and kept for the three points that follow: at an unfetched point the index equals the
    previous point's, and the buffer, which the body left as it found it, still holds that — the same — block. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each is the whole staging buffer -/

abbrev r1_0 : Rect S512x768 := Rect.unit (s := S512x768) ![0, 0] S512x768.size inb_S512x768_S512x768_0_0
abbrev r1_1 : Rect S1x768x192 := Rect.unit (s := S1x768x192) ![0, 0, 0] S1x768x192.size inb_S1x768x192_S1x768x192_0_0_0
abbrev r1_2 : Rect S1x512x192 := Rect.unit (s := S1x512x192) ![0, 0, 0] S1x512x192.size inb_S1x512x192_S1x512x192_0_0_0

/-! ## What the body leaves in the output window's buffer -/

/-- The output's staging buffer after the body, as a function of the two input blocks: one store of the whole
    buffer, whose payload is the product of what the two whole-buffer loads read. -/
def out1_2 (x0 : Vec F S512x768 .bf16) (x1 : Vec F S1x768x192 .bf16) : Vec F S1x512x192 .bf16 :=
  View.canon [⟨r1_2, k1_pay1 (View.ld x0 r1_0) (View.ld x1 r1_1)⟩]

/-- The one store's rectangle is the whole buffer, so every index is covered. -/
theorem cover1_2 (p0 : Vec F S1x512x192 .bf16) (y : S1x512x192.Idx) :
    ∃ pc ∈ ([⟨r1_2, p0⟩] : List (View.Piece (Elt F) S1x512x192 .bf16)), y ∈ pc.1.set :=
  View.cover_of_tiled [⟨r1_2, p0⟩] S1x512x192.size (by rfl) y

/-! ## The body's triple -/

set_option maxHeartbeats 1000000 in
/-- On whole staging memrefs, the inputs' reading `x0`, `x1` and the output's holding anything, the body runs to a
    state where the inputs read what they did and the output reads `out1_2 x0 x1`. (The body also loads the output
    buffer before storing to it; the value loaded is not used.) -/
theorem sound_kernel1 (c : Dev nD) (E : Set ℕ) (i : grid1.Coords) (arg2 : Memref sig .tc .vmem S512x768 .bf16) (harg2 : arg2.IsWhole) (arg3 : Memref sig .tc .vmem S1x768x192 .bf16) (harg3 : arg3.IsWhole) (arg4 : Memref sig .tc .vmem S1x512x192 .bf16) (harg4 : arg4.IsWhole)
    (x0 : Vec F S512x768 .bf16) (x1 : Vec F S1x768x192 .bf16) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out1_2 x0 x1)) -∗ K ⟨⟩))
      ⊢ wp frame (wpE (defs₀ (F := F)) Variants.none c none) E (cc1__xw_kernel i arg2 harg2 arg3 harg3 arg4 harg4) K := by
  simp only [cc1__xw_kernel_eq_skeleton]; unfold cc1__xw_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The pipeline's proof data -/

/-- Region 1's proof data on core `c`: the arrays as `V` has them; after the body at point `t` each input's buffer
    still at its block and the output's at `out1_2` of the two input blocks; the invariant is the scoped rest and
    the generator register, untouched; full shares; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

/-- The proof data's arrays are `V`'s (a projection of the definition). -/
theorem A_eq1 (c : Dev nD) (w : Fin cfg1.W) : (dat1 V c).A w = V c (Pipeline.arrRef spec1 w) := by
  dsimp only [dat1]

/-- What the body leaves, window by window (the definition's case split at a literal window). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t`: the invariant, the core's debts, and each window's current staging
    buffer at what the pipeline put there, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' memrefs hold their blocks, so the body's triple applies; the invariant and
    the core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ (grid1.coords t) _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.R2.lean ====
/- The frame half of region 2 of @main (the third TensorCore call, `cc2__fused_prop_kernel`, on a grid of 4 points,
   one per scale): two propagations through the transposed filter. At point t the body reads the t-th 2048×2048
   filter (window 0), the t-th 2048×192 projected features (window 1) and the t-th 1×192 bias row (window 2), and
   writes Fᵀ·max(Fᵀ·y + b, 0), a 1×2048×192 block, to window 3. Every window's index is the grid coordinate, so every
   window is fetched at every point.
   Stated at ANY float instance and at a parameter `V`, the buffer contents when the region is entered:
   each window's block at a point, what the body leaves in the output's staging buffer as a function of the
   three input blocks, the body's triple, the pipeline's proof data and its body obligation. -/
import proofs.«146850_j36850819399877_2_alg».proof.Proof.Gen.Kernel.Launch
import proofs.«146850_j36850819399877_2_alg».proof.Proof.Gen.Kernel.Skeleton
import proofs.«146850_j36850819399877_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle with extents in the thousands is decided by a structural recursion
-- that goes one level deeper per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents at the moment the region is entered; everything below is a function of it
variable (V : (c : Dev nD) → (b : Ref sig .tc) → Buf (Elt F) ((c : Thread nD τ).loc b))

/-! ## The windows' blocks -/

/-- Window `w`'s block at point `t`: the sub-rectangle of its array, as `V` has it, that the window's index map
    selects at `t`. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Window 0 (the t-th filter). For any proof data over `V`'s array whose body leaves the block where it found it,
    the current staging buffer holds the block at every point. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Window 1 (the t-th projected features): the same. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Window 2 (the t-th bias row): the same. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each is the whole staging buffer -/

abbrev r2_0 : Rect S1x2048x2048 := Rect.unit (s := S1x2048x2048) ![0, 0, 0] S1x2048x2048.size inb_S1x2048x2048_S1x2048x2048_0_0_0
abbrev r2_1 : Rect S1x2048x192 := Rect.unit (s := S1x2048x192) ![0, 0, 0] S1x2048x192.size inb_S1x2048x192_S1x2048x192_0_0_0
abbrev r2_2 : Rect S1x1x192 := Rect.unit (s := S1x1x192) ![0, 0, 0] S1x1x192.size inb_S1x1x192_S1x1x192_0_0_0

/-! ## What the body leaves in the output window's buffer -/

/-- The output's staging buffer after the body, as a function of the three input blocks: one store of the whole
    buffer, whose payload is computed from what the three whole-buffer loads read. (The output block has the shape
    of window 1's, so its rectangle is `r2_1`.) -/
def out2_3 (x0 : Vec F S1x2048x2048 .bf16) (x1 : Vec F S1x2048x192 .bf16) (x2 : Vec F S1x1x192 .f32) : Vec F S1x2048x192 .bf16 :=
  View.canon [⟨r2_1, k2_pay1 (View.ld x0 r2_0) (View.ld x1 r2_1) (View.ld x2 r2_2)⟩]

/-- The one store's rectangle is the whole buffer, so every index is covered. -/
theorem cover2_3 (p0 : Vec F S1x2048x192 .bf16) (y : S1x2048x192.Idx) :
    ∃ pc ∈ ([⟨r2_1, p0⟩] : List (View.Piece (Elt F) S1x2048x192 .bf16)), y ∈ pc.1.set :=
  View.cover_of_tiled [⟨r2_1, p0⟩] S1x2048x192.size (by rfl) y

/-! ## The body's triple -/

set_option maxHeartbeats 1000000 in
/-- On whole staging memrefs, the inputs' reading `x0`, `x1`, `x2` and the output's holding anything, the body runs
    to a state where the inputs read what they did and the output reads `out2_3 x0 x1 x2`. (The body also loads the
    output buffer before storing to it; the value loaded is not used.) -/
theorem sound_kernel2 (c : Dev nD) (E : Set ℕ) (i : grid2.Coords) (arg1 : Memref sig .tc .vmem S1x2048x2048 .bf16) (harg1 : arg1.IsWhole) (arg2 : Memref sig .tc .vmem S1x2048x192 .bf16) (harg2 : arg2.IsWhole) (arg3 : Memref sig .tc .vmem S1x1x192 .f32) (harg3 : arg3.IsWhole) (arg4 : Memref sig .tc .vmem S1x2048x192 .bf16) (harg4 : arg4.IsWhole)
    (x0 : Vec F S1x2048x2048 .bf16) (x1 : Vec F S1x2048x192 .bf16) (x2 : Vec F S1x1x192 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out2_3 x0 x1 x2)) -∗ K ⟨⟩))
      ⊢ wp frame (wpE (defs₀ (F := F)) Variants.none c none) E (cc2__fused_prop_kernel i arg1 harg1 arg2 harg2 arg3 harg3 arg4 harg4) K := by
  simp only [cc2__fused_prop_kernel_eq_skeleton]; unfold cc2__fused_prop_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The pipeline's proof data -/

/-- Region 2's proof data on core `c`: the arrays as `V` has them; after the body at point `t` each input's buffer
    still at its block and the output's at `out2_3` of the three input blocks; the invariant is the scoped rest and
    the generator register, untouched; full shares; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

/-- The proof data's arrays are `V`'s (a projection of the definition). -/
theorem A_eq2 (c : Dev nD) (w : Fin cfg2.W) : (dat2 V c).A w = V c (Pipeline.arrRef spec2 w) := by
  dsimp only [dat2]

/-- What the body leaves, window by window (the definition's case split at a literal window). -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]

/-- Each input's current staging buffer holds its block at every point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is called with at point `t`: the invariant, the core's debts, and each window's current staging
    buffer at what the pipeline put there, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' memrefs hold their blocks, so the body's triple applies; the invariant and
    the core's debts pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ (grid2.coords t) _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.R3Runs.lean ====
/- The fusion region (the last of the four), what its three control cases share: the blocks its windows read, the two
   conditions of the body in closed form over the grid (the inner coordinate is 0; the inner coordinate is 3), where the
   output window is idle, and the memrefs the body is called with. The grid is 2 × 4: point t has outer coordinate
   t / 4 (which half of the rows) and inner coordinate t % 4 (which of the four summands); the accumulator, a scratch
   of one block's size, is zeroed at inner coordinate 0, added to at every point, and read out at inner coordinate 3. -/
import proofs.«146850_j36850819399877_2_alg».proof.Proof.Gen.Kernel.Launch
import proofs.«146850_j36850819399877_2_alg».proof.Proof.Gen.Kernel.Skeleton
import proofs.«146850_j36850819399877_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of full extents: the elaborator's structural look recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the buffer contents when the region is entered: the parameter the region's half is stated at
variable (V : (c : Dev nD) → (b : Ref sig .tc) → Buf (Elt F) ((c : Thread nD τ).loc b))

/-! ## The windows' blocks -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current staging buffer holds its block at every point, fetched there or not (unfetched, the block
    index has not moved), for any proof data whose array is the entry contents and whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

end Regions

/-! ## The body's two conditions -/

/-- "The inner coordinate is 0", as the body computes it from the grid coordinates. -/
abbrev cond3_0 (i : grid3.Coords) : Prop := (Scalar.cmpi .ne (Scalar.extui (Scalar.cmpi .eq (BitVec.ofNat 32 (i 1).val) 0#32)) 0#32) = 1#1
/-- It holds at the points ≡ 0 (mod 4). -/
theorem hcond3_0 : ∀ t : Fin cfg3.N, cond3_0 (grid3.coords t) ↔ t.val % 4 = 0 :=
  (by decide +kernel : ∀ t : Fin grid3.N, cond3_0 (grid3.coords t) ↔ t.val % 4 = 0)

/-- "The inner coordinate is 3", as the body computes it. -/
abbrev cond3_1 (i : grid3.Coords) : Prop := k3_cond2 i = 1#1
/-- It holds at the points ≡ 3 (mod 4). -/
theorem hcond3_1 : ∀ t : Fin cfg3.N, cond3_1 (grid3.coords t) ↔ t.val % 4 = 3 :=
  (by decide +kernel : ∀ t : Fin grid3.N, cond3_1 (grid3.coords t) ↔ t.val % 4 = 3)

/-! ## Where the windows are idle -/

/-- The three inputs are never idle. -/
theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel
/-- Away from inner coordinate 3 the body stores nothing into the output window, and its block is not written back. -/
theorem idleAt3_3 : ∀ t : Fin cfg3.N, ¬cond3_1 (grid3.coords t) → cfg3.idle 3 (grid3.coords t) = true := by decide +kernel
theorem noFlush3_3 : ∀ t : Fin cfg3.N, ¬cond3_1 (grid3.coords t) → (cfg3.win 3).flush t = false := by decide +kernel
/-- At inner coordinate 3 it stores the block. -/
theorem liveAt3_3 : ∀ t : Fin cfg3.N, cond3_1 (grid3.coords t) → cfg3.idle 3 (grid3.coords t) = false := by decide +kernel

/-! ## The memrefs the body is called with -/

/-- One staging buffer of the output window, through which its contents are stated (the choice does not matter). -/
abbrev VO3_3 : View sig .tc .vmem S1024x768 .f32 := (Memref.whole cc3_stg3_0 : Memref sig .tc .vmem S1024x768 .f32).view
/-- Each window's current staging memref at point `t`, and its wholeness. -/
abbrev ms3_0 (t : Fin cfg3.N) : Memref sig .tc .vmem S1x1024x192 .bf16 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S1x192x768 .bf16 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1x768 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S1024x768 .f32 := win3_3.stage (cfg3.slots t 3)
abbrev hs3_3 (t : Fin cfg3.N) : (ms3_3 t).IsWhole := hstage3_3 ((cfg3.slots t 3).cast nbuf3_3)
/-- The accumulator: a whole scoped buffer of the kernel's own, passed beside the windows. -/
abbrev scM3 : Memref sig .tc .vmem S1024x768 .f32 := Memref.whole cc3_scratch0
/-- The accumulator as a view: what it holds is stated through it. -/
abbrev VS3 : View sig .tc .vmem S1024x768 .f32 := scM3.view

end Cert.Kernel.Hand

end
-- ==== Proof.K.R3Run.lean ====
/- The fusion region's body, run once per control case on any whole staging memrefs. In each case the accumulator ends
   holding a list of pieces (its stores, last first) which the run finds: case A (inner coordinate 0) zeroes it and adds
   the point's product; case B (inner coordinates 1, 2) adds the product to what the point before left; case C (inner
   coordinate 3) adds the product and stores max(accumulator + bias, 0) into the output block. The products and sums
   themselves are the payload terms of the body, which the run never opens. -/
import proofs.«146850_j36850819399877_2_alg».proof.Proof.K.R3Runs

-- membership in a rectangle of full extents: the elaborator's structural look recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- CASE A, inner coordinate 0. The inputs' memrefs at their contents, the output's at contents handed back untouched
    (the window is idle here), the accumulator at anything: the body runs to the continuation holding the inputs and the
    output as they were and the accumulator with the found pieces written. -/
noncomputable def kernelRun3_A (c : Dev nD) (i : grid3.Coords)
    (arg2 : Memref sig .tc .vmem S1x1024x192 .bf16) (harg2 : arg2.IsWhole)
    (arg3 : Memref sig .tc .vmem S1x192x768 .bf16) (harg3 : arg3.IsWhole)
    (arg4 : Memref sig .tc .vmem S1x768 .f32) (harg4 : arg4.IsWhole)
    (arg5 : Memref sig .tc .vmem S1024x768 .f32) (harg5 : arg5.IsWhole)
    (arg6 : Memref sig .tc .vmem S1024x768 .f32) (harg6 : arg6.IsWhole)
    (hc0 : cond3_0 i) (hc1 : ¬cond3_1 i)
    (x0 : Vec F S1x1024x192 .bf16) (x1 : Vec F S1x192x768 .bf16) (x2 : Vec F S1x768 .f32) :
    { LS0 : List (View.Piece (Elt F) S1024x768 .f32) //
      ∀ (xi3 : Vec F S1024x768 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc3__final_kernel i arg2 harg2 arg3 harg3 arg4 harg4 arg5 harg5 arg6 harg6) K } := by
  refine ⟨?_, fun xi3 E K => ?run⟩
  case run =>
    simp only [cc3__final_kernel_eq_skeleton]; unfold cc3__final_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

set_option maxHeartbeats 1000000 in
/-- CASE B, inner coordinates 1 and 2. As case A, but the accumulator is handed over at the contents `xs0` the point
    before left and is not zeroed. -/
noncomputable def kernelRun3_B (c : Dev nD) (i : grid3.Coords)
    (arg2 : Memref sig .tc .vmem S1x1024x192 .bf16) (harg2 : arg2.IsWhole)
    (arg3 : Memref sig .tc .vmem S1x192x768 .bf16) (harg3 : arg3.IsWhole)
    (arg4 : Memref sig .tc .vmem S1x768 .f32) (harg4 : arg4.IsWhole)
    (arg5 : Memref sig .tc .vmem S1024x768 .f32) (harg5 : arg5.IsWhole)
    (arg6 : Memref sig .tc .vmem S1024x768 .f32) (harg6 : arg6.IsWhole)
    (hc0 : ¬cond3_0 i) (hc1 : ¬cond3_1 i)
    (x0 : Vec F S1x1024x192 .bf16) (x1 : Vec F S1x192x768 .bf16) (x2 : Vec F S1x768 .f32) (xs0 : Vec F S1024x768 .f32) :
    { LS0 : List (View.Piece (Elt F) S1024x768 .f32) //
      ∀ (xi3 : Vec F S1024x768 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc3__final_kernel i arg2 harg2 arg3 harg3 arg4 harg4 arg5 harg5 arg6 harg6) K } := by
  refine ⟨?_, fun xi3 E K => ?run⟩
  case run =>
    simp only [cc3__final_kernel_eq_skeleton]; unfold cc3__final_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

set_option maxHeartbeats 1000000 in
/-- CASE C, inner coordinate 3. The accumulator at the contents `xs0` the point before left, the output's memref at
    anything: the body runs to the continuation holding the inputs as they were, the output block with its found pieces
    written (`L3`) and the accumulator with its own (`LS0`). -/
noncomputable def kernelRun3_C (c : Dev nD) (i : grid3.Coords)
    (arg2 : Memref sig .tc .vmem S1x1024x192 .bf16) (harg2 : arg2.IsWhole)
    (arg3 : Memref sig .tc .vmem S1x192x768 .bf16) (harg3 : arg3.IsWhole)
    (arg4 : Memref sig .tc .vmem S1x768 .f32) (harg4 : arg4.IsWhole)
    (arg5 : Memref sig .tc .vmem S1024x768 .f32) (harg5 : arg5.IsWhole)
    (arg6 : Memref sig .tc .vmem S1024x768 .f32) (harg6 : arg6.IsWhole)
    (hc0 : ¬cond3_0 i) (hc1 : cond3_1 i)
    (x0 : Vec F S1x1024x192 .bf16) (x1 : Vec F S1x192x768 .bf16) (x2 : Vec F S1x768 .f32) (xs0 : Vec F S1024x768 .f32) :
    Σ' (L3 : List (View.Piece (Elt F) S1024x768 .f32)), { LS0 : List (View.Piece (Elt F) S1024x768 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc3__final_kernel i arg2 harg2 arg3 harg3 arg4 harg4 arg5 harg5 arg6 harg6) K } := by
  refine ⟨?_, ?_, fun E K => ?run⟩
  case run =>
    simp only [cc3__final_kernel_eq_skeleton]; unfold cc3__final_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.Kernel.Hand

end
-- ==== Proof.K.R3.lean ====
/- The fusion region's frame half at the entry contents `V`: what the accumulator and the output block hold after each
   grid point (by recursion on the point: the case the point is in, run on the point's blocks, the accumulator taken at
   what the point before left), the proof data, the invariant — the accumulator held apart from the other scoped
   buffers, at the value accumulated so far —, and the body obligation, case by case. -/
import proofs.«146850_j36850819399877_2_alg».proof.Proof.K.R3Run

-- membership in a rectangle of full extents: the elaborator's structural look recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-! ## What each case leaves -/

/-- Case A's pieces for the accumulator tile it (the zero store, then the sum's store), so they cover it. -/
theorem scover3_A (c : Dev nD) (i : grid3.Coords) (arg2 : Memref sig .tc .vmem S1x1024x192 .bf16) (harg2 : arg2.IsWhole)
    (arg3 : Memref sig .tc .vmem S1x192x768 .bf16) (harg3 : arg3.IsWhole)
    (arg4 : Memref sig .tc .vmem S1x768 .f32) (harg4 : arg4.IsWhole)
    (arg5 : Memref sig .tc .vmem S1024x768 .f32) (harg5 : arg5.IsWhole)
    (arg6 : Memref sig .tc .vmem S1024x768 .f32) (harg6 : arg6.IsWhole) (hc0 : cond3_0 i) (hc1 : ¬cond3_1 i)
    (x0 : Vec F S1x1024x192 .bf16) (x1 : Vec F S1x192x768 .bf16) (x2 : Vec F S1x768 .f32) (y : S1024x768.Idx) :
    ∃ pc ∈ (kernelRun3_A c i arg2 harg2 arg3 harg3 arg4 harg4 arg5 harg5 arg6 harg6 hc0 hc1 x0 x1 x2).1, y ∈ pc.1.set :=
  View.cover_of_tiledL (kernelRun3_A c i arg2 harg2 arg3 harg3 arg4 harg4 arg5 harg5 arg6 harg6 hc0 hc1 x0 x1 x2).1 S1024x768.size (by sl_kernel_rfl) y

/-- What case A leaves in the accumulator: its pieces read back. -/
def sout3_A (c : Dev nD) (i : grid3.Coords) (arg2 : Memref sig .tc .vmem S1x1024x192 .bf16) (harg2 : arg2.IsWhole)
    (arg3 : Memref sig .tc .vmem S1x192x768 .bf16) (harg3 : arg3.IsWhole)
    (arg4 : Memref sig .tc .vmem S1x768 .f32) (harg4 : arg4.IsWhole)
    (arg5 : Memref sig .tc .vmem S1024x768 .f32) (harg5 : arg5.IsWhole)
    (arg6 : Memref sig .tc .vmem S1024x768 .f32) (harg6 : arg6.IsWhole) (hc0 : cond3_0 i) (hc1 : ¬cond3_1 i)
    (x0 : Vec F S1x1024x192 .bf16) (x1 : Vec F S1x192x768 .bf16) (x2 : Vec F S1x768 .f32) : Vec F S1024x768 .f32 :=
  VS3.read (Elt F) (VS3.writes (Elt F) VS3.junk (kernelRun3_A c i arg2 harg2 arg3 harg3 arg4 harg4 arg5 harg5 arg6 harg6 hc0 hc1 x0 x1 x2).1)

/-- Case B's piece for the accumulator (the sum's store) covers it. -/
theorem scover3_B (c : Dev nD) (i : grid3.Coords) (arg2 : Memref sig .tc .vmem S1x1024x192 .bf16) (harg2 : arg2.IsWhole)
    (arg3 : Memref sig .tc .vmem S1x192x768 .bf16) (harg3 : arg3.IsWhole)
    (arg4 : Memref sig .tc .vmem S1x768 .f32) (harg4 : arg4.IsWhole)
    (arg5 : Memref sig .tc .vmem S1024x768 .f32) (harg5 : arg5.IsWhole)
    (arg6 : Memref sig .tc .vmem S1024x768 .f32) (harg6 : arg6.IsWhole) (hc0 : ¬cond3_0 i) (hc1 : ¬cond3_1 i)
    (x0 : Vec F S1x1024x192 .bf16) (x1 : Vec F S1x192x768 .bf16) (x2 : Vec F S1x768 .f32) (xs0 : Vec F S1024x768 .f32) (y : S1024x768.Idx) :
    ∃ pc ∈ (kernelRun3_B c i arg2 harg2 arg3 harg3 arg4 harg4 arg5 harg5 arg6 harg6 hc0 hc1 x0 x1 x2 xs0).1, y ∈ pc.1.set :=
  View.cover_of_tiledL (kernelRun3_B c i arg2 harg2 arg3 harg3 arg4 harg4 arg5 harg5 arg6 harg6 hc0 hc1 x0 x1 x2 xs0).1 S1024x768.size (by sl_kernel_rfl) y

/-- What case B leaves in the accumulator. -/
def sout3_B (c : Dev nD) (i : grid3.Coords) (arg2 : Memref sig .tc .vmem S1x1024x192 .bf16) (harg2 : arg2.IsWhole)
    (arg3 : Memref sig .tc .vmem S1x192x768 .bf16) (harg3 : arg3.IsWhole)
    (arg4 : Memref sig .tc .vmem S1x768 .f32) (harg4 : arg4.IsWhole)
    (arg5 : Memref sig .tc .vmem S1024x768 .f32) (harg5 : arg5.IsWhole)
    (arg6 : Memref sig .tc .vmem S1024x768 .f32) (harg6 : arg6.IsWhole) (hc0 : ¬cond3_0 i) (hc1 : ¬cond3_1 i)
    (x0 : Vec F S1x1024x192 .bf16) (x1 : Vec F S1x192x768 .bf16) (x2 : Vec F S1x768 .f32) (xs0 : Vec F S1024x768 .f32) : Vec F S1024x768 .f32 :=
  VS3.read (Elt F) (VS3.writes (Elt F) VS3.junk (kernelRun3_B c i arg2 harg2 arg3 harg3 arg4 harg4 arg5 harg5 arg6 harg6 hc0 hc1 x0 x1 x2 xs0).1)

/-- Case C's piece for the output block covers it. -/
theorem cover3_C (c : Dev nD) (i : grid3.Coords) (arg2 : Memref sig .tc .vmem S1x1024x192 .bf16) (harg2 : arg2.IsWhole)
    (arg3 : Memref sig .tc .vmem S1x192x768 .bf16) (harg3 : arg3.IsWhole)
    (arg4 : Memref sig .tc .vmem S1x768 .f32) (harg4 : arg4.IsWhole)
    (arg5 : Memref sig .tc .vmem S1024x768 .f32) (harg5 : arg5.IsWhole)
    (arg6 : Memref sig .tc .vmem S1024x768 .f32) (harg6 : arg6.IsWhole) (hc0 : ¬cond3_0 i) (hc1 : cond3_1 i)
    (x0 : Vec F S1x1024x192 .bf16) (x1 : Vec F S1x192x768 .bf16) (x2 : Vec F S1x768 .f32) (xs0 : Vec F S1024x768 .f32) (y : S1024x768.Idx) :
    ∃ pc ∈ (kernelRun3_C c i arg2 harg2 arg3 harg3 arg4 harg4 arg5 harg5 arg6 harg6 hc0 hc1 x0 x1 x2 xs0).1, y ∈ pc.1.set :=
  View.cover_of_tiledL (kernelRun3_C c i arg2 harg2 arg3 harg3 arg4 harg4 arg5 harg5 arg6 harg6 hc0 hc1 x0 x1 x2 xs0).1 S1024x768.size (by sl_kernel_rfl) y

/-- What case C leaves in the output block. -/
def out3_C (c : Dev nD) (i : grid3.Coords) (arg2 : Memref sig .tc .vmem S1x1024x192 .bf16) (harg2 : arg2.IsWhole)
    (arg3 : Memref sig .tc .vmem S1x192x768 .bf16) (harg3 : arg3.IsWhole)
    (arg4 : Memref sig .tc .vmem S1x768 .f32) (harg4 : arg4.IsWhole)
    (arg5 : Memref sig .tc .vmem S1024x768 .f32) (harg5 : arg5.IsWhole)
    (arg6 : Memref sig .tc .vmem S1024x768 .f32) (harg6 : arg6.IsWhole) (hc0 : ¬cond3_0 i) (hc1 : cond3_1 i)
    (x0 : Vec F S1x1024x192 .bf16) (x1 : Vec F S1x192x768 .bf16) (x2 : Vec F S1x768 .f32) (xs0 : Vec F S1024x768 .f32) : Vec F S1024x768 .f32 :=
  VO3_3.read (Elt F) (VO3_3.writes (Elt F) VO3_3.junk (kernelRun3_C c i arg2 harg2 arg3 harg3 arg4 harg4 arg5 harg5 arg6 harg6 hc0 hc1 x0 x1 x2 xs0).1)

/-- Case C's piece for the accumulator covers it. -/
theorem scover3_C (c : Dev nD) (i : grid3.Coords) (arg2 : Memref sig .tc .vmem S1x1024x192 .bf16) (harg2 : arg2.IsWhole)
    (arg3 : Memref sig .tc .vmem S1x192x768 .bf16) (harg3 : arg3.IsWhole)
    (arg4 : Memref sig .tc .vmem S1x768 .f32) (harg4 : arg4.IsWhole)
    (arg5 : Memref sig .tc .vmem S1024x768 .f32) (harg5 : arg5.IsWhole)
    (arg6 : Memref sig .tc .vmem S1024x768 .f32) (harg6 : arg6.IsWhole) (hc0 : ¬cond3_0 i) (hc1 : cond3_1 i)
    (x0 : Vec F S1x1024x192 .bf16) (x1 : Vec F S1x192x768 .bf16) (x2 : Vec F S1x768 .f32) (xs0 : Vec F S1024x768 .f32) (y : S1024x768.Idx) :
    ∃ pc ∈ (kernelRun3_C c i arg2 harg2 arg3 harg3 arg4 harg4 arg5 harg5 arg6 harg6 hc0 hc1 x0 x1 x2 xs0).2.1, y ∈ pc.1.set :=
  View.cover_of_tiledL (kernelRun3_C c i arg2 harg2 arg3 harg3 arg4 harg4 arg5 harg5 arg6 harg6 hc0 hc1 x0 x1 x2 xs0).2.1 S1024x768.size (by sl_kernel_rfl) y

/-- What case C leaves in the accumulator. -/
def sout3_C (c : Dev nD) (i : grid3.Coords) (arg2 : Memref sig .tc .vmem S1x1024x192 .bf16) (harg2 : arg2.IsWhole)
    (arg3 : Memref sig .tc .vmem S1x192x768 .bf16) (harg3 : arg3.IsWhole)
    (arg4 : Memref sig .tc .vmem S1x768 .f32) (harg4 : arg4.IsWhole)
    (arg5 : Memref sig .tc .vmem S1024x768 .f32) (harg5 : arg5.IsWhole)
    (arg6 : Memref sig .tc .vmem S1024x768 .f32) (harg6 : arg6.IsWhole) (hc0 : ¬cond3_0 i) (hc1 : cond3_1 i)
    (x0 : Vec F S1x1024x192 .bf16) (x1 : Vec F S1x192x768 .bf16) (x2 : Vec F S1x768 .f32) (xs0 : Vec F S1024x768 .f32) : Vec F S1024x768 .f32 :=
  VS3.read (Elt F) (VS3.writes (Elt F) VS3.junk (kernelRun3_C c i arg2 harg2 arg3 harg3 arg4 harg4 arg5 harg5 arg6 harg6 hc0 hc1 x0 x1 x2 xs0).2.1)

/-- A placeholder for the output block at the points where the body stores nothing into it: nothing consults it, since
    there the block is neither written back nor read at the next point. -/
def idle3_3 : Vec F S1024x768 .f32 := VO3_3.read (Elt F) VO3_3.junk

/-! ## What the output block and the accumulator hold after each point -/

/-- THE ACCUMULATION. After the body at position `n`: (the output block, the accumulator) — the case the closed forms
    select at `n`, run at the point's memrefs and input blocks, the accumulator taken at what this leaves at `n - 1`. -/
def outsAt3 (c : Dev nD) : (n : ℕ) → n < cfg3.N → Vec F S1024x768 .f32 × Vec F S1024x768 .f32
  | 0, hn => (idle3_3, sout3_A c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) scM3 (Memref.isWhole_whole _) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩) (iblk3 V c 2 ⟨0, hn⟩))
  | n + 1, hn =>
    if h0 : (n + 1) % 4 = 0 then
      (idle3_3, sout3_A c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3 (Memref.isWhole_whole _) ((hcond3_0 ⟨n + 1, hn⟩).mpr h0) (fun h => (fun h => by (try dsimp only at h); omega) ((hcond3_1 ⟨n + 1, hn⟩).mp h)) (iblk3 V c 0 ⟨n + 1, hn⟩) (iblk3 V c 1 ⟨n + 1, hn⟩) (iblk3 V c 2 ⟨n + 1, hn⟩))
    else
      if h1 : (n + 1) % 4 = 3 then
        (out3_C c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (outsAt3 c n (Nat.lt_of_succ_lt hn)).2,
         sout3_C c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (outsAt3 c n (Nat.lt_of_succ_lt hn)).2)
      else
        (idle3_3, sout3_B c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3 (Memref.isWhole_whole _) (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (iblk3 V c 2 ⟨n + 1, hn⟩) (outsAt3 c n (Nat.lt_of_succ_lt hn)).2)

/-- `outsAt3` at a point of case A. -/
theorem outsAt3_A (c : Dev nD) (t : Fin cfg3.N) (h0 : t.val % 4 = 0) (h1 : ¬t.val % 4 = 3) :
    outsAt3 V c t.val t.isLt = (idle3_3, sout3_A c (grid3.coords t) (ms3_0 t) (hs3_0 t) (ms3_1 t) (hs3_1 t) (ms3_2 t) (hs3_2 t) (ms3_3 t) (hs3_3 t) scM3 (Memref.isWhole_whole _) ((hcond3_0 t).mpr h0) (fun h => h1 ((hcond3_1 t).mp h)) (iblk3 V c 0 t) (iblk3 V c 1 t) (iblk3 V c 2 t)) := by
  obtain ⟨n, hn⟩ := t
  cases n with
  | zero => exact rfl
  | succ n => exact (dif_pos h0).trans rfl

/-- `outsAt3` at a point of case B: over what the point before left. -/
theorem outsAt3_B (c : Dev nD) (t : Fin cfg3.N) (h0 : ¬t.val % 4 = 0) (h1 : ¬t.val % 4 = 3) :
    outsAt3 V c t.val t.isLt = (idle3_3, sout3_B c (grid3.coords t) (ms3_0 t) (hs3_0 t) (ms3_1 t) (hs3_1 t) (ms3_2 t) (hs3_2 t) (ms3_3 t) (hs3_3 t) scM3 (Memref.isWhole_whole _) (fun h => h0 ((hcond3_0 t).mp h)) (fun h => h1 ((hcond3_1 t).mp h)) (iblk3 V c 0 t) (iblk3 V c 1 t) (iblk3 V c 2 t) (outsAt3 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt3` at a point of case C: over what the point before left. -/
theorem outsAt3_C (c : Dev nD) (t : Fin cfg3.N) (h0 : ¬t.val % 4 = 0) (h1 : t.val % 4 = 3) :
    outsAt3 V c t.val t.isLt = (out3_C c (grid3.coords t) (ms3_0 t) (hs3_0 t) (ms3_1 t) (hs3_1 t) (ms3_2 t) (hs3_2 t) (ms3_3 t) (hs3_3 t) scM3 (Memref.isWhole_whole _) (fun h => h0 ((hcond3_0 t).mp h)) ((hcond3_1 t).mpr h1) (iblk3 V c 0 t) (iblk3 V c 1 t) (iblk3 V c 2 t) (outsAt3 V c (t.val - 1) (Nat.lt_of_le_of_lt (Nat.sub_le _ _) t.isLt)).2,
      sout3_C c (grid3.coords t) (ms3_0 t) (hs3_0 t) (ms3_1 t) (hs3_1 t) (ms3_2 t) (hs3_2 t) (ms3_3 t) (hs3_3 t) scM3 (Memref.isWhole_whole _) (fun h => h0 ((hcond3_0 t).mp h)) ((hcond3_1 t).mpr h1) (iblk3 V c 0 t) (iblk3 V c 1 t) (iblk3 V c 2 t) (outsAt3 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant -/

/-- The core's scoped buffers that are neither a staging buffer of this region nor its accumulator, each whole at some
    contents: what the body never touches. -/
def restS3 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f))

/-- The scoped rest of this region is those buffers beside the accumulator at some contents. -/
theorem scoped3_eq (c : Dev nD) :
    (Pipeline.scopedRest (Ix := Unit) (Name := ℕ) (U := UR sig nD τ) (Lvl := ℕ) (Val := Elt F) spec3 c : sProp 𝕄)
      = iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f) ∗ (∃ d, owns (c : Thread nD τ) scM3 fullShare d)) := by
  rw [scopedRest3_eq]; simp only [scM3, owns_whole]; try rfl

theorem scoped3_split (c : Dev nD) :
    (Pipeline.scopedRest (Ix := Unit) (Name := ℕ) (U := UR sig nD τ) (Lvl := ℕ) (Val := Elt F) spec3 c : sProp 𝕄)
      ⊢ iprop((∃ d, owns (c : Thread nD τ) scM3 fullShare d) ∗ restS3 c) := by
  rw [scoped3_eq]; unfold restS3
  iintro ⟨H1, H2, H3, H4, H5, H6, H7, H8, H9, H10, H11, H12, H13, H14, H15, H16, H17, H18, H19, H20, HS⟩
  isplitl [HS]; · iexact HS
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  iexact H20

theorem scoped3_join (c : Dev nD) :
    iprop((∃ d, owns (c : Thread nD τ) scM3 fullShare d) ∗ restS3 c)
      ⊢ (Pipeline.scopedRest (Ix := Unit) (Name := ℕ) (U := UR sig nD τ) (Lvl := ℕ) (Val := Elt F) spec3 c : sProp 𝕄) := by
  rw [scoped3_eq]; unfold restS3
  iintro ⟨HS, H1, H2, H3, H4, H5, H6, H7, H8, H9, H10, H11, H12, H13, H14, H15, H16, H17, H18, H19, H20⟩
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  iexact HS

/-- The region invariant before position `n`: the untouched scoped buffers, the generator register at some state, and
    the accumulator — at anything before the first point, afterwards at what the point before left in it. -/
def PhiS3 (c : Dev nD) : (n : ℕ) → n ≤ cfg3.N → sProp 𝕄
  | 0, _ => iprop((∃ d, owns (c : Thread nD τ) scM3 fullShare d) ∗ restS3 c ∗ (∃ r, prngReg c r))
  | n + 1, hn => iprop(owns (c : Thread nD τ) scM3 fullShare ((outsAt3 V c n hn).2) ∗ restS3 c ∗ (∃ r, prngReg c r))

theorem PhiS3_zero (c : Dev nD) (n : ℕ) (h : n ≤ cfg3.N) (hz : n = 0) :
    PhiS3 V c n h = iprop((∃ d, owns (c : Thread nD τ) scM3 fullShare d) ∗ restS3 c ∗ (∃ r, prngReg c r)) := by
  subst hz; rfl

theorem PhiS3_succ (c : Dev nD) (n : ℕ) (hn : n < cfg3.N) :
    PhiS3 V c (n + 1) hn = iprop(owns (c : Thread nD τ) scM3 fullShare ((outsAt3 V c n hn).2) ∗ restS3 c ∗ (∃ r, prngReg c r)) := rfl

theorem PhiS3_pos (c : Dev nD) (n : ℕ) (h : n ≤ cfg3.N) (hz : n ≠ 0) :
    PhiS3 V c n h = iprop(owns (c : Thread nD τ) scM3 fullShare ((outsAt3 V c (n - 1) (by omega)).2) ∗ restS3 c ∗ (∃ r, prngReg c r)) := by
  cases n with
  | zero => exact absurd rfl hz
  | succ n => rfl

/-- At any position the invariant holds the accumulator at SOME contents (what a point that zeroes it needs). -/
theorem PhiS3_any (c : Dev nD) (n : ℕ) (h : n ≤ cfg3.N) :
    PhiS3 V c n h ⊢ iprop((∃ d, owns (c : Thread nD τ) scM3 fullShare d) ∗ restS3 c ∗ (∃ r, prngReg c r)) := by
  cases n with
  | zero => exact Idealize.SL.BI.Entails.refl _
  | succ n =>
    rw [PhiS3_succ]
    iintro ⟨HS, Hr, Hg⟩
    isplitl [HS]; · iexists _; iexact HS
    isplitl [Hr]; · iexact Hr
    iexact Hg

/-! ## The proof data -/

/-- The proof data of the region on core `c`: the arrays as the region finds them; after the body at point `t` each
    input's buffer at its block and the output's at `outsAt3`'s first component; the invariant `PhiS3`; nothing owed;
    full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => (outsAt3 V c t.val t.isLt).1
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem PhiS3_castSucc (c : Dev nD) (t : Fin cfg3.N) :
    (dat3 V c).Φ t.castSucc = PhiS3 V c t.val (Nat.le_of_lt t.isLt) := by
  dsimp only [dat3]; simp only [Fin.coe_castSucc]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = (outsAt3 V c t.val t.isLt).1 := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t)

set_option maxHeartbeats 4800000 in
/-- The body at any point: the inputs' memrefs hold their blocks; the closed forms say which case the point is in; the
    invariant hands the body the accumulator (at anything where the case zeroes it, else at what the point before left)
    and takes it back at this point's contents, the pieces' cover turning "the pieces written" into the contents read
    back; where the output window is idle its buffer passes through untouched. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).owesAt () t.succ = (dat3 V c).owesAt () t.castSucc from rfl]
  rw [show (dat3 V c).Φ t.succ = PhiS3 V c (t.val + 1) t.isLt from rfl, PhiS3_succ]
  have hN : t.val < 8 := lt_of_lt_of_eq t.isLt (show cfg3.N = 8 from N_3)
  rw [show (dat3 V c).leavesExact 0 t = owns (c : Thread nD τ) (ms3_0 t) fullShare ((dat3 V c).after 0 t) from by
    unfold Dat.leavesExact; rw [liveAt3_0 t], after3_0]
  rw [show (dat3 V c).leavesExact 1 t = owns (c : Thread nD τ) (ms3_1 t) fullShare ((dat3 V c).after 1 t) from by
    unfold Dat.leavesExact; rw [liveAt3_1 t], after3_1]
  rw [show (dat3 V c).leavesExact 2 t = owns (c : Thread nD τ) (ms3_2 t) fullShare ((dat3 V c).after 2 t) from by
    unfold Dat.leavesExact; rw [liveAt3_2 t], after3_2]
  by_cases h0 : t.val % 4 = 0
  · have h1 : ¬t.val % 4 = 3 := by omega
    rw [Dat.leavesExact_idle (dat3 V c) 3 t (idleAt3_3 t (fun h => h1 ((hcond3_1 t).mp h))) (noFlush3_3 t (fun h => h1 ((hcond3_1 t).mp h)))]
    rw [outsAt3_A V c t h0 h1]
    unfold sout3_A; (try dsimp only)
    rw [PhiS3_castSucc V c t]
    iintro ⟨HΦ, Ho, ⟨%d0, H0⟩, ⟨%d1, H1⟩, ⟨%d2, H2⟩, ⟨%d3, H3⟩⟩
    ihave HΦ' := (PhiS3_any V c _ _) $$ HΦ
    icases HΦ' with ⟨HS0, Hr, Hg⟩
    iapply ((kernelRun3_A c (grid3.coords t) _ _ _ _ _ _ _ _ _ _ ((hcond3_0 t).mpr h0) (fun h => h1 ((hcond3_1 t).mp h)) (iblk3 V c 0 t) (iblk3 V c 1 t) (iblk3 V c 2 t)).2 _ Set.univ _)
    isplitl [H0]; · iexact H0
    isplitl [H1]; · iexact H1
    isplitl [H2]; · iexact H2
    isplitl [H3]; · iexact H3
    isplitl [HS0]; · iexact HS0
    iintro ⟨H0, H1, H2, H3, ⟨%es0, HS0⟩⟩
    isplitl [HS0 Hr Hg]
    · isplitl [HS0]
      · unfold owns; iexists _; isplitr
        swap; · iexact HS0
        ipureintro; exact View.read_writes_of_cover _ _ _ _ _ (scover3_A c _ _ _ _ _ _ _ _ _ _ _ _ _ _ _ _)
      isplitl [Hr]; · iexact Hr
      iexact Hg
    isplitl [Ho]; · iexact Ho
    isplitl [H0]; · iexact H0
    isplitl [H1]; · iexact H1
    isplitl [H2]; · iexact H2
    iexists _; iexact H3
  · have hz : t.val ≠ 0 := fun h => h0 (by rw [h])
    by_cases h1 : t.val % 4 = 3
    · rw [show (dat3 V c).leavesExact 3 t = owns (c : Thread nD τ) (ms3_3 t) fullShare ((dat3 V c).after 3 t) from by
        unfold Dat.leavesExact; rw [liveAt3_3 t ((hcond3_1 t).mpr h1)], after3_3]
      rw [outsAt3_C V c t h0 h1]
      unfold out3_C sout3_C; (try dsimp only)
      rw [PhiS3_castSucc V c t, PhiS3_pos V c _ _ hz]
      iintro ⟨⟨HS0, Hr, Hg⟩, Ho, ⟨%d0, H0⟩, ⟨%d1, H1⟩, ⟨%d2, H2⟩, ⟨%d3, H3⟩⟩
      iapply ((kernelRun3_C c (grid3.coords t) _ _ _ _ _ _ _ _ _ _ (fun h => h0 ((hcond3_0 t).mp h)) ((hcond3_1 t).mpr h1) (iblk3 V c 0 t) (iblk3 V c 1 t) (iblk3 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hr Hg]
      · isplitl [HS0]
        · unfold owns; iexists _; isplitr
          swap; · iexact HS0
          ipureintro; exact View.read_writes_of_cover _ _ _ _ _ (scover3_C c _ _ _ _ _ _ _ _ _ _ _ _ _ _ _ _ _)
        isplitl [Hr]; · iexact Hr
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover3_C c _ _ _ _ _ _ _ _ _ _ _ _ _ _ _ _ _)
    · rw [Dat.leavesExact_idle (dat3 V c) 3 t (idleAt3_3 t (fun h => h1 ((hcond3_1 t).mp h))) (noFlush3_3 t (fun h => h1 ((hcond3_1 t).mp h)))]
      rw [outsAt3_B V c t h0 h1]
      unfold sout3_B; (try dsimp only)
      rw [PhiS3_castSucc V c t, PhiS3_pos V c _ _ hz]
      iintro ⟨⟨HS0, Hr, Hg⟩, Ho, ⟨%d0, H0⟩, ⟨%d1, H1⟩, ⟨%d2, H2⟩, ⟨%d3, H3⟩⟩
      iapply ((kernelRun3_B c (grid3.coords t) _ _ _ _ _ _ _ _ _ _ (fun h => h0 ((hcond3_0 t).mp h)) (fun h => h1 ((hcond3_1 t).mp h)) (iblk3 V c 0 t) (iblk3 V c 1 t) (iblk3 V c 2 t) _).2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hr Hg]
      · isplitl [HS0]
        · unfold owns; iexists _; isplitr
          swap; · iexact HS0
          ipureintro; exact View.read_writes_of_cover _ _ _ _ _ (scover3_B c _ _ _ _ _ _ _ _ _ _ _ _ _ _ _ _ _)
        isplitl [Hr]; · iexact Hr
        iexact Hg
      isplitl [Ho]; · iexact Ho
      isplitl [H0]; · iexact H0
      isplitl [H1]; · iexact H1
      isplitl [H2]; · iexact H2
      iexists _; iexact H3

/-- The library's body obligation, at every point. -/
theorem body_obligation3 (c : Dev nD) : BodyObligation (dat3 (F := F) V c) (defs₀ (F := F)) Variants.none () Set.univ := fun t => by
  rw [bigSep_W3, bigSep_W3]
  exact sound_body3 V c t

/-! ## The invariant at the region's ends -/

/-- What the region is entered with — the generator register at some state and the scoped rest — is the invariant before
    the first point. -/
theorem Phi3_in (c : Dev nD) : iprop((∃ r, prngReg c r) ∗ Pipeline.scopedRest (Ix := Unit) (Name := ℕ) (U := UR sig nD τ) (Lvl := ℕ) (Val := Elt F) spec3 c) ⊢ (dat3 V c).Φ 0 := by
  rw [show (dat3 V c).Φ 0 = PhiS3 V c 0 (Nat.zero_le _) from rfl, PhiS3_zero V c 0 _ rfl]
  iintro ⟨Hg, Hs⟩
  ihave Hs' := (scoped3_split c) $$ Hs
  icases Hs' with ⟨HS, Hr⟩
  isplitl [HS]; · iexact HS
  isplitl [Hr]; · iexact Hr
  iexact Hg

/-- After the last point the invariant gives them back: the accumulator's named contents are forgotten. -/
theorem Phi3_out (c : Dev nD) : (dat3 V c).Φ (Fin.last cfg3.N) ⊢ iprop((∃ r, prngReg c r) ∗ Pipeline.scopedRest (Ix := Unit) (Name := ℕ) (U := UR sig nD τ) (Lvl := ℕ) (Val := Elt F) spec3 c) := by
  rw [show (dat3 V c).Φ (Fin.last cfg3.N) = PhiS3 V c (Fin.last cfg3.N).val (Nat.le_of_lt_succ (Fin.last cfg3.N).isLt) from rfl]
  iintro HΦ
  ihave HΦ' := (PhiS3_any V c _ _) $$ HΦ
  icases HΦ' with ⟨HS, Hr, Hg⟩
  isplitl [Hg]; · iexact Hg
  iapply (scoped3_join c)
  isplitl [HS]; · iexact HS
  iexact Hr

end Regions

end Cert.Kernel.Hand

end
-- ==== Proof.K.Run.lean ====
/-
  The run of the whole program: four kernel regions among stretches of host operations.

  Between two items every unscoped buffer of a core is held whole at a valuation: the launch memory, then each
  host stretch's operations folded over it, then — at a region — the region's output array replaced by what the
  region's write-backs leave.  Each region is entered by splitting its windows' arrays out of the unscoped
  buffers and left by putting them back; the first region is handed one array through two of its windows, which
  hold it at the two halves of the full share and give the halves back at the exit.  The program's arguments are
  written by no stretch and are no region's output, so each reads back as launched; the result buffer holds what
  the last region leaves.
-/
import proofs.«146850_j36850819399877_2_alg».proof.Proof.Gen.Kernel.Launch
import proofs.«146850_j36850819399877_2_alg».proof.Proof.Gen.Kernel.Skeleton
import proofs.«146850_j36850819399877_2_alg».proof.Proof.Gen.Kernel.Points
import proofs.«146850_j36850819399877_2_alg».proof.Proof.K.R0
import proofs.«146850_j36850819399877_2_alg».proof.Proof.K.R1
import proofs.«146850_j36850819399877_2_alg».proof.Proof.K.R2
import proofs.«146850_j36850819399877_2_alg».proof.Proof.K.R3
import proofs.«146850_j36850819399877_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- The two windows of the first region that stage one array hold it at the two halves of the full share. -/
def q0 : Fin cfg0.W → PosShare TreeShare
  | ⟨0, _⟩ => fullShare.left
  | ⟨1, _⟩ => fullShare.right
  | _ => fullShare

abbrev W0 : Dev nD → Valuation τ sig (Elt F) := fun c b => (s₀ m ρ).mem ((c : Dev nD), b)
abbrev W1 : Dev nD → Valuation τ sig (Elt F) := fun c => StableHlo.after hostOps0 (W0 m ρ c)
abbrev U1 : (c : Dev nD) → (b : Ref sig .tc) → Buf (Elt F) ((c : Thread nD τ).loc b) := fun c b => W1 m ρ c b
/-- After the first region: the filter array replaced by what its write-backs leave. -/
def W2 (c : Dev nD) : Valuation τ sig (Elt F) :=
  Function.update (W1 m ρ c) (Proc.devRef .tc main_v3) ((dat0 (U1 m ρ) q0 c).arrAt 3 cfg0.N)
abbrev U2 : (c : Dev nD) → (b : Ref sig .tc) → Buf (Elt F) ((c : Thread nD τ).loc b) := fun c b => W2 m ρ c b
abbrev W3 : Dev nD → Valuation τ sig (Elt F) := fun c => StableHlo.after hostOps1 (W2 m ρ c)
abbrev U3 : (c : Dev nD) → (b : Ref sig .tc) → Buf (Elt F) ((c : Thread nD τ).loc b) := fun c b => W3 m ρ c b
def W4 (c : Dev nD) : Valuation τ sig (Elt F) :=
  Function.update (W3 m ρ c) (Proc.devRef .tc main_v6) ((dat1 (U3 m ρ) c).arrAt 2 cfg1.N)
abbrev U4 : (c : Dev nD) → (b : Ref sig .tc) → Buf (Elt F) ((c : Thread nD τ).loc b) := fun c b => W4 m ρ c b
abbrev W5 : Dev nD → Valuation τ sig (Elt F) := fun c => StableHlo.after hostOps2 (W4 m ρ c)
abbrev U5 : (c : Dev nD) → (b : Ref sig .tc) → Buf (Elt F) ((c : Thread nD τ).loc b) := fun c b => W5 m ρ c b
def W6 (c : Dev nD) : Valuation τ sig (Elt F) :=
  Function.update (W5 m ρ c) (Proc.devRef .tc main_v8) ((dat2 (U5 m ρ) c).arrAt 3 cfg2.N)
abbrev U6 : (c : Dev nD) → (b : Ref sig .tc) → Buf (Elt F) ((c : Thread nD τ).loc b) := fun c b => W6 m ρ c b
abbrev W7 : Dev nD → Valuation τ sig (Elt F) := fun c => StableHlo.after hostOps3 (W6 m ρ c)
abbrev U7 : (c : Dev nD) → (b : Ref sig .tc) → Buf (Elt F) ((c : Thread nD τ).loc b) := fun c b => W7 m ρ c b
def W8 (c : Dev nD) : Valuation τ sig (Elt F) :=
  Function.update (W7 m ρ c) (Proc.devRef .tc main_v12) ((dat3 (U7 m ρ) c).arrAt 3 cfg3.N)
abbrev U8 : (c : Dev nD) → (b : Ref sig .tc) → Buf (Elt F) ((c : Thread nD τ).loc b) := fun c b => W8 m ρ c b

/-! ## What a region leaves at its arrays, and nowhere else -/

theorem W2_out (c : Dev nD) : W2 m ρ c (Proc.devRef .tc main_v3) = (dat0 (U1 m ρ) q0 c).arrAt 3 cfg0.N := by
  unfold W2; exact Function.update_self ..
theorem W2_of_ne (c : Dev nD) (b : Ref sig .tc) (hb : b ≠ main_v3) : W2 m ρ c (Proc.devRef .tc b) = W1 m ρ c (Proc.devRef .tc b) := by
  unfold W2; exact Function.update_of_ne (StableHlo.devRef_ne_of_ne hb) ..
theorem W4_out (c : Dev nD) : W4 m ρ c (Proc.devRef .tc main_v6) = (dat1 (U3 m ρ) c).arrAt 2 cfg1.N := by
  unfold W4; exact Function.update_self ..
theorem W4_of_ne (c : Dev nD) (b : Ref sig .tc) (hb : b ≠ main_v6) : W4 m ρ c (Proc.devRef .tc b) = W3 m ρ c (Proc.devRef .tc b) := by
  unfold W4; exact Function.update_of_ne (StableHlo.devRef_ne_of_ne hb) ..
theorem W6_out (c : Dev nD) : W6 m ρ c (Proc.devRef .tc main_v8) = (dat2 (U5 m ρ) c).arrAt 3 cfg2.N := by
  unfold W6; exact Function.update_self ..
theorem W6_of_ne (c : Dev nD) (b : Ref sig .tc) (hb : b ≠ main_v8) : W6 m ρ c (Proc.devRef .tc b) = W5 m ρ c (Proc.devRef .tc b) := by
  unfold W6; exact Function.update_of_ne (StableHlo.devRef_ne_of_ne hb) ..
theorem W8_out (c : Dev nD) : W8 m ρ c (Proc.devRef .tc main_v12) = (dat3 (U7 m ρ) c).arrAt 3 cfg3.N := by
  unfold W8; exact Function.update_self ..
theorem W8_of_ne (c : Dev nD) (b : Ref sig .tc) (hb : b ≠ main_v12) : W8 m ρ c (Proc.devRef .tc b) = W7 m ρ c (Proc.devRef .tc b) := by
  unfold W8; exact Function.update_of_ne (StableHlo.devRef_ne_of_ne hb) ..

/-- Region 1's arrays at its exit: the two inputs as entered, the output at what the write-backs leave. -/
theorem hF1 (c : Dev nD) : ∀ w : Fin cfg1.W, (dat1 (U3 m ρ) c).arrAt w cfg1.N = U4 m ρ c (Pipeline.arrRef spec1 w)
  | ⟨0, _⟩ => ((dat1 (U3 m ρ) c).arrAt_in 0 rfl _).trans (W4_of_ne m ρ c main_v4 (by decide)).symm
  | ⟨1, _⟩ => ((dat1 (U3 m ρ) c).arrAt_in 1 rfl _).trans (W4_of_ne m ρ c main_v5 (by decide)).symm
  | ⟨2, _⟩ => (W4_out m ρ c).symm
theorem hrest1 (c : Dev nD) : ∀ b, b ∉ Finset.univ.image (Pipeline.arrRef spec1) → U4 m ρ c b = U3 m ρ c b :=
  fun b hb => W4_of_ne m ρ c b fun e => hb (Finset.mem_image.mpr ⟨2, Finset.mem_univ _, e.symm⟩)

theorem hF2 (c : Dev nD) : ∀ w : Fin cfg2.W, (dat2 (U5 m ρ) c).arrAt w cfg2.N = U6 m ρ c (Pipeline.arrRef spec2 w)
  | ⟨0, _⟩ => ((dat2 (U5 m ρ) c).arrAt_in 0 rfl _).trans (W6_of_ne m ρ c main_v3 (by decide)).symm
  | ⟨1, _⟩ => ((dat2 (U5 m ρ) c).arrAt_in 1 rfl _).trans (W6_of_ne m ρ c main_v6 (by decide)).symm
  | ⟨2, _⟩ => ((dat2 (U5 m ρ) c).arrAt_in 2 rfl _).trans (W6_of_ne m ρ c main_v7 (by decide)).symm
  | ⟨3, _⟩ => (W6_out m ρ c).symm
theorem hrest2 (c : Dev nD) : ∀ b, b ∉ Finset.univ.image (Pipeline.arrRef spec2) → U6 m ρ c b = U5 m ρ c b :=
  fun b hb => W6_of_ne m ρ c b fun e => hb (Finset.mem_image.mpr ⟨3, Finset.mem_univ _, e.symm⟩)
theorem hF3 (c : Dev nD) : ∀ w : Fin cfg3.W, (dat3 (U7 m ρ) c).arrAt w cfg3.N = U8 m ρ c (Pipeline.arrRef spec3 w)
  | ⟨0, _⟩ => ((dat3 (U7 m ρ) c).arrAt_in 0 rfl _).trans (W8_of_ne m ρ c main_v8 (by decide)).symm
  | ⟨1, _⟩ => ((dat3 (U7 m ρ) c).arrAt_in 1 rfl _).trans (W8_of_ne m ρ c main_v10 (by decide)).symm
  | ⟨2, _⟩ => ((dat3 (U7 m ρ) c).arrAt_in 2 rfl _).trans (W8_of_ne m ρ c main_v11 (by decide)).symm
  | ⟨3, _⟩ => (W8_out m ρ c).symm
theorem hrest3 (c : Dev nD) : ∀ b, b ∉ Finset.univ.image (Pipeline.arrRef spec3) → U8 m ρ c b = U7 m ρ c b :=
  fun b hb => W8_of_ne m ρ c b fun e => hb (Finset.mem_image.mpr ⟨3, Finset.mem_univ _, e.symm⟩)

/-! ## The proof data family and the thread state -/

abbrev adm : (p : Fin 4) → (pcfgs (F := F) p).Adm := fun p => (cfgs p).toPCfg_adm
/-- Every region's proof data, each at its region's entry contents. -/
def pdats : (p : Fin 4) → (c : Dev nD) → Dat τ (Elt F) Unit ℕ (UR sig nD τ) ℕ (Pipeline.pin (pcfgs (F := F)) adm p) c
  | ⟨0, _⟩ => fun c => dat0 (U1 m ρ) q0 c
  | ⟨1, _⟩ => fun c => dat1 (U3 m ρ) c
  | ⟨2, _⟩ => fun c => dat2 (U5 m ρ) c
  | ⟨3, _⟩ => fun c => dat3 (U7 m ρ) c
abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W8 m ρ c) ∗ ∃ r, prngReg c r)

/-! ## The regions as segments -/

/-! ## The first region: one array behind two windows -/

/-- The first region's arrays window by window: the eigenvector array at the two halves of the full share, the
    scale array and the filter array at the full share. -/
theorem arrays0_eq (c : Dev nD) (G : (w : Fin cfg0.W) → Buf (Elt F) ((cfg0.win w).arr.view.loc (c : Thread nD τ))) :
    ((dat0 (U1 m ρ) q0 c).arrays G : sProp 𝕄) = iprop(
      (((c : Thread nD τ).loc main_v2) ↦{fullShare.left} G 0) ∗ (((c : Thread nD τ).loc main_v2) ↦{fullShare.right} G 1)
      ∗ (((c : Thread nD τ).loc main_v1) ↦{fullShare} G 2) ∗ (((c : Thread nD τ).loc main_v3) ↦{fullShare} G 3)) := by
  unfold Dat.arrays
  rw [bigSep_W0, (arr_whole0 0).set_eq_univ, (arr_whole0 2).set_eq_univ, (arr_whole0 3).set_eq_univ]
  rfl

/-- The distinct buffers behind the first region's windows. -/
theorem arrBufs0_eq (c : Dev nD) (V : (b : Ref sig .tc) → Buf (Elt F) ((c : Thread nD τ).loc b)) :
    (Pipeline.arrBufs (Ix := Unit) (Name := ℕ) (U := UR sig nD τ) (Lvl := ℕ) spec0 c V : sProp 𝕄) = iprop(
      (((c : Thread nD τ).loc main_v2) ↦{fullShare} V main_v2) ∗ (((c : Thread nD τ).loc main_v1) ↦{fullShare} V main_v1)
      ∗ (((c : Thread nD τ).loc main_v3) ↦{fullShare} V main_v3)) := by
  unfold Pipeline.arrBufs
  rw [show Finset.univ.image (Pipeline.arrRef spec0) = ({main_v2, main_v1, main_v3} : Finset (Ref sig .tc)) from by decide]
  rw [bigSep_insert (by decide), bigSep_insert (by decide), bigSep_singleton]
  rfl

/-- Entering the first region: the unscoped buffers split into the windows' holdings and the rest; the eigenvector
    array's full share is dealt to its two windows as the two halves. -/
theorem entry0 (c : Dev nD) :
    (unscopedBufs c (U1 m ρ c) : sProp 𝕄) ⊢ iprop((dat0 (U1 m ρ) q0 c).arrays (dat0 (U1 m ρ) q0 c).A
      ∗ Pipeline.unscopedRest (Ix := Unit) (Name := ℕ) (U := UR sig nD τ) (Lvl := ℕ) spec0 c (U1 m ρ c)) := by
  rw [Pipeline.unscopedBufs_split₀ (Pipeline.pin (pcfgs (F := F)) adm) 0 winFacts₀0.arr_unscoped c (U1 m ρ c)]
  refine sep_mono ?_ .rfl
  rw [show (Pipeline.arrBufs (Pipeline.pin (pcfgs (F := F)) adm 0).spec c (U1 m ρ c) : sProp 𝕄) = Pipeline.arrBufs spec0 c (U1 m ρ c) from rfl,
    arrBufs0_eq, arrays0_eq]
  iintro ⟨H2, H1, H3⟩
  ihave H2' := (pointsTo_share (PosShare.mem_left_op_right fullShare)).1 $$ H2
  icases H2' with ⟨Ha, Hb⟩
  isplitl [Ha]; · iexact Ha
  isplitl [Hb]; · iexact Hb
  isplitl [H1]; · iexact H1
  iexact H3

theorem hrest0 (c : Dev nD) : ∀ b, b ∉ Finset.univ.image (Pipeline.arrRef spec0) → U2 m ρ c b = U1 m ρ c b :=
  fun b hb => W2_of_ne m ρ c b fun e => hb (Finset.mem_image.mpr ⟨3, Finset.mem_univ _, e.symm⟩)

/-- Leaving the first region: the two halves of the eigenvector array, both at the contents it was entered with,
    make its full share again; the filter array holds what the write-backs leave. -/
theorem exit0 (c : Dev nD) :
    iprop((dat0 (U1 m ρ) q0 c).arrays ((dat0 (U1 m ρ) q0 c).arrAt · cfg0.N)
      ∗ Pipeline.unscopedRest (Ix := Unit) (Name := ℕ) (U := UR sig nD τ) (Lvl := ℕ) spec0 c (U1 m ρ c)) ⊢ (unscopedBufs c (U2 m ρ c) : sProp 𝕄) := by
  rw [Pipeline.unscopedBufs_split₀ (Pipeline.pin (pcfgs (F := F)) adm) 0 winFacts₀0.arr_unscoped c (U2 m ρ c)]
  refine sep_mono ?_ (Entails.of_eq ?_)
  · have h0 : (dat0 (U1 m ρ) q0 c).arrAt 0 cfg0.N = U2 m ρ c main_v2 :=
      ((dat0 (U1 m ρ) q0 c).arrAt_in 0 rfl _).trans (W2_of_ne m ρ c main_v2 (by decide)).symm
    have h1 : (dat0 (U1 m ρ) q0 c).arrAt 1 cfg0.N = U2 m ρ c main_v2 :=
      ((dat0 (U1 m ρ) q0 c).arrAt_in 1 rfl _).trans (W2_of_ne m ρ c main_v2 (by decide)).symm
    have h2 : (dat0 (U1 m ρ) q0 c).arrAt 2 cfg0.N = U2 m ρ c main_v1 :=
      ((dat0 (U1 m ρ) q0 c).arrAt_in 2 rfl _).trans (W2_of_ne m ρ c main_v1 (by decide)).symm
    have h3 : (dat0 (U1 m ρ) q0 c).arrAt 3 cfg0.N = U2 m ρ c main_v3 := (W2_out m ρ c).symm
    rw [show (Pipeline.arrBufs (Pipeline.pin (pcfgs (F := F)) adm 0).spec c (U2 m ρ c) : sProp 𝕄) = Pipeline.arrBufs spec0 c (U2 m ρ c) from rfl,
      arrBufs0_eq, arrays0_eq]
    rw [h0, h1, h2, h3]
    iintro ⟨Ha, Hb, H1, H3⟩
    isplitl [Ha Hb]
    · iapply (pointsTo_share (PosShare.mem_left_op_right fullShare)).2
      isplitl [Ha]; · iexact Ha
      iexact Hb
    isplitl [H1]; · iexact H1
    iexact H3
  · unfold Pipeline.unscopedRest
    exact bigSep_congr fun b hb => by rw [hrest0 m ρ c b (Finset.mem_sdiff.mp hb).2]

set_option backward.isDefEq.respectTransparency.types false in
/-- The spectral-filter region: entered from every unscoped buffer at `W1`, left at `W2`. -/
def reg0 : Pipeline.RegionSeg (pcfgs (F := F)) adm (pdats m ρ) () defs₀ 𝒱₀ L lv 0 where
  win := winFacts₀0
  block_pos := block_pos0
  stage_whole := stage_whole0
  K := PEmpty
  osem k := k.elim
  ho := Pipeline.OwnSemFacts.none _
  hbody c := (body_obligation0 (U1 m ρ) q0 c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (U1 m ρ c)
  hentry c := by
    rw [Pipeline.ownSems0_none]
    have hsplit : (unscopedBufs c (U1 m ρ c) : sProp 𝕄) ⊢ iprop((pdats m ρ 0 c).arrays ((pdats m ρ 0 c).arrAt · 0) ∗ Pipeline.unscopedRest (Ix := Unit) (Name := ℕ) (U := UR sig nD τ) (Lvl := ℕ) spec0 c (U1 m ρ c)) := entry0 m ρ c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin : iprop((pdats m ρ 0 c).arrays ((pdats m ρ 0 c).arrAt · cfg0.N) ∗ Pipeline.unscopedRest (Ix := Unit) (Name := ℕ) (U := UR sig nD τ) (Lvl := ℕ) spec0 c (U1 m ρ c)) ⊢ (unscopedBufs c (U2 m ρ c) : sProp 𝕄) := exit0 m ρ c
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (U3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (U3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (U3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (U3 m ρ c) (U4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (U5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (U5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (U5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (U5 m ρ c) (U6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (U7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (U7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (U7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = (dat3 (U7 m ρ) c).Φ 0 from rfl]
    iintro ⟨Hp, -, Hr⟩
    iapply (Phi3_in (U7 m ρ) c)
    isplitl [Hp]; · iexact Hp
    iexact Hr
  hout c := by
    rw [Pipeline.ownSems0_none, show (pdats m ρ 3 c).Φ (Fin.last _) = (dat3 (U7 m ρ) c).Φ (Fin.last cfg3.N) from rfl]
    iintro H
    ihave H2 := (Phi3_out (U7 m ρ) c) $$ H
    icases H2 with ⟨Hp, Hr⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (U7 m ρ c) (U8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The arguments end as launched -/

/-- A buffer that no host stretch writes and that is no region's output reads at the end as at the launch. -/
theorem W8_arg (c : Dev nD) (r : Ref sig .tc) (h0 : r ∉ hostOps0_W) (h1 : r ∉ hostOps1_W) (h2 : r ∉ hostOps2_W) (h3 : r ∉ hostOps3_W)
    (n3 : r ≠ main_v3) (n6 : r ≠ main_v6) (n8 : r ≠ main_v8) (n12 : r ≠ main_v12) :
    W8 m ρ c (Proc.devRef .tc r) = m ((c : Thread nD τ).loc r) :=
  (W8_of_ne m ρ c r n12).trans <| (StableHlo.after_of_writes_sub hostOps3 _ hostOps3_writes h3).trans <|
  (W6_of_ne m ρ c r n8).trans <| (StableHlo.after_of_writes_sub hostOps2 _ hostOps2_writes h2).trans <|
  (W4_of_ne m ρ c r n6).trans <| (StableHlo.after_of_writes_sub hostOps1 _ hostOps1_writes h1).trans <|
  (W2_of_ne m ρ c r n3).trans <| (StableHlo.after_of_writes_sub hostOps0 _ hostOps0_writes h0).trans rfl

/-! ## The program as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ) ]
theorem main_run (c : Dev nD) : main (F := F) c = Pipeline.Seg.run (segs m ρ) := (main_chain c).trans (by chain_rfl)

set_option backward.isDefEq.respectTransparency.types false in
/-- Every weakly fair execution of the program from memory `m` with zero counters terminates, nothing faulting;
    the result buffer ends at what the last region leaves (`W8`) and every argument as launched. -/
theorem run_main : θ_run defs (onTc (τ := τ) (main (F := F))) ⟨m, fun _ => 0, ρ⟩ (fun r => ∀ c : Dev nD,
      r.2.mem ((c.tc : Thread nD τ).loc main_v12) = W8 m ρ c (Proc.devRef .tc main_v12)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v12 (by decide)),
       (h c _ (mem_uc main_arg0 (by decide))).trans (W8_arg m ρ c main_arg0 (by decide) (by decide) (by decide) (by decide) (by decide) (by decide) (by decide) (by decide)),
       (h c _ (mem_uc main_arg1 (by decide))).trans (W8_arg m ρ c main_arg1 (by decide) (by decide) (by decide) (by decide) (by decide) (by decide) (by decide) (by decide)),
       (h c _ (mem_uc main_arg2 (by decide))).trans (W8_arg m ρ c main_arg2 (by decide) (by decide) (by decide) (by decide) (by decide) (by decide) (by decide) (by decide)),
       (h c _ (mem_uc main_arg3 (by decide))).trans (W8_arg m ρ c main_arg3 (by decide) (by decide) (by decide) (by decide) (by decide) (by decide) (by decide) (by decide)),
       (h c _ (mem_uc main_arg4 (by decide))).trans (W8_arg m ρ c main_arg4 (by decide) (by decide) (by decide) (by decide) (by decide) (by decide) (by decide) (by decide)),
       (h c _ (mem_uc main_arg5 (by decide))).trans (W8_arg m ρ c main_arg5 (by decide) (by decide) (by decide) (by decide) (by decide) (by decide) (by decide) (by decide)),
       (h c _ (mem_uc main_arg6 (by decide))).trans (W8_arg m ρ c main_arg6 (by decide) (by decide) (by decide) (by decide) (by decide) (by decide) (by decide) (by decide))⟩)

end Cert.Kernel.Hand

end
-- ==== Proof.KI.R0.lean ====
/-
  The spectral-filter region: the frame half of its body.

  At each of the eight grid points the body reads three staged blocks — the whole eigenvector matrix e
  [2048,2048], the row block e(256·point .. 256·point+255, ·) [256,2048] of the same matrix, and the whole scale
  array s [4,2048] — and fills its output block [4,2048,256] by four stores, one slab [1,2048,256] per scale t,
  each slab a function of e, the row block and row t of s alone.  So the block the body leaves is the overlay of
  four pieces that tile it, and the body's triple says exactly that; the pipeline's proof data then name, point by
  point, what every staging buffer holds before and after the body.

  Nothing here depends on which float instance the program is read at.
-/
import proofs.«146850_j36850819399877_2_alg».proof.Proof.Gen.KernelIdeal.Launch
import proofs.«146850_j36850819399877_2_alg».proof.Proof.Gen.KernelIdeal.Skeleton
import proofs.«146850_j36850819399877_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
-- the TensorCore's buffer contents when the region is entered, and the share each input array is held at
variable (V : (c : Dev nD) → (b : Ref sig .tc) → Buf (Elt F) ((c : Thread nD τ).loc b))
variable (q : Fin cfg0.W → PosShare TreeShare)

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole matrix e is fetched at the first point only and its block index never moves, so its staging buffer
    holds the block at every point: an unfetched input keeps the block of the point before. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The row block of e is fetched at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The scale array s, like e, is fetched once and stays. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- All of e, and all of its row block. -/
abbrev r0_eig : Rect S2048x2048 := Rect.unit (s := S2048x2048) ![0, 0] S2048x2048.size inb_S2048x2048_S2048x2048_0_0
abbrev r0_rows : Rect S256x2048 := Rect.unit (s := S256x2048) ![0, 0] S256x2048.size inb_S256x2048_S256x2048_0_0
/-- Row t of the scale array. -/
abbrev r0_scale0 : Rect S4x2048 := Rect.unit (s := S4x2048) ![0, 0] S1x2048.size inb_S4x2048_S1x2048_0_0
abbrev r0_scale1 : Rect S4x2048 := Rect.unit (s := S4x2048) ![1, 0] S1x2048.size inb_S4x2048_S1x2048_1_0
abbrev r0_scale2 : Rect S4x2048 := Rect.unit (s := S4x2048) ![2, 0] S1x2048.size inb_S4x2048_S1x2048_2_0
abbrev r0_scale3 : Rect S4x2048 := Rect.unit (s := S4x2048) ![3, 0] S1x2048.size inb_S4x2048_S1x2048_3_0
/-- Slab t of the output block. -/
abbrev r0_slab0 : Rect S4x2048x256 := Rect.unit (s := S4x2048x256) ![0, 0, 0] S1x2048x256.size inb_S4x2048x256_S1x2048x256_0_0_0
abbrev r0_slab1 : Rect S4x2048x256 := Rect.unit (s := S4x2048x256) ![1, 0, 0] S1x2048x256.size inb_S4x2048x256_S1x2048x256_1_0_0
abbrev r0_slab2 : Rect S4x2048x256 := Rect.unit (s := S4x2048x256) ![2, 0, 0] S1x2048x256.size inb_S4x2048x256_S1x2048x256_2_0_0
abbrev r0_slab3 : Rect S4x2048x256 := Rect.unit (s := S4x2048x256) ![3, 0, 0] S1x2048x256.size inb_S4x2048x256_S1x2048x256_3_0_0

/-! ## What the body leaves in the output window's buffer -/

/-- The output block after the body, from the three input blocks: its four stores as pieces, the last store first.
    Slab t is computed from e, the row block and row t of s; the four payloads are four spellings of one function. -/
def out0_3 (x0 : Vec F S2048x2048 .bf16) (x1 : Vec F S256x2048 .bf16) (x2 : Vec F S4x2048 .f32) : Vec F S4x2048x256 .bf16 :=
  View.canon [
    ⟨r0_slab3, k0_pay1 (k0_pay2 (View.ld x0 r0_eig)) (k0_pay3 (View.ld x1 r0_rows)) (View.ld x2 r0_scale3)⟩,
    ⟨r0_slab2, k0_pay8 (k0_pay2 (View.ld x0 r0_eig)) (k0_pay3 (View.ld x1 r0_rows)) (View.ld x2 r0_scale2)⟩,
    ⟨r0_slab1, k0_pay7 (k0_pay5 (View.ld x0 r0_eig) (View.ld x1 r0_rows) (View.ld x2 r0_scale1))
                       (k0_pay6 (View.ld x0 r0_eig) (View.ld x1 r0_rows) (View.ld x2 r0_scale1))⟩,
    ⟨r0_slab0, k0_pay4 (View.ld x0 r0_eig) (View.ld x1 r0_rows) (View.ld x2 r0_scale0)⟩]

/-- The four slabs tile the block (checked by evaluation), so they cover it. -/
theorem cover0_3 (p3 p2 p1 p0 : Vec F S1x2048x256 .bf16) (y : S4x2048x256.Idx) :
    ∃ pc ∈ ([⟨r0_slab3, p3⟩, ⟨r0_slab2, p2⟩, ⟨r0_slab1, p1⟩, ⟨r0_slab0, p0⟩] : List (View.Piece (Elt F) S4x2048x256 .bf16)), y ∈ pc.1.set :=
  View.cover_of_tiled [⟨r0_slab3, p3⟩, ⟨r0_slab2, p2⟩, ⟨r0_slab1, p1⟩, ⟨r0_slab0, p0⟩] S1x2048x256.size (by rfl) y

/-! ## The body's triple -/

set_option maxHeartbeats 4000000 in
/-- The body on whole staging memrefs — the three inputs' at the contents read, the output's at anything — runs to
    the continuation holding the inputs' as they were and the output's at the overlay of its four slabs: the printed
    functions are their skeletons, which are run symbolically, through both part calls. -/
theorem sound_kernel0 (c : Dev nD) (E : Set ℕ) (i : grid0.Coords)
    (arg1 : Memref sig .tc .vmem S2048x2048 .bf16) (harg1 : arg1.IsWhole) (arg2 : Memref sig .tc .vmem S256x2048 .bf16) (harg2 : arg2.IsWhole)
    (arg3 : Memref sig .tc .vmem S4x2048 .f32) (harg3 : arg3.IsWhole) (arg4 : Memref sig .tc .vmem S4x2048x256 .bf16) (harg4 : arg4.IsWhole)
    (x0 : Vec F S2048x2048 .bf16) (x1 : Vec F S256x2048 .bf16) (x2 : Vec F S4x2048 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__spectral_kernel i arg1 harg1 arg2 harg2 arg3 harg3 arg4 harg4) K := by
  simp only [cc0__spectral_kernel_eq_skeleton, k0_part1_eq_skeleton, k0_part2_eq_skeleton]
  unfold cc0__spectral_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _ _ _ _)

/-! ## The pipeline's proof data -/

/-- The proof data of the region on core c: the arrays as the region finds them; after the body at point t each
    input's buffer at its block and the output's at the overlay of the four slabs computed from those blocks; the
    invariant is the rest of the core's state, untouched; the input arrays are held at the given shares; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q := q
  owed _ := 0

/-- The proof data's arrays are the region-entry contents. -/
theorem A_eq0 (c : Dev nD) (w : Fin cfg0.W) : (dat0 V q c).A w = V c (Pipeline.arrRef spec0 w) := by
  dsimp only [dat0]

/-- What the body leaves, window by window. -/
theorem after0_0 (c : Dev nD) (t : Fin cfg0.N) : (dat0 V q c).after 0 t = iblk0 V c 0 t := by dsimp only [dat0]
theorem after0_1 (c : Dev nD) (t : Fin cfg0.N) : (dat0 V q c).after 1 t = iblk0 V c 1 t := by dsimp only [dat0]
theorem after0_2 (c : Dev nD) (t : Fin cfg0.N) : (dat0 V q c).after 2 t = iblk0 V c 2 t := by dsimp only [dat0]
theorem after0_3 (c : Dev nD) (t : Fin cfg0.N) :
    (dat0 V q c).after 3 t = out0_3 (iblk0 V c 0 t) (iblk0 V c 1 t) (iblk0 V c 2 t) := by dsimp only [dat0]

/-- Each input's current staging buffer holds its block at every point, fetched there or not. -/
theorem before0_0 (c : Dev nD) (t : Fin cfg0.N) (d) : (dat0 V q c).before 0 t d = iblk0 V c 0 t :=
  before0_0_of V (dat0 V q c) (A_eq0 V q c 0) (after0_0 V q c) t d
theorem before0_1 (c : Dev nD) (t : Fin cfg0.N) (d) : (dat0 V q c).before 1 t d = iblk0 V c 1 t :=
  before0_1_of V (dat0 V q c) (A_eq0 V q c 1) (after0_1 V q c) t d
theorem before0_2 (c : Dev nD) (t : Fin cfg0.N) (d) : (dat0 V q c).before 2 t d = iblk0 V c 2 t :=
  before0_2_of V (dat0 V q c) (A_eq0 V q c 2) (after0_2 V q c) t d

/-! ## The body obligation, at a generic point -/

/-- What the body is called with at point t, the windows one by one, -/
def bodyPre0 (c : Dev nD) (t : Fin cfg0.N) : sProp 𝕄 :=
  iprop((dat0 V q c).Φ t.castSucc ∗ (dat0 V q c).owesAt () t.castSucc
    ∗ (∃ d, owns (c : Thread nD τ) (st0_0 t) fullShare ((dat0 V q c).before 0 t d))
    ∗ (∃ d, owns (c : Thread nD τ) (st0_1 t) fullShare ((dat0 V q c).before 1 t d))
    ∗ (∃ d, owns (c : Thread nD τ) (st0_2 t) fullShare ((dat0 V q c).before 2 t d))
    ∗ (∃ d, owns (c : Thread nD τ) (st0_3 t) fullShare ((dat0 V q c).before 3 t d)))

/-- and what it returns. -/
def bodyPost0 (c : Dev nD) (t : Fin cfg0.N) : sProp 𝕄 :=
  iprop((dat0 V q c).Φ t.succ ∗ (dat0 V q c).owesAt () t.succ
    ∗ owns (c : Thread nD τ) (st0_0 t) fullShare ((dat0 V q c).after 0 t)
    ∗ owns (c : Thread nD τ) (st0_1 t) fullShare ((dat0 V q c).after 1 t)
    ∗ owns (c : Thread nD τ) (st0_2 t) fullShare ((dat0 V q c).after 2 t)
    ∗ owns (c : Thread nD τ) (st0_3 t) fullShare ((dat0 V q c).after 3 t))

/-- The body at any point: the inputs' memrefs hold their blocks, so the body's triple applies; the invariant and
    what the core owes pass through unread. -/
theorem sound_body0 (c : Dev nD) (t : Fin cfg0.N) :
    bodyPre0 V q c t ⊢ wp frame (wpE (defs₀ (F := F)) Variants.none c none) Set.univ (bodyAt0 t) (fun _ => bodyPost0 V q c t) := by
  unfold bodyPre0 bodyPost0 bodyAt0
  simp only [before0_0, before0_1, before0_2]
  rw [show (dat0 V q c).Φ t.succ = (dat0 V q c).Φ t.castSucc from rfl,
    show (dat0 V q c).owesAt () t.succ = (dat0 V q c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V q c) (defs₀ (F := F)) Variants.none () Set.univ := fun t => by
  rw [bigSep_W0, bigSep_W0]
  exact sound_body0 V q c t

end Region0

end Cert.KernelIdeal.Hand

end
-- ==== Proof.KI.R1.lean ====
/- The frame half of region 1 of @main (the second TensorCore call, `cc1__xw_kernel`, on a 4×4 grid of 16 points):
   a batched matrix product. At grid point (b, r) the body reads a 512×768 row-block of the left matrix (window 0)
   and the b-th 768×192 right matrix (window 1), and writes their product, a 1×512×192 block, to window 2.
   Stated at ANY float instance and at a parameter `V`, the buffer contents when the region is entered:
   each window's block at a point, what the body leaves in the output's staging buffer as a function of the
   two input blocks, the body's triple, the pipeline's proof data and its body obligation. -/
import proofs.«146850_j36850819399877_2_alg».proof.Proof.Gen.KernelIdeal.Launch
import proofs.«146850_j36850819399877_2_alg».proof.Proof.Gen.KernelIdeal.Skeleton
import proofs.«146850_j36850819399877_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle with extents in the thousands is decided by a structural recursion
-- that goes one level deeper per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents at the moment the region is entered; everything below is a function of it
variable (V : (c : Dev nD) → (b : Ref sig .tc) → Buf (Elt F) ((c : Thread nD τ).loc b))

/-! ## The windows' blocks -/

/-- Window `w`'s block at point `t`: the sub-rectangle of its array, as `V` has it, that the window's index map
    selects at `t`. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Window 0 (the left matrix's row-block; its index moves at every point). For any proof data over `V`'s array
    whose body leaves the block where it found it, the current staging buffer holds the block at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Window 1 (the b-th right matrix). Its index depends on the outer grid coordinate only, so it is fetched at the
    points ≡ 0 (mod 4) and kept for the three points that follow: at an unfetched point the index equals the
    previous point's, and the buffer, which the body left as it found it, still holds that — the same — block. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each is the whole staging buffer -/

abbrev r1_0 : Rect S512x768 := Rect.unit (s := S512x768) ![0, 0] S512x768.size inb_S512x768_S512x768_0_0
abbrev r1_1 : Rect S1x768x192 := Rect.unit (s := S1x768x192) ![0, 0, 0] S1x768x192.size inb_S1x768x192_S1x768x192_0_0_0
abbrev r1_2 : Rect S1x512x192 := Rect.unit (s := S1x512x192) ![0, 0, 0] S1x512x192.size inb_S1x512x192_S1x512x192_0_0_0

/-! ## What the body leaves in the output window's buffer -/

/-- The output's staging buffer after the body, as a function of the two input blocks: one store of the whole
    buffer, whose payload is the product of what the two whole-buffer loads read. -/
def out1_2 (x0 : Vec F S512x768 .bf16) (x1 : Vec F S1x768x192 .bf16) : Vec F S1x512x192 .bf16 :=
  View.canon [⟨r1_2, k1_pay1 (View.ld x0 r1_0) (View.ld x1 r1_1)⟩]

/-- The one store's rectangle is the whole buffer, so every index is covered. -/
theorem cover1_2 (p0 : Vec F S1x512x192 .bf16) (y : S1x512x192.Idx) :
    ∃ pc ∈ ([⟨r1_2, p0⟩] : List (View.Piece (Elt F) S1x512x192 .bf16)), y ∈ pc.1.set :=
  View.cover_of_tiled [⟨r1_2, p0⟩] S1x512x192.size (by rfl) y

/-! ## The body's triple -/

set_option maxHeartbeats 1000000 in
/-- On whole staging memrefs, the inputs' reading `x0`, `x1` and the output's holding anything, the body runs to a
    state where the inputs read what they did and the output reads `out1_2 x0 x1`. (The body also loads the output
    buffer before storing to it; the value loaded is not used.) -/
theorem sound_kernel1 (c : Dev nD) (E : Set ℕ) (i : grid1.Coords) (arg2 : Memref sig .tc .vmem S512x768 .bf16) (harg2 : arg2.IsWhole) (arg3 : Memref sig .tc .vmem S1x768x192 .bf16) (harg3 : arg3.IsWhole) (arg4 : Memref sig .tc .vmem S1x512x192 .bf16) (harg4 : arg4.IsWhole)
    (x0 : Vec F S512x768 .bf16) (x1 : Vec F S1x768x192 .bf16) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out1_2 x0 x1)) -∗ K ⟨⟩))
      ⊢ wp frame (wpE (defs₀ (F := F)) Variants.none c none) E (cc1__xw_kernel i arg2 harg2 arg3 harg3 arg4 harg4) K := by
  simp only [cc1__xw_kernel_eq_skeleton]; unfold cc1__xw_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The pipeline's proof data -/

/-- Region 1's proof data on core `c`: the arrays as `V` has them; after the body at point `t` each input's buffer
    still at its block and the output's at `out1_2` of the two input blocks; the invariant is the scoped rest and
    the generator register, untouched; full shares; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

/-- The proof data's arrays are `V`'s (a projection of the definition). -/
theorem A_eq1 (c : Dev nD) (w : Fin cfg1.W) : (dat1 V c).A w = V c (Pipeline.arrRef spec1 w) := by
  dsimp only [dat1]

/-- What the body leaves, window by window (the definition's case split at a literal window). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t`: the invariant, the core's debts, and each window's current staging
    buffer at what the pipeline put there, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' memrefs hold their blocks, so the body's triple applies; the invariant and
    the core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ (grid1.coords t) _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.R2.lean ====
/- The frame half of region 2 of @main (the third TensorCore call, `cc2__fused_prop_kernel`, on a grid of 4 points,
   one per scale): two propagations through the transposed filter. At point t the body reads the t-th 2048×2048
   filter (window 0), the t-th 2048×192 projected features (window 1) and the t-th 1×192 bias row (window 2), and
   writes Fᵀ·max(Fᵀ·y + b, 0), a 1×2048×192 block, to window 3. Every window's index is the grid coordinate, so every
   window is fetched at every point.
   Stated at ANY float instance and at a parameter `V`, the buffer contents when the region is entered:
   each window's block at a point, what the body leaves in the output's staging buffer as a function of the
   three input blocks, the body's triple, the pipeline's proof data and its body obligation. -/
import proofs.«146850_j36850819399877_2_alg».proof.Proof.Gen.KernelIdeal.Launch
import proofs.«146850_j36850819399877_2_alg».proof.Proof.Gen.KernelIdeal.Skeleton
import proofs.«146850_j36850819399877_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle with extents in the thousands is decided by a structural recursion
-- that goes one level deeper per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents at the moment the region is entered; everything below is a function of it
variable (V : (c : Dev nD) → (b : Ref sig .tc) → Buf (Elt F) ((c : Thread nD τ).loc b))

/-! ## The windows' blocks -/

/-- Window `w`'s block at point `t`: the sub-rectangle of its array, as `V` has it, that the window's index map
    selects at `t`. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Window 0 (the t-th filter). For any proof data over `V`'s array whose body leaves the block where it found it,
    the current staging buffer holds the block at every point. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Window 1 (the t-th projected features): the same. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Window 2 (the t-th bias row): the same. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each is the whole staging buffer -/

abbrev r2_0 : Rect S1x2048x2048 := Rect.unit (s := S1x2048x2048) ![0, 0, 0] S1x2048x2048.size inb_S1x2048x2048_S1x2048x2048_0_0_0
abbrev r2_1 : Rect S1x2048x192 := Rect.unit (s := S1x2048x192) ![0, 0, 0] S1x2048x192.size inb_S1x2048x192_S1x2048x192_0_0_0
abbrev r2_2 : Rect S1x1x192 := Rect.unit (s := S1x1x192) ![0, 0, 0] S1x1x192.size inb_S1x1x192_S1x1x192_0_0_0

/-! ## What the body leaves in the output window's buffer -/

/-- The output's staging buffer after the body, as a function of the three input blocks: one store of the whole
    buffer, whose payload is computed from what the three whole-buffer loads read. (The output block has the shape
    of window 1's, so its rectangle is `r2_1`.) -/
def out2_3 (x0 : Vec F S1x2048x2048 .bf16) (x1 : Vec F S1x2048x192 .bf16) (x2 : Vec F S1x1x192 .f32) : Vec F S1x2048x192 .bf16 :=
  View.canon [⟨r2_1, k2_pay1 (View.ld x0 r2_0) (View.ld x1 r2_1) (View.ld x2 r2_2)⟩]

/-- The one store's rectangle is the whole buffer, so every index is covered. -/
theorem cover2_3 (p0 : Vec F S1x2048x192 .bf16) (y : S1x2048x192.Idx) :
    ∃ pc ∈ ([⟨r2_1, p0⟩] : List (View.Piece (Elt F) S1x2048x192 .bf16)), y ∈ pc.1.set :=
  View.cover_of_tiled [⟨r2_1, p0⟩] S1x2048x192.size (by rfl) y

/-! ## The body's triple -/

set_option maxHeartbeats 1000000 in
/-- On whole staging memrefs, the inputs' reading `x0`, `x1`, `x2` and the output's holding anything, the body runs
    to a state where the inputs read what they did and the output reads `out2_3 x0 x1 x2`. (The body also loads the
    output buffer before storing to it; the value loaded is not used.) -/
theorem sound_kernel2 (c : Dev nD) (E : Set ℕ) (i : grid2.Coords) (arg1 : Memref sig .tc .vmem S1x2048x2048 .bf16) (harg1 : arg1.IsWhole) (arg2 : Memref sig .tc .vmem S1x2048x192 .bf16) (harg2 : arg2.IsWhole) (arg3 : Memref sig .tc .vmem S1x1x192 .f32) (harg3 : arg3.IsWhole) (arg4 : Memref sig .tc .vmem S1x2048x192 .bf16) (harg4 : arg4.IsWhole)
    (x0 : Vec F S1x2048x2048 .bf16) (x1 : Vec F S1x2048x192 .bf16) (x2 : Vec F S1x1x192 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out2_3 x0 x1 x2)) -∗ K ⟨⟩))
      ⊢ wp frame (wpE (defs₀ (F := F)) Variants.none c none) E (cc2__fused_prop_kernel i arg1 harg1 arg2 harg2 arg3 harg3 arg4 harg4) K := by
  simp only [cc2__fused_prop_kernel_eq_skeleton]; unfold cc2__fused_prop_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The pipeline's proof data -/

/-- Region 2's proof data on core `c`: the arrays as `V` has them; after the body at point `t` each input's buffer
    still at its block and the output's at `out2_3` of the three input blocks; the invariant is the scoped rest and
    the generator register, untouched; full shares; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

/-- The proof data's arrays are `V`'s (a projection of the definition). -/
theorem A_eq2 (c : Dev nD) (w : Fin cfg2.W) : (dat2 V c).A w = V c (Pipeline.arrRef spec2 w) := by
  dsimp only [dat2]

/-- What the body leaves, window by window (the definition's case split at a literal window). -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]

/-- Each input's current staging buffer holds its block at every point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is called with at point `t`: the invariant, the core's debts, and each window's current staging
    buffer at what the pipeline put there, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' memrefs hold their blocks, so the body's triple applies; the invariant and
    the core's debts pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ (grid2.coords t) _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.R3Runs.lean ====
/- The fusion region (the last of the four), what its three control cases share: the blocks its windows read, the two
   conditions of the body in closed form over the grid (the inner coordinate is 0; the inner coordinate is 3), where the
   output window is idle, and the memrefs the body is called with. The grid is 2 × 4: point t has outer coordinate
   t / 4 (which half of the rows) and inner coordinate t % 4 (which of the four summands); the accumulator, a scratch
   of one block's size, is zeroed at inner coordinate 0, added to at every point, and read out at inner coordinate 3. -/
import proofs.«146850_j36850819399877_2_alg».proof.Proof.Gen.KernelIdeal.Launch
import proofs.«146850_j36850819399877_2_alg».proof.Proof.Gen.KernelIdeal.Skeleton
import proofs.«146850_j36850819399877_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of full extents: the elaborator's structural look recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the buffer contents when the region is entered: the parameter the region's half is stated at
variable (V : (c : Dev nD) → (b : Ref sig .tc) → Buf (Elt F) ((c : Thread nD τ).loc b))

/-! ## The windows' blocks -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current staging buffer holds its block at every point, fetched there or not (unfetched, the block
    index has not moved), for any proof data whose array is the entry contents and whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

end Regions

/-! ## The body's two conditions -/

/-- "The inner coordinate is 0", as the body computes it from the grid coordinates. -/
abbrev cond3_0 (i : grid3.Coords) : Prop := (Scalar.cmpi .ne (Scalar.extui (Scalar.cmpi .eq (BitVec.ofNat 32 (i 1).val) 0#32)) 0#32) = 1#1
/-- It holds at the points ≡ 0 (mod 4). -/
theorem hcond3_0 : ∀ t : Fin cfg3.N, cond3_0 (grid3.coords t) ↔ t.val % 4 = 0 :=
  (by decide +kernel : ∀ t : Fin grid3.N, cond3_0 (grid3.coords t) ↔ t.val % 4 = 0)

/-- "The inner coordinate is 3", as the body computes it. -/
abbrev cond3_1 (i : grid3.Coords) : Prop := k3_cond2 i = 1#1
/-- It holds at the points ≡ 3 (mod 4). -/
theorem hcond3_1 : ∀ t : Fin cfg3.N, cond3_1 (grid3.coords t) ↔ t.val % 4 = 3 :=
  (by decide +kernel : ∀ t : Fin grid3.N, cond3_1 (grid3.coords t) ↔ t.val % 4 = 3)

/-! ## Where the windows are idle -/

/-- The three inputs are never idle. -/
theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel
/-- Away from inner coordinate 3 the body stores nothing into the output window, and its block is not written back. -/
theorem idleAt3_3 : ∀ t : Fin cfg3.N, ¬cond3_1 (grid3.coords t) → cfg3.idle 3 (grid3.coords t) = true := by decide +kernel
theorem noFlush3_3 : ∀ t : Fin cfg3.N, ¬cond3_1 (grid3.coords t) → (cfg3.win 3).flush t = false := by decide +kernel
/-- At inner coordinate 3 it stores the block. -/
theorem liveAt3_3 : ∀ t : Fin cfg3.N, cond3_1 (grid3.coords t) → cfg3.idle 3 (grid3.coords t) = false := by decide +kernel

/-! ## The memrefs the body is called with -/

/-- One staging buffer of the output window, through which its contents are stated (the choice does not matter). -/
abbrev VO3_3 : View sig .tc .vmem S1024x768 .f32 := (Memref.whole cc3_stg3_0 : Memref sig .tc .vmem S1024x768 .f32).view
/-- Each window's current staging memref at point `t`, and its wholeness. -/
abbrev ms3_0 (t : Fin cfg3.N) : Memref sig .tc .vmem S1x1024x192 .bf16 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S1x192x768 .bf16 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1x768 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S1024x768 .f32 := win3_3.stage (cfg3.slots t 3)
abbrev hs3_3 (t : Fin cfg3.N) : (ms3_3 t).IsWhole := hstage3_3 ((cfg3.slots t 3).cast nbuf3_3)
/-- The accumulator: a whole scoped buffer of the kernel's own, passed beside the windows. -/
abbrev scM3 : Memref sig .tc .vmem S1024x768 .f32 := Memref.whole cc3_scratch0
/-- The accumulator as a view: what it holds is stated through it. -/
abbrev VS3 : View sig .tc .vmem S1024x768 .f32 := scM3.view

end Cert.KernelIdeal.Hand

end
-- ==== Proof.KI.R3Run.lean ====
/- The fusion region's body, run once per control case on any whole staging memrefs. In each case the accumulator ends
   holding a list of pieces (its stores, last first) which the run finds: case A (inner coordinate 0) zeroes it and adds
   the point's product; case B (inner coordinates 1, 2) adds the product to what the point before left; case C (inner
   coordinate 3) adds the product and stores max(accumulator + bias, 0) into the output block. The products and sums
   themselves are the payload terms of the body, which the run never opens. -/
import proofs.«146850_j36850819399877_2_alg».proof.Proof.KI.R3Runs

-- membership in a rectangle of full extents: the elaborator's structural look recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- CASE A, inner coordinate 0. The inputs' memrefs at their contents, the output's at contents handed back untouched
    (the window is idle here), the accumulator at anything: the body runs to the continuation holding the inputs and the
    output as they were and the accumulator with the found pieces written. -/
noncomputable def kernelRun3_A (c : Dev nD) (i : grid3.Coords)
    (arg2 : Memref sig .tc .vmem S1x1024x192 .bf16) (harg2 : arg2.IsWhole)
    (arg3 : Memref sig .tc .vmem S1x192x768 .bf16) (harg3 : arg3.IsWhole)
    (arg4 : Memref sig .tc .vmem S1x768 .f32) (harg4 : arg4.IsWhole)
    (arg5 : Memref sig .tc .vmem S1024x768 .f32) (harg5 : arg5.IsWhole)
    (arg6 : Memref sig .tc .vmem S1024x768 .f32) (harg6 : arg6.IsWhole)
    (hc0 : cond3_0 i) (hc1 : ¬cond3_1 i)
    (x0 : Vec F S1x1024x192 .bf16) (x1 : Vec F S1x192x768 .bf16) (x2 : Vec F S1x768 .f32) :
    { LS0 : List (View.Piece (Elt F) S1024x768 .f32) //
      ∀ (xi3 : Vec F S1024x768 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc3__final_kernel i arg2 harg2 arg3 harg3 arg4 harg4 arg5 harg5 arg6 harg6) K } := by
  refine ⟨?_, fun xi3 E K => ?run⟩
  case run =>
    simp only [cc3__final_kernel_eq_skeleton]; unfold cc3__final_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

set_option maxHeartbeats 1000000 in
/-- CASE B, inner coordinates 1 and 2. As case A, but the accumulator is handed over at the contents `xs0` the point
    before left and is not zeroed. -/
noncomputable def kernelRun3_B (c : Dev nD) (i : grid3.Coords)
    (arg2 : Memref sig .tc .vmem S1x1024x192 .bf16) (harg2 : arg2.IsWhole)
    (arg3 : Memref sig .tc .vmem S1x192x768 .bf16) (harg3 : arg3.IsWhole)
    (arg4 : Memref sig .tc .vmem S1x768 .f32) (harg4 : arg4.IsWhole)
    (arg5 : Memref sig .tc .vmem S1024x768 .f32) (harg5 : arg5.IsWhole)
    (arg6 : Memref sig .tc .vmem S1024x768 .f32) (harg6 : arg6.IsWhole)
    (hc0 : ¬cond3_0 i) (hc1 : ¬cond3_1 i)
    (x0 : Vec F S1x1024x192 .bf16) (x1 : Vec F S1x192x768 .bf16) (x2 : Vec F S1x768 .f32) (xs0 : Vec F S1024x768 .f32) :
    { LS0 : List (View.Piece (Elt F) S1024x768 .f32) //
      ∀ (xi3 : Vec F S1024x768 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc3__final_kernel i arg2 harg2 arg3 harg3 arg4 harg4 arg5 harg5 arg6 harg6) K } := by
  refine ⟨?_, fun xi3 E K => ?run⟩
  case run =>
    simp only [cc3__final_kernel_eq_skeleton]; unfold cc3__final_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

set_option maxHeartbeats 1000000 in
/-- CASE C, inner coordinate 3. The accumulator at the contents `xs0` the point before left, the output's memref at
    anything: the body runs to the continuation holding the inputs as they were, the output block with its found pieces
    written (`L3`) and the accumulator with its own (`LS0`). -/
noncomputable def kernelRun3_C (c : Dev nD) (i : grid3.Coords)
    (arg2 : Memref sig .tc .vmem S1x1024x192 .bf16) (harg2 : arg2.IsWhole)
    (arg3 : Memref sig .tc .vmem S1x192x768 .bf16) (harg3 : arg3.IsWhole)
    (arg4 : Memref sig .tc .vmem S1x768 .f32) (harg4 : arg4.IsWhole)
    (arg5 : Memref sig .tc .vmem S1024x768 .f32) (harg5 : arg5.IsWhole)
    (arg6 : Memref sig .tc .vmem S1024x768 .f32) (harg6 : arg6.IsWhole)
    (hc0 : ¬cond3_0 i) (hc1 : cond3_1 i)
    (x0 : Vec F S1x1024x192 .bf16) (x1 : Vec F S1x192x768 .bf16) (x2 : Vec F S1x768 .f32) (xs0 : Vec F S1024x768 .f32) :
    Σ' (L3 : List (View.Piece (Elt F) S1024x768 .f32)), { LS0 : List (View.Piece (Elt F) S1024x768 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc3__final_kernel i arg2 harg2 arg3 harg3 arg4 harg4 arg5 harg5 arg6 harg6) K } := by
  refine ⟨?_, ?_, fun E K => ?run⟩
  case run =>
    simp only [cc3__final_kernel_eq_skeleton]; unfold cc3__final_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.KernelIdeal.Hand

end
-- ==== Proof.KI.R3.lean ====
/- The fusion region's frame half at the entry contents `V`: what the accumulator and the output block hold after each
   grid point (by recursion on the point: the case the point is in, run on the point's blocks, the accumulator taken at
   what the point before left), the proof data, the invariant — the accumulator held apart from the other scoped
   buffers, at the value accumulated so far —, and the body obligation, case by case. -/
import proofs.«146850_j36850819399877_2_alg».proof.Proof.KI.R3Run

-- membership in a rectangle of full extents: the elaborator's structural look recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-! ## What each case leaves -/

/-- Case A's pieces for the accumulator tile it (the zero store, then the sum's store), so they cover it. -/
theorem scover3_A (c : Dev nD) (i : grid3.Coords) (arg2 : Memref sig .tc .vmem S1x1024x192 .bf16) (harg2 : arg2.IsWhole)
    (arg3 : Memref sig .tc .vmem S1x192x768 .bf16) (harg3 : arg3.IsWhole)
    (arg4 : Memref sig .tc .vmem S1x768 .f32) (harg4 : arg4.IsWhole)
    (arg5 : Memref sig .tc .vmem S1024x768 .f32) (harg5 : arg5.IsWhole)
    (arg6 : Memref sig .tc .vmem S1024x768 .f32) (harg6 : arg6.IsWhole) (hc0 : cond3_0 i) (hc1 : ¬cond3_1 i)
    (x0 : Vec F S1x1024x192 .bf16) (x1 : Vec F S1x192x768 .bf16) (x2 : Vec F S1x768 .f32) (y : S1024x768.Idx) :
    ∃ pc ∈ (kernelRun3_A c i arg2 harg2 arg3 harg3 arg4 harg4 arg5 harg5 arg6 harg6 hc0 hc1 x0 x1 x2).1, y ∈ pc.1.set :=
  View.cover_of_tiledL (kernelRun3_A c i arg2 harg2 arg3 harg3 arg4 harg4 arg5 harg5 arg6 harg6 hc0 hc1 x0 x1 x2).1 S1024x768.size (by sl_kernel_rfl) y

/-- What case A leaves in the accumulator: its pieces read back. -/
def sout3_A (c : Dev nD) (i : grid3.Coords) (arg2 : Memref sig .tc .vmem S1x1024x192 .bf16) (harg2 : arg2.IsWhole)
    (arg3 : Memref sig .tc .vmem S1x192x768 .bf16) (harg3 : arg3.IsWhole)
    (arg4 : Memref sig .tc .vmem S1x768 .f32) (harg4 : arg4.IsWhole)
    (arg5 : Memref sig .tc .vmem S1024x768 .f32) (harg5 : arg5.IsWhole)
    (arg6 : Memref sig .tc .vmem S1024x768 .f32) (harg6 : arg6.IsWhole) (hc0 : cond3_0 i) (hc1 : ¬cond3_1 i)
    (x0 : Vec F S1x1024x192 .bf16) (x1 : Vec F S1x192x768 .bf16) (x2 : Vec F S1x768 .f32) : Vec F S1024x768 .f32 :=
  VS3.read (Elt F) (VS3.writes (Elt F) VS3.junk (kernelRun3_A c i arg2 harg2 arg3 harg3 arg4 harg4 arg5 harg5 arg6 harg6 hc0 hc1 x0 x1 x2).1)

/-- Case B's piece for the accumulator (the sum's store) covers it. -/
theorem scover3_B (c : Dev nD) (i : grid3.Coords) (arg2 : Memref sig .tc .vmem S1x1024x192 .bf16) (harg2 : arg2.IsWhole)
    (arg3 : Memref sig .tc .vmem S1x192x768 .bf16) (harg3 : arg3.IsWhole)
    (arg4 : Memref sig .tc .vmem S1x768 .f32) (harg4 : arg4.IsWhole)
    (arg5 : Memref sig .tc .vmem S1024x768 .f32) (harg5 : arg5.IsWhole)
    (arg6 : Memref sig .tc .vmem S1024x768 .f32) (harg6 : arg6.IsWhole) (hc0 : ¬cond3_0 i) (hc1 : ¬cond3_1 i)
    (x0 : Vec F S1x1024x192 .bf16) (x1 : Vec F S1x192x768 .bf16) (x2 : Vec F S1x768 .f32) (xs0 : Vec F S1024x768 .f32) (y : S1024x768.Idx) :
    ∃ pc ∈ (kernelRun3_B c i arg2 harg2 arg3 harg3 arg4 harg4 arg5 harg5 arg6 harg6 hc0 hc1 x0 x1 x2 xs0).1, y ∈ pc.1.set :=
  View.cover_of_tiledL (kernelRun3_B c i arg2 harg2 arg3 harg3 arg4 harg4 arg5 harg5 arg6 harg6 hc0 hc1 x0 x1 x2 xs0).1 S1024x768.size (by sl_kernel_rfl) y

/-- What case B leaves in the accumulator. -/
def sout3_B (c : Dev nD) (i : grid3.Coords) (arg2 : Memref sig .tc .vmem S1x1024x192 .bf16) (harg2 : arg2.IsWhole)
    (arg3 : Memref sig .tc .vmem S1x192x768 .bf16) (harg3 : arg3.IsWhole)
    (arg4 : Memref sig .tc .vmem S1x768 .f32) (harg4 : arg4.IsWhole)
    (arg5 : Memref sig .tc .vmem S1024x768 .f32) (harg5 : arg5.IsWhole)
    (arg6 : Memref sig .tc .vmem S1024x768 .f32) (harg6 : arg6.IsWhole) (hc0 : ¬cond3_0 i) (hc1 : ¬cond3_1 i)
    (x0 : Vec F S1x1024x192 .bf16) (x1 : Vec F S1x192x768 .bf16) (x2 : Vec F S1x768 .f32) (xs0 : Vec F S1024x768 .f32) : Vec F S1024x768 .f32 :=
  VS3.read (Elt F) (VS3.writes (Elt F) VS3.junk (kernelRun3_B c i arg2 harg2 arg3 harg3 arg4 harg4 arg5 harg5 arg6 harg6 hc0 hc1 x0 x1 x2 xs0).1)

/-- Case C's piece for the output block covers it. -/
theorem cover3_C (c : Dev nD) (i : grid3.Coords) (arg2 : Memref sig .tc .vmem S1x1024x192 .bf16) (harg2 : arg2.IsWhole)
    (arg3 : Memref sig .tc .vmem S1x192x768 .bf16) (harg3 : arg3.IsWhole)
    (arg4 : Memref sig .tc .vmem S1x768 .f32) (harg4 : arg4.IsWhole)
    (arg5 : Memref sig .tc .vmem S1024x768 .f32) (harg5 : arg5.IsWhole)
    (arg6 : Memref sig .tc .vmem S1024x768 .f32) (harg6 : arg6.IsWhole) (hc0 : ¬cond3_0 i) (hc1 : cond3_1 i)
    (x0 : Vec F S1x1024x192 .bf16) (x1 : Vec F S1x192x768 .bf16) (x2 : Vec F S1x768 .f32) (xs0 : Vec F S1024x768 .f32) (y : S1024x768.Idx) :
    ∃ pc ∈ (kernelRun3_C c i arg2 harg2 arg3 harg3 arg4 harg4 arg5 harg5 arg6 harg6 hc0 hc1 x0 x1 x2 xs0).1, y ∈ pc.1.set :=
  View.cover_of_tiledL (kernelRun3_C c i arg2 harg2 arg3 harg3 arg4 harg4 arg5 harg5 arg6 harg6 hc0 hc1 x0 x1 x2 xs0).1 S1024x768.size (by sl_kernel_rfl) y

/-- What case C leaves in the output block. -/
def out3_C (c : Dev nD) (i : grid3.Coords) (arg2 : Memref sig .tc .vmem S1x1024x192 .bf16) (harg2 : arg2.IsWhole)
    (arg3 : Memref sig .tc .vmem S1x192x768 .bf16) (harg3 : arg3.IsWhole)
    (arg4 : Memref sig .tc .vmem S1x768 .f32) (harg4 : arg4.IsWhole)
    (arg5 : Memref sig .tc .vmem S1024x768 .f32) (harg5 : arg5.IsWhole)
    (arg6 : Memref sig .tc .vmem S1024x768 .f32) (harg6 : arg6.IsWhole) (hc0 : ¬cond3_0 i) (hc1 : cond3_1 i)
    (x0 : Vec F S1x1024x192 .bf16) (x1 : Vec F S1x192x768 .bf16) (x2 : Vec F S1x768 .f32) (xs0 : Vec F S1024x768 .f32) : Vec F S1024x768 .f32 :=
  VO3_3.read (Elt F) (VO3_3.writes (Elt F) VO3_3.junk (kernelRun3_C c i arg2 harg2 arg3 harg3 arg4 harg4 arg5 harg5 arg6 harg6 hc0 hc1 x0 x1 x2 xs0).1)

/-- Case C's piece for the accumulator covers it. -/
theorem scover3_C (c : Dev nD) (i : grid3.Coords) (arg2 : Memref sig .tc .vmem S1x1024x192 .bf16) (harg2 : arg2.IsWhole)
    (arg3 : Memref sig .tc .vmem S1x192x768 .bf16) (harg3 : arg3.IsWhole)
    (arg4 : Memref sig .tc .vmem S1x768 .f32) (harg4 : arg4.IsWhole)
    (arg5 : Memref sig .tc .vmem S1024x768 .f32) (harg5 : arg5.IsWhole)
    (arg6 : Memref sig .tc .vmem S1024x768 .f32) (harg6 : arg6.IsWhole) (hc0 : ¬cond3_0 i) (hc1 : cond3_1 i)
    (x0 : Vec F S1x1024x192 .bf16) (x1 : Vec F S1x192x768 .bf16) (x2 : Vec F S1x768 .f32) (xs0 : Vec F S1024x768 .f32) (y : S1024x768.Idx) :
    ∃ pc ∈ (kernelRun3_C c i arg2 harg2 arg3 harg3 arg4 harg4 arg5 harg5 arg6 harg6 hc0 hc1 x0 x1 x2 xs0).2.1, y ∈ pc.1.set :=
  View.cover_of_tiledL (kernelRun3_C c i arg2 harg2 arg3 harg3 arg4 harg4 arg5 harg5 arg6 harg6 hc0 hc1 x0 x1 x2 xs0).2.1 S1024x768.size (by sl_kernel_rfl) y

/-- What case C leaves in the accumulator. -/
def sout3_C (c : Dev nD) (i : grid3.Coords) (arg2 : Memref sig .tc .vmem S1x1024x192 .bf16) (harg2 : arg2.IsWhole)
    (arg3 : Memref sig .tc .vmem S1x192x768 .bf16) (harg3 : arg3.IsWhole)
    (arg4 : Memref sig .tc .vmem S1x768 .f32) (harg4 : arg4.IsWhole)
    (arg5 : Memref sig .tc .vmem S1024x768 .f32) (harg5 : arg5.IsWhole)
    (arg6 : Memref sig .tc .vmem S1024x768 .f32) (harg6 : arg6.IsWhole) (hc0 : ¬cond3_0 i) (hc1 : cond3_1 i)
    (x0 : Vec F S1x1024x192 .bf16) (x1 : Vec F S1x192x768 .bf16) (x2 : Vec F S1x768 .f32) (xs0 : Vec F S1024x768 .f32) : Vec F S1024x768 .f32 :=
  VS3.read (Elt F) (VS3.writes (Elt F) VS3.junk (kernelRun3_C c i arg2 harg2 arg3 harg3 arg4 harg4 arg5 harg5 arg6 harg6 hc0 hc1 x0 x1 x2 xs0).2.1)

/-- A placeholder for the output block at the points where the body stores nothing into it: nothing consults it, since
    there the block is neither written back nor read at the next point. -/
def idle3_3 : Vec F S1024x768 .f32 := VO3_3.read (Elt F) VO3_3.junk

/-! ## What the output block and the accumulator hold after each point -/

/-- THE ACCUMULATION. After the body at position `n`: (the output block, the accumulator) — the case the closed forms
    select at `n`, run at the point's memrefs and input blocks, the accumulator taken at what this leaves at `n - 1`. -/
def outsAt3 (c : Dev nD) : (n : ℕ) → n < cfg3.N → Vec F S1024x768 .f32 × Vec F S1024x768 .f32
  | 0, hn => (idle3_3, sout3_A c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) scM3 (Memref.isWhole_whole _) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩) (iblk3 V c 2 ⟨0, hn⟩))
  | n + 1, hn =>
    if h0 : (n + 1) % 4 = 0 then
      (idle3_3, sout3_A c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3 (Memref.isWhole_whole _) ((hcond3_0 ⟨n + 1, hn⟩).mpr h0) (fun h => (fun h => by (try dsimp only at h); omega) ((hcond3_1 ⟨n + 1, hn⟩).mp h)) (iblk3 V c 0 ⟨n + 1, hn⟩) (iblk3 V c 1 ⟨n + 1, hn⟩) (iblk3 V c 2 ⟨n + 1, hn⟩))
    else
      if h1 : (n + 1) % 4 = 3 then
        (out3_C c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (outsAt3 c n (Nat.lt_of_succ_lt hn)).2,
         sout3_C c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (outsAt3 c n (Nat.lt_of_succ_lt hn)).2)
      else
        (idle3_3, sout3_B c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3 (Memref.isWhole_whole _) (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (iblk3 V c 2 ⟨n + 1, hn⟩) (outsAt3 c n (Nat.lt_of_succ_lt hn)).2)

/-- `outsAt3` at a point of case A. -/
theorem outsAt3_A (c : Dev nD) (t : Fin cfg3.N) (h0 : t.val % 4 = 0) (h1 : ¬t.val % 4 = 3) :
    outsAt3 V c t.val t.isLt = (idle3_3, sout3_A c (grid3.coords t) (ms3_0 t) (hs3_0 t) (ms3_1 t) (hs3_1 t) (ms3_2 t) (hs3_2 t) (ms3_3 t) (hs3_3 t) scM3 (Memref.isWhole_whole _) ((hcond3_0 t).mpr h0) (fun h => h1 ((hcond3_1 t).mp h)) (iblk3 V c 0 t) (iblk3 V c 1 t) (iblk3 V c 2 t)) := by
  obtain ⟨n, hn⟩ := t
  cases n with
  | zero => exact rfl
  | succ n => exact (dif_pos h0).trans rfl

/-- `outsAt3` at a point of case B: over what the point before left. -/
theorem outsAt3_B (c : Dev nD) (t : Fin cfg3.N) (h0 : ¬t.val % 4 = 0) (h1 : ¬t.val % 4 = 3) :
    outsAt3 V c t.val t.isLt = (idle3_3, sout3_B c (grid3.coords t) (ms3_0 t) (hs3_0 t) (ms3_1 t) (hs3_1 t) (ms3_2 t) (hs3_2 t) (ms3_3 t) (hs3_3 t) scM3 (Memref.isWhole_whole _) (fun h => h0 ((hcond3_0 t).mp h)) (fun h => h1 ((hcond3_1 t).mp h)) (iblk3 V c 0 t) (iblk3 V c 1 t) (iblk3 V c 2 t) (outsAt3 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt3` at a point of case C: over what the point before left. -/
theorem outsAt3_C (c : Dev nD) (t : Fin cfg3.N) (h0 : ¬t.val % 4 = 0) (h1 : t.val % 4 = 3) :
    outsAt3 V c t.val t.isLt = (out3_C c (grid3.coords t) (ms3_0 t) (hs3_0 t) (ms3_1 t) (hs3_1 t) (ms3_2 t) (hs3_2 t) (ms3_3 t) (hs3_3 t) scM3 (Memref.isWhole_whole _) (fun h => h0 ((hcond3_0 t).mp h)) ((hcond3_1 t).mpr h1) (iblk3 V c 0 t) (iblk3 V c 1 t) (iblk3 V c 2 t) (outsAt3 V c (t.val - 1) (Nat.lt_of_le_of_lt (Nat.sub_le _ _) t.isLt)).2,
      sout3_C c (grid3.coords t) (ms3_0 t) (hs3_0 t) (ms3_1 t) (hs3_1 t) (ms3_2 t) (hs3_2 t) (ms3_3 t) (hs3_3 t) scM3 (Memref.isWhole_whole _) (fun h => h0 ((hcond3_0 t).mp h)) ((hcond3_1 t).mpr h1) (iblk3 V c 0 t) (iblk3 V c 1 t) (iblk3 V c 2 t) (outsAt3 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant -/

/-- The core's scoped buffers that are neither a staging buffer of this region nor its accumulator, each whole at some
    contents: what the body never touches. -/
def restS3 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f))

/-- The scoped rest of this region is those buffers beside the accumulator at some contents. -/
theorem scoped3_eq (c : Dev nD) :
    (Pipeline.scopedRest (Ix := Unit) (Name := ℕ) (U := UR sig nD τ) (Lvl := ℕ) (Val := Elt F) spec3 c : sProp 𝕄)
      = iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f) ∗ (∃ d, owns (c : Thread nD τ) scM3 fullShare d)) := by
  rw [scopedRest3_eq]; simp only [scM3, owns_whole]; try rfl

theorem scoped3_split (c : Dev nD) :
    (Pipeline.scopedRest (Ix := Unit) (Name := ℕ) (U := UR sig nD τ) (Lvl := ℕ) (Val := Elt F) spec3 c : sProp 𝕄)
      ⊢ iprop((∃ d, owns (c : Thread nD τ) scM3 fullShare d) ∗ restS3 c) := by
  rw [scoped3_eq]; unfold restS3
  iintro ⟨H1, H2, H3, H4, H5, H6, H7, H8, H9, H10, H11, H12, H13, H14, H15, H16, H17, H18, H19, H20, HS⟩
  isplitl [HS]; · iexact HS
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  iexact H20

theorem scoped3_join (c : Dev nD) :
    iprop((∃ d, owns (c : Thread nD τ) scM3 fullShare d) ∗ restS3 c)
      ⊢ (Pipeline.scopedRest (Ix := Unit) (Name := ℕ) (U := UR sig nD τ) (Lvl := ℕ) (Val := Elt F) spec3 c : sProp 𝕄) := by
  rw [scoped3_eq]; unfold restS3
  iintro ⟨HS, H1, H2, H3, H4, H5, H6, H7, H8, H9, H10, H11, H12, H13, H14, H15, H16, H17, H18, H19, H20⟩
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  iexact HS

/-- The region invariant before position `n`: the untouched scoped buffers, the generator register at some state, and
    the accumulator — at anything before the first point, afterwards at what the point before left in it. -/
def PhiS3 (c : Dev nD) : (n : ℕ) → n ≤ cfg3.N → sProp 𝕄
  | 0, _ => iprop((∃ d, owns (c : Thread nD τ) scM3 fullShare d) ∗ restS3 c ∗ (∃ r, prngReg c r))
  | n + 1, hn => iprop(owns (c : Thread nD τ) scM3 fullShare ((outsAt3 V c n hn).2) ∗ restS3 c ∗ (∃ r, prngReg c r))

theorem PhiS3_zero (c : Dev nD) (n : ℕ) (h : n ≤ cfg3.N) (hz : n = 0) :
    PhiS3 V c n h = iprop((∃ d, owns (c : Thread nD τ) scM3 fullShare d) ∗ restS3 c ∗ (∃ r, prngReg c r)) := by
  subst hz; rfl

theorem PhiS3_succ (c : Dev nD) (n : ℕ) (hn : n < cfg3.N) :
    PhiS3 V c (n + 1) hn = iprop(owns (c : Thread nD τ) scM3 fullShare ((outsAt3 V c n hn).2) ∗ restS3 c ∗ (∃ r, prngReg c r)) := rfl

theorem PhiS3_pos (c : Dev nD) (n : ℕ) (h : n ≤ cfg3.N) (hz : n ≠ 0) :
    PhiS3 V c n h = iprop(owns (c : Thread nD τ) scM3 fullShare ((outsAt3 V c (n - 1) (by omega)).2) ∗ restS3 c ∗ (∃ r, prngReg c r)) := by
  cases n with
  | zero => exact absurd rfl hz
  | succ n => rfl

/-- At any position the invariant holds the accumulator at SOME contents (what a point that zeroes it needs). -/
theorem PhiS3_any (c : Dev nD) (n : ℕ) (h : n ≤ cfg3.N) :
    PhiS3 V c n h ⊢ iprop((∃ d, owns (c : Thread nD τ) scM3 fullShare d) ∗ restS3 c ∗ (∃ r, prngReg c r)) := by
  cases n with
  | zero => exact Idealize.SL.BI.Entails.refl _
  | succ n =>
    rw [PhiS3_succ]
    iintro ⟨HS, Hr, Hg⟩
    isplitl [HS]; · iexists _; iexact HS
    isplitl [Hr]; · iexact Hr
    iexact Hg

/-! ## The proof data -/

/-- The proof data of the region on core `c`: the arrays as the region finds them; after the body at point `t` each
    input's buffer at its block and the output's at `outsAt3`'s first component; the invariant `PhiS3`; nothing owed;
    full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => (outsAt3 V c t.val t.isLt).1
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem PhiS3_castSucc (c : Dev nD) (t : Fin cfg3.N) :
    (dat3 V c).Φ t.castSucc = PhiS3 V c t.val (Nat.le_of_lt t.isLt) := by
  dsimp only [dat3]; simp only [Fin.coe_castSucc]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = (outsAt3 V c t.val t.isLt).1 := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t)

set_option maxHeartbeats 4800000 in
/-- The body at any point: the inputs' memrefs hold their blocks; the closed forms say which case the point is in; the
    invariant hands the body the accumulator (at anything where the case zeroes it, else at what the point before left)
    and takes it back at this point's contents, the pieces' cover turning "the pieces written" into the contents read
    back; where the output window is idle its buffer passes through untouched. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).owesAt () t.succ = (dat3 V c).owesAt () t.castSucc from rfl]
  rw [show (dat3 V c).Φ t.succ = PhiS3 V c (t.val + 1) t.isLt from rfl, PhiS3_succ]
  have hN : t.val < 8 := lt_of_lt_of_eq t.isLt (show cfg3.N = 8 from N_3)
  rw [show (dat3 V c).leavesExact 0 t = owns (c : Thread nD τ) (ms3_0 t) fullShare ((dat3 V c).after 0 t) from by
    unfold Dat.leavesExact; rw [liveAt3_0 t], after3_0]
  rw [show (dat3 V c).leavesExact 1 t = owns (c : Thread nD τ) (ms3_1 t) fullShare ((dat3 V c).after 1 t) from by
    unfold Dat.leavesExact; rw [liveAt3_1 t], after3_1]
  rw [show (dat3 V c).leavesExact 2 t = owns (c : Thread nD τ) (ms3_2 t) fullShare ((dat3 V c).after 2 t) from by
    unfold Dat.leavesExact; rw [liveAt3_2 t], after3_2]
  by_cases h0 : t.val % 4 = 0
  · have h1 : ¬t.val % 4 = 3 := by omega
    rw [Dat.leavesExact_idle (dat3 V c) 3 t (idleAt3_3 t (fun h => h1 ((hcond3_1 t).mp h))) (noFlush3_3 t (fun h => h1 ((hcond3_1 t).mp h)))]
    rw [outsAt3_A V c t h0 h1]
    unfold sout3_A; (try dsimp only)
    rw [PhiS3_castSucc V c t]
    iintro ⟨HΦ, Ho, ⟨%d0, H0⟩, ⟨%d1, H1⟩, ⟨%d2, H2⟩, ⟨%d3, H3⟩⟩
    ihave HΦ' := (PhiS3_any V c _ _) $$ HΦ
    icases HΦ' with ⟨HS0, Hr, Hg⟩
    iapply ((kernelRun3_A c (grid3.coords t) _ _ _ _ _ _ _ _ _ _ ((hcond3_0 t).mpr h0) (fun h => h1 ((hcond3_1 t).mp h)) (iblk3 V c 0 t) (iblk3 V c 1 t) (iblk3 V c 2 t)).2 _ Set.univ _)
    isplitl [H0]; · iexact H0
    isplitl [H1]; · iexact H1
    isplitl [H2]; · iexact H2
    isplitl [H3]; · iexact H3
    isplitl [HS0]; · iexact HS0
    iintro ⟨H0, H1, H2, H3, ⟨%es0, HS0⟩⟩
    isplitl [HS0 Hr Hg]
    · isplitl [HS0]
      · unfold owns; iexists _; isplitr
        swap; · iexact HS0
        ipureintro; exact View.read_writes_of_cover _ _ _ _ _ (scover3_A c _ _ _ _ _ _ _ _ _ _ _ _ _ _ _ _)
      isplitl [Hr]; · iexact Hr
      iexact Hg
    isplitl [Ho]; · iexact Ho
    isplitl [H0]; · iexact H0
    isplitl [H1]; · iexact H1
    isplitl [H2]; · iexact H2
    iexists _; iexact H3
  · have hz : t.val ≠ 0 := fun h => h0 (by rw [h])
    by_cases h1 : t.val % 4 = 3
    · rw [show (dat3 V c).leavesExact 3 t = owns (c : Thread nD τ) (ms3_3 t) fullShare ((dat3 V c).after 3 t) from by
        unfold Dat.leavesExact; rw [liveAt3_3 t ((hcond3_1 t).mpr h1)], after3_3]
      rw [outsAt3_C V c t h0 h1]
      unfold out3_C sout3_C; (try dsimp only)
      rw [PhiS3_castSucc V c t, PhiS3_pos V c _ _ hz]
      iintro ⟨⟨HS0, Hr, Hg⟩, Ho, ⟨%d0, H0⟩, ⟨%d1, H1⟩, ⟨%d2, H2⟩, ⟨%d3, H3⟩⟩
      iapply ((kernelRun3_C c (grid3.coords t) _ _ _ _ _ _ _ _ _ _ (fun h => h0 ((hcond3_0 t).mp h)) ((hcond3_1 t).mpr h1) (iblk3 V c 0 t) (iblk3 V c 1 t) (iblk3 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hr Hg]
      · isplitl [HS0]
        · unfold owns; iexists _; isplitr
          swap; · iexact HS0
          ipureintro; exact View.read_writes_of_cover _ _ _ _ _ (scover3_C c _ _ _ _ _ _ _ _ _ _ _ _ _ _ _ _ _)
        isplitl [Hr]; · iexact Hr
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover3_C c _ _ _ _ _ _ _ _ _ _ _ _ _ _ _ _ _)
    · rw [Dat.leavesExact_idle (dat3 V c) 3 t (idleAt3_3 t (fun h => h1 ((hcond3_1 t).mp h))) (noFlush3_3 t (fun h => h1 ((hcond3_1 t).mp h)))]
      rw [outsAt3_B V c t h0 h1]
      unfold sout3_B; (try dsimp only)
      rw [PhiS3_castSucc V c t, PhiS3_pos V c _ _ hz]
      iintro ⟨⟨HS0, Hr, Hg⟩, Ho, ⟨%d0, H0⟩, ⟨%d1, H1⟩, ⟨%d2, H2⟩, ⟨%d3, H3⟩⟩
      iapply ((kernelRun3_B c (grid3.coords t) _ _ _ _ _ _ _ _ _ _ (fun h => h0 ((hcond3_0 t).mp h)) (fun h => h1 ((hcond3_1 t).mp h)) (iblk3 V c 0 t) (iblk3 V c 1 t) (iblk3 V c 2 t) _).2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hr Hg]
      · isplitl [HS0]
        · unfold owns; iexists _; isplitr
          swap; · iexact HS0
          ipureintro; exact View.read_writes_of_cover _ _ _ _ _ (scover3_B c _ _ _ _ _ _ _ _ _ _ _ _ _ _ _ _ _)
        isplitl [Hr]; · iexact Hr
        iexact Hg
      isplitl [Ho]; · iexact Ho
      isplitl [H0]; · iexact H0
      isplitl [H1]; · iexact H1
      isplitl [H2]; · iexact H2
      iexists _; iexact H3

/-- The library's body obligation, at every point. -/
theorem body_obligation3 (c : Dev nD) : BodyObligation (dat3 (F := F) V c) (defs₀ (F := F)) Variants.none () Set.univ := fun t => by
  rw [bigSep_W3, bigSep_W3]
  exact sound_body3 V c t

/-! ## The invariant at the region's ends -/

/-- What the region is entered with — the generator register at some state and the scoped rest — is the invariant before
    the first point. -/
theorem Phi3_in (c : Dev nD) : iprop((∃ r, prngReg c r) ∗ Pipeline.scopedRest (Ix := Unit) (Name := ℕ) (U := UR sig nD τ) (Lvl := ℕ) (Val := Elt F) spec3 c) ⊢ (dat3 V c).Φ 0 := by
  rw [show (dat3 V c).Φ 0 = PhiS3 V c 0 (Nat.zero_le _) from rfl, PhiS3_zero V c 0 _ rfl]
  iintro ⟨Hg, Hs⟩
  ihave Hs' := (scoped3_split c) $$ Hs
  icases Hs' with ⟨HS, Hr⟩
  isplitl [HS]; · iexact HS
  isplitl [Hr]; · iexact Hr
  iexact Hg

/-- After the last point the invariant gives them back: the accumulator's named contents are forgotten. -/
theorem Phi3_out (c : Dev nD) : (dat3 V c).Φ (Fin.last cfg3.N) ⊢ iprop((∃ r, prngReg c r) ∗ Pipeline.scopedRest (Ix := Unit) (Name := ℕ) (U := UR sig nD τ) (Lvl := ℕ) (Val := Elt F) spec3 c) := by
  rw [show (dat3 V c).Φ (Fin.last cfg3.N) = PhiS3 V c (Fin.last cfg3.N).val (Nat.le_of_lt_succ (Fin.last cfg3.N).isLt) from rfl]
  iintro HΦ
  ihave HΦ' := (PhiS3_any V c _ _) $$ HΦ
  icases HΦ' with ⟨HS, Hr, Hg⟩
  isplitl [Hg]; · iexact Hg
  iapply (scoped3_join c)
  isplitl [HS]; · iexact HS
  iexact Hr

end Regions

end Cert.KernelIdeal.Hand

end
-- ==== Proof.KI.Run.lean ====
/-
  The run of the whole program: four kernel regions among stretches of host operations.

  Between two items every unscoped buffer of a core is held whole at a valuation: the launch memory, then each
  host stretch's operations folded over it, then — at a region — the region's output array replaced by what the
  region's write-backs leave.  Each region is entered by splitting its windows' arrays out of the unscoped
  buffers and left by putting them back; the first region is handed one array through two of its windows, which
  hold it at the two halves of the full share and give the halves back at the exit.  The program's arguments are
  written by no stretch and are no region's output, so each reads back as launched; the result buffer holds what
  the last region leaves.
-/
import proofs.«146850_j36850819399877_2_alg».proof.Proof.Gen.KernelIdeal.Launch
import proofs.«146850_j36850819399877_2_alg».proof.Proof.Gen.KernelIdeal.Skeleton
import proofs.«146850_j36850819399877_2_alg».proof.Proof.Gen.KernelIdeal.Points
import proofs.«146850_j36850819399877_2_alg».proof.Proof.KI.R0
import proofs.«146850_j36850819399877_2_alg».proof.Proof.KI.R1
import proofs.«146850_j36850819399877_2_alg».proof.Proof.KI.R2
import proofs.«146850_j36850819399877_2_alg».proof.Proof.KI.R3
import proofs.«146850_j36850819399877_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- The two windows of the first region that stage one array hold it at the two halves of the full share. -/
def q0 : Fin cfg0.W → PosShare TreeShare
  | ⟨0, _⟩ => fullShare.left
  | ⟨1, _⟩ => fullShare.right
  | _ => fullShare

abbrev W0 : Dev nD → Valuation τ sig (Elt F) := fun c b => (s₀ m ρ).mem ((c : Dev nD), b)
abbrev W1 : Dev nD → Valuation τ sig (Elt F) := fun c => StableHlo.after hostOps0 (W0 m ρ c)
abbrev U1 : (c : Dev nD) → (b : Ref sig .tc) → Buf (Elt F) ((c : Thread nD τ).loc b) := fun c b => W1 m ρ c b
/-- After the first region: the filter array replaced by what its write-backs leave. -/
def W2 (c : Dev nD) : Valuation τ sig (Elt F) :=
  Function.update (W1 m ρ c) (Proc.devRef .tc main_v3) ((dat0 (U1 m ρ) q0 c).arrAt 3 cfg0.N)
abbrev U2 : (c : Dev nD) → (b : Ref sig .tc) → Buf (Elt F) ((c : Thread nD τ).loc b) := fun c b => W2 m ρ c b
abbrev W3 : Dev nD → Valuation τ sig (Elt F) := fun c => StableHlo.after hostOps1 (W2 m ρ c)
abbrev U3 : (c : Dev nD) → (b : Ref sig .tc) → Buf (Elt F) ((c : Thread nD τ).loc b) := fun c b => W3 m ρ c b
def W4 (c : Dev nD) : Valuation τ sig (Elt F) :=
  Function.update (W3 m ρ c) (Proc.devRef .tc main_v6) ((dat1 (U3 m ρ) c).arrAt 2 cfg1.N)
abbrev U4 : (c : Dev nD) → (b : Ref sig .tc) → Buf (Elt F) ((c : Thread nD τ).loc b) := fun c b => W4 m ρ c b
abbrev W5 : Dev nD → Valuation τ sig (Elt F) := fun c => StableHlo.after hostOps2 (W4 m ρ c)
abbrev U5 : (c : Dev nD) → (b : Ref sig .tc) → Buf (Elt F) ((c : Thread nD τ).loc b) := fun c b => W5 m ρ c b
def W6 (c : Dev nD) : Valuation τ sig (Elt F) :=
  Function.update (W5 m ρ c) (Proc.devRef .tc main_v8) ((dat2 (U5 m ρ) c).arrAt 3 cfg2.N)
abbrev U6 : (c : Dev nD) → (b : Ref sig .tc) → Buf (Elt F) ((c : Thread nD τ).loc b) := fun c b => W6 m ρ c b
abbrev W7 : Dev nD → Valuation τ sig (Elt F) := fun c => StableHlo.after hostOps3 (W6 m ρ c)
abbrev U7 : (c : Dev nD) → (b : Ref sig .tc) → Buf (Elt F) ((c : Thread nD τ).loc b) := fun c b => W7 m ρ c b
def W8 (c : Dev nD) : Valuation τ sig (Elt F) :=
  Function.update (W7 m ρ c) (Proc.devRef .tc main_v12) ((dat3 (U7 m ρ) c).arrAt 3 cfg3.N)
abbrev U8 : (c : Dev nD) → (b : Ref sig .tc) → Buf (Elt F) ((c : Thread nD τ).loc b) := fun c b => W8 m ρ c b

/-! ## What a region leaves at its arrays, and nowhere else -/

theorem W2_out (c : Dev nD) : W2 m ρ c (Proc.devRef .tc main_v3) = (dat0 (U1 m ρ) q0 c).arrAt 3 cfg0.N := by
  unfold W2; exact Function.update_self ..
theorem W2_of_ne (c : Dev nD) (b : Ref sig .tc) (hb : b ≠ main_v3) : W2 m ρ c (Proc.devRef .tc b) = W1 m ρ c (Proc.devRef .tc b) := by
  unfold W2; exact Function.update_of_ne (StableHlo.devRef_ne_of_ne hb) ..
theorem W4_out (c : Dev nD) : W4 m ρ c (Proc.devRef .tc main_v6) = (dat1 (U3 m ρ) c).arrAt 2 cfg1.N := by
  unfold W4; exact Function.update_self ..
theorem W4_of_ne (c : Dev nD) (b : Ref sig .tc) (hb : b ≠ main_v6) : W4 m ρ c (Proc.devRef .tc b) = W3 m ρ c (Proc.devRef .tc b) := by
  unfold W4; exact Function.update_of_ne (StableHlo.devRef_ne_of_ne hb) ..
theorem W6_out (c : Dev nD) : W6 m ρ c (Proc.devRef .tc main_v8) = (dat2 (U5 m ρ) c).arrAt 3 cfg2.N := by
  unfold W6; exact Function.update_self ..
theorem W6_of_ne (c : Dev nD) (b : Ref sig .tc) (hb : b ≠ main_v8) : W6 m ρ c (Proc.devRef .tc b) = W5 m ρ c (Proc.devRef .tc b) := by
  unfold W6; exact Function.update_of_ne (StableHlo.devRef_ne_of_ne hb) ..
theorem W8_out (c : Dev nD) : W8 m ρ c (Proc.devRef .tc main_v12) = (dat3 (U7 m ρ) c).arrAt 3 cfg3.N := by
  unfold W8; exact Function.update_self ..
theorem W8_of_ne (c : Dev nD) (b : Ref sig .tc) (hb : b ≠ main_v12) : W8 m ρ c (Proc.devRef .tc b) = W7 m ρ c (Proc.devRef .tc b) := by
  unfold W8; exact Function.update_of_ne (StableHlo.devRef_ne_of_ne hb) ..

/-- Region 1's arrays at its exit: the two inputs as entered, the output at what the write-backs leave. -/
theorem hF1 (c : Dev nD) : ∀ w : Fin cfg1.W, (dat1 (U3 m ρ) c).arrAt w cfg1.N = U4 m ρ c (Pipeline.arrRef spec1 w)
  | ⟨0, _⟩ => ((dat1 (U3 m ρ) c).arrAt_in 0 rfl _).trans (W4_of_ne m ρ c main_v4 (by decide)).symm
  | ⟨1, _⟩ => ((dat1 (U3 m ρ) c).arrAt_in 1 rfl _).trans (W4_of_ne m ρ c main_v5 (by decide)).symm
  | ⟨2, _⟩ => (W4_out m ρ c).symm
theorem hrest1 (c : Dev nD) : ∀ b, b ∉ Finset.univ.image (Pipeline.arrRef spec1) → U4 m ρ c b = U3 m ρ c b :=
  fun b hb => W4_of_ne m ρ c b fun e => hb (Finset.mem_image.mpr ⟨2, Finset.mem_univ _, e.symm⟩)

theorem hF2 (c : Dev nD) : ∀ w : Fin cfg2.W, (dat2 (U5 m ρ) c).arrAt w cfg2.N = U6 m ρ c (Pipeline.arrRef spec2 w)
  | ⟨0, _⟩ => ((dat2 (U5 m ρ) c).arrAt_in 0 rfl _).trans (W6_of_ne m ρ c main_v3 (by decide)).symm
  | ⟨1, _⟩ => ((dat2 (U5 m ρ) c).arrAt_in 1 rfl _).trans (W6_of_ne m ρ c main_v6 (by decide)).symm
  | ⟨2, _⟩ => ((dat2 (U5 m ρ) c).arrAt_in 2 rfl _).trans (W6_of_ne m ρ c main_v7 (by decide)).symm
  | ⟨3, _⟩ => (W6_out m ρ c).symm
theorem hrest2 (c : Dev nD) : ∀ b, b ∉ Finset.univ.image (Pipeline.arrRef spec2) → U6 m ρ c b = U5 m ρ c b :=
  fun b hb => W6_of_ne m ρ c b fun e => hb (Finset.mem_image.mpr ⟨3, Finset.mem_univ _, e.symm⟩)
theorem hF3 (c : Dev nD) : ∀ w : Fin cfg3.W, (dat3 (U7 m ρ) c).arrAt w cfg3.N = U8 m ρ c (Pipeline.arrRef spec3 w)
  | ⟨0, _⟩ => ((dat3 (U7 m ρ) c).arrAt_in 0 rfl _).trans (W8_of_ne m ρ c main_v8 (by decide)).symm
  | ⟨1, _⟩ => ((dat3 (U7 m ρ) c).arrAt_in 1 rfl _).trans (W8_of_ne m ρ c main_v10 (by decide)).symm
  | ⟨2, _⟩ => ((dat3 (U7 m ρ) c).arrAt_in 2 rfl _).trans (W8_of_ne m ρ c main_v11 (by decide)).symm
  | ⟨3, _⟩ => (W8_out m ρ c).symm
theorem hrest3 (c : Dev nD) : ∀ b, b ∉ Finset.univ.image (Pipeline.arrRef spec3) → U8 m ρ c b = U7 m ρ c b :=
  fun b hb => W8_of_ne m ρ c b fun e => hb (Finset.mem_image.mpr ⟨3, Finset.mem_univ _, e.symm⟩)

/-! ## The proof data family and the thread state -/

abbrev adm : (p : Fin 4) → (pcfgs (F := F) p).Adm := fun p => (cfgs p).toPCfg_adm
/-- Every region's proof data, each at its region's entry contents. -/
def pdats : (p : Fin 4) → (c : Dev nD) → Dat τ (Elt F) Unit ℕ (UR sig nD τ) ℕ (Pipeline.pin (pcfgs (F := F)) adm p) c
  | ⟨0, _⟩ => fun c => dat0 (U1 m ρ) q0 c
  | ⟨1, _⟩ => fun c => dat1 (U3 m ρ) c
  | ⟨2, _⟩ => fun c => dat2 (U5 m ρ) c
  | ⟨3, _⟩ => fun c => dat3 (U7 m ρ) c
abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W8 m ρ c) ∗ ∃ r, prngReg c r)

/-! ## The regions as segments -/

/-! ## The first region: one array behind two windows -/

/-- The first region's arrays window by window: the eigenvector array at the two halves of the full share, the
    scale array and the filter array at the full share. -/
theorem arrays0_eq (c : Dev nD) (G : (w : Fin cfg0.W) → Buf (Elt F) ((cfg0.win w).arr.view.loc (c : Thread nD τ))) :
    ((dat0 (U1 m ρ) q0 c).arrays G : sProp 𝕄) = iprop(
      (((c : Thread nD τ).loc main_v2) ↦{fullShare.left} G 0) ∗ (((c : Thread nD τ).loc main_v2) ↦{fullShare.right} G 1)
      ∗ (((c : Thread nD τ).loc main_v1) ↦{fullShare} G 2) ∗ (((c : Thread nD τ).loc main_v3) ↦{fullShare} G 3)) := by
  unfold Dat.arrays
  rw [bigSep_W0, (arr_whole0 0).set_eq_univ, (arr_whole0 2).set_eq_univ, (arr_whole0 3).set_eq_univ]
  rfl

/-- The distinct buffers behind the first region's windows. -/
theorem arrBufs0_eq (c : Dev nD) (V : (b : Ref sig .tc) → Buf (Elt F) ((c : Thread nD τ).loc b)) :
    (Pipeline.arrBufs (Ix := Unit) (Name := ℕ) (U := UR sig nD τ) (Lvl := ℕ) spec0 c V : sProp 𝕄) = iprop(
      (((c : Thread nD τ).loc main_v2) ↦{fullShare} V main_v2) ∗ (((c : Thread nD τ).loc main_v1) ↦{fullShare} V main_v1)
      ∗ (((c : Thread nD τ).loc main_v3) ↦{fullShare} V main_v3)) := by
  unfold Pipeline.arrBufs
  rw [show Finset.univ.image (Pipeline.arrRef spec0) = ({main_v2, main_v1, main_v3} : Finset (Ref sig .tc)) from by decide]
  rw [bigSep_insert (by decide), bigSep_insert (by decide), bigSep_singleton]
  rfl

/-- Entering the first region: the unscoped buffers split into the windows' holdings and the rest; the eigenvector
    array's full share is dealt to its two windows as the two halves. -/
theorem entry0 (c : Dev nD) :
    (unscopedBufs c (U1 m ρ c) : sProp 𝕄) ⊢ iprop((dat0 (U1 m ρ) q0 c).arrays (dat0 (U1 m ρ) q0 c).A
      ∗ Pipeline.unscopedRest (Ix := Unit) (Name := ℕ) (U := UR sig nD τ) (Lvl := ℕ) spec0 c (U1 m ρ c)) := by
  rw [Pipeline.unscopedBufs_split₀ (Pipeline.pin (pcfgs (F := F)) adm) 0 winFacts₀0.arr_unscoped c (U1 m ρ c)]
  refine sep_mono ?_ .rfl
  rw [show (Pipeline.arrBufs (Pipeline.pin (pcfgs (F := F)) adm 0).spec c (U1 m ρ c) : sProp 𝕄) = Pipeline.arrBufs spec0 c (U1 m ρ c) from rfl,
    arrBufs0_eq, arrays0_eq]
  iintro ⟨H2, H1, H3⟩
  ihave H2' := (pointsTo_share (PosShare.mem_left_op_right fullShare)).1 $$ H2
  icases H2' with ⟨Ha, Hb⟩
  isplitl [Ha]; · iexact Ha
  isplitl [Hb]; · iexact Hb
  isplitl [H1]; · iexact H1
  iexact H3

theorem hrest0 (c : Dev nD) : ∀ b, b ∉ Finset.univ.image (Pipeline.arrRef spec0) → U2 m ρ c b = U1 m ρ c b :=
  fun b hb => W2_of_ne m ρ c b fun e => hb (Finset.mem_image.mpr ⟨3, Finset.mem_univ _, e.symm⟩)

/-- Leaving the first region: the two halves of the eigenvector array, both at the contents it was entered with,
    make its full share again; the filter array holds what the write-backs leave. -/
theorem exit0 (c : Dev nD) :
    iprop((dat0 (U1 m ρ) q0 c).arrays ((dat0 (U1 m ρ) q0 c).arrAt · cfg0.N)
      ∗ Pipeline.unscopedRest (Ix := Unit) (Name := ℕ) (U := UR sig nD τ) (Lvl := ℕ) spec0 c (U1 m ρ c)) ⊢ (unscopedBufs c (U2 m ρ c) : sProp 𝕄) := by
  rw [Pipeline.unscopedBufs_split₀ (Pipeline.pin (pcfgs (F := F)) adm) 0 winFacts₀0.arr_unscoped c (U2 m ρ c)]
  refine sep_mono ?_ (Entails.of_eq ?_)
  · have h0 : (dat0 (U1 m ρ) q0 c).arrAt 0 cfg0.N = U2 m ρ c main_v2 :=
      ((dat0 (U1 m ρ) q0 c).arrAt_in 0 rfl _).trans (W2_of_ne m ρ c main_v2 (by decide)).symm
    have h1 : (dat0 (U1 m ρ) q0 c).arrAt 1 cfg0.N = U2 m ρ c main_v2 :=
      ((dat0 (U1 m ρ) q0 c).arrAt_in 1 rfl _).trans (W2_of_ne m ρ c main_v2 (by decide)).symm
    have h2 : (dat0 (U1 m ρ) q0 c).arrAt 2 cfg0.N = U2 m ρ c main_v1 :=
      ((dat0 (U1 m ρ) q0 c).arrAt_in 2 rfl _).trans (W2_of_ne m ρ c main_v1 (by decide)).symm
    have h3 : (dat0 (U1 m ρ) q0 c).arrAt 3 cfg0.N = U2 m ρ c main_v3 := (W2_out m ρ c).symm
    rw [show (Pipeline.arrBufs (Pipeline.pin (pcfgs (F := F)) adm 0).spec c (U2 m ρ c) : sProp 𝕄) = Pipeline.arrBufs spec0 c (U2 m ρ c) from rfl,
      arrBufs0_eq, arrays0_eq]
    rw [h0, h1, h2, h3]
    iintro ⟨Ha, Hb, H1, H3⟩
    isplitl [Ha Hb]
    · iapply (pointsTo_share (PosShare.mem_left_op_right fullShare)).2
      isplitl [Ha]; · iexact Ha
      iexact Hb
    isplitl [H1]; · iexact H1
    iexact H3
  · unfold Pipeline.unscopedRest
    exact bigSep_congr fun b hb => by rw [hrest0 m ρ c b (Finset.mem_sdiff.mp hb).2]

set_option backward.isDefEq.respectTransparency.types false in
/-- The spectral-filter region: entered from every unscoped buffer at `W1`, left at `W2`. -/
def reg0 : Pipeline.RegionSeg (pcfgs (F := F)) adm (pdats m ρ) () defs₀ 𝒱₀ L lv 0 where
  win := winFacts₀0
  block_pos := block_pos0
  stage_whole := stage_whole0
  K := PEmpty
  osem k := k.elim
  ho := Pipeline.OwnSemFacts.none _
  hbody c := (body_obligation0 (U1 m ρ) q0 c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (U1 m ρ c)
  hentry c := by
    rw [Pipeline.ownSems0_none]
    have hsplit : (unscopedBufs c (U1 m ρ c) : sProp 𝕄) ⊢ iprop((pdats m ρ 0 c).arrays ((pdats m ρ 0 c).arrAt · 0) ∗ Pipeline.unscopedRest (Ix := Unit) (Name := ℕ) (U := UR sig nD τ) (Lvl := ℕ) spec0 c (U1 m ρ c)) := entry0 m ρ c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin : iprop((pdats m ρ 0 c).arrays ((pdats m ρ 0 c).arrAt · cfg0.N) ∗ Pipeline.unscopedRest (Ix := Unit) (Name := ℕ) (U := UR sig nD τ) (Lvl := ℕ) spec0 c (U1 m ρ c)) ⊢ (unscopedBufs c (U2 m ρ c) : sProp 𝕄) := exit0 m ρ c
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (U3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (U3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (U3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (U3 m ρ c) (U4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (U5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (U5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (U5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (U5 m ρ c) (U6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (U7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (U7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (U7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = (dat3 (U7 m ρ) c).Φ 0 from rfl]
    iintro ⟨Hp, -, Hr⟩
    iapply (Phi3_in (U7 m ρ) c)
    isplitl [Hp]; · iexact Hp
    iexact Hr
  hout c := by
    rw [Pipeline.ownSems0_none, show (pdats m ρ 3 c).Φ (Fin.last _) = (dat3 (U7 m ρ) c).Φ (Fin.last cfg3.N) from rfl]
    iintro H
    ihave H2 := (Phi3_out (U7 m ρ) c) $$ H
    icases H2 with ⟨Hp, Hr⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (U7 m ρ c) (U8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The arguments end as launched -/

/-- A buffer that no host stretch writes and that is no region's output reads at the end as at the launch. -/
theorem W8_arg (c : Dev nD) (r : Ref sig .tc) (h0 : r ∉ hostOps0_W) (h1 : r ∉ hostOps1_W) (h2 : r ∉ hostOps2_W) (h3 : r ∉ hostOps3_W)
    (n3 : r ≠ main_v3) (n6 : r ≠ main_v6) (n8 : r ≠ main_v8) (n12 : r ≠ main_v12) :
    W8 m ρ c (Proc.devRef .tc r) = m ((c : Thread nD τ).loc r) :=
  (W8_of_ne m ρ c r n12).trans <| (StableHlo.after_of_writes_sub hostOps3 _ hostOps3_writes h3).trans <|
  (W6_of_ne m ρ c r n8).trans <| (StableHlo.after_of_writes_sub hostOps2 _ hostOps2_writes h2).trans <|
  (W4_of_ne m ρ c r n6).trans <| (StableHlo.after_of_writes_sub hostOps1 _ hostOps1_writes h1).trans <|
  (W2_of_ne m ρ c r n3).trans <| (StableHlo.after_of_writes_sub hostOps0 _ hostOps0_writes h0).trans rfl

/-! ## The program as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ) ]
theorem main_run (c : Dev nD) : main (F := F) c = Pipeline.Seg.run (segs m ρ) := (main_chain c).trans (by chain_rfl)

set_option backward.isDefEq.respectTransparency.types false in
/-- Every weakly fair execution of the program from memory `m` with zero counters terminates, nothing faulting;
    the result buffer ends at what the last region leaves (`W8`) and every argument as launched. -/
theorem run_main : θ_run defs (onTc (τ := τ) (main (F := F))) ⟨m, fun _ => 0, ρ⟩ (fun r => ∀ c : Dev nD,
      r.2.mem ((c.tc : Thread nD τ).loc main_v12) = W8 m ρ c (Proc.devRef .tc main_v12)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v12 (by decide)),
       (h c _ (mem_uc main_arg0 (by decide))).trans (W8_arg m ρ c main_arg0 (by decide) (by decide) (by decide) (by decide) (by decide) (by decide) (by decide) (by decide)),
       (h c _ (mem_uc main_arg1 (by decide))).trans (W8_arg m ρ c main_arg1 (by decide) (by decide) (by decide) (by decide) (by decide) (by decide) (by decide) (by decide)),
       (h c _ (mem_uc main_arg2 (by decide))).trans (W8_arg m ρ c main_arg2 (by decide) (by decide) (by decide) (by decide) (by decide) (by decide) (by decide) (by decide)),
       (h c _ (mem_uc main_arg3 (by decide))).trans (W8_arg m ρ c main_arg3 (by decide) (by decide) (by decide) (by decide) (by decide) (by decide) (by decide) (by decide)),
       (h c _ (mem_uc main_arg4 (by decide))).trans (W8_arg m ρ c main_arg4 (by decide) (by decide) (by decide) (by decide) (by decide) (by decide) (by decide) (by decide)),
       (h c _ (mem_uc main_arg5 (by decide))).trans (W8_arg m ρ c main_arg5 (by decide) (by decide) (by decide) (by decide) (by decide) (by decide) (by decide) (by decide)),
       (h c _ (mem_uc main_arg6 (by decide))).trans (W8_arg m ρ c main_arg6 (by decide) (by decide) (by decide) (by decide) (by decide) (by decide) (by decide) (by decide))⟩)

end Cert.KernelIdeal.Hand

end
-- ==== Proof.Spec.lean ====
/-
  The mathematics of the program, as four whole-array functions on the extended reals.

  The program builds, for each of four scales t, a spectral filter from an eigenvector matrix e and a scale
  vector s(t,·):   f_t(m,n) = Σ_k (e(m,k)·s(t,k))·e(n,k);   every column n is divided by max(‖f_t(·,n)‖₂, ε)
  and entries of magnitude at most θ are dropped (`filt`).  The node features x are projected per scale
  (`proj`), propagated twice through the transposed filter with a bias and a rectifier in between (`prop`),
  and the four propagated pieces are recombined by one more product, bias and rectifier (`fuse`).

  Everything here is index by index over literal extents; sums are plain finite sums on the extended reals,
  in which addition and multiplication are commutative and associative, so no tiling or grouping of a sum
  changes its value.
-/
import Idealize.ShloMosaic.PureOps.Ideal
import Idealize.ShloMosaic.Lib.ValueIdx

noncomputable section

namespace Cert.Spec

open Idealize.ShloMosaic Idealize.ShloMosaic.ValueIdx

/-- Arrays of extended reals over literal extents. -/
abbrev A1 (a : Nat) : Type := (⟨1, ![a]⟩ : Shape).Idx → EReal
abbrev A2 (a b : Nat) : Type := (⟨2, ![a, b]⟩ : Shape).Idx → EReal
abbrev A3 (a b c : Nat) : Type := (⟨3, ![a, b, c]⟩ : Shape).Idx → EReal

/-- The three float literals of the program, kept as their words: the norm's floor ε, the threshold θ, zero. -/
def eps : EReal := Ideal.ofBits .f32 0x2B8CBCCC#32
def thr : EReal := Ideal.ofBits .f32 0x38D1B717#32
def zero : EReal := Ideal.ofBits .f32 0x00000000#32

/-- The scale vectors: the input [1, N, 4] read as [4, N]. -/
def scales (a : A3 1 2048 4) : A2 4 2048 := fun j => a (ix3 0 (j 1) (j 0))

/-- The raw filter entry f_t(m,n) = Σ_k (e(m,k)·s(t,k))·e(n,k). -/
def raw (e : A2 2048 2048) (s : A2 4 2048) (t : Fin 4) (m n : Fin 2048) : EReal :=
  ∑ k : Fin 2048, (e (ix2 m k) * s (ix2 t k)) * e (ix2 n k)

/-- The floor-guarded Euclidean norm of column n of f_t. -/
def colNorm (e : A2 2048 2048) (s : A2 4 2048) (t : Fin 4) (n : Fin 2048) : EReal :=
  max (Ideal.sqrt (∑ m : Fin 2048, raw e s t m n * raw e s t m n)) eps

/-- Keep a normalised entry q when |q| > θ, else zero. -/
def keep (q : EReal) : EReal :=
  Scalar.select (FloatOps.cmpf (F := Ideal) (φ := .f32) .ogt (max q (-q)) thr) q zero

/-- The normalised, thresholded filter entry. -/
def filtAt (e : A2 2048 2048) (s : A2 4 2048) (t : Fin 4) (m n : Fin 2048) : EReal :=
  keep (Ideal.div (raw e s t m n) (colNorm e s t n))

/-- The four filters as one array [4, N, N]. -/
def filt (e : A2 2048 2048) (s : A2 4 2048) : A3 4 2048 2048 := fun j => filtAt e s (j 0) (j 1) (j 2)

/-- The projected features (x·W_t)(i,c) = Σ_d x(i,d)·W(t,d,c). -/
def projAt (x : A2 2048 768) (w : A3 4 768 192) (t : Fin 4) (i : Fin 2048) (c : Fin 192) : EReal :=
  ∑ d : Fin 768, x (ix2 i d) * w (ix3 t d c)
def proj (x : A2 2048 768) (w : A3 4 768 192) : A3 4 2048 192 := fun j => projAt x w (j 0) (j 1) (j 2)

/-- The first propagation with bias and rectifier: max(Σ_r F(t,r,i)·y(t,r,c) + b(t,0,c), 0). -/
def hidAt (fm : A3 4 2048 2048) (y : A3 4 2048 192) (b : A3 4 1 192) (t : Fin 4) (i : Fin 2048) (c : Fin 192) : EReal :=
  max ((∑ r : Fin 2048, fm (ix3 t r i) * y (ix3 t r c)) + b (ix3 t 0 c)) zero

/-- The second propagation: Σ_i F(t,i,j)·hid(t,i,c). -/
def propAt (fm : A3 4 2048 2048) (y : A3 4 2048 192) (b : A3 4 1 192) (t : Fin 4) (j : Fin 2048) (c : Fin 192) : EReal :=
  ∑ i : Fin 2048, fm (ix3 t i j) * hidAt fm y b t i c
def prop (fm : A3 4 2048 2048) (y : A3 4 2048 192) (b : A3 4 1 192) : A3 4 2048 192 :=
  fun j => propAt fm y b (j 0) (j 1) (j 2)

/-- The recombination: max(Σ_t Σ_c h(t,n,c)·W(t,c,d) + b(0,d), 0). -/
def fuseAt (h : A3 4 2048 192) (w : A3 4 192 768) (b : A2 1 768) (n : Fin 2048) (d : Fin 768) : EReal :=
  max ((∑ t : Fin 4, ∑ c : Fin 192, h (ix3 t n c) * w (ix3 t c d)) + b (ix2 0 d)) zero
def fuse (h : A3 4 2048 192) (w : A3 4 192 768) (b : A2 1 768) : A2 2048 768 := fun j => fuseAt h w b (j 0) (j 1)

end Cert.Spec

end
-- ==== Proof.KI.P0.lean ====
/-
  One slab of the spectral filter, read at an index.

  For a scale row s(t,·) the body forms   f(m,l) = Σ_k (e(m,k)·s(t,k))·r(l,k)   from the matrix e and its row block
  r by a product that contracts the second axis of both operands, takes the sum of squares of every column l over
  the rows m, floors its square root at ε, divides the column by it and keeps an entry only when its magnitude
  exceeds θ.  Read on the extended reals every change of float format is the identity, so the slab at (m,l) is that
  formula exactly.  The four slabs of a block are this one function at the four scale rows.
-/
import proofs.«146850_j36850819399877_2_alg».proof.Proof.Gen.KernelIdeal.Skeleton
import proofs.«146850_j36850819399877_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand

open Cert.KernelIdeal Cert.KernelIdeal.Gen
open Idealize.ShloMosaic Idealize.ShloMosaic.ValueIdx

namespace Spectral

/-! ## The product's index maps -/

/-- The product's dimension numbers: axis 1 of both operands is contracted, axis 0 of each is kept. -/
abbrev D0 : DotDims S2048x2048 S256x2048 S2048x256 := dot_S2048x2048_S256x2048_S2048x256_1_1_0_0_n_n

/-- At output index (m,l) and contraction position k the left operand is read at (m,k) -/
theorem D0_lhs (m : Fin 2048) (l : Fin 256) (k : Fin 2048) :
    D0.lhsIdx (ix2 m l) ((contrEquiv1 D0 2048 rfl rfl).symm k) = ix2 m k := by
  funext a; apply Fin.ext
  match a with
  | ⟨0, _⟩ =>
    show (D0.lhsIdx (ix2 m l) ((contrEquiv1 D0 2048 rfl rfl).symm k) 0 : ℕ) = m.val
    simp [DotDims.lhsIdx, D0, dot_S2048x2048_S256x2048_S2048x256_1_1_0_0_n_n]; rfl
  | ⟨1, _⟩ =>
    exact (D0.lhsIdx_val_of_single (cl := 1) rfl (ix2 m l) _).trans (contrEquiv1_symm_val D0 2048 rfl rfl k)

/-- and the right operand at (l,k). -/
theorem D0_rhs (m : Fin 2048) (l : Fin 256) (k : Fin 2048) :
    D0.rhsIdx (ix2 m l) ((contrEquiv1 D0 2048 rfl rfl).symm k) = ix2 l k := by
  funext a; apply Fin.ext
  match a with
  | ⟨0, _⟩ =>
    show (D0.rhsIdx (ix2 m l) ((contrEquiv1 D0 2048 rfl rfl).symm k) 0 : ℕ) = l.val
    simp [DotDims.rhsIdx, D0, dot_S2048x2048_S256x2048_S2048x256_1_1_0_0_n_n]; rfl
  | ⟨1, _⟩ =>
    exact (D0.rhsIdx_val_of_single (cr := 1) rfl (ix2 m l) _).trans (contrEquiv1_symm_val D0 2048 rfl rfl k)

/-- So the product into the zero accumulator, at (m,l), is Σ_k a(m,k)·b(l,k). -/
theorem matmul0_apply (a : FVec Ideal S2048x2048 .bf16) (b : FVec Ideal S256x2048 .bf16) (m : Fin 2048) (l : Fin 256) :
    matmul D0 none a b (constant (F := Ideal) S2048x256 .f32 0x00000000#32) (ix2 m l)
      = ∑ k : Fin 2048, a (ix2 m k) * b (ix2 l k) := by
  refine (Ideal.matmul_constant_zero_apply D0 none a b (ix2 m l)).trans ?_
  refine (Equiv.sum_comp (contrEquiv1 D0 2048 rfl rfl).symm _).symm.trans ?_
  refine Finset.sum_congr rfl fun k _ => ?_
  rw [D0_lhs, D0_rhs]

/-! ## The slab over a block, as a formula -/

/-- f(m,l) = Σ_k (e(m,k)·s(k))·r(l,k) for a matrix e, a row block r of it and one scale row s. -/
def rawB (x0 : Spec.A2 2048 2048) (x1 : Spec.A2 256 2048) (sc : Fin 2048 → EReal) (m : Fin 2048) (l : Fin 256) : EReal :=
  ∑ k : Fin 2048, (x0 (ix2 m k) * sc k) * x1 (ix2 l k)

/-- The slab entry: f(m,l) over the floored norm of column l, kept when its magnitude exceeds θ. -/
def slabB (x0 : Spec.A2 2048 2048) (x1 : Spec.A2 256 2048) (sc : Fin 2048 → EReal) (m : Fin 2048) (l : Fin 256) : EReal :=
  Spec.keep (Ideal.div (rawB x0 x1 sc m l)
    (max (Ideal.sqrt (∑ m' : Fin 2048, rawB x0 x1 sc m' l * rawB x0 x1 sc m' l)) Spec.eps))

/-- The slab formula is the specification's filter entry once its three ingredients are read off the arrays:
    the matrix as it is, row l of the row block as row n of the matrix, the scale row as row t of the scales. -/
theorem slabB_eq_filtAt (x0 : Spec.A2 2048 2048) (x1 : Spec.A2 256 2048) (sc : Fin 2048 → EReal)
    (e : Spec.A2 2048 2048) (s : Spec.A2 4 2048) (t : Fin 4) (n : Fin 2048) (l : Fin 256)
    (h0 : ∀ m k, x0 (ix2 m k) = e (ix2 m k)) (h1 : ∀ k, x1 (ix2 l k) = e (ix2 n k)) (hs : ∀ k, sc k = s (ix2 t k))
    (m : Fin 2048) : slabB x0 x1 sc m l = Spec.filtAt e s t m n := by
  have hr : ∀ m', rawB x0 x1 sc m' l = Spec.raw e s t m' n := fun m' =>
    Finset.sum_congr rfl fun k _ => by rw [h0, h1, hs]
  unfold slabB Spec.filtAt Spec.colNorm
  simp only [hr]

/-! ## The three stages of a slab, each at an index -/

/-- The product stage is f: the scale row is broadcast down the rows of e before the product. -/
theorem pay5_apply (v0 : Vec Ideal S2048x2048 .bf16) (v2 : Vec Ideal S256x2048 .bf16) (row : Vec Ideal S1x2048 .f32)
    (m : Fin 2048) (l : Fin 256) : k0_pay5 v0 v2 row (ix2 m l) = rawB v0 v2 (fun k => row (ix2 (0 : Fin 1) k)) m l := by
  unfold k0_pay5 k0_pay2 k0_pay3 rawB
  refine (matmul0_apply _ _ m l).trans ?_
  refine Finset.sum_congr rfl fun k _ => ?_
  rw [shapeCast_self, shapeCast_self]
  show (v0 (ix2 m k) * broadcastTo S2048x2048 _ broadcasts_S1x2048_S2048x2048 (ix2 m k)) * v2 (ix2 l k) = _
  rw [broadcastTo_1b_ab_apply, shapeCast_a_1a_apply, shapeCast_1a_a_apply]

/-- A sum over the rows of a [2048,256] array, at column l. -/
theorem colsum_apply (src : FVec Ideal S2048x256 .f32) (hφ : FKind.Formats .f32)
    (hacc : (0x00000000#32 : BitVec 32) = 0x00000000#32) (l : Fin 256) :
    multiReduction .add [0] S256 src 0x00000000#32 reduces_S2048x256_S256 hφ hacc (ix1 l) = ∑ m : Fin 2048, src (ix2 m l) := by
  refine (Ideal.multiReduction_add_single src 0x00000000#32 reduces_S2048x256_S256 hφ hacc (ix1 l)).trans ?_
  refine Finset.sum_congr rfl fun m _ => ?_
  exact congrArg src (funext fun a => Fin.ext (by match a with | ⟨0, _⟩ => rfl | ⟨1, _⟩ => rfl))

/-- The second stage is the sum of squares of column l of f. -/
theorem pay6_apply (v0 : Vec Ideal S2048x2048 .bf16) (v2 : Vec Ideal S256x2048 .bf16) (row : Vec Ideal S1x2048 .f32)
    (l : Fin 256) :
    k0_pay6 v0 v2 row (ix2 (0 : Fin 1) l)
      = ∑ m : Fin 2048, rawB v0 v2 (fun k => row (ix2 (0 : Fin 1) k)) m l * rawB v0 v2 (fun k => row (ix2 (0 : Fin 1) k)) m l := by
  unfold k0_pay6
  rw [shapeCast_a_1a_apply]
  refine (colsum_apply _ _ _ l).trans ?_
  refine Finset.sum_congr rfl fun m _ => ?_
  show k0_pay5 v0 v2 row (ix2 m l) * k0_pay5 v0 v2 row (ix2 m l) = _
  rw [pay5_apply]

/-- The last stage divides by the floored root of the column's sum of squares, broadcast down the rows, and
    thresholds; the leading unit axis of the slab is only a relabelling. -/
theorem pay7_apply (v36 : FVec Ideal S2048x256 .f32) (v39 : FVec Ideal S1x256 .f32) (m : Fin 2048) (l : Fin 256) :
    k0_pay7 v36 v39 (ix3 (0 : Fin 1) m l)
      = Spec.keep (Ideal.div (v36 (ix2 m l)) (max (Ideal.sqrt (v39 (ix2 (0 : Fin 1) l))) Spec.eps)) := by
  unfold k0_pay7
  rw [shapeCast_ab_1ab_apply]
  show Spec.keep (Ideal.div (v36 (ix2 m l)) (broadcastTo S2048x256 _ broadcasts_S1x256_S2048x256 (ix2 m l))) = _
  rw [broadcastTo_1b_ab_apply]
  rfl

/-! ## The four slabs are one function of the scale row -/

section AnyInstance
variable {F : FTy → Type} [FloatOps F]

theorem slab0_eq (v0 : Vec F S2048x2048 .bf16) (v2 : Vec F S256x2048 .bf16) (row : Vec F S1x2048 .f32) :
    k0_pay4 v0 v2 row = k0_pay7 (k0_pay5 v0 v2 row) (k0_pay6 v0 v2 row) := rfl
theorem slab2_eq (v0 : Vec F S2048x2048 .bf16) (v2 : Vec F S256x2048 .bf16) (row : Vec F S1x2048 .f32) :
    k0_pay8 (k0_pay2 v0) (k0_pay3 v2) row = k0_pay7 (k0_pay5 v0 v2 row) (k0_pay6 v0 v2 row) := rfl
theorem slab3_eq (v0 : Vec F S2048x2048 .bf16) (v2 : Vec F S256x2048 .bf16) (row : Vec F S1x2048 .f32) :
    k0_pay1 (k0_pay2 v0) (k0_pay3 v2) row = k0_pay7 (k0_pay5 v0 v2 row) (k0_pay6 v0 v2 row) := rfl

end AnyInstance

/-- A slab at (m,l), from the matrix, its row block and the scale row. -/
theorem slab_apply (v0 : Vec Ideal S2048x2048 .bf16) (v2 : Vec Ideal S256x2048 .bf16) (row : Vec Ideal S1x2048 .f32)
    (m : Fin 2048) (l : Fin 256) :
    k0_pay7 (k0_pay5 v0 v2 row) (k0_pay6 v0 v2 row) (ix3 (0 : Fin 1) m l) = slabB v0 v2 (fun k => row (ix2 (0 : Fin 1) k)) m l := by
  rw [pay7_apply, pay5_apply, pay6_apply]
  rfl

end Spectral

end Cert.KernelIdeal.Hand

end
-- ==== Proof.KI.V0.lean ====
/-
  The filter array after the spectral region, as one function of the two arrays it reads.

  Grid point p leaves in its output block, at (t, m, l), the filter entry of scale t at row m and column 256·p + l:
  the four slabs of the block are the four scales, the row block the body reads is rows 256·p .. 256·p+255 of the
  matrix e, and the product contracts those rows against every row of e.  The eight blocks are the eight column
  bands of the array [4, 2048, 2048], so every entry is written by exactly the point n / 256 of its column n, and
  the array ends as the specification's filter of e and the scales.
-/
import proofs.«146850_j36850819399877_2_alg».proof.Proof.KI.R0
import proofs.«146850_j36850819399877_2_alg».proof.Proof.KI.P0
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.SL Idealize.SL.RA
open Idealize.ShloMosaic.Pipeline (Dat)

namespace Spectral

/-! ## The block the body leaves, as one function of its index -/

/-- Entry (m,l) of the slab of scale t, from the three blocks the body reads. -/
def slabAt (x0 : Vec Ideal S2048x2048 .bf16) (x1 : Vec Ideal S256x2048 .bf16) (x2 : Vec Ideal S4x2048 .f32)
    (t : Fin 4) (m : Fin 2048) (l : Fin 256) : EReal :=
  slabB x0 x1 (fun k => x2 (ix2 t k)) m l

/-- The whole output block: slab t at (m,l), for every (t,m,l). -/
def blockFn (x0 : Vec Ideal S2048x2048 .bf16) (x1 : Vec Ideal S256x2048 .bf16) (x2 : Vec Ideal S4x2048 .f32) :
    S4x2048x256.Idx → EReal :=
  fun y => slabAt x0 x1 x2 (y 0) (y 1) (y 2)

theorem hz2 : (![0, 0] : Fin 2 → Nat) = fun _ => 0 := funext fun a => by fin_cases a <;> rfl

/-- Entry (0,m,l) of the slab at offset t sits at (t,m,l) of the block. -/
theorem slab_emb (t : Fin 4) (off : Fin 3 → Nat) (hoff : off = ![t.val, 0, 0]) (inb) (u : Fin 1) (m : Fin 2048) (l : Fin 256) :
    (Rect.unit (s := S4x2048x256) off S1x2048x256.size inb).emb (ix3 u m l) = ix3 t m l := by
  subst hoff
  funext a; apply Fin.ext
  match a with
  | ⟨0, _⟩ => show t.val + 1 * u.val = t.val; omega
  | ⟨1, _⟩ => show 0 + 1 * m.val = m.val; omega
  | ⟨2, _⟩ => show 0 + 1 * l.val = l.val; omega

/-- The load of row t of the scale array reads that row. -/
theorem scale_row (x2 : Vec Ideal S4x2048 .f32) (t : Fin 4) (off : Fin 2 → Nat) (hoff : off = ![t.val, 0]) (inb) (k : Fin 2048) :
    View.ld x2 (Rect.unit (s := S4x2048) off S1x2048.size inb) (ix2 (0 : Fin 1) k) = x2 (ix2 t k) := by
  subst hoff
  refine congrArg x2 (funext fun a => Fin.ext ?_)
  match a with
  | ⟨0, _⟩ => show t.val + 1 * 0 = t.val; omega
  | ⟨1, _⟩ => show 0 + 1 * k.val = k.val; omega

/-- A slab computed from the whole-block loads and the load of scale row t is the slab of scale t. -/
theorem slab_of_loads (x0 : Vec Ideal S2048x2048 .bf16) (x1 : Vec Ideal S256x2048 .bf16) (x2 : Vec Ideal S4x2048 .f32)
    (t : Fin 4) (off : Fin 2 → Nat) (hoff : off = ![t.val, 0]) (inb) (m : Fin 2048) (l : Fin 256) :
    k0_pay7 (k0_pay5 (View.ld x0 r0_eig) (View.ld x1 r0_rows) (View.ld x2 (Rect.unit (s := S4x2048) off S1x2048.size inb)))
        (k0_pay6 (View.ld x0 r0_eig) (View.ld x1 r0_rows) (View.ld x2 (Rect.unit (s := S4x2048) off S1x2048.size inb)))
        (ix3 (0 : Fin 1) m l)
      = slabAt x0 x1 x2 t m l := by
  rw [slab_apply, View.ld_unit_zero (S := S2048x2048) hz2, View.ld_unit_zero (S := S256x2048) hz2]
  unfold slabAt
  simp only [scale_row x2 t off hoff inb]

/-- A piece of the block whose payload is the slab of scale t, stored at offset t, agrees with the block function. -/
theorem piece_eq (x0 : Vec Ideal S2048x2048 .bf16) (x1 : Vec Ideal S256x2048 .bf16) (x2 : Vec Ideal S4x2048 .f32)
    (t : Fin 4) (off : Fin 3 → Nat) (hoff : off = ![t.val, 0, 0]) (inb) (pay : Vec Ideal S1x2048x256 .bf16)
    (hpay : ∀ m l, pay (ix3 (0 : Fin 1) m l) = slabAt x0 x1 x2 t m l) (x : S1x2048x256.Idx) :
    pay x = blockFn x0 x1 x2 ((Rect.unit (s := S4x2048x256) off S1x2048x256.size inb).emb x) := by
  obtain ⟨u, m, l, rfl⟩ : ∃ (u : Fin 1) (m : Fin 2048) (l : Fin 256), x = ix3 u m l := ⟨x 0, x 1, x 2, eq_ix3 x⟩
  obtain rfl : u = 0 := Subsingleton.elim _ _
  rw [slab_emb t off hoff inb]
  exact hpay m l

/-- The overlay of the four slabs is the block function. -/
theorem out0_3_eq (x0 : Vec Ideal S2048x2048 .bf16) (x1 : Vec Ideal S256x2048 .bf16) (x2 : Vec Ideal S4x2048 .f32) :
    out0_3 x0 x1 x2 = blockFn x0 x1 x2 := by
  funext y
  unfold out0_3
  refine View.canon_apply_of_pieces (Val := Elt Ideal) (S := S4x2048x256) (e := .bf16) (blockFn x0 x1 x2) _ ?_ y (cover0_3 _ _ _ _ y)
  intro p hp
  simp only [List.mem_cons, List.not_mem_nil, or_false] at hp
  rcases hp with rfl | rfl | rfl | rfl
  · exact piece_eq x0 x1 x2 3 ![3, 0, 0] rfl inb_S4x2048x256_S1x2048x256_3_0_0 _ fun m l => by
      rw [slab3_eq]; exact slab_of_loads x0 x1 x2 3 ![3, 0] rfl inb_S4x2048_S1x2048_3_0 m l
  · exact piece_eq x0 x1 x2 2 ![2, 0, 0] rfl inb_S4x2048x256_S1x2048x256_2_0_0 _ fun m l => by
      rw [slab2_eq]; exact slab_of_loads x0 x1 x2 2 ![2, 0] rfl inb_S4x2048_S1x2048_2_0 m l
  · exact piece_eq x0 x1 x2 1 ![1, 0, 0] rfl inb_S4x2048x256_S1x2048x256_1_0_0 _ fun m l =>
      slab_of_loads x0 x1 x2 1 ![1, 0] rfl inb_S4x2048_S1x2048_1_0 m l
  · exact piece_eq x0 x1 x2 0 ![0, 0, 0] rfl inb_S4x2048x256_S1x2048x256_0_0_0 _ fun m l => by
      rw [slab0_eq]; exact slab_of_loads x0 x1 x2 0 ![0, 0] rfl inb_S4x2048_S1x2048_0_0 m l

/-- The block function is the band of the specification's filter that the block covers, once the three blocks are
    read off the arrays: e whole, rows 256·p.. of e, the scales whole. -/
theorem block_eq_filt (x0 : Vec Ideal S2048x2048 .bf16) (x1 : Vec Ideal S256x2048 .bf16) (x2 : Vec Ideal S4x2048 .f32)
    (e : Spec.A2 2048 2048) (s : Spec.A2 4 2048) (p : Nat)
    (h0 : ∀ (m k : Fin 2048), x0 (ix2 m k) = e (ix2 m k))
    (h1 : ∀ (l : Fin 256) (k n : Fin 2048), n.val = p * 256 + l.val → x1 (ix2 l k) = e (ix2 n k))
    (h2 : ∀ (t : Fin 4) (k : Fin 2048), x2 (ix2 t k) = s (ix2 t k))
    (y : S4x2048x256.Idx) (i : S4x2048x2048.Idx)
    (hi0 : (i 0).val = (y 0).val) (hi1 : (i 1).val = (y 1).val) (hi2 : (i 2).val = p * 256 + (y 2).val) :
    blockFn x0 x1 x2 y = Spec.filt e s i := by
  obtain ⟨t, m, l, rfl⟩ : ∃ (t : Fin 4) (m : Fin 2048) (l : Fin 256), y = ix3 t m l := ⟨y 0, y 1, y 2, eq_ix3 y⟩
  obtain ⟨t', m', n, rfl⟩ : ∃ (t' : Fin 4) (m' : Fin 2048) (n : Fin 2048), i = ix3 t' m' n := ⟨i 0, i 1, i 2, eq_ix3 i⟩
  obtain rfl : t' = t := Fin.ext hi0
  obtain rfl : m' = m := Fin.ext hi1
  exact slabB_eq_filtAt x0 x1 _ e s t' n l h0 (fun k => h1 l k n hi2) (fun k => h2 t' k) m'

/-! ## From the blocks to the array -/

section Region0
variable (V : (c : Dev nD) → (b : Ref sig .tc) → Buf (Elt Ideal) ((c : Thread nD τ).loc b))
variable (q : Fin cfg0.W → PosShare TreeShare)

/-- The printed index maps, decided over the grid: e and the scales stay at block (0,0); the row block of e moves
    down with the point; the output block moves along the last axis with the point. -/
theorem idx_facts0 : ∀ t : Fin cfg0.N,
    win0_0.index t (0 : Fin 2) = 0 ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 3) = 0 ∧ win0_3.index t (1 : Fin 3) = 0 ∧ win0_3.index t (2 : Fin 3) = t.val :=
  (by decide +kernel : ∀ t : Fin grid0.N, _)

/-- What point t writes back is block t of the specification's filter of the two arrays as the region finds them. -/
theorem flushed0_eq (c : Dev nD) (t : Fin cfg0.N) :
    (dat0 (F := Ideal) V q c).flushed 3 t
      = ((cfg0.win 3).blk t).view.read (Elt Ideal) (Spec.filt (V c main_v2) (V c main_v1)) := by
  show (cfg0.win 3).cut (grid0.coords t) ((dat0 (F := Ideal) V q c).after 3 t) = _
  rw [after0_3, out0_3_eq]
  obtain ⟨e00, e01, e10, e11, e20, e21, e30, e31, e32⟩ := idx_facts0 t
  funext y
  show blockFn (iblk0 V c 0 t) (iblk0 V c 1 t) (iblk0 V c 2 t) y
      = Spec.filt (V c main_v2) (V c main_v1) (((cfg0.win 3).blk t).view.emb y)
  refine block_eq_filt (iblk0 V c 0 t) (iblk0 V c 1 t) (iblk0 V c 2 t) (V c main_v2) (V c main_v1) t.val ?_ ?_ ?_ y _ ?_ ?_ ?_
  · -- the block of e is e
    intro m k
    show V c main_v2 (((cfg0.win 0).blk t).view.emb (ix2 m k)) = V c main_v2 (ix2 m k)
    refine congrArg (V c main_v2) (funext fun a => Fin.ext ?_)
    match a with
    | ⟨0, _⟩ => show win0_0.index t (0 : Fin 2) * 2048 + 1 * m.val = m.val; rw [e00]; omega
    | ⟨1, _⟩ => show win0_0.index t (1 : Fin 2) * 2048 + 1 * k.val = k.val; rw [e01]; omega
  · -- row l of the row block is row 256·t + l of e
    intro l k n hn
    show V c main_v2 (((cfg0.win 1).blk t).view.emb (ix2 l k)) = V c main_v2 (ix2 n k)
    refine congrArg (V c main_v2) (funext fun a => Fin.ext ?_)
    match a with
    | ⟨0, _⟩ => show win0_1.index t (0 : Fin 2) * 256 + 1 * l.val = n.val; rw [e10]; omega
    | ⟨1, _⟩ => show win0_1.index t (1 : Fin 2) * 2048 + 1 * k.val = k.val; rw [e11]; omega
  · -- the block of the scales is the scales
    intro t' k
    show V c main_v1 (((cfg0.win 2).blk t).view.emb (ix2 t' k)) = V c main_v1 (ix2 t' k)
    refine congrArg (V c main_v1) (funext fun a => Fin.ext ?_)
    match a with
    | ⟨0, _⟩ => show win0_2.index t (0 : Fin 2) * 4 + 1 * t'.val = t'.val; rw [e20]; omega
    | ⟨1, _⟩ => show win0_2.index t (1 : Fin 2) * 2048 + 1 * k.val = k.val; rw [e21]; omega
  · show win0_3.index t (0 : Fin 3) * 4 + 1 * (y 0).val = (y 0).val; rw [e30]; omega
  · show win0_3.index t (1 : Fin 3) * 2048 + 1 * (y 1).val = (y 1).val; rw [e31]; omega
  · show win0_3.index t (2 : Fin 3) * 256 + 1 * (y 2).val = t.val * 256 + (y 2).val; rw [e32]; omega

/-- An index of the array is in point t's block iff each coordinate is in the block's range on its axis. -/
theorem mem_blk0 (t : Fin cfg0.N) (i : S4x2048x2048.Idx) :
    i ∈ ((cfg0.win 3).blk t).view.set ↔ ∀ a : Fin 3, win0_3.index t a * S4x2048x256.size a ≤ (i a).val
      ∧ (i a).val < win0_3.index t a * S4x2048x256.size a + S4x2048x256.size a := by
  show i ∈ ((View.whole main_v3).slice (win0_3.rect t)).set ↔ _
  rw [View.set_slice_whole, Rect.mem_set_unit]
  exact Iff.rfl

/-- Every entry of the array is in the block of the point n / 256 of its column n, which writes it back. -/
theorem cover0 (i : S4x2048x2048.Idx) :
    ∃ t : Fin cfg0.N, (cfg0.win 3).flush t = true ∧ i ∈ ((cfg0.win 3).blk t).view.set := by
  have h0 : (i 0).val < 4 := (i 0).isLt
  have h1 : (i 1).val < 2048 := (i 1).isLt
  have h2 : (i 2).val < 2048 := (i 2).isLt
  have hN : grid0.N = 8 := N_0
  obtain ⟨t, ht⟩ : ∃ t : Fin cfg0.N, t.val = (i 2).val / 256 :=
    ⟨⟨(i 2).val / 256, by show (i 2).val / 256 < grid0.N; rw [hN]; omega⟩, rfl⟩
  obtain ⟨-, -, -, -, -, -, e30, e31, e32⟩ := idx_facts0 t
  refine ⟨t, flush0_3 t, ?_⟩
  rw [mem_blk0]
  intro a
  match a with
  | ⟨0, _⟩ =>
    show win0_3.index t (0 : Fin 3) * 4 ≤ (i 0).val ∧ (i 0).val < win0_3.index t (0 : Fin 3) * 4 + 4
    rw [e30]; omega
  | ⟨1, _⟩ =>
    show win0_3.index t (1 : Fin 3) * 2048 ≤ (i 1).val ∧ (i 1).val < win0_3.index t (1 : Fin 3) * 2048 + 2048
    rw [e31]; omega
  | ⟨2, _⟩ =>
    show win0_3.index t (2 : Fin 3) * 256 ≤ (i 2).val ∧ (i 2).val < win0_3.index t (2 : Fin 3) * 256 + 256
    rw [e32, ht]; omega

end Region0

end Spectral

section Region0
variable (V : (c : Dev nD) → (b : Ref sig .tc) → Buf (Elt Ideal) ((c : Thread nD τ).loc b))
variable (q : Fin cfg0.W → PosShare TreeShare)

/-- The filter array after the region is the specification's filter of the matrix and the scales. -/
theorem final0 (c : Dev nD) :
    ((dat0 (F := Ideal) V q c).arrAt 3 cfg0.N : S4x2048x2048.Idx → EReal) = Cert.Spec.filt (V c main_v2) (V c main_v1) :=
  (dat0 (F := Ideal) V q c).arrAt_eq_of_cover 3 (Spec.filt (V c main_v2) (V c main_v1))
    (fun t _ => Spectral.flushed0_eq V q c t) Spectral.cover0

end Region0

end Cert.KernelIdeal.Hand

end
-- ==== Proof.KI.V1.lean ====
/- The value of region 1 of @main at the exact (extended-real) reading of floats: after the region, the output
   array [4, 2048, 192] is the projected features,
       out(b, n, c) = Σ_d x(n, d) · W(b, d, c),
   as ONE function of the two input arrays x = main_v4 [2048, 768] and W = main_v5 [4, 768, 192] as the region finds
   them. Three steps: the body's stored value at an entry of its block is a plain sum (the contraction of a matrix
   product accumulated onto zero; casts and format changes do nothing to exact values); what grid point t writes
   back is therefore block t of that whole-array function, each input block being its array read where the output
   block's position says; and the 16 output blocks tile the array. -/
import proofs.«146850_j36850819399877_2_alg».proof.Proof.KI.R1
import proofs.«146850_j36850819399877_2_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

-- membership of an index in a rectangle with extents in the thousands is decided by a structural recursion
-- that goes one level deeper per coordinate of the long axes
set_option maxRecDepth 16384

noncomputable section

open Idealize.ShloMosaic Idealize.ShloMosaic.TcCoe Idealize.SL.Sem Idealize.ShloMosaic.ValueIdx
open Idealize.ShloMosaic.Pipeline (Dat)
open scoped BigOperators

namespace Cert.KernelIdeal.Hand

open Cert.KernelIdeal Cert.KernelIdeal.Gen

/-- Region 1's contraction: a [512,768] × [768,192] product, contracting axis 1 of the left operand with axis 0 of the right. -/
abbrev dotR1 : DotDims S512x768 S768x192 S512x192 := dot_S512x768_S768x192_S512x192_1_0_0_1_n_n

/-- At output entry (p, q) and contraction position d the left operand is read at (p, d) … -/
theorem dotR1_lhs (p : Fin 512) (q : Fin 192) (d : Fin 768) :
    dotR1.lhsIdx (ix2 p q) ((contrEquiv1 dotR1 768 rfl rfl).symm d) = ix2 p d := by
  funext a; apply Fin.ext
  match a with
  | ⟨0, _⟩ => simp [DotDims.lhsIdx, dotR1, dot_S512x768_S768x192_S512x192_1_0_0_1_n_n]; rfl
  | ⟨1, _⟩ => exact (dotR1.lhsIdx_val_of_single (cl := 1) rfl _ _).trans (contrEquiv1_symm_val dotR1 768 rfl rfl d)

/-- … and the right operand at (d, q). -/
theorem dotR1_rhs (p : Fin 512) (q : Fin 192) (d : Fin 768) :
    dotR1.rhsIdx (ix2 p q) ((contrEquiv1 dotR1 768 rfl rfl).symm d) = ix2 d q := by
  funext a; apply Fin.ext
  match a with
  | ⟨0, _⟩ => exact (dotR1.rhsIdx_val_of_single (cr := 0) rfl _ _).trans (contrEquiv1_symm_val dotR1 768 rfl rfl d)
  | ⟨1, _⟩ => simp [DotDims.rhsIdx, dotR1, dot_S512x768_S768x192_S512x192_1_0_0_1_n_n]; rfl

/-- The body's stored value at entry (0, p, q) of the output block: the plain sum Σ_d x0(p,d)·x1(0,d,q). The casts
    that drop and add the unit axis only rename indices, the change of float format is the identity on extended
    reals, and a product accumulated onto zero is the sum of the products. -/
theorem pay1_at (x0 : Vec Ideal S512x768 .bf16) (x1 : Vec Ideal S1x768x192 .bf16) (p : Fin 512) (q : Fin 192) :
    k1_pay1 (F := Ideal) x0 x1 (ix3 (0 : Fin 1) p q) = ∑ d : Fin 768, x0 (ix2 p d) * x1 (ix3 (0 : Fin 1) d q) := by
  unfold k1_pay1
  refine (shapeCast_addUnit_apply ![512, 192] _ _ _).trans ?_
  have hj : (fun a : Fin 2 => (ix3 (0 : Fin 1) p q) a.succ) = ix2 p q := funext fun a => by
    match a with | ⟨0, _⟩ => rfl | ⟨1, _⟩ => rfl
  rw [hj]
  refine (Ideal.matmul_constant_zero_apply dotR1 none _ _ (ix2 p q)).trans ?_
  refine (Equiv.sum_comp (contrEquiv1 dotR1 768 rfl rfl).symm _).symm.trans ?_
  refine Finset.sum_congr rfl fun d _ => ?_
  rw [dotR1_lhs, dotR1_rhs, shapeCast_self]
  refine congrArg (x0 (ix2 p d) * ·) ?_
  refine (shapeCast_dropUnit_apply ![768, 192] x1 _ (ix2 d q)).trans (congrArg x1 ?_)
  funext a
  match a with | ⟨0, _⟩ => rfl | ⟨1, _⟩ => rfl | ⟨2, _⟩ => rfl

variable (V : (c : Dev nD) → (b : Ref sig .tc) → Buf (Elt Ideal) ((c : Thread nD τ).loc b))

theorem offZero2_1 : (![0, 0] : Fin 2 → Nat) = fun _ => 0 := funext fun a => by fin_cases a <;> rfl
theorem offZero3_1 : (![0, 0, 0] : Fin 3 → Nat) = fun _ => 0 := funext fun a => by fin_cases a <;> rfl

/-- The three windows' index maps over the 4×4 grid, decided: the output's block index is (b, r, 0) with b, r ≤ 3;
    the left matrix's is (r, 0); the right matrix's is (b, 0, 0). -/
theorem idx_facts1 : ∀ t : Fin cfg1.N,
    win1_0.index t (0 : Fin 2) = win1_2.index t (1 : Fin 3) ∧ win1_0.index t (1 : Fin 2) = 0
    ∧ win1_1.index t (0 : Fin 3) = win1_2.index t (0 : Fin 3) ∧ win1_1.index t (1 : Fin 3) = 0 ∧ win1_1.index t (2 : Fin 3) = 0
    ∧ win1_2.index t (2 : Fin 3) = 0 ∧ win1_2.index t (0 : Fin 3) ≤ 3 ∧ win1_2.index t (1 : Fin 3) ≤ 3 :=
  (by decide +kernel : ∀ t : Fin grid1.N, _)

/-- Every pair (b, r) is some point's output block index. -/
theorem idx_onto1 : ∀ (q0 : Fin 4) (q1 : Fin 4), ∃ t : Fin cfg1.N, win1_2.index t = ![q0.val, q1.val, 0] :=
  (by decide +kernel : ∀ (q0 : Fin 4) (q1 : Fin 4), ∃ t : Fin grid1.N, win1_2.index t = ![q0.val, q1.val, 0])

/-- What point `t` writes back is block `t` of the projected features x·W_b as one whole-array function. -/
theorem flushed1_eq (c : Dev nD) (t : Fin cfg1.N) :
    (dat1 (F := Ideal) V c).flushed 2 t = ((cfg1.win 2).blk t).view.read (Elt Ideal) (Cert.Spec.proj (V c main_v4) (V c main_v5)) := by
  show (cfg1.win 2).cut (grid1.coords t) ((dat1 V c).after 2 t) = _
  rw [after1_2]
  unfold out1_2
  rw [View.canon_unit_zero offZero3_1]
  simp only [View.ld_unit_zero (S := S512x768) offZero2_1, View.ld_unit_zero (S := S1x768x192) offZero3_1]
  obtain ⟨e0, e1, e2, e3, e4, e5, e6, e7⟩ := idx_facts1 t
  funext (j : S1x512x192.Idx)
  obtain ⟨z, p, q, rfl⟩ : ∃ (z : Fin 1) (p : Fin 512) (q : Fin 192), j = ix3 z p q := ⟨j 0, j 1, j 2, eq_ix3 j⟩
  obtain rfl : z = 0 := Subsingleton.elim _ _
  show k1_pay1 (F := Ideal) (iblk1 V c 0 t) (iblk1 V c 1 t) (ix3 (0 : Fin 1) p q) = Cert.Spec.proj (V c main_v4) (V c main_v5) (((cfg1.win 2).blk t).view.emb (ix3 (0 : Fin 1) p q))
  refine (pay1_at (iblk1 V c 0 t) (iblk1 V c 1 t) p q).trans ?_
  unfold Cert.Spec.proj Cert.Spec.projAt
  refine Finset.sum_congr rfl fun d _ => ?_
  refine congrArg₂ (· * ·) ?_ ?_
  · show V c main_v4 (((cfg1.win 0).blk t).view.emb (ix2 p d)) = V c main_v4 _
    refine congrArg (V c main_v4) ?_
    funext a; apply Fin.ext
    match a with
    | ⟨0, _⟩ => show win1_0.index t (0 : Fin 2) * 512 + 1 * p.val = win1_2.index t (1 : Fin 3) * 512 + 1 * p.val; omega
    | ⟨1, _⟩ => show win1_0.index t (1 : Fin 2) * 768 + 1 * d.val = d.val; omega
  · show V c main_v5 (((cfg1.win 1).blk t).view.emb (ix3 (0 : Fin 1) d q)) = V c main_v5 _
    refine congrArg (V c main_v5) ?_
    funext a; apply Fin.ext
    match a with
    | ⟨0, _⟩ => show win1_1.index t (0 : Fin 3) * 1 + 1 * 0 = win1_2.index t (0 : Fin 3) * 1 + 1 * 0; omega
    | ⟨1, _⟩ => show win1_1.index t (1 : Fin 3) * 768 + 1 * d.val = d.val; omega
    | ⟨2, _⟩ => show win1_1.index t (2 : Fin 3) * 192 + 1 * q.val = win1_2.index t (2 : Fin 3) * 192 + 1 * q.val; omega

/-- An index of the output array lies in point `t`'s block iff each coordinate lies in the block's range on its axis. -/
theorem mem_blk1 (t : Fin cfg1.N) (i : S4x2048x192.Idx) :
    i ∈ ((cfg1.win 2).blk t).view.set ↔ ∀ a : Fin 3, win1_2.index t a * S1x512x192.size a ≤ (i a).val ∧ (i a).val < win1_2.index t a * S1x512x192.size a + S1x512x192.size a := by
  show i ∈ ((View.whole main_v6).slice (win1_2.rect t)).set ↔ _
  rw [View.set_slice_whole, Rect.mem_set_unit]
  exact Iff.rfl

/-- The 16 blocks tile the output array: entry (b, n, c) lies in the block of the point with index (b, n / 512, 0). -/
theorem cover1 (i : S4x2048x192.Idx) : ∃ t : Fin cfg1.N, (cfg1.win 2).flush t = true ∧ i ∈ ((cfg1.win 2).blk t).view.set := by
  have hi0 : (i 0).val < 4 := (i 0).isLt
  have hi1 : (i 1).val < 2048 := (i 1).isLt
  have hi2 : (i 2).val < 192 := (i 2).isLt
  obtain ⟨t, ht⟩ := idx_onto1 ⟨(i 0).val, hi0⟩ ⟨(i 1).val / 512, by omega⟩
  have q0 : win1_2.index t (0 : Fin 3) = (i 0).val := congrFun ht 0
  have q1 : win1_2.index t (1 : Fin 3) = (i 1).val / 512 := congrFun ht 1
  have q2 : win1_2.index t (2 : Fin 3) = 0 := congrFun ht 2
  refine ⟨t, flush1_2 t, ?_⟩
  rw [mem_blk1]
  intro a
  match a with
  | ⟨0, _⟩ => show win1_2.index t (0 : Fin 3) * 1 ≤ (i 0).val ∧ (i 0).val < win1_2.index t (0 : Fin 3) * 1 + 1; omega
  | ⟨1, _⟩ => show win1_2.index t (1 : Fin 3) * 512 ≤ (i 1).val ∧ (i 1).val < win1_2.index t (1 : Fin 3) * 512 + 512; omega
  | ⟨2, _⟩ => show win1_2.index t (2 : Fin 3) * 192 ≤ (i 2).val ∧ (i 2).val < win1_2.index t (2 : Fin 3) * 192 + 192; omega

/-- The output array after region 1 is the projected features, as one function of the two input arrays at entry. -/
theorem final1 (c : Dev nD) : ((dat1 (F := Ideal) V c).arrAt 2 cfg1.N : S4x2048x192.Idx → EReal) = Cert.Spec.proj (V c main_v4) (V c main_v5) :=
  (dat1 (F := Ideal) V c).arrAt_eq_of_cover 2 (Cert.Spec.proj (V c main_v4) (V c main_v5)) (fun t _ => flushed1_eq V c t) cover1

end Cert.KernelIdeal.Hand

end
-- ==== Proof.KI.V2.lean ====
/- The value of region 2 of @main at the exact (extended-real) reading of floats: after the region, the output
   array [4, 2048, 192] is the twice-propagated features,
       out(s, j, c) = Σ_i F(s, i, j) · max( Σ_r F(s, r, i) · y(s, r, c) + b(s, 0, c), 0 ),
   as ONE function of the three input arrays F = main_v3 [4, 2048, 2048] (the filters), y = main_v6 [4, 2048, 192]
   (the projected features) and b = main_v7 [4, 1, 192] (the bias rows) as the region finds them. Both products
   contract the FIRST axis of the filter, i.e. they apply its transpose. Three steps: the body's stored value at an
   entry of its block is that double sum of the blocks' entries (each product accumulated onto zero is a plain sum;
   casts, the row broadcast and format changes do nothing to exact values); what grid point t writes back is
   therefore block t of the whole-array function, each input block being its array read at the point's scale; and
   the 4 output blocks tile the array. -/
import proofs.«146850_j36850819399877_2_alg».proof.Proof.KI.R2
import proofs.«146850_j36850819399877_2_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

-- membership of an index in a rectangle with extents in the thousands is decided by a structural recursion
-- that goes one level deeper per coordinate of the long axes
set_option maxRecDepth 16384

noncomputable section

open Idealize.ShloMosaic Idealize.ShloMosaic.TcCoe Idealize.SL.Sem Idealize.ShloMosaic.ValueIdx
open Idealize.ShloMosaic.Pipeline (Dat)
open scoped BigOperators

namespace Cert.KernelIdeal.Hand

open Cert.KernelIdeal Cert.KernelIdeal.Gen

/-- Region 2's contraction: a [2048,2048] × [2048,192] product contracting axis 0 of BOTH operands, i.e. the
    transposed left matrix times the right one: (Fᵀ·y)(j, c) = Σ_i F(i, j)·y(i, c). -/
abbrev dotR2 : DotDims S2048x2048 S2048x192 S2048x192 := dot_S2048x2048_S2048x192_S2048x192_0_0_1_1_n_n

/-- At output entry (j, c) and contraction position i the left operand is read at (i, j) … -/
theorem dotR2_lhs (j : Fin 2048) (c : Fin 192) (i : Fin 2048) :
    dotR2.lhsIdx (ix2 j c) ((contrEquiv1 dotR2 2048 rfl rfl).symm i) = ix2 i j := by
  funext a; apply Fin.ext
  match a with
  | ⟨0, _⟩ => exact (dotR2.lhsIdx_val_of_single (cl := 0) rfl _ _).trans (contrEquiv1_symm_val dotR2 2048 rfl rfl i)
  | ⟨1, _⟩ => simp [DotDims.lhsIdx, dotR2, dot_S2048x2048_S2048x192_S2048x192_0_0_1_1_n_n]; rfl

/-- … and the right operand at (i, c). -/
theorem dotR2_rhs (j : Fin 2048) (c : Fin 192) (i : Fin 2048) :
    dotR2.rhsIdx (ix2 j c) ((contrEquiv1 dotR2 2048 rfl rfl).symm i) = ix2 i c := by
  funext a; apply Fin.ext
  match a with
  | ⟨0, _⟩ => exact (dotR2.rhsIdx_val_of_single (cr := 0) rfl _ _).trans (contrEquiv1_symm_val dotR2 2048 rfl rfl i)
  | ⟨1, _⟩ => simp [DotDims.rhsIdx, dotR2, dot_S2048x2048_S2048x192_S2048x192_0_0_1_1_n_n]; rfl

/-- The transposed product accumulated onto zero, at entry (j, c), for ANY left and right operands: Σ_i L(i,j)·R(i,c). -/
theorem tmatmul2_at (L : FVec Ideal S2048x2048 .bf16) (R : FVec Ideal S2048x192 .bf16) (j : Fin 2048) (c : Fin 192) :
    matmul (F := Ideal) dotR2 none L R (constant (F := Ideal) S2048x192 .f32 0x00000000#32) (ix2 j c) = ∑ i : Fin 2048, L (ix2 i j) * R (ix2 i c) := by
  refine (Ideal.matmul_constant_zero_apply dotR2 none L R (ix2 j c)).trans ?_
  refine (Equiv.sum_comp (contrEquiv1 dotR2 2048 rfl rfl).symm _).symm.trans ?_
  refine Finset.sum_congr rfl fun i _ => ?_
  rw [dotR2_lhs, dotR2_rhs]

/-- The body's stored value at entry (0, j, c) of the output block, from the filter block x0, the feature block x1
    and the bias row x2: Σ_i x0(0,i,j) · max(Σ_r x0(0,r,i)·x1(0,r,c) + x2(0,0,c), 0), the zero being the literal's
    word. Casts only rename indices, format changes are the identity on extended reals, the row broadcast reads the
    one row, and each transposed product accumulated onto zero is the plain sum. -/
theorem pay2_at (x0 : Vec Ideal S1x2048x2048 .bf16) (x1 : Vec Ideal S1x2048x192 .bf16) (x2 : Vec Ideal S1x1x192 .f32) (j : Fin 2048) (c : Fin 192) :
    k2_pay1 (F := Ideal) x0 x1 x2 (ix3 (0 : Fin 1) j c)
      = ∑ i : Fin 2048, x0 (ix3 (0 : Fin 1) i j) * max ((∑ r : Fin 2048, x0 (ix3 (0 : Fin 1) r i) * x1 (ix3 (0 : Fin 1) r c)) + x2 (ix3 (0 : Fin 1) (0 : Fin 1) c)) (Ideal.ofBits .f32 0x00000000#32) := by
  unfold k2_pay1
  refine (shapeCast_ab_1ab_apply _ _ 0 j c).trans ?_
  refine (tmatmul2_at _ _ j c).trans ?_
  refine Finset.sum_congr rfl fun i _ => ?_
  refine congrArg₂ (· * ·) (shapeCast_1ab_ab_apply x0 _ i j) ?_
  show max (matmul (F := Ideal) dotR2 none _ _ _ (ix2 i c) + broadcastTo S2048x192 _ _ (ix2 i c)) (Ideal.ofBits .f32 0x00000000#32) = _
  refine congrArg₂ max (congrArg₂ (· + ·) ?_ ?_) rfl
  · refine (tmatmul2_at _ _ i c).trans ?_
    refine Finset.sum_congr rfl fun r _ => ?_
    exact congrArg₂ (· * ·) (shapeCast_1ab_ab_apply x0 _ r i) (shapeCast_1ab_ab_apply x1 _ r c)
  · refine (broadcastTo_1b_ab_apply _ _ i c).trans ?_
    exact shapeCast_1ab_ab_apply x2 _ 0 c

variable (V : (c : Dev nD) → (b : Ref sig .tc) → Buf (Elt Ideal) ((c : Thread nD τ).loc b))

theorem offZero3_2 : (![0, 0, 0] : Fin 3 → Nat) = fun _ => 0 := funext fun a => by fin_cases a <;> rfl

/-- The four windows' index maps over the grid of 4 points, decided: every window's block index is (s, 0, 0) with
    the same s ≤ 3 (the point's scale). -/
theorem idx_facts2 : ∀ t : Fin cfg2.N,
    win2_0.index t (0 : Fin 3) = win2_3.index t (0 : Fin 3) ∧ win2_0.index t (1 : Fin 3) = 0 ∧ win2_0.index t (2 : Fin 3) = 0
    ∧ win2_1.index t (0 : Fin 3) = win2_3.index t (0 : Fin 3) ∧ win2_1.index t (1 : Fin 3) = 0 ∧ win2_1.index t (2 : Fin 3) = 0
    ∧ win2_2.index t (0 : Fin 3) = win2_3.index t (0 : Fin 3) ∧ win2_2.index t (1 : Fin 3) = 0 ∧ win2_2.index t (2 : Fin 3) = 0
    ∧ win2_3.index t (1 : Fin 3) = 0 ∧ win2_3.index t (2 : Fin 3) = 0 ∧ win2_3.index t (0 : Fin 3) ≤ 3 :=
  (by decide +kernel : ∀ t : Fin grid2.N, _)

/-- Every scale s is some point's output block index. -/
theorem idx_onto2 : ∀ (q0 : Fin 4), ∃ t : Fin cfg2.N, win2_3.index t = ![q0.val, 0, 0] :=
  (by decide +kernel : ∀ (q0 : Fin 4), ∃ t : Fin grid2.N, win2_3.index t = ![q0.val, 0, 0])

/-- What point `t` writes back is block `t` of the twice-propagated features as one whole-array function. -/
theorem flushed2_eq (c : Dev nD) (t : Fin cfg2.N) :
    (dat2 (F := Ideal) V c).flushed 3 t = ((cfg2.win 3).blk t).view.read (Elt Ideal) (Cert.Spec.prop (V c main_v3) (V c main_v6) (V c main_v7)) := by
  show (cfg2.win 3).cut (grid2.coords t) ((dat2 V c).after 3 t) = _
  rw [after2_3]
  unfold out2_3
  rw [View.canon_unit_zero offZero3_2]
  simp only [View.ld_unit_zero (S := S1x2048x2048) offZero3_2, View.ld_unit_zero (S := S1x2048x192) offZero3_2, View.ld_unit_zero (S := S1x1x192) offZero3_2]
  obtain ⟨e0, e1, e2, e3, e4, e5, e6, e7, e8, e9, e10, e11⟩ := idx_facts2 t
  funext (j : S1x2048x192.Idx)
  obtain ⟨z, p, q, rfl⟩ : ∃ (z : Fin 1) (p : Fin 2048) (q : Fin 192), j = ix3 z p q := ⟨j 0, j 1, j 2, eq_ix3 j⟩
  obtain rfl : z = 0 := Subsingleton.elim _ _
  show k2_pay1 (F := Ideal) (iblk2 V c 0 t) (iblk2 V c 1 t) (iblk2 V c 2 t) (ix3 (0 : Fin 1) p q) = Cert.Spec.prop (V c main_v3) (V c main_v6) (V c main_v7) (((cfg2.win 3).blk t).view.emb (ix3 (0 : Fin 1) p q))
  refine (pay2_at (iblk2 V c 0 t) (iblk2 V c 1 t) (iblk2 V c 2 t) p q).trans ?_
  unfold Cert.Spec.prop Cert.Spec.propAt Cert.Spec.hidAt Cert.Spec.zero
  refine Finset.sum_congr rfl fun i _ => ?_
  refine congrArg₂ (· * ·) ?_ (congrArg₂ max (congrArg₂ (· + ·) (Finset.sum_congr rfl fun r _ => congrArg₂ (· * ·) ?_ ?_) ?_) rfl)
  · show V c main_v3 (((cfg2.win 0).blk t).view.emb (ix3 (0 : Fin 1) i p)) = V c main_v3 _
    refine congrArg (V c main_v3) ?_
    funext a; apply Fin.ext
    match a with
    | ⟨0, _⟩ => show win2_0.index t (0 : Fin 3) * 1 + 1 * 0 = win2_3.index t (0 : Fin 3) * 1 + 1 * 0; omega
    | ⟨1, _⟩ => show win2_0.index t (1 : Fin 3) * 2048 + 1 * i.val = i.val; omega
    | ⟨2, _⟩ => show win2_0.index t (2 : Fin 3) * 2048 + 1 * p.val = win2_3.index t (1 : Fin 3) * 2048 + 1 * p.val; omega
  · show V c main_v3 (((cfg2.win 0).blk t).view.emb (ix3 (0 : Fin 1) r i)) = V c main_v3 _
    refine congrArg (V c main_v3) ?_
    funext a; apply Fin.ext
    match a with
    | ⟨0, _⟩ => show win2_0.index t (0 : Fin 3) * 1 + 1 * 0 = win2_3.index t (0 : Fin 3) * 1 + 1 * 0; omega
    | ⟨1, _⟩ => show win2_0.index t (1 : Fin 3) * 2048 + 1 * r.val = r.val; omega
    | ⟨2, _⟩ => show win2_0.index t (2 : Fin 3) * 2048 + 1 * i.val = i.val; omega
  · show V c main_v6 (((cfg2.win 1).blk t).view.emb (ix3 (0 : Fin 1) r q)) = V c main_v6 _
    refine congrArg (V c main_v6) ?_
    funext a; apply Fin.ext
    match a with
    | ⟨0, _⟩ => show win2_1.index t (0 : Fin 3) * 1 + 1 * 0 = win2_3.index t (0 : Fin 3) * 1 + 1 * 0; omega
    | ⟨1, _⟩ => show win2_1.index t (1 : Fin 3) * 2048 + 1 * r.val = r.val; omega
    | ⟨2, _⟩ => show win2_1.index t (2 : Fin 3) * 192 + 1 * q.val = win2_3.index t (2 : Fin 3) * 192 + 1 * q.val; omega
  · show V c main_v7 (((cfg2.win 2).blk t).view.emb (ix3 (0 : Fin 1) (0 : Fin 1) q)) = V c main_v7 _
    refine congrArg (V c main_v7) ?_
    funext a; apply Fin.ext
    match a with
    | ⟨0, _⟩ => show win2_2.index t (0 : Fin 3) * 1 + 1 * 0 = win2_3.index t (0 : Fin 3) * 1 + 1 * 0; omega
    | ⟨1, _⟩ => show win2_2.index t (1 : Fin 3) * 1 + 1 * 0 = 0; omega
    | ⟨2, _⟩ => show win2_2.index t (2 : Fin 3) * 192 + 1 * q.val = win2_3.index t (2 : Fin 3) * 192 + 1 * q.val; omega

/-- An index of the output array lies in point `t`'s block iff each coordinate lies in the block's range on its axis. -/
theorem mem_blk2 (t : Fin cfg2.N) (i : S4x2048x192.Idx) :
    i ∈ ((cfg2.win 3).blk t).view.set ↔ ∀ a : Fin 3, win2_3.index t a * S1x2048x192.size a ≤ (i a).val ∧ (i a).val < win2_3.index t a * S1x2048x192.size a + S1x2048x192.size a := by
  show i ∈ ((View.whole main_v8).slice (win2_3.rect t)).set ↔ _
  rw [View.set_slice_whole, Rect.mem_set_unit]
  exact Iff.rfl

/-- The 4 blocks tile the output array: entry (s, n, c) lies in the block of the point with index (s, 0, 0). -/
theorem cover2 (i : S4x2048x192.Idx) : ∃ t : Fin cfg2.N, (cfg2.win 3).flush t = true ∧ i ∈ ((cfg2.win 3).blk t).view.set := by
  have hi0 : (i 0).val < 4 := (i 0).isLt
  have hi1 : (i 1).val < 2048 := (i 1).isLt
  have hi2 : (i 2).val < 192 := (i 2).isLt
  obtain ⟨t, ht⟩ := idx_onto2 ⟨(i 0).val, hi0⟩
  have q0 : win2_3.index t (0 : Fin 3) = (i 0).val := congrFun ht 0
  have q1 : win2_3.index t (1 : Fin 3) = 0 := congrFun ht 1
  have q2 : win2_3.index t (2 : Fin 3) = 0 := congrFun ht 2
  refine ⟨t, flush2_3 t, ?_⟩
  rw [mem_blk2]
  intro a
  match a with
  | ⟨0, _⟩ => show win2_3.index t (0 : Fin 3) * 1 ≤ (i 0).val ∧ (i 0).val < win2_3.index t (0 : Fin 3) * 1 + 1; omega
  | ⟨1, _⟩ => show win2_3.index t (1 : Fin 3) * 2048 ≤ (i 1).val ∧ (i 1).val < win2_3.index t (1 : Fin 3) * 2048 + 2048; omega
  | ⟨2, _⟩ => show win2_3.index t (2 : Fin 3) * 192 ≤ (i 2).val ∧ (i 2).val < win2_3.index t (2 : Fin 3) * 192 + 192; omega

/-- The output array after region 2 is the twice-propagated features, as one function of the three input arrays at entry. -/
theorem final2 (c : Dev nD) : ((dat2 (F := Ideal) V c).arrAt 3 cfg2.N : S4x2048x192.Idx → EReal) = Cert.Spec.prop (V c main_v3) (V c main_v6) (V c main_v7) :=
  (dat2 (F := Ideal) V c).arrAt_eq_of_cover 3 (Cert.Spec.prop (V c main_v3) (V c main_v6) (V c main_v7)) (fun t _ => flushed2_eq V c t) cover2

end Cert.KernelIdeal.Hand

end
-- ==== Proof.KI.V3a.lean ====
/- The fusion region, what its accumulator holds point by point, for any float instance: each control case's found
   pieces read back as the body's payload terms (the zero block; accumulator + product; max(accumulator + bias, 0)), so
   that the accumulator after point n is a chain of the accumulate step from the zero block at the last point with
   inner coordinate 0, and the block stored at inner coordinate 3 is the epilogue of that chain. -/
import proofs.«146850_j36850819399877_2_alg».proof.Proof.KI.R3
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic Idealize.SL.Sem
open Idealize.ShloMosaic.Pipeline (Dat)

variable {F : FTy → Type} [FloatOps F]

theorem zeroOff2_r3 : (![0, 0] : Fin 2 → Nat) = fun _ => 0 := funext fun a => by fin_cases a <;> rfl
theorem zeroOff3_r3 : (![0, 0, 0] : Fin 3 → Nat) = fun _ => 0 := funext fun a => by fin_cases a <;> rfl

/-! ## The cases' values -/

/-- CASE B leaves, in the accumulator holding `xs0`, the accumulate step of `xs0` and the two operand blocks: its one
    covering store's payload, whose loads read the whole buffers. -/
theorem sout3_B_eq (c : Dev nD) (i : grid3.Coords) (arg2 : Memref sig .tc .vmem S1x1024x192 .bf16) (harg2 : arg2.IsWhole)
    (arg3 : Memref sig .tc .vmem S1x192x768 .bf16) (harg3 : arg3.IsWhole)
    (arg4 : Memref sig .tc .vmem S1x768 .f32) (harg4 : arg4.IsWhole)
    (arg5 : Memref sig .tc .vmem S1024x768 .f32) (harg5 : arg5.IsWhole)
    (arg6 : Memref sig .tc .vmem S1024x768 .f32) (harg6 : arg6.IsWhole) (hc0 : ¬cond3_0 i) (hc1 : ¬cond3_1 i)
    (x0 : Vec F S1x1024x192 .bf16) (x1 : Vec F S1x192x768 .bf16) (x2 : Vec F S1x768 .f32) (xs0 : Vec F S1024x768 .f32) :
    sout3_B c i arg2 harg2 arg3 harg3 arg4 harg4 arg5 harg5 arg6 harg6 hc0 hc1 x0 x1 x2 xs0 = k3_pay2 xs0 x0 x1 := by
  unfold sout3_B
  rw [View.read_writes_eq_canon _ _ _ (scover3_B c i arg2 harg2 arg3 harg3 arg4 harg4 arg5 harg5 arg6 harg6 hc0 hc1 x0 x1 x2 xs0)]
  unfold kernelRun3_B
  dsimp only
  rw [View.canon_unit_zero zeroOff2_r3]
  simp only [View.readAt_eq_ld, harg2.read_unread, harg3.read_unread, harg6.read_unread,
    View.ld_unit_zero (S := S1024x768) zeroOff2_r3, View.ld_unit_zero (S := S1x1024x192) zeroOff3_r3, View.ld_unit_zero (S := S1x192x768) zeroOff3_r3]

/-- CASE A stores the zero block, reads it back, and leaves the accumulate step of the zero block. -/
theorem sout3_A_eq (c : Dev nD) (i : grid3.Coords) (arg2 : Memref sig .tc .vmem S1x1024x192 .bf16) (harg2 : arg2.IsWhole)
    (arg3 : Memref sig .tc .vmem S1x192x768 .bf16) (harg3 : arg3.IsWhole)
    (arg4 : Memref sig .tc .vmem S1x768 .f32) (harg4 : arg4.IsWhole)
    (arg5 : Memref sig .tc .vmem S1024x768 .f32) (harg5 : arg5.IsWhole)
    (arg6 : Memref sig .tc .vmem S1024x768 .f32) (harg6 : arg6.IsWhole) (hc0 : cond3_0 i) (hc1 : ¬cond3_1 i)
    (x0 : Vec F S1x1024x192 .bf16) (x1 : Vec F S1x192x768 .bf16) (x2 : Vec F S1x768 .f32) :
    sout3_A c i arg2 harg2 arg3 harg3 arg4 harg4 arg5 harg5 arg6 harg6 hc0 hc1 x0 x1 x2 = k3_pay2 (k3_pay1 (F := F)) x0 x1 := by
  unfold sout3_A
  rw [View.read_writes_eq_canon _ _ _ (scover3_A c i arg2 harg2 arg3 harg3 arg4 harg4 arg5 harg5 arg6 harg6 hc0 hc1 x0 x1 x2)]
  unfold kernelRun3_A
  dsimp only
  sl_unfold_words
  rw [View.canon_cons_unit_zero (S := S1024x768) zeroOff2_r3, View.readCov_unit_zero (S := S1024x768) _ zeroOff2_r3]
  simp only [View.readAt_eq_ld, harg2.read_unread, harg3.read_unread,
    View.ld_unit_zero (S := S1024x768) zeroOff2_r3, View.ld_unit_zero (S := S1x1024x192) zeroOff3_r3, View.ld_unit_zero (S := S1x192x768) zeroOff3_r3]

/-- CASE C leaves the same accumulate step in the accumulator … -/
theorem sout3_C_eq (c : Dev nD) (i : grid3.Coords) (arg2 : Memref sig .tc .vmem S1x1024x192 .bf16) (harg2 : arg2.IsWhole)
    (arg3 : Memref sig .tc .vmem S1x192x768 .bf16) (harg3 : arg3.IsWhole)
    (arg4 : Memref sig .tc .vmem S1x768 .f32) (harg4 : arg4.IsWhole)
    (arg5 : Memref sig .tc .vmem S1024x768 .f32) (harg5 : arg5.IsWhole)
    (arg6 : Memref sig .tc .vmem S1024x768 .f32) (harg6 : arg6.IsWhole) (hc0 : ¬cond3_0 i) (hc1 : cond3_1 i)
    (x0 : Vec F S1x1024x192 .bf16) (x1 : Vec F S1x192x768 .bf16) (x2 : Vec F S1x768 .f32) (xs0 : Vec F S1024x768 .f32) :
    sout3_C c i arg2 harg2 arg3 harg3 arg4 harg4 arg5 harg5 arg6 harg6 hc0 hc1 x0 x1 x2 xs0 = k3_pay2 xs0 x0 x1 := by
  unfold sout3_C
  rw [View.read_writes_eq_canon _ _ _ (scover3_C c i arg2 harg2 arg3 harg3 arg4 harg4 arg5 harg5 arg6 harg6 hc0 hc1 x0 x1 x2 xs0)]
  unfold kernelRun3_C
  dsimp only
  sl_unfold_words
  rw [View.canon_unit_zero zeroOff2_r3]
  simp only [View.readAt_eq_ld, harg2.read_unread, harg3.read_unread, harg6.read_unread,
    View.ld_unit_zero (S := S1024x768) zeroOff2_r3, View.ld_unit_zero (S := S1x1024x192) zeroOff3_r3, View.ld_unit_zero (S := S1x192x768) zeroOff3_r3]

/-- … and stores into the output block the epilogue of it and the bias row. -/
theorem out3_C_eq (c : Dev nD) (i : grid3.Coords) (arg2 : Memref sig .tc .vmem S1x1024x192 .bf16) (harg2 : arg2.IsWhole)
    (arg3 : Memref sig .tc .vmem S1x192x768 .bf16) (harg3 : arg3.IsWhole)
    (arg4 : Memref sig .tc .vmem S1x768 .f32) (harg4 : arg4.IsWhole)
    (arg5 : Memref sig .tc .vmem S1024x768 .f32) (harg5 : arg5.IsWhole)
    (arg6 : Memref sig .tc .vmem S1024x768 .f32) (harg6 : arg6.IsWhole) (hc0 : ¬cond3_0 i) (hc1 : cond3_1 i)
    (x0 : Vec F S1x1024x192 .bf16) (x1 : Vec F S1x192x768 .bf16) (x2 : Vec F S1x768 .f32) (xs0 : Vec F S1024x768 .f32) :
    out3_C c i arg2 harg2 arg3 harg3 arg4 harg4 arg5 harg5 arg6 harg6 hc0 hc1 x0 x1 x2 xs0 = k3_pay3 (k3_pay2 xs0 x0 x1) x2 := by
  unfold out3_C
  rw [View.read_writes_eq_canon _ _ _ (cover3_C c i arg2 harg2 arg3 harg3 arg4 harg4 arg5 harg5 arg6 harg6 hc0 hc1 x0 x1 x2 xs0)]
  unfold kernelRun3_C
  dsimp only
  sl_unfold_words
  rw [View.canon_unit_zero zeroOff2_r3, View.readCov_unit_zero (S := S1024x768) _ zeroOff2_r3]
  simp only [View.readAt_eq_ld, harg2.read_unread, harg3.read_unread, harg4.read_unread, harg6.read_unread,
    View.ld_unit_zero (S := S1024x768) zeroOff2_r3, View.ld_unit_zero (S := S1x1024x192) zeroOff3_r3, View.ld_unit_zero (S := S1x192x768) zeroOff3_r3,
    View.ld_unit_zero (S := S1x768) zeroOff2_r3]

/-! ## The accumulator as a chain -/

section Regions
variable (V : (c : Dev nD) → (b : Ref sig .tc) → Buf (Elt F) ((c : Thread nD τ).loc b))

/-- The accumulator after point `n`: the accumulate step of the point's two operand blocks, from the zero block where
    the inner coordinate is 0, else from the accumulator after the point before. -/
def acc3 (c : Dev nD) : (n : ℕ) → n < cfg3.N → Vec F S1024x768 .f32
  | 0, h => k3_pay2 (k3_pay1 (F := F)) (iblk3 V c 0 ⟨0, h⟩) (iblk3 V c 1 ⟨0, h⟩)
  | n + 1, h =>
    if (n + 1) % 4 = 0 then k3_pay2 (k3_pay1 (F := F)) (iblk3 V c 0 ⟨n + 1, h⟩) (iblk3 V c 1 ⟨n + 1, h⟩)
    else k3_pay2 (acc3 c n (Nat.lt_of_succ_lt h)) (iblk3 V c 0 ⟨n + 1, h⟩) (iblk3 V c 1 ⟨n + 1, h⟩)

/-- The chain at a point with inner coordinate 0 starts afresh from the zero block … -/
theorem acc3_reset (c : Dev nD) (t : Fin cfg3.N) (h0 : t.val % 4 = 0) :
    acc3 V c t.val t.isLt = k3_pay2 (k3_pay1 (F := F)) (iblk3 V c 0 t) (iblk3 V c 1 t) := by
  obtain ⟨n, hn⟩ := t
  cases n with
  | zero => rfl
  | succ n => exact if_pos h0

/-- … and elsewhere continues from the point before. -/
theorem acc3_step (c : Dev nD) (t : Fin cfg3.N) (h0 : ¬t.val % 4 = 0) :
    acc3 V c t.val t.isLt = k3_pay2 (acc3 V c (t.val - 1) (Nat.lt_of_le_of_lt (Nat.sub_le _ _) t.isLt)) (iblk3 V c 0 t) (iblk3 V c 1 t) := by
  obtain ⟨n, hn⟩ := t
  cases n with
  | zero => exact absurd (Nat.zero_mod _) h0
  | succ n => exact if_neg h0

/-- What the frame half says the accumulator holds after point `n` IS that chain: by induction on the point. -/
theorem outsAt3_snd (c : Dev nD) : ∀ (n : ℕ) (h : n < cfg3.N), (outsAt3 V c n h).2 = acc3 V c n h
  | 0, h => by
    have h0 : (⟨0, h⟩ : Fin cfg3.N).val % 4 = 0 := rfl
    have h1 : ¬(⟨0, h⟩ : Fin cfg3.N).val % 4 = 3 := by show ¬(0 % 4 = 3); decide
    rw [outsAt3_A V c ⟨0, h⟩ h0 h1]
    simp only [sout3_A_eq]
    exact (acc3_reset V c ⟨0, h⟩ h0).symm
  | n + 1, h => by
    have hN : cfg3.N = 8 := N_3
    by_cases h0 : (n + 1) % 4 = 0
    · have h1 : ¬(n + 1) % 4 = 3 := by omega
      rw [outsAt3_A V c ⟨n + 1, h⟩ h0 h1]
      simp only [sout3_A_eq]
      exact (acc3_reset V c ⟨n + 1, h⟩ h0).symm
    · by_cases h1 : (n + 1) % 4 = 3
      · rw [outsAt3_C V c ⟨n + 1, h⟩ h0 h1]
        simp only [sout3_C_eq, Nat.add_sub_cancel]
        rw [outsAt3_snd c n]
        exact (acc3_step V c ⟨n + 1, h⟩ h0).symm
      · rw [outsAt3_B V c ⟨n + 1, h⟩ h0 h1]
        simp only [sout3_B_eq, Nat.add_sub_cancel]
        rw [outsAt3_snd c n]
        exact (acc3_step V c ⟨n + 1, h⟩ h0).symm

/-- At a point with inner coordinate 3 the stored output block is the epilogue of the accumulator there and the bias row. -/
theorem outsAt3_fst (c : Dev nD) (t : Fin cfg3.N) (h1 : t.val % 4 = 3) :
    (outsAt3 V c t.val t.isLt).1 = k3_pay3 (acc3 V c t.val t.isLt) (iblk3 V c 2 t) := by
  have h0 : ¬t.val % 4 = 0 := by omega
  rw [← outsAt3_snd V c t.val t.isLt, outsAt3_C V c t h0 h1]
  simp only [out3_C_eq, sout3_C_eq]

end Regions

end Cert.KernelIdeal.Hand

end
-- ==== Proof.KI.V3b.lean ====
/- The fusion kernel's three payloads read at an index, on the extended reals: the zero block is 0 everywhere; the
   accumulate step adds to the accumulator's entry (r, d) the sum over the 192 contracted columns of the products of row
   r of the first operand's block with column d of the second's; the epilogue is max(entry + bias(d), 0). -/
import proofs.«146850_j36850819399877_2_alg».proof.Proof.Gen.KernelIdeal.Skeleton
import Idealize.ShloMosaic.Lib.Pipeline.Value
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic Idealize.SL.Sem
open Idealize.ShloMosaic.Pipeline (Dat)
open Idealize.ShloMosaic.ValueIdx

/-- The zero block reads 0 everywhere. -/
theorem k3pay1_at (j : S1024x768.Idx) : k3_pay1 (F := Ideal) j = 0 := by
  unfold k3_pay1
  rw [shapeCast_self]
  show Ideal.ofBits .f32 0x00000000#32 = 0
  exact Ideal.ofBits_zero_f32

/-- The product's operand indices at output index (r, d) and contracted column cc are (r, cc) and (cc, d). -/
theorem dot3_lhs (r : Fin 1024) (d : Fin 768) (cc : Fin 192) :
    dot_S1024x192_S192x768_S1024x768_1_0_0_1_n_n.lhsIdx (ix2 r d) ((contrEquiv1 dot_S1024x192_S192x768_S1024x768_1_0_0_1_n_n 192 rfl rfl).symm cc) = ix2 r cc := by
  have c2 := contrEquiv1_symm_val dot_S1024x192_S192x768_S1024x768_1_0_0_1_n_n 192 rfl rfl cc
  funext ax; apply Fin.ext
  match ax with
  | ⟨0, _⟩ => simp [DotDims.lhsIdx, dot_S1024x192_S192x768_S1024x768_1_0_0_1_n_n]; rfl
  | ⟨1, _⟩ => simp [DotDims.lhsIdx, dot_S1024x192_S192x768_S1024x768_1_0_0_1_n_n]; exact c2

theorem dot3_rhs (r : Fin 1024) (d : Fin 768) (cc : Fin 192) :
    dot_S1024x192_S192x768_S1024x768_1_0_0_1_n_n.rhsIdx (ix2 r d) ((contrEquiv1 dot_S1024x192_S192x768_S1024x768_1_0_0_1_n_n 192 rfl rfl).symm cc) = ix2 cc d := by
  have c2 := contrEquiv1_symm_val dot_S1024x192_S192x768_S1024x768_1_0_0_1_n_n 192 rfl rfl cc
  funext ax; apply Fin.ext
  match ax with
  | ⟨0, _⟩ => simp [DotDims.rhsIdx, dot_S1024x192_S192x768_S1024x768_1_0_0_1_n_n]; exact c2
  | ⟨1, _⟩ => simp [DotDims.rhsIdx, dot_S1024x192_S192x768_S1024x768_1_0_0_1_n_n]; rfl

/-- The accumulate step at (r, d): the accumulator's entry plus the row-by-column sum of the operand blocks. -/
theorem k3pay2_at (acc : Vec Ideal S1024x768 .f32) (x0 : Vec Ideal S1x1024x192 .bf16) (x1 : Vec Ideal S1x192x768 .bf16)
    (r : Fin 1024) (d : Fin 768) :
    k3_pay2 acc x0 x1 (ix2 r d) = acc (ix2 r d) + ∑ cc : Fin 192, x0 (ix3 (0 : Fin 1) r cc) * x1 (ix3 (0 : Fin 1) cc d) := by
  unfold k3_pay2
  rw [shapeCast_self]
  refine (addf_apply _ _ _).trans ?_
  congr 1
  simp only [matmul]
  rw [Ideal.matmul_constant_zero_apply, ← Equiv.sum_comp (contrEquiv1 dot_S1024x192_S192x768_S1024x768_1_0_0_1_n_n 192 rfl rfl).symm]
  refine Finset.sum_congr rfl fun cc _ => ?_
  rw [dot3_lhs, dot3_rhs, shapeCast_1ab_ab_apply, shapeCast_1ab_ab_apply]

/-- The epilogue at (r, d): max(entry + bias(d), the zero literal). -/
theorem k3pay3_at (acc : Vec Ideal S1024x768 .f32) (b : Vec Ideal S1x768 .f32) (r : Fin 1024) (d : Fin 768) :
    k3_pay3 acc b (ix2 r d) = max (acc (ix2 r d) + b (ix2 (0 : Fin 1) d)) (Ideal.ofBits .f32 0x00000000#32) := by
  unfold k3_pay3
  rw [shapeCast_self]
  refine (maximumf_apply _ _ _).trans ?_
  rw [addf_apply, broadcastTo_1b_ab_apply]
  rfl

end Cert.KernelIdeal.Hand

end
-- ==== Proof.KI.V3.lean ====
/- The fusion region's output array after the region, on the extended reals, as one function of the three arrays it
   reads: row n, column d holds max(Σ_t Σ_c h(t, n, c)·w(t, c, d) + b(0, d), 0). The point with outer coordinate m and
   inner coordinate s adds to the accumulator's entry (r, d) the s-th summand for row m·1024 + r; after inner coordinate
   3 the accumulator holds the sum of the four, the epilogue adds the bias and rectifies, and the two points with inner
   coordinate 3 write back the two halves of the rows, which together cover the array. -/
import proofs.«146850_j36850819399877_2_alg».proof.Proof.KI.V3a
import proofs.«146850_j36850819399877_2_alg».proof.Proof.KI.V3b
import proofs.«146850_j36850819399877_2_alg».proof.Proof.Spec

set_option maxRecDepth 16384

noncomputable section

namespace Cert.KernelIdeal.Hand

open Cert.KernelIdeal Cert.KernelIdeal.Gen
open Idealize.ShloMosaic Idealize.ShloMosaic.TcCoe Idealize.ShloMosaic.Tactic Idealize.SL.Sem
open Idealize.ShloMosaic.Pipeline (Dat)
open Idealize.ShloMosaic.ValueIdx

section Regions
variable (V : (c : Dev nD) → (b : Ref sig .tc) → Buf (Elt Ideal) ((c : Thread nD τ).loc b))

/-! ## Where each window's block sits in its array -/

/-- The printed index maps, decided over the grid: the first operand's block index is (inner, outer, 0), the second's
    (inner, 0, 0), the bias row's (0, 0), the output's (outer, 0). -/
theorem idx_facts3 : ∀ t : Fin cfg3.N,
    win3_0.index t (0 : Fin 3) = t.val % 4 ∧ win3_0.index t (1 : Fin 3) = t.val / 4 ∧ win3_0.index t (2 : Fin 3) = 0
    ∧ win3_1.index t (0 : Fin 3) = t.val % 4 ∧ win3_1.index t (1 : Fin 3) = 0 ∧ win3_1.index t (2 : Fin 3) = 0
    ∧ win3_2.index t (0 : Fin 2) = 0 ∧ win3_2.index t (1 : Fin 2) = 0
    ∧ win3_3.index t (0 : Fin 2) = t.val / 4 ∧ win3_3.index t (1 : Fin 2) = 0 :=
  (by decide +kernel : ∀ t : Fin grid3.N, _)

/-- The three arrays the region reads, as the specification's arrays of extended reals. -/
abbrev arrH3 (c : Dev nD) : Cert.Spec.A3 4 2048 192 := V c main_v8
abbrev arrW3 (c : Dev nD) : Cert.Spec.A3 4 192 768 := V c main_v10
abbrev arrB3 (c : Dev nD) : Cert.Spec.A2 1 768 := V c main_v11

/-- Row `r` of the half of the rows with outer coordinate `m`. -/
def rowOf3 (m : Fin 2) (r : Fin 1024) : Fin 2048 := ⟨m.val * 1024 + r.val, by have := m.isLt; have := r.isLt; omega⟩

/-- The first operand's block at point `t`, entry (0, r, cc): the array at (inner, row, cc). -/
theorem blk3_0_at (c : Dev nD) (t : Fin cfg3.N) (s : Fin 4) (hs : s.val = t.val % 4) (m : Fin 2) (hm : m.val = t.val / 4)
    (r : Fin 1024) (cc : Fin 192) :
    iblk3 V c 0 t (ix3 (0 : Fin 1) r cc) = arrH3 V c (ix3 s (rowOf3 m r) cc) := by
  obtain ⟨e0, e1, e2, -⟩ := idx_facts3 t
  show V c main_v8 (((cfg3.win 0).blk t).view.emb (ix3 (0 : Fin 1) r cc)) = _
  refine congrArg _ (funext fun a => Fin.ext ?_)
  match a with
  | ⟨0, _⟩ => show win3_0.index t (0 : Fin 3) * 1 + 1 * 0 = s.val; omega
  | ⟨1, _⟩ => show win3_0.index t (1 : Fin 3) * 1024 + 1 * r.val = m.val * 1024 + r.val; rw [e1, hm]; omega
  | ⟨2, _⟩ => show win3_0.index t (2 : Fin 3) * 192 + 1 * cc.val = cc.val; omega

/-- The second operand's block at point `t`, entry (0, cc, d): the array at (inner, cc, d). -/
theorem blk3_1_at (c : Dev nD) (t : Fin cfg3.N) (s : Fin 4) (hs : s.val = t.val % 4) (cc : Fin 192) (d : Fin 768) :
    iblk3 V c 1 t (ix3 (0 : Fin 1) cc d) = arrW3 V c (ix3 s cc d) := by
  obtain ⟨-, -, -, e0, e1, e2, -⟩ := idx_facts3 t
  show V c main_v10 (((cfg3.win 1).blk t).view.emb (ix3 (0 : Fin 1) cc d)) = _
  refine congrArg _ (funext fun a => Fin.ext ?_)
  match a with
  | ⟨0, _⟩ => show win3_1.index t (0 : Fin 3) * 1 + 1 * 0 = s.val; omega
  | ⟨1, _⟩ => show win3_1.index t (1 : Fin 3) * 192 + 1 * cc.val = cc.val; omega
  | ⟨2, _⟩ => show win3_1.index t (2 : Fin 3) * 768 + 1 * d.val = d.val; omega

/-- The bias row's block is the bias row. -/
theorem blk3_2_at (c : Dev nD) (t : Fin cfg3.N) (d : Fin 768) :
    iblk3 V c 2 t (ix2 (0 : Fin 1) d) = arrB3 V c (ix2 (0 : Fin 1) d) := by
  obtain ⟨-, -, -, -, -, -, e0, e1, -⟩ := idx_facts3 t
  show V c main_v11 (((cfg3.win 2).blk t).view.emb (ix2 (0 : Fin 1) d)) = _
  refine congrArg _ (funext fun a => Fin.ext ?_)
  match a with
  | ⟨0, _⟩ => show win3_2.index t (0 : Fin 2) * 1 + 1 * 0 = 0; omega
  | ⟨1, _⟩ => show win3_2.index t (1 : Fin 2) * 768 + 1 * d.val = d.val; omega

/-! ## The accumulator in closed form -/

/-- The s-th summand for row `rowOf3 m r`, column `d`. -/
def term3 (c : Dev nD) (m : Fin 2) (s : Fin 4) (r : Fin 1024) (d : Fin 768) : EReal :=
  ∑ cc : Fin 192, arrH3 V c (ix3 s (rowOf3 m r) cc) * arrW3 V c (ix3 s cc d)

/-- One accumulate step at point `t` adds that point's summand. -/
theorem step3_at (c : Dev nD) (t : Fin cfg3.N) (s : Fin 4) (hs : s.val = t.val % 4) (m : Fin 2) (hm : m.val = t.val / 4)
    (acc : Vec Ideal S1024x768 .f32) (r : Fin 1024) (d : Fin 768) :
    k3_pay2 acc (iblk3 V c 0 t) (iblk3 V c 1 t) (ix2 r d) = acc (ix2 r d) + term3 V c m s r d := by
  refine (k3pay2_at acc (iblk3 V c 0 t) (iblk3 V c 1 t) r d).trans ?_
  refine congrArg (acc (ix2 r d) + ·) (Finset.sum_congr rfl fun cc _ => ?_)
  rw [blk3_0_at V c t s hs m hm r cc, blk3_1_at V c t s hs cc d]

/-- Sums over the four inner coordinates, cut at a bound. -/
theorem sum4_first3 (f : Fin 4 → EReal) : (∑ s : Fin 4, if s.val ≤ 0 then f s else 0) = f 0 := by
  simp [Fin.sum_univ_four]
theorem sum4_succ3 (f : Fin 4 → EReal) (k : ℕ) (hk : k + 1 < 4) :
    (∑ s : Fin 4, if s.val ≤ k + 1 then f s else 0) = (∑ s : Fin 4, if s.val ≤ k then f s else 0) + f ⟨k + 1, hk⟩ := by
  have hk' : k < 3 := by omega
  interval_cases k <;> simp [Fin.sum_univ_four]
theorem sum4_all3 (f : Fin 4 → EReal) : (∑ s : Fin 4, if s.val ≤ 3 then f s else 0) = ∑ s : Fin 4, f s := by
  simp [Fin.sum_univ_four]

set_option maxHeartbeats 4000000 in
/-- After point `n`, with outer coordinate `m`, the accumulator's entry (r, d) is the sum of the summands of the inner
    coordinates up to `n`'s: by induction on the point. -/
theorem acc3_at (c : Dev nD) : ∀ (n : ℕ) (h : n < cfg3.N) (m : Fin 2) (hm : m.val = n / 4) (r : Fin 1024) (d : Fin 768),
    acc3 V c n h (ix2 r d) = ∑ s : Fin 4, if s.val ≤ n % 4 then term3 V c m s r d else 0
  | 0, h, m, hm, r, d => by
    rw [acc3_reset V c ⟨0, h⟩ rfl, step3_at V c ⟨0, h⟩ 0 rfl m hm, k3pay1_at, zero_add]
    exact (sum4_first3 (fun s => term3 V c m s r d)).symm
  | n + 1, h, m, hm, r, d => by
    have hN : cfg3.N = 8 := N_3
    by_cases h0 : (n + 1) % 4 = 0
    · rw [acc3_reset V c ⟨n + 1, h⟩ h0, step3_at V c ⟨n + 1, h⟩ 0 h0.symm m hm, k3pay1_at, zero_add, h0]
      exact (sum4_first3 (fun s => term3 V c m s r d)).symm
    · have e1 : (n + 1) % 4 = n % 4 + 1 := by omega
      have e2 : n / 4 = (n + 1) / 4 := by omega
      rw [acc3_step V c ⟨n + 1, h⟩ h0, step3_at V c ⟨n + 1, h⟩ ⟨n % 4 + 1, by omega⟩ e1.symm m hm]
      show acc3 V c n _ (ix2 r d) + _ = _
      rw [acc3_at c n (Nat.lt_of_succ_lt h) m (hm.trans e2.symm) r d, e1, sum4_succ3 (fun s => term3 V c m s r d) (n % 4) (by omega)]

/-! ## What is written back, and the array -/

/-- An index of the array is in point `t`'s block iff each coordinate is in the block's range on its axis. -/
theorem mem_blk3 (t : Fin cfg3.N) (i : S2048x768.Idx) :
    i ∈ ((cfg3.win 3).blk t).view.set ↔ ∀ a : Fin 2, win3_3.index t a * S1024x768.size a ≤ (i a).val ∧ (i a).val < win3_3.index t a * S1024x768.size a + S1024x768.size a := by
  show i ∈ ((View.whole main_v12).slice (win3_3.rect t)).set ↔ _
  rw [View.set_slice_whole, Rect.mem_set_unit]
  exact Iff.rfl

set_option maxHeartbeats 4000000 in
/-- WHAT A POINT WITH INNER COORDINATE 3 WRITES BACK is its block of the fused array. -/
theorem flushed3_eq (c : Dev nD) (t : Fin cfg3.N) (hf : (cfg3.win 3).flush t = true) :
    (dat3 V c).flushed 3 t = ((cfg3.win 3).blk t).view.read (Elt Ideal) (Cert.Spec.fuse (V c main_v8) (V c main_v10) (V c main_v11)) := by
  have hN : cfg3.N = 8 := N_3
  have h1 : t.val % 4 = 3 := (flush3_3 t).mp hf
  obtain ⟨-, -, -, -, -, -, -, -, e0, e1⟩ := idx_facts3 t
  show (cfg3.win 3).cut (grid3.coords t) ((dat3 V c).after 3 t) = _
  rw [after3_3, outsAt3_fst V c t h1]
  refine funext fun (j : S1024x768.Idx) => ?_
  obtain ⟨r, d, rfl⟩ : ∃ (r : Fin 1024) (d : Fin 768), j = ix2 r d := ⟨j 0, j 1, eq_ix2 j⟩
  have hm : (⟨t.val / 4, by have := t.isLt; omega⟩ : Fin 2).val = t.val / 4 := rfl
  show k3_pay3 (acc3 V c t.val t.isLt) (iblk3 V c 2 t) (ix2 r d)
    = Cert.Spec.fuse (arrH3 V c) (arrW3 V c) (arrB3 V c) (((cfg3.win 3).blk t).view.emb (ix2 r d))
  have hemb : ((cfg3.win 3).blk t).view.emb (ix2 r d) = ix2 (rowOf3 ⟨t.val / 4, by have := t.isLt; omega⟩ r) d := by
    funext a; apply Fin.ext
    match a with
    | ⟨0, _⟩ => show win3_3.index t (0 : Fin 2) * 1024 + 1 * r.val = t.val / 4 * 1024 + r.val; rw [e0]; omega
    | ⟨1, _⟩ => show win3_3.index t (1 : Fin 2) * 768 + 1 * d.val = d.val; omega
  rw [hemb, k3pay3_at, acc3_at V c t.val t.isLt ⟨t.val / 4, by have := t.isLt; omega⟩ hm r d, h1, sum4_all3, blk3_2_at]
  rfl

/-- Every row is in the block of the point with its half's outer coordinate and inner coordinate 3. -/
theorem cover3 (i : S2048x768.Idx) : ∃ t : Fin cfg3.N, (cfg3.win 3).flush t = true ∧ i ∈ ((cfg3.win 3).blk t).view.set := by
  have hi0 : (i 0).val < 2048 := (i 0).isLt
  have hi1 : (i 1).val < 768 := (i 1).isLt
  by_cases hlo : (i 0).val < 1024
  · refine ⟨t3_3, (flush3_3 t3_3).mpr rfl, ?_⟩
    rw [mem_blk3]
    have q0 : win3_3.index t3_3 (0 : Fin 2) = 0 := by decide +kernel
    have q1 : win3_3.index t3_3 (1 : Fin 2) = 0 := by decide +kernel
    intro a
    match a with
    | ⟨0, _⟩ => show win3_3.index t3_3 (0 : Fin 2) * 1024 ≤ (i 0).val ∧ (i 0).val < win3_3.index t3_3 (0 : Fin 2) * 1024 + 1024; omega
    | ⟨1, _⟩ => show win3_3.index t3_3 (1 : Fin 2) * 768 ≤ (i 1).val ∧ (i 1).val < win3_3.index t3_3 (1 : Fin 2) * 768 + 768; omega
  · refine ⟨t3_7, (flush3_3 t3_7).mpr rfl, ?_⟩
    rw [mem_blk3]
    have q0 : win3_3.index t3_7 (0 : Fin 2) = 1 := by decide +kernel
    have q1 : win3_3.index t3_7 (1 : Fin 2) = 0 := by decide +kernel
    intro a
    match a with
    | ⟨0, _⟩ => show win3_3.index t3_7 (0 : Fin 2) * 1024 ≤ (i 0).val ∧ (i 0).val < win3_3.index t3_7 (0 : Fin 2) * 1024 + 1024; omega
    | ⟨1, _⟩ => show win3_3.index t3_7 (1 : Fin 2) * 768 ≤ (i 1).val ∧ (i 1).val < win3_3.index t3_7 (1 : Fin 2) * 768 + 768; omega

/-- THE ARRAY after the region: the fused array of the three arrays the region reads. -/
theorem final3 (c : Dev nD) :
    ((dat3 (F := Ideal) V c).arrAt 3 cfg3.N : S2048x768.Idx → EReal) = Cert.Spec.fuse (V c main_v8) (V c main_v10) (V c main_v11) :=
  (dat3 V c).arrAt_eq_of_cover 3 (Cert.Spec.fuse (V c main_v8) (V c main_v10) (V c main_v11)) (flushed3_eq V c) cover3

end Regions

end Cert.KernelIdeal.Hand

end
-- ==== Proof.Ref.Args.lean ====
/-
  The three argument arrays that the program reads under another arrangement than the one they arrive in:
  the per-scale bias [4, 192] with a unit middle axis, the recombination weights [768, 768] with their rows
  grouped as four pieces of 192, and the final bias [768] as a row.
-/
import proofs.«146850_j36850819399877_2_alg».proof.Proof.Spec

noncomputable section

namespace Cert.ReferenceIdeal.RefValue

open Idealize.ShloMosaic Idealize.ShloMosaic.ValueIdx Cert.Spec

/-- The per-scale bias b(t, c) as an array [4, 1, 192]. -/
def b4 (a : A2 4 192) : A3 4 1 192 := fun j => a (ix2 (j 0) (j 2))

/-- The recombination weights as an array [4, 192, 768]: entry (t, c, d) is row 192·t + c, column d. -/
def w5 (a : A2 768 768) : A3 4 192 768 := fun j =>
  a (ix2 ⟨192 * (j 0).val + (j 1).val, by
    have h0 : (j 0).val < 4 := (j 0).isLt
    have h1 : (j 1).val < 192 := (j 1).isLt
    omega⟩ (j 2))

/-- The final bias as a row [1, 768]. -/
def b6 (a : A1 768) : A2 1 768 := fun j => a (ix1 (j 1))

end Cert.ReferenceIdeal.RefValue

end
-- ==== Proof.KI.Result.lean ====
/-
  The kernel program's result at the exact instance, as one function of the arguments.

  The host stretches only re-lay the arguments (a change of float format is the identity on the extended reals;
  [1,N,4] is read as [4,N], [4,192] as [4,1,192], [768,768] as [4,192,768], [768] as [1,768]); each region's
  output array is one function of the arrays it was entered with (the four regions' value theorems); no
  stretch in between writes an earlier region's output.  Composing them, the result buffer holds
  fuse (prop (filt e s) (proj x W) b) W' b'  of the launch contents.
-/
import proofs.«146850_j36850819399877_2_alg».proof.Proof.KI.Run
import proofs.«146850_j36850819399877_2_alg».proof.Proof.KI.V0
import proofs.«146850_j36850819399877_2_alg».proof.Proof.KI.V1
import proofs.«146850_j36850819399877_2_alg».proof.Proof.KI.V2
import proofs.«146850_j36850819399877_2_alg».proof.Proof.KI.V3
import proofs.«146850_j36850819399877_2_alg».proof.Proof.Spec
import proofs.«146850_j36850819399877_2_alg».proof.Proof.Ref.Args
import Idealize.ShloMosaic.Lib.StableHlo.Run
import Idealize.ShloMosaic.Lib.Pipeline.Value
import Idealize.ShloMosaic.Lib.ValueLayout

set_option maxRecDepth 16384

noncomputable section

namespace Cert.KernelIdeal.Hand

open Idealize.ShloMosaic Idealize.ShloMosaic.TcCoe Idealize.ShloMosaic.Tactic
open Idealize.SL Idealize.SL.Sem
open Idealize.ShloMosaic.Pipeline (Dat)
open Cert.KernelIdeal Cert.KernelIdeal.Gen

/-! ## The host stretches' values at the exact instance -/
section HostValues
open Cert.Spec Cert.ReferenceIdeal.RefValue Idealize.ShloMosaic.ValueIdx
variable (m : (ℓ : Loc nD τ sig) → Buf (Elt Ideal) ℓ) (ρ : Dev nD → PrngReg)

/-- A launch buffer untouched so far. -/
theorem W2_keep (c : Dev nD) (r : Ref sig .tc) (h0 : r ∉ hostOps0_W) (n3 : r ≠ main_v3) :
    W2 m ρ c (Proc.devRef .tc r) = m ((c : Thread nD τ).loc r) :=
  (W2_of_ne m ρ c r n3).trans <| (StableHlo.after_of_writes_sub hostOps0 _ hostOps0_writes h0).trans rfl
theorem W4_keep (c : Dev nD) (r : Ref sig .tc) (h0 : r ∉ hostOps0_W) (h1 : r ∉ hostOps1_W) (n3 : r ≠ main_v3) (n6 : r ≠ main_v6) :
    W4 m ρ c (Proc.devRef .tc r) = m ((c : Thread nD τ).loc r) :=
  (W4_of_ne m ρ c r n6).trans <| (StableHlo.after_of_writes_sub hostOps1 _ hostOps1_writes h1).trans <| W2_keep m ρ c r h0 n3
theorem W6_keep (c : Dev nD) (r : Ref sig .tc) (h0 : r ∉ hostOps0_W) (h1 : r ∉ hostOps1_W) (h2 : r ∉ hostOps2_W)
    (n3 : r ≠ main_v3) (n6 : r ≠ main_v6) (n8 : r ≠ main_v8) :
    W6 m ρ c (Proc.devRef .tc r) = m ((c : Thread nD τ).loc r) :=
  (W6_of_ne m ρ c r n8).trans <| (StableHlo.after_of_writes_sub hostOps2 _ hostOps2_writes h2).trans <| W4_keep m ρ c r h0 h1 n3 n6

/-- The eigenvector array as the first region finds it: the argument itself (a change of float format is the identity). -/
theorem U1_v2 (c : Dev nD) : (U1 (F := Ideal) m ρ c main_v2 : S2048x2048.Idx → EReal) = m ((c : Thread nD τ).loc main_arg1) := by
  show StableHlo.after hostOps0 (W0 m ρ c) (Proc.devRef .tc main_v2) = _
  after_results
  rfl

/-- The scale array: the argument [1, N, 4] read as [4, N]. -/
theorem U1_v1 (c : Dev nD) : (U1 (F := Ideal) m ρ c main_v1 : S4x2048.Idx → EReal) = scales (m ((c : Thread nD τ).loc main_arg2)) := by
  show StableHlo.after hostOps0 (W0 m ρ c) (Proc.devRef .tc main_v1) = _
  after_results
  funext j
  obtain ⟨t, k, rfl⟩ : ∃ (t : Fin 4) (k : Fin 2048), j = ix2 t k := ⟨j 0, j 1, eq_ix2 j⟩
  refine (transpose_apply _ _ _ (ix2 t k) (ix2 k t) (fun b => by match b with | ⟨0, _⟩ => rfl | ⟨1, _⟩ => rfl)).trans ?_
  show shapeCast S2048x4 (W0 m ρ c (Proc.devRef .tc main_arg2)) shapeCasts_S1x2048x4_S2048x4 (ix2 k t) = _
  rw [shapeCast_1ab_ab_apply]
  rfl

theorem U3_v4 (c : Dev nD) : (U3 (F := Ideal) m ρ c main_v4 : S2048x768.Idx → EReal) = m ((c : Thread nD τ).loc main_arg0) := by
  show StableHlo.after hostOps1 (W2 m ρ c) (Proc.devRef .tc main_v4) = _
  after_results
  exact W2_keep m ρ c main_arg0 (by decide) (by decide)

theorem U3_v5 (c : Dev nD) : (U3 (F := Ideal) m ρ c main_v5 : S4x768x192.Idx → EReal) = m ((c : Thread nD τ).loc main_arg3) := by
  show StableHlo.after hostOps1 (W2 m ρ c) (Proc.devRef .tc main_v5) = _
  after_results
  exact W2_keep m ρ c main_arg3 (by decide) (by decide)

/-- The first propagation's bias: the argument [4, 192] read as [4, 1, 192]. -/
theorem U5_v7 (c : Dev nD) : (U5 (F := Ideal) m ρ c main_v7 : S4x1x192.Idx → EReal) = b4 (m ((c : Thread nD τ).loc main_arg4)) := by
  show StableHlo.after hostOps2 (W4 m ρ c) (Proc.devRef .tc main_v7) = _
  after_results
  funext j
  obtain ⟨t, u, s, rfl⟩ : ∃ (t : Fin 4) (u : Fin 1) (s : Fin 192), j = ix3 t u s := ⟨j 0, j 1, j 2, eq_ix3 j⟩
  show shapeCast S4x1x192 (W4 m ρ c (Proc.devRef .tc main_arg4)) shapeCasts_S4x192_S4x1x192 (ix3 t u s) = _
  rw [W4_keep m ρ c main_arg4 (by decide) (by decide) (by decide) (by decide)]
  refine (shapeCast_apply _ _ (ix3 t u s) (ix2 t s) ?_).trans rfl
  have hu : u.val = 0 := by omega
  rw [Shape.rowMajor_val_two, Shape.rowMajor_val_three]
  show t.val * 192 + s.val = (t.val * 1 + u.val) * 192 + s.val
  rw [hu]; omega

/-- The recombination's weights: the argument [768, 768] read as [4, 192, 768] (row 192·t + c is row c of piece t). -/
theorem U7_v10 (c : Dev nD) : (U7 (F := Ideal) m ρ c main_v10 : S4x192x768.Idx → EReal) = w5 (m ((c : Thread nD τ).loc main_arg5)) := by
  show StableHlo.after hostOps3 (W6 m ρ c) (Proc.devRef .tc main_v10) = _
  after_results
  funext j
  obtain ⟨t, s, d, rfl⟩ : ∃ (t : Fin 4) (s : Fin 192) (d : Fin 768), j = ix3 t s d := ⟨j 0, j 1, j 2, eq_ix3 j⟩
  show shapeCast S4x192x768 (W6 m ρ c (Proc.devRef .tc main_arg5)) shapeCasts_S768x768_S4x192x768 (ix3 t s d) = _
  rw [W6_keep m ρ c main_arg5 (by decide) (by decide) (by decide) (by decide) (by decide) (by decide)]
  refine (shapeCast_apply _ _ (ix3 t s d) (ix2 ⟨192 * t.val + s.val, by omega⟩ d) ?_).trans rfl
  rw [Shape.rowMajor_val_two, Shape.rowMajor_val_three]
  show (192 * t.val + s.val) * 768 + d.val = (t.val * 192 + s.val) * 768 + d.val
  omega

/-- The recombination's bias: the argument [768] read as [1, 768]. -/
theorem U7_v11 (c : Dev nD) : (U7 (F := Ideal) m ρ c main_v11 : S1x768.Idx → EReal) = b6 (m ((c : Thread nD τ).loc main_arg6)) := by
  show StableHlo.after hostOps3 (W6 m ρ c) (Proc.devRef .tc main_v11) = _
  after_results
  funext j
  obtain ⟨u, d, rfl⟩ : ∃ (u : Fin 1) (d : Fin 768), j = ix2 u d := ⟨j 0, j 1, eq_ix2 j⟩
  show shapeCast S1x768 (W6 m ρ c (Proc.devRef .tc main_arg6)) shapeCasts_S768_S1x768 (ix2 u d) = _
  rw [W6_keep m ρ c main_arg6 (by decide) (by decide) (by decide) (by decide) (by decide) (by decide)]
  exact shapeCast_a_1a_apply _ _ u d

/-- What a later region reads of an earlier region's output: no stretch in between writes it. -/
theorem U7_v8 (c : Dev nD) : U7 (F := Ideal) m ρ c main_v8 = (dat2 (U5 m ρ) c).arrAt 3 cfg2.N :=
  (StableHlo.after_of_writes_sub hostOps3 _ hostOps3_writes (by decide : main_v8 ∉ hostOps3_W)).trans (W6_out m ρ c)
theorem U5_v6 (c : Dev nD) : U5 (F := Ideal) m ρ c main_v6 = (dat1 (U3 m ρ) c).arrAt 2 cfg1.N :=
  (StableHlo.after_of_writes_sub hostOps2 _ hostOps2_writes (by decide : main_v6 ∉ hostOps2_W)).trans (W4_out m ρ c)
theorem U5_v3 (c : Dev nD) : U5 (F := Ideal) m ρ c main_v3 = (dat0 (U1 m ρ) q0 c).arrAt 3 cfg0.N :=
  (StableHlo.after_of_writes_sub hostOps2 _ hostOps2_writes (by decide : main_v3 ∉ hostOps2_W)).trans <|
  (W4_of_ne m ρ c main_v3 (by decide)).trans <|
  (StableHlo.after_of_writes_sub hostOps1 _ hostOps1_writes (by decide : main_v3 ∉ hostOps1_W)).trans (W2_out m ρ c)

/-- The result buffer after the last region, as one function of the launch contents. -/
theorem kernel_result (c : Dev nD) :
    (W8 (F := Ideal) m ρ c (Proc.devRef .tc main_v12) : S2048x768.Idx → EReal)
      = fuse (prop (filt (m ((c : Thread nD τ).loc main_arg1)) (scales (m ((c : Thread nD τ).loc main_arg2))))
            (proj (m ((c : Thread nD τ).loc main_arg0)) (m ((c : Thread nD τ).loc main_arg3))) (b4 (m ((c : Thread nD τ).loc main_arg4))))
          (w5 (m ((c : Thread nD τ).loc main_arg5))) (b6 (m ((c : Thread nD τ).loc main_arg6))) := by
  have e0 : (U5 (F := Ideal) m ρ c main_v3 : S4x2048x2048.Idx → EReal)
      = filt (m ((c : Thread nD τ).loc main_arg1)) (scales (m ((c : Thread nD τ).loc main_arg2))) := by
    rw [U5_v3, final0 (U1 m ρ) q0 c, U1_v2, U1_v1]
  have e1 : (U5 (F := Ideal) m ρ c main_v6 : S4x2048x192.Idx → EReal)
      = proj (m ((c : Thread nD τ).loc main_arg0)) (m ((c : Thread nD τ).loc main_arg3)) := by
    rw [U5_v6, final1 (U3 m ρ) c, U3_v4, U3_v5]
  have e2 : (U7 (F := Ideal) m ρ c main_v8 : S4x2048x192.Idx → EReal)
      = prop (filt (m ((c : Thread nD τ).loc main_arg1)) (scales (m ((c : Thread nD τ).loc main_arg2))))
          (proj (m ((c : Thread nD τ).loc main_arg0)) (m ((c : Thread nD τ).loc main_arg3))) (b4 (m ((c : Thread nD τ).loc main_arg4))) := by
    rw [U7_v8, final2 (U5 m ρ) c, e0, e1, U5_v7]
  rw [W8_out, final3 (U7 m ρ) c, e2, U7_v10, U7_v11]
end HostValues

end Cert.KernelIdeal.Hand

end
-- ==== Proof.Ref.Stages.lean ====
/-
  The reference program read stage by stage on the extended reals: what is shared by the four scales.
  The scale vectors arrive as an array [1, N, 4]; the program reshapes it to [N, 4] and transposes it to [4, N].
-/
import proofs.«146850_j36850819399877_2_alg».proof.Proof.Gen.ReferenceIdeal.Read
import proofs.«146850_j36850819399877_2_alg».proof.Proof.Spec

noncomputable section

namespace Cert.ReferenceIdeal.RefValue

open Cert.ReferenceIdeal Cert.ReferenceIdeal.Gen Idealize.ShloMosaic Idealize.ShloMosaic.ValueIdx

/-- Entry (k, t) of the [N, 4] array is entry (0, k, t) of the argument: the row-major position k·4 + t. -/
theorem idx_v0 (k : Fin 2048) (t : Fin 4) : Read.idx_main_v0 (ix2 k t) = ix3 0 k t := funext fun a => Fin.ext (by
  have hk := k.isLt
  have ht := t.isLt
  match a with
  | ⟨0, _⟩ => rfl
  | ⟨1, _⟩ => show (k.val * 4 + t.val) / 4 % 2048 = k.val; omega
  | ⟨2, _⟩ => show (k.val * 4 + t.val) % 4 = t.val; omega)

theorem idx_v1 (t : Fin 4) (k : Fin 2048) : Read.idx_main_v1 (ix2 t k) = ix2 k t := funext fun a => Fin.ext (by
  match a with
  | ⟨0, _⟩ => rfl
  | ⟨1, _⟩ => rfl)

/-- The transposed scale array at (t, k) is the argument at (0, k, t). -/
theorem scale_at (a2 : (⟨S1x2048x4, .f32⟩ : BufTy).Contents (Elt Ideal)) (t : Fin 4) (k : Fin 2048) :
    Read.val_main_v1 (F := Ideal) a2 (ix2 t k) = Cert.Spec.scales a2 (ix2 t k) := by
  rw [Read.val_main_v1_apply, idx_v1, Read.val_main_v0_apply, idx_v0]
  rfl

end Cert.ReferenceIdeal.RefValue

end
-- ==== Proof.Ref.Scale0.lean ====
/-
  Scale 0 of the reference, read stage by stage on the extended reals: its scale vector, the raw filter
  Σ_k e(m,k)·(s(0,k)·e(n,k)), the floor-guarded column norm, the normalised and thresholded filter, the
  projected features, and the two propagations through the transposed filter.  Every layout stage is read at
  an index built from literal coordinates; the products under the sums are regrouped by associativity.
-/
import proofs.«146850_j36850819399877_2_alg».proof.Proof.Ref.Stages
import proofs.«146850_j36850819399877_2_alg».proof.Proof.Ref.Args

noncomputable section

namespace Cert.ReferenceIdeal.RefValue.Scale0

open Cert.ReferenceIdeal Cert.ReferenceIdeal.Gen Idealize.ShloMosaic Idealize.ShloMosaic.ValueIdx Cert.Spec
open Cert.ReferenceIdeal.RefValue

variable (a0 : (⟨S2048x768, .f32⟩ : BufTy).Contents (Elt Ideal)) (a1 : (⟨S2048x2048, .f32⟩ : BufTy).Contents (Elt Ideal))
  (a2 : (⟨S1x2048x4, .f32⟩ : BufTy).Contents (Elt Ideal)) (a3 : (⟨S4x768x192, .f32⟩ : BufTy).Contents (Elt Ideal))
  (a4 : (⟨S4x192, .f32⟩ : BufTy).Contents (Elt Ideal))

/-! ## The scale vector -/

theorem idx_v2 (k : Fin 2048) : Read.idx_main_v2 (ix2 0 k) = ix2 0 k := funext fun a => Fin.ext (by
  match a with
  | ⟨0, _⟩ => rfl
  | ⟨1, _⟩ => rfl)

theorem idx_v3 (k : Fin 2048) : Read.idx_main_v3 (ix1 k) = ix2 0 k := funext fun a => Fin.ext (by
  match a with
  | ⟨0, _⟩ => rfl
  | ⟨1, _⟩ => exact Nat.mod_eq_of_lt k.isLt)

theorem idx_v4 (k : Fin 2048) : Read.idx_main_v4 (ix2 k 0) = ix1 k := funext fun a => Fin.ext (by
  match a with
  | ⟨0, _⟩ => rfl)

/-- The scale vector s(0, ·). -/
theorem sv (k : Fin 2048) : Read.val_main_v3 (F := Ideal) a2 (ix1 k) = scales a2 (ix2 0 k) := by
  rw [Read.val_main_v3_apply, idx_v3, Read.val_main_v2_apply, idx_v2, scale_at]

/-! ## The raw filter -/

theorem idx_v5 (k n : Fin 2048) : Read.idx_main_v5 (ix2 k n) = ix2 n k := funext fun a => Fin.ext (by
  match a with
  | ⟨0, _⟩ => rfl
  | ⟨1, _⟩ => rfl)

theorem idx_v6 (k n : Fin 2048) : Read.idx_main_v6 (ix2 k n) = ix2 k 0 := funext fun a => Fin.ext (by
  match a with
  | ⟨0, _⟩ => rfl
  | ⟨1, _⟩ => rfl)

theorem lidx_v8 (m n k : Fin 2048) : Read.lidx_main_v8 (ix2 m n) k = ix2 m k := funext fun a => Fin.ext (by
  match a with
  | ⟨0, _⟩ => rfl
  | ⟨1, _⟩ => rfl)

theorem ridx_v8 (m n k : Fin 2048) : Read.ridx_main_v8 (ix2 m n) k = ix2 k n := funext fun a => Fin.ext (by
  match a with
  | ⟨0, _⟩ => rfl
  | ⟨1, _⟩ => rfl)

/-- The scaled transpose: entry (k, n) is s(0,k)·e(n,k). -/
theorem scaled (k n : Fin 2048) :
    Read.val_main_v7 (F := Ideal) a1 a2 (ix2 k n) = scales a2 (ix2 0 k) * a1 (ix2 n k) := by
  rw [Read.val_main_v7_apply, Read.val_main_v6_apply, idx_v6, Read.val_main_v4_apply, idx_v4, sv, Read.val_main_v5_apply, idx_v5]
  rfl

/-- The raw filter entry: Σ_k e(m,k)·(s(0,k)·e(n,k)) = Σ_k (e(m,k)·s(0,k))·e(n,k). -/
theorem raw_eq (m n : Fin 2048) : Read.val_main_v8 (F := Ideal) a1 a2 (ix2 m n) = raw a1 (scales a2) 0 m n := by
  rw [Read.val_main_v8_apply]
  refine Finset.sum_congr rfl fun k _ => ?_
  rw [lidx_v8, ridx_v8, scaled]
  exact (mul_assoc _ _ _).symm

/-! ## The column norm -/

theorem idx_v10 (n k : Fin 2048) : Read.idx_main_v10 (ix1 n) k = ix2 k n := funext fun a => Fin.ext (by
  match a with
  | ⟨0, _⟩ => rfl
  | ⟨1, _⟩ => rfl)

theorem idx_v11 (n : Fin 2048) : Read.idx_main_v11 (ix2 0 n) = ix1 n := funext fun a => Fin.ext (by
  match a with
  | ⟨0, _⟩ => rfl)

/-- The floor-guarded Euclidean norm of column n. -/
theorem norm_eq (n : Fin 2048) : Read.val_main_v14 (F := Ideal) a1 a2 (ix2 0 n) = colNorm a1 (scales a2) 0 n := by
  rw [Read.val_main_v14_apply, Read.val_main_v12_apply, Read.val_main_v11_apply, idx_v11, Read.val_main_v10_apply,
    Read.val_main_cst_apply, Read.val_main_v13_apply, Read.val_main_cst_0_apply]
  show max (Ideal.sqrt (Ideal.ofBits .f32 0x00000000#32 + _)) (Ideal.ofBits .f32 0x2B8CBCCC#32) = _
  rw [Ideal.ofBits_zero_f32, zero_add]
  refine congrArg (fun s => max (Ideal.sqrt s) (Ideal.ofBits .f32 0x2B8CBCCC#32)) (Finset.sum_congr rfl fun k _ => ?_)
  rw [idx_v10, Read.val_main_v9_apply, raw_eq]
  rfl

/-! ## The normalised, thresholded filter -/

theorem idx_v15 (m n : Fin 2048) : Read.idx_main_v15 (ix2 m n) = ix2 0 n := funext fun a => Fin.ext (by
  match a with
  | ⟨0, _⟩ => rfl
  | ⟨1, _⟩ => rfl)

/-- The normalised entry. -/
theorem quot_eq (m n : Fin 2048) : Read.val_main_v16 (F := Ideal) a1 a2 (ix2 m n)
    = Ideal.div (raw a1 (scales a2) 0 m n) (colNorm a1 (scales a2) 0 n) := by
  rw [Read.val_main_v16_apply, Read.val_main_v15_apply, idx_v15, raw_eq, norm_eq]
  rfl

/-- The filter entry: the normalised entry when its magnitude exceeds the threshold, else zero. -/
theorem filt_eq (m n : Fin 2048) : Read.val_main_v20 (F := Ideal) a1 a2 (ix2 m n) = filtAt a1 (scales a2) 0 m n := by
  rw [Read.val_main_v20_apply, Read.val_main_v19_apply, Read.val_main_v17_apply, quot_eq, Read.val_main_v18_apply,
    Read.val_main_cst_1_apply, Read.val_main_call0_v1_apply, Read.val_main_call0_v0_apply, Read.val_main_cst_2_apply]
  rfl

/-! ## The projected features -/

theorem idx_v22 (d : Fin 768) (c : Fin 192) : Read.idx_main_v22 (ix3 0 d c) = ix3 0 d c := funext fun a => Fin.ext (by
  match a with
  | ⟨0, _⟩ => rfl
  | ⟨1, _⟩ => rfl
  | ⟨2, _⟩ => rfl)

theorem idx_v23 (d : Fin 768) (c : Fin 192) : Read.idx_main_v23 (ix2 d c) = ix3 0 d c := funext fun a => Fin.ext (by
  have hd := d.isLt
  have hc := c.isLt
  match a with
  | ⟨0, _⟩ => rfl
  | ⟨1, _⟩ => show (d.val * 192 + c.val) / 192 % 768 = d.val; omega
  | ⟨2, _⟩ => show (d.val * 192 + c.val) % 192 = c.val; omega)

theorem lidx_v24 (i : Fin 2048) (c : Fin 192) (d : Fin 768) : Read.lidx_main_v24 (ix2 i c) d = ix2 i d := funext fun a => Fin.ext (by
  match a with
  | ⟨0, _⟩ => rfl
  | ⟨1, _⟩ => rfl)

theorem ridx_v24 (i : Fin 2048) (c : Fin 192) (d : Fin 768) : Read.ridx_main_v24 (ix2 i c) d = ix2 d c := funext fun a => Fin.ext (by
  match a with
  | ⟨0, _⟩ => rfl
  | ⟨1, _⟩ => rfl)

/-- The projected features (x·W_0)(i, c). -/
theorem proj_eq (i : Fin 2048) (c : Fin 192) : Read.val_main_v24 (F := Ideal) a0 a3 (ix2 i c) = projAt a0 a3 0 i c := by
  rw [Read.val_main_v24_apply]
  refine Finset.sum_congr rfl fun d _ => ?_
  rw [lidx_v24, ridx_v24, Read.val_main_v23_apply, idx_v23, Read.val_main_v22_apply, idx_v22]

/-! ## The first propagation, with bias and rectifier -/

theorem idx_v21 (i r : Fin 2048) : Read.idx_main_v21 (ix2 i r) = ix2 r i := funext fun a => Fin.ext (by
  match a with
  | ⟨0, _⟩ => rfl
  | ⟨1, _⟩ => rfl)

theorem lidx_v25 (i : Fin 2048) (c : Fin 192) (r : Fin 2048) : Read.lidx_main_v25 (ix2 i c) r = ix2 i r := funext fun a => Fin.ext (by
  match a with
  | ⟨0, _⟩ => rfl
  | ⟨1, _⟩ => rfl)

theorem ridx_v25 (i : Fin 2048) (c : Fin 192) (r : Fin 2048) : Read.ridx_main_v25 (ix2 i c) r = ix2 r c := funext fun a => Fin.ext (by
  match a with
  | ⟨0, _⟩ => rfl
  | ⟨1, _⟩ => rfl)

theorem idx_v26 (c : Fin 192) : Read.idx_main_v26 (ix2 0 c) = ix2 0 c := funext fun a => Fin.ext (by
  match a with
  | ⟨0, _⟩ => rfl
  | ⟨1, _⟩ => rfl)

theorem idx_v27 (c : Fin 192) : Read.idx_main_v27 (ix1 c) = ix2 0 c := funext fun a => Fin.ext (by
  match a with
  | ⟨0, _⟩ => rfl
  | ⟨1, _⟩ => exact Nat.mod_eq_of_lt c.isLt)

theorem idx_v28 (c : Fin 192) : Read.idx_main_v28 (ix2 0 c) = ix1 c := funext fun a => Fin.ext (by
  match a with
  | ⟨0, _⟩ => rfl)

theorem idx_v29 (i : Fin 2048) (c : Fin 192) : Read.idx_main_v29 (ix2 i c) = ix2 0 c := funext fun a => Fin.ext (by
  match a with
  | ⟨0, _⟩ => rfl
  | ⟨1, _⟩ => rfl)

/-- The bias row, broadcast down the rows. -/
theorem bias_eq (i : Fin 2048) (c : Fin 192) : Read.val_main_v29 (F := Ideal) a4 (ix2 i c) = b4 a4 (ix3 0 0 c) := by
  rw [Read.val_main_v29_apply, idx_v29, Read.val_main_v28_apply, idx_v28, Read.val_main_v27_apply, idx_v27,
    Read.val_main_v26_apply, idx_v26]
  rfl

/-- The hidden layer: max(Σ_r F(r,i)·y(r,c) + b(c), 0). -/
theorem hid_eq (i : Fin 2048) (c : Fin 192) : Read.val_main_v31 (F := Ideal) a0 a1 a2 a3 a4 (ix2 i c)
    = hidAt (filt a1 (scales a2)) (proj a0 a3) (b4 a4) 0 i c := by
  rw [Read.val_main_v31_apply, Read.val_main_v30_apply, bias_eq, Read.val_main_call1_v0_apply,
    Read.val_main_call1_cst_apply, Read.val_main_v25_apply]
  show max (_ + _) (Ideal.ofBits .f32 0x00000000#32) = _
  refine congrArg (fun s => max (s + b4 a4 (ix3 0 0 c)) (Ideal.ofBits .f32 0x00000000#32)) (Finset.sum_congr rfl fun r _ => ?_)
  rw [lidx_v25, ridx_v25, Read.val_main_v21_apply, idx_v21, filt_eq, proj_eq]
  rfl

/-! ## The second propagation -/

theorem idx_v32 (j i : Fin 2048) : Read.idx_main_v32 (ix2 j i) = ix2 i j := funext fun a => Fin.ext (by
  match a with
  | ⟨0, _⟩ => rfl
  | ⟨1, _⟩ => rfl)

theorem lidx_v33 (j : Fin 2048) (c : Fin 192) (i : Fin 2048) : Read.lidx_main_v33 (ix2 j c) i = ix2 j i := funext fun a => Fin.ext (by
  match a with
  | ⟨0, _⟩ => rfl
  | ⟨1, _⟩ => rfl)

theorem ridx_v33 (j : Fin 2048) (c : Fin 192) (i : Fin 2048) : Read.ridx_main_v33 (ix2 j c) i = ix2 i c := funext fun a => Fin.ext (by
  match a with
  | ⟨0, _⟩ => rfl
  | ⟨1, _⟩ => rfl)

/-- The propagated piece of scale 0: Σ_i F(i,j)·hid(i,c). -/
theorem prop_eq (j : Fin 2048) (c : Fin 192) : Read.val_main_v33 (F := Ideal) a0 a1 a2 a3 a4 (ix2 j c)
    = propAt (filt a1 (scales a2)) (proj a0 a3) (b4 a4) 0 j c := by
  rw [Read.val_main_v33_apply]
  refine Finset.sum_congr rfl fun i _ => ?_
  rw [lidx_v33, ridx_v33, Read.val_main_v32_apply, idx_v32, filt_eq, hid_eq]
  rfl

end Cert.ReferenceIdeal.RefValue.Scale0

end
-- ==== Proof.Ref.Scale1.lean ====
/-
  Scale 1 of the reference, read stage by stage on the extended reals: its scale vector, the raw filter
  Σ_k e(m,k)·(s(1,k)·e(n,k)), the floor-guarded column norm, the normalised and thresholded filter, the
  projected features, and the two propagations through the transposed filter.  Every layout stage is read at
  an index built from literal coordinates; the products under the sums are regrouped by associativity.
-/
import proofs.«146850_j36850819399877_2_alg».proof.Proof.Ref.Stages
import proofs.«146850_j36850819399877_2_alg».proof.Proof.Ref.Args

noncomputable section

namespace Cert.ReferenceIdeal.RefValue.Scale1

open Cert.ReferenceIdeal Cert.ReferenceIdeal.Gen Idealize.ShloMosaic Idealize.ShloMosaic.ValueIdx Cert.Spec
open Cert.ReferenceIdeal.RefValue

variable (a0 : (⟨S2048x768, .f32⟩ : BufTy).Contents (Elt Ideal)) (a1 : (⟨S2048x2048, .f32⟩ : BufTy).Contents (Elt Ideal))
  (a2 : (⟨S1x2048x4, .f32⟩ : BufTy).Contents (Elt Ideal)) (a3 : (⟨S4x768x192, .f32⟩ : BufTy).Contents (Elt Ideal))
  (a4 : (⟨S4x192, .f32⟩ : BufTy).Contents (Elt Ideal))

/-! ## The scale vector -/

theorem idx_v2 (k : Fin 2048) : Read.idx_main_v34 (ix2 0 k) = ix2 1 k := funext fun a => Fin.ext (by
  match a with
  | ⟨0, _⟩ => rfl
  | ⟨1, _⟩ => rfl)

theorem idx_v3 (k : Fin 2048) : Read.idx_main_v35 (ix1 k) = ix2 0 k := funext fun a => Fin.ext (by
  match a with
  | ⟨0, _⟩ => rfl
  | ⟨1, _⟩ => exact Nat.mod_eq_of_lt k.isLt)

theorem idx_v4 (k : Fin 2048) : Read.idx_main_v36 (ix2 k 0) = ix1 k := funext fun a => Fin.ext (by
  match a with
  | ⟨0, _⟩ => rfl)

/-- The scale vector s(1, ·). -/
theorem sv (k : Fin 2048) : Read.val_main_v35 (F := Ideal) a2 (ix1 k) = scales a2 (ix2 1 k) := by
  rw [Read.val_main_v35_apply, idx_v3, Read.val_main_v34_apply, idx_v2, scale_at]

/-! ## The raw filter -/

theorem idx_v5 (k n : Fin 2048) : Read.idx_main_v37 (ix2 k n) = ix2 n k := funext fun a => Fin.ext (by
  match a with
  | ⟨0, _⟩ => rfl
  | ⟨1, _⟩ => rfl)

theorem idx_v6 (k n : Fin 2048) : Read.idx_main_v38 (ix2 k n) = ix2 k 0 := funext fun a => Fin.ext (by
  match a with
  | ⟨0, _⟩ => rfl
  | ⟨1, _⟩ => rfl)

theorem lidx_v8 (m n k : Fin 2048) : Read.lidx_main_v40 (ix2 m n) k = ix2 m k := funext fun a => Fin.ext (by
  match a with
  | ⟨0, _⟩ => rfl
  | ⟨1, _⟩ => rfl)

theorem ridx_v8 (m n k : Fin 2048) : Read.ridx_main_v40 (ix2 m n) k = ix2 k n := funext fun a => Fin.ext (by
  match a with
  | ⟨0, _⟩ => rfl
  | ⟨1, _⟩ => rfl)

/-- The scaled transpose: entry (k, n) is s(1,k)·e(n,k). -/
theorem scaled (k n : Fin 2048) :
    Read.val_main_v39 (F := Ideal) a1 a2 (ix2 k n) = scales a2 (ix2 1 k) * a1 (ix2 n k) := by
  rw [Read.val_main_v39_apply, Read.val_main_v38_apply, idx_v6, Read.val_main_v36_apply, idx_v4, sv, Read.val_main_v37_apply, idx_v5]
  rfl

/-- The raw filter entry: Σ_k e(m,k)·(s(1,k)·e(n,k)) = Σ_k (e(m,k)·s(1,k))·e(n,k). -/
theorem raw_eq (m n : Fin 2048) : Read.val_main_v40 (F := Ideal) a1 a2 (ix2 m n) = raw a1 (scales a2) 1 m n := by
  rw [Read.val_main_v40_apply]
  refine Finset.sum_congr rfl fun k _ => ?_
  rw [lidx_v8, ridx_v8, scaled]
  exact (mul_assoc _ _ _).symm

/-! ## The column norm -/

theorem idx_v10 (n k : Fin 2048) : Read.idx_main_v42 (ix1 n) k = ix2 k n := funext fun a => Fin.ext (by
  match a with
  | ⟨0, _⟩ => rfl
  | ⟨1, _⟩ => rfl)

theorem idx_v11 (n : Fin 2048) : Read.idx_main_v43 (ix2 0 n) = ix1 n := funext fun a => Fin.ext (by
  match a with
  | ⟨0, _⟩ => rfl)

/-- The floor-guarded Euclidean norm of column n. -/
theorem norm_eq (n : Fin 2048) : Read.val_main_v46 (F := Ideal) a1 a2 (ix2 0 n) = colNorm a1 (scales a2) 1 n := by
  rw [Read.val_main_v46_apply, Read.val_main_v44_apply, Read.val_main_v43_apply, idx_v11, Read.val_main_v42_apply,
    Read.val_main_cst_3_apply, Read.val_main_v45_apply, Read.val_main_cst_4_apply]
  show max (Ideal.sqrt (Ideal.ofBits .f32 0x00000000#32 + _)) (Ideal.ofBits .f32 0x2B8CBCCC#32) = _
  rw [Ideal.ofBits_zero_f32, zero_add]
  refine congrArg (fun s => max (Ideal.sqrt s) (Ideal.ofBits .f32 0x2B8CBCCC#32)) (Finset.sum_congr rfl fun k _ => ?_)
  rw [idx_v10, Read.val_main_v41_apply, raw_eq]
  rfl

/-! ## The normalised, thresholded filter -/

theorem idx_v15 (m n : Fin 2048) : Read.idx_main_v47 (ix2 m n) = ix2 0 n := funext fun a => Fin.ext (by
  match a with
  | ⟨0, _⟩ => rfl
  | ⟨1, _⟩ => rfl)

/-- The normalised entry. -/
theorem quot_eq (m n : Fin 2048) : Read.val_main_v48 (F := Ideal) a1 a2 (ix2 m n)
    = Ideal.div (raw a1 (scales a2) 1 m n) (colNorm a1 (scales a2) 1 n) := by
  rw [Read.val_main_v48_apply, Read.val_main_v47_apply, idx_v15, raw_eq, norm_eq]
  rfl

/-- The filter entry: the normalised entry when its magnitude exceeds the threshold, else zero. -/
theorem filt_eq (m n : Fin 2048) : Read.val_main_v52 (F := Ideal) a1 a2 (ix2 m n) = filtAt a1 (scales a2) 1 m n := by
  rw [Read.val_main_v52_apply, Read.val_main_v51_apply, Read.val_main_v49_apply, quot_eq, Read.val_main_v50_apply,
    Read.val_main_cst_5_apply, Read.val_main_call2_v1_apply, Read.val_main_call2_v0_apply, Read.val_main_cst_6_apply]
  rfl

/-! ## The projected features -/

theorem idx_v22 (d : Fin 768) (c : Fin 192) : Read.idx_main_v54 (ix3 0 d c) = ix3 1 d c := funext fun a => Fin.ext (by
  match a with
  | ⟨0, _⟩ => rfl
  | ⟨1, _⟩ => rfl
  | ⟨2, _⟩ => rfl)

theorem idx_v23 (d : Fin 768) (c : Fin 192) : Read.idx_main_v55 (ix2 d c) = ix3 0 d c := funext fun a => Fin.ext (by
  have hd := d.isLt
  have hc := c.isLt
  match a with
  | ⟨0, _⟩ => rfl
  | ⟨1, _⟩ => show (d.val * 192 + c.val) / 192 % 768 = d.val; omega
  | ⟨2, _⟩ => show (d.val * 192 + c.val) % 192 = c.val; omega)

theorem lidx_v24 (i : Fin 2048) (c : Fin 192) (d : Fin 768) : Read.lidx_main_v56 (ix2 i c) d = ix2 i d := funext fun a => Fin.ext (by
  match a with
  | ⟨0, _⟩ => rfl
  | ⟨1, _⟩ => rfl)

theorem ridx_v24 (i : Fin 2048) (c : Fin 192) (d : Fin 768) : Read.ridx_main_v56 (ix2 i c) d = ix2 d c := funext fun a => Fin.ext (by
  match a with
  | ⟨0, _⟩ => rfl
  | ⟨1, _⟩ => rfl)

/-- The projected features (x·W_1)(i, c). -/
theorem proj_eq (i : Fin 2048) (c : Fin 192) : Read.val_main_v56 (F := Ideal) a0 a3 (ix2 i c) = projAt a0 a3 1 i c := by
  rw [Read.val_main_v56_apply]
  refine Finset.sum_congr rfl fun d _ => ?_
  rw [lidx_v24, ridx_v24, Read.val_main_v55_apply, idx_v23, Read.val_main_v54_apply, idx_v22]

/-! ## The first propagation, with bias and rectifier -/

theorem idx_v21 (i r : Fin 2048) : Read.idx_main_v53 (ix2 i r) = ix2 r i := funext fun a => Fin.ext (by
  match a with
  | ⟨0, _⟩ => rfl
  | ⟨1, _⟩ => rfl)

theorem lidx_v25 (i : Fin 2048) (c : Fin 192) (r : Fin 2048) : Read.lidx_main_v57 (ix2 i c) r = ix2 i r := funext fun a => Fin.ext (by
  match a with
  | ⟨0, _⟩ => rfl
  | ⟨1, _⟩ => rfl)

theorem ridx_v25 (i : Fin 2048) (c : Fin 192) (r : Fin 2048) : Read.ridx_main_v57 (ix2 i c) r = ix2 r c := funext fun a => Fin.ext (by
  match a with
  | ⟨0, _⟩ => rfl
  | ⟨1, _⟩ => rfl)

theorem idx_v26 (c : Fin 192) : Read.idx_main_v58 (ix2 0 c) = ix2 1 c := funext fun a => Fin.ext (by
  match a with
  | ⟨0, _⟩ => rfl
  | ⟨1, _⟩ => rfl)

theorem idx_v27 (c : Fin 192) : Read.idx_main_v59 (ix1 c) = ix2 0 c := funext fun a => Fin.ext (by
  match a with
  | ⟨0, _⟩ => rfl
  | ⟨1, _⟩ => exact Nat.mod_eq_of_lt c.isLt)

theorem idx_v28 (c : Fin 192) : Read.idx_main_v60 (ix2 0 c) = ix1 c := funext fun a => Fin.ext (by
  match a with
  | ⟨0, _⟩ => rfl)

theorem idx_v29 (i : Fin 2048) (c : Fin 192) : Read.idx_main_v61 (ix2 i c) = ix2 0 c := funext fun a => Fin.ext (by
  match a with
  | ⟨0, _⟩ => rfl
  | ⟨1, _⟩ => rfl)

/-- The bias row, broadcast down the rows. -/
theorem bias_eq (i : Fin 2048) (c : Fin 192) : Read.val_main_v61 (F := Ideal) a4 (ix2 i c) = b4 a4 (ix3 1 0 c) := by
  rw [Read.val_main_v61_apply, idx_v29, Read.val_main_v60_apply, idx_v28, Read.val_main_v59_apply, idx_v27,
    Read.val_main_v58_apply, idx_v26]
  rfl

/-- The hidden layer: max(Σ_r F(r,i)·y(r,c) + b(c), 0). -/
theorem hid_eq (i : Fin 2048) (c : Fin 192) : Read.val_main_v63 (F := Ideal) a0 a1 a2 a3 a4 (ix2 i c)
    = hidAt (filt a1 (scales a2)) (proj a0 a3) (b4 a4) 1 i c := by
  rw [Read.val_main_v63_apply, Read.val_main_v62_apply, bias_eq, Read.val_main_call3_v0_apply,
    Read.val_main_call3_cst_apply, Read.val_main_v57_apply]
  show max (_ + _) (Ideal.ofBits .f32 0x00000000#32) = _
  refine congrArg (fun s => max (s + b4 a4 (ix3 1 0 c)) (Ideal.ofBits .f32 0x00000000#32)) (Finset.sum_congr rfl fun r _ => ?_)
  rw [lidx_v25, ridx_v25, Read.val_main_v53_apply, idx_v21, filt_eq, proj_eq]
  rfl

/-! ## The second propagation -/

theorem idx_v32 (j i : Fin 2048) : Read.idx_main_v64 (ix2 j i) = ix2 i j := funext fun a => Fin.ext (by
  match a with
  | ⟨0, _⟩ => rfl
  | ⟨1, _⟩ => rfl)

theorem lidx_v33 (j : Fin 2048) (c : Fin 192) (i : Fin 2048) : Read.lidx_main_v65 (ix2 j c) i = ix2 j i := funext fun a => Fin.ext (by
  match a with
  | ⟨0, _⟩ => rfl
  | ⟨1, _⟩ => rfl)

theorem ridx_v33 (j : Fin 2048) (c : Fin 192) (i : Fin 2048) : Read.ridx_main_v65 (ix2 j c) i = ix2 i c := funext fun a => Fin.ext (by
  match a with
  | ⟨0, _⟩ => rfl
  | ⟨1, _⟩ => rfl)

/-- The propagated piece of scale 1: Σ_i F(i,j)·hid(i,c). -/
theorem prop_eq (j : Fin 2048) (c : Fin 192) : Read.val_main_v65 (F := Ideal) a0 a1 a2 a3 a4 (ix2 j c)
    = propAt (filt a1 (scales a2)) (proj a0 a3) (b4 a4) 1 j c := by
  rw [Read.val_main_v65_apply]
  refine Finset.sum_congr rfl fun i _ => ?_
  rw [lidx_v33, ridx_v33, Read.val_main_v64_apply, idx_v32, filt_eq, hid_eq]
  rfl

end Cert.ReferenceIdeal.RefValue.Scale1

end
-- ==== Proof.Ref.Scale2.lean ====
/-
  Scale 2 of the reference, read stage by stage on the extended reals: its scale vector, the raw filter
  Σ_k e(m,k)·(s(2,k)·e(n,k)), the floor-guarded column norm, the normalised and thresholded filter, the
  projected features, and the two propagations through the transposed filter.  Every layout stage is read at
  an index built from literal coordinates; the products under the sums are regrouped by associativity.
-/
import proofs.«146850_j36850819399877_2_alg».proof.Proof.Ref.Stages
import proofs.«146850_j36850819399877_2_alg».proof.Proof.Ref.Args

noncomputable section

namespace Cert.ReferenceIdeal.RefValue.Scale2

open Cert.ReferenceIdeal Cert.ReferenceIdeal.Gen Idealize.ShloMosaic Idealize.ShloMosaic.ValueIdx Cert.Spec
open Cert.ReferenceIdeal.RefValue

variable (a0 : (⟨S2048x768, .f32⟩ : BufTy).Contents (Elt Ideal)) (a1 : (⟨S2048x2048, .f32⟩ : BufTy).Contents (Elt Ideal))
  (a2 : (⟨S1x2048x4, .f32⟩ : BufTy).Contents (Elt Ideal)) (a3 : (⟨S4x768x192, .f32⟩ : BufTy).Contents (Elt Ideal))
  (a4 : (⟨S4x192, .f32⟩ : BufTy).Contents (Elt Ideal))

/-! ## The scale vector -/

theorem idx_v2 (k : Fin 2048) : Read.idx_main_v66 (ix2 0 k) = ix2 2 k := funext fun a => Fin.ext (by
  match a with
  | ⟨0, _⟩ => rfl
  | ⟨1, _⟩ => rfl)

theorem idx_v3 (k : Fin 2048) : Read.idx_main_v67 (ix1 k) = ix2 0 k := funext fun a => Fin.ext (by
  match a with
  | ⟨0, _⟩ => rfl
  | ⟨1, _⟩ => exact Nat.mod_eq_of_lt k.isLt)

theorem idx_v4 (k : Fin 2048) : Read.idx_main_v68 (ix2 k 0) = ix1 k := funext fun a => Fin.ext (by
  match a with
  | ⟨0, _⟩ => rfl)

/-- The scale vector s(2, ·). -/
theorem sv (k : Fin 2048) : Read.val_main_v67 (F := Ideal) a2 (ix1 k) = scales a2 (ix2 2 k) := by
  rw [Read.val_main_v67_apply, idx_v3, Read.val_main_v66_apply, idx_v2, scale_at]

/-! ## The raw filter -/

theorem idx_v5 (k n : Fin 2048) : Read.idx_main_v69 (ix2 k n) = ix2 n k := funext fun a => Fin.ext (by
  match a with
  | ⟨0, _⟩ => rfl
  | ⟨1, _⟩ => rfl)

theorem idx_v6 (k n : Fin 2048) : Read.idx_main_v70 (ix2 k n) = ix2 k 0 := funext fun a => Fin.ext (by
  match a with
  | ⟨0, _⟩ => rfl
  | ⟨1, _⟩ => rfl)

theorem lidx_v8 (m n k : Fin 2048) : Read.lidx_main_v72 (ix2 m n) k = ix2 m k := funext fun a => Fin.ext (by
  match a with
  | ⟨0, _⟩ => rfl
  | ⟨1, _⟩ => rfl)

theorem ridx_v8 (m n k : Fin 2048) : Read.ridx_main_v72 (ix2 m n) k = ix2 k n := funext fun a => Fin.ext (by
  match a with
  | ⟨0, _⟩ => rfl
  | ⟨1, _⟩ => rfl)

/-- The scaled transpose: entry (k, n) is s(2,k)·e(n,k). -/
theorem scaled (k n : Fin 2048) :
    Read.val_main_v71 (F := Ideal) a1 a2 (ix2 k n) = scales a2 (ix2 2 k) * a1 (ix2 n k) := by
  rw [Read.val_main_v71_apply, Read.val_main_v70_apply, idx_v6, Read.val_main_v68_apply, idx_v4, sv, Read.val_main_v69_apply, idx_v5]
  rfl

/-- The raw filter entry: Σ_k e(m,k)·(s(2,k)·e(n,k)) = Σ_k (e(m,k)·s(2,k))·e(n,k). -/
theorem raw_eq (m n : Fin 2048) : Read.val_main_v72 (F := Ideal) a1 a2 (ix2 m n) = raw a1 (scales a2) 2 m n := by
  rw [Read.val_main_v72_apply]
  refine Finset.sum_congr rfl fun k _ => ?_
  rw [lidx_v8, ridx_v8, scaled]
  exact (mul_assoc _ _ _).symm

/-! ## The column norm -/

theorem idx_v10 (n k : Fin 2048) : Read.idx_main_v74 (ix1 n) k = ix2 k n := funext fun a => Fin.ext (by
  match a with
  | ⟨0, _⟩ => rfl
  | ⟨1, _⟩ => rfl)

theorem idx_v11 (n : Fin 2048) : Read.idx_main_v75 (ix2 0 n) = ix1 n := funext fun a => Fin.ext (by
  match a with
  | ⟨0, _⟩ => rfl)

/-- The floor-guarded Euclidean norm of column n. -/
theorem norm_eq (n : Fin 2048) : Read.val_main_v78 (F := Ideal) a1 a2 (ix2 0 n) = colNorm a1 (scales a2) 2 n := by
  rw [Read.val_main_v78_apply, Read.val_main_v76_apply, Read.val_main_v75_apply, idx_v11, Read.val_main_v74_apply,
    Read.val_main_cst_7_apply, Read.val_main_v77_apply, Read.val_main_cst_8_apply]
  show max (Ideal.sqrt (Ideal.ofBits .f32 0x00000000#32 + _)) (Ideal.ofBits .f32 0x2B8CBCCC#32) = _
  rw [Ideal.ofBits_zero_f32, zero_add]
  refine congrArg (fun s => max (Ideal.sqrt s) (Ideal.ofBits .f32 0x2B8CBCCC#32)) (Finset.sum_congr rfl fun k _ => ?_)
  rw [idx_v10, Read.val_main_v73_apply, raw_eq]
  rfl

/-! ## The normalised, thresholded filter -/

theorem idx_v15 (m n : Fin 2048) : Read.idx_main_v79 (ix2 m n) = ix2 0 n := funext fun a => Fin.ext (by
  match a with
  | ⟨0, _⟩ => rfl
  | ⟨1, _⟩ => rfl)

/-- The normalised entry. -/
theorem quot_eq (m n : Fin 2048) : Read.val_main_v80 (F := Ideal) a1 a2 (ix2 m n)
    = Ideal.div (raw a1 (scales a2) 2 m n) (colNorm a1 (scales a2) 2 n) := by
  rw [Read.val_main_v80_apply, Read.val_main_v79_apply, idx_v15, raw_eq, norm_eq]
  rfl

/-- The filter entry: the normalised entry when its magnitude exceeds the threshold, else zero. -/
theorem filt_eq (m n : Fin 2048) : Read.val_main_v84 (F := Ideal) a1 a2 (ix2 m n) = filtAt a1 (scales a2) 2 m n := by
  rw [Read.val_main_v84_apply, Read.val_main_v83_apply, Read.val_main_v81_apply, quot_eq, Read.val_main_v82_apply,
    Read.val_main_cst_9_apply, Read.val_main_call4_v1_apply, Read.val_main_call4_v0_apply, Read.val_main_cst_10_apply]
  rfl

/-! ## The projected features -/

theorem idx_v22 (d : Fin 768) (c : Fin 192) : Read.idx_main_v86 (ix3 0 d c) = ix3 2 d c := funext fun a => Fin.ext (by
  match a with
  | ⟨0, _⟩ => rfl
  | ⟨1, _⟩ => rfl
  | ⟨2, _⟩ => rfl)

theorem idx_v23 (d : Fin 768) (c : Fin 192) : Read.idx_main_v87 (ix2 d c) = ix3 0 d c := funext fun a => Fin.ext (by
  have hd := d.isLt
  have hc := c.isLt
  match a with
  | ⟨0, _⟩ => rfl
  | ⟨1, _⟩ => show (d.val * 192 + c.val) / 192 % 768 = d.val; omega
  | ⟨2, _⟩ => show (d.val * 192 + c.val) % 192 = c.val; omega)

theorem lidx_v24 (i : Fin 2048) (c : Fin 192) (d : Fin 768) : Read.lidx_main_v88 (ix2 i c) d = ix2 i d := funext fun a => Fin.ext (by
  match a with
  | ⟨0, _⟩ => rfl
  | ⟨1, _⟩ => rfl)

theorem ridx_v24 (i : Fin 2048) (c : Fin 192) (d : Fin 768) : Read.ridx_main_v88 (ix2 i c) d = ix2 d c := funext fun a => Fin.ext (by
  match a with
  | ⟨0, _⟩ => rfl
  | ⟨1, _⟩ => rfl)

/-- The projected features (x·W_2)(i, c). -/
theorem proj_eq (i : Fin 2048) (c : Fin 192) : Read.val_main_v88 (F := Ideal) a0 a3 (ix2 i c) = projAt a0 a3 2 i c := by
  rw [Read.val_main_v88_apply]
  refine Finset.sum_congr rfl fun d _ => ?_
  rw [lidx_v24, ridx_v24, Read.val_main_v87_apply, idx_v23, Read.val_main_v86_apply, idx_v22]

/-! ## The first propagation, with bias and rectifier -/

theorem idx_v21 (i r : Fin 2048) : Read.idx_main_v85 (ix2 i r) = ix2 r i := funext fun a => Fin.ext (by
  match a with
  | ⟨0, _⟩ => rfl
  | ⟨1, _⟩ => rfl)

theorem lidx_v25 (i : Fin 2048) (c : Fin 192) (r : Fin 2048) : Read.lidx_main_v89 (ix2 i c) r = ix2 i r := funext fun a => Fin.ext (by
  match a with
  | ⟨0, _⟩ => rfl
  | ⟨1, _⟩ => rfl)

theorem ridx_v25 (i : Fin 2048) (c : Fin 192) (r : Fin 2048) : Read.ridx_main_v89 (ix2 i c) r = ix2 r c := funext fun a => Fin.ext (by
  match a with
  | ⟨0, _⟩ => rfl
  | ⟨1, _⟩ => rfl)

theorem idx_v26 (c : Fin 192) : Read.idx_main_v90 (ix2 0 c) = ix2 2 c := funext fun a => Fin.ext (by
  match a with
  | ⟨0, _⟩ => rfl
  | ⟨1, _⟩ => rfl)

theorem idx_v27 (c : Fin 192) : Read.idx_main_v91 (ix1 c) = ix2 0 c := funext fun a => Fin.ext (by
  match a with
  | ⟨0, _⟩ => rfl
  | ⟨1, _⟩ => exact Nat.mod_eq_of_lt c.isLt)

theorem idx_v28 (c : Fin 192) : Read.idx_main_v92 (ix2 0 c) = ix1 c := funext fun a => Fin.ext (by
  match a with
  | ⟨0, _⟩ => rfl)

theorem idx_v29 (i : Fin 2048) (c : Fin 192) : Read.idx_main_v93 (ix2 i c) = ix2 0 c := funext fun a => Fin.ext (by
  match a with
  | ⟨0, _⟩ => rfl
  | ⟨1, _⟩ => rfl)

/-- The bias row, broadcast down the rows. -/
theorem bias_eq (i : Fin 2048) (c : Fin 192) : Read.val_main_v93 (F := Ideal) a4 (ix2 i c) = b4 a4 (ix3 2 0 c) := by
  rw [Read.val_main_v93_apply, idx_v29, Read.val_main_v92_apply, idx_v28, Read.val_main_v91_apply, idx_v27,
    Read.val_main_v90_apply, idx_v26]
  rfl

/-- The hidden layer: max(Σ_r F(r,i)·y(r,c) + b(c), 0). -/
theorem hid_eq (i : Fin 2048) (c : Fin 192) : Read.val_main_v95 (F := Ideal) a0 a1 a2 a3 a4 (ix2 i c)
    = hidAt (filt a1 (scales a2)) (proj a0 a3) (b4 a4) 2 i c := by
  rw [Read.val_main_v95_apply, Read.val_main_v94_apply, bias_eq, Read.val_main_call5_v0_apply,
    Read.val_main_call5_cst_apply, Read.val_main_v89_apply]
  show max (_ + _) (Ideal.ofBits .f32 0x00000000#32) = _
  refine congrArg (fun s => max (s + b4 a4 (ix3 2 0 c)) (Ideal.ofBits .f32 0x00000000#32)) (Finset.sum_congr rfl fun r _ => ?_)
  rw [lidx_v25, ridx_v25, Read.val_main_v85_apply, idx_v21, filt_eq, proj_eq]
  rfl

/-! ## The second propagation -/

theorem idx_v32 (j i : Fin 2048) : Read.idx_main_v96 (ix2 j i) = ix2 i j := funext fun a => Fin.ext (by
  match a with
  | ⟨0, _⟩ => rfl
  | ⟨1, _⟩ => rfl)

theorem lidx_v33 (j : Fin 2048) (c : Fin 192) (i : Fin 2048) : Read.lidx_main_v97 (ix2 j c) i = ix2 j i := funext fun a => Fin.ext (by
  match a with
  | ⟨0, _⟩ => rfl
  | ⟨1, _⟩ => rfl)

theorem ridx_v33 (j : Fin 2048) (c : Fin 192) (i : Fin 2048) : Read.ridx_main_v97 (ix2 j c) i = ix2 i c := funext fun a => Fin.ext (by
  match a with
  | ⟨0, _⟩ => rfl
  | ⟨1, _⟩ => rfl)

/-- The propagated piece of scale 2: Σ_i F(i,j)·hid(i,c). -/
theorem prop_eq (j : Fin 2048) (c : Fin 192) : Read.val_main_v97 (F := Ideal) a0 a1 a2 a3 a4 (ix2 j c)
    = propAt (filt a1 (scales a2)) (proj a0 a3) (b4 a4) 2 j c := by
  rw [Read.val_main_v97_apply]
  refine Finset.sum_congr rfl fun i _ => ?_
  rw [lidx_v33, ridx_v33, Read.val_main_v96_apply, idx_v32, filt_eq, hid_eq]
  rfl

end Cert.ReferenceIdeal.RefValue.Scale2

end
-- ==== Proof.Ref.Scale3.lean ====
/-
  Scale 3 of the reference, read stage by stage on the extended reals: its scale vector, the raw filter
  Σ_k e(m,k)·(s(3,k)·e(n,k)), the floor-guarded column norm, the normalised and thresholded filter, the
  projected features, and the two propagations through the transposed filter.  Every layout stage is read at
  an index built from literal coordinates; the products under the sums are regrouped by associativity.
-/
import proofs.«146850_j36850819399877_2_alg».proof.Proof.Ref.Stages
import proofs.«146850_j36850819399877_2_alg».proof.Proof.Ref.Args

noncomputable section

namespace Cert.ReferenceIdeal.RefValue.Scale3

open Cert.ReferenceIdeal Cert.ReferenceIdeal.Gen Idealize.ShloMosaic Idealize.ShloMosaic.ValueIdx Cert.Spec
open Cert.ReferenceIdeal.RefValue

variable (a0 : (⟨S2048x768, .f32⟩ : BufTy).Contents (Elt Ideal)) (a1 : (⟨S2048x2048, .f32⟩ : BufTy).Contents (Elt Ideal))
  (a2 : (⟨S1x2048x4, .f32⟩ : BufTy).Contents (Elt Ideal)) (a3 : (⟨S4x768x192, .f32⟩ : BufTy).Contents (Elt Ideal))
  (a4 : (⟨S4x192, .f32⟩ : BufTy).Contents (Elt Ideal))

/-! ## The scale vector -/

theorem idx_v2 (k : Fin 2048) : Read.idx_main_v98 (ix2 0 k) = ix2 3 k := funext fun a => Fin.ext (by
  match a with
  | ⟨0, _⟩ => rfl
  | ⟨1, _⟩ => rfl)

theorem idx_v3 (k : Fin 2048) : Read.idx_main_v99 (ix1 k) = ix2 0 k := funext fun a => Fin.ext (by
  match a with
  | ⟨0, _⟩ => rfl
  | ⟨1, _⟩ => exact Nat.mod_eq_of_lt k.isLt)

theorem idx_v4 (k : Fin 2048) : Read.idx_main_v100 (ix2 k 0) = ix1 k := funext fun a => Fin.ext (by
  match a with
  | ⟨0, _⟩ => rfl)

/-- The scale vector s(3, ·). -/
theorem sv (k : Fin 2048) : Read.val_main_v99 (F := Ideal) a2 (ix1 k) = scales a2 (ix2 3 k) := by
  rw [Read.val_main_v99_apply, idx_v3, Read.val_main_v98_apply, idx_v2, scale_at]

/-! ## The raw filter -/

theorem idx_v5 (k n : Fin 2048) : Read.idx_main_v101 (ix2 k n) = ix2 n k := funext fun a => Fin.ext (by
  match a with
  | ⟨0, _⟩ => rfl
  | ⟨1, _⟩ => rfl)

theorem idx_v6 (k n : Fin 2048) : Read.idx_main_v102 (ix2 k n) = ix2 k 0 := funext fun a => Fin.ext (by
  match a with
  | ⟨0, _⟩ => rfl
  | ⟨1, _⟩ => rfl)

theorem lidx_v8 (m n k : Fin 2048) : Read.lidx_main_v104 (ix2 m n) k = ix2 m k := funext fun a => Fin.ext (by
  match a with
  | ⟨0, _⟩ => rfl
  | ⟨1, _⟩ => rfl)

theorem ridx_v8 (m n k : Fin 2048) : Read.ridx_main_v104 (ix2 m n) k = ix2 k n := funext fun a => Fin.ext (by
  match a with
  | ⟨0, _⟩ => rfl
  | ⟨1, _⟩ => rfl)

/-- The scaled transpose: entry (k, n) is s(3,k)·e(n,k). -/
theorem scaled (k n : Fin 2048) :
    Read.val_main_v103 (F := Ideal) a1 a2 (ix2 k n) = scales a2 (ix2 3 k) * a1 (ix2 n k) := by
  rw [Read.val_main_v103_apply, Read.val_main_v102_apply, idx_v6, Read.val_main_v100_apply, idx_v4, sv, Read.val_main_v101_apply, idx_v5]
  rfl

/-- The raw filter entry: Σ_k e(m,k)·(s(3,k)·e(n,k)) = Σ_k (e(m,k)·s(3,k))·e(n,k). -/
theorem raw_eq (m n : Fin 2048) : Read.val_main_v104 (F := Ideal) a1 a2 (ix2 m n) = raw a1 (scales a2) 3 m n := by
  rw [Read.val_main_v104_apply]
  refine Finset.sum_congr rfl fun k _ => ?_
  rw [lidx_v8, ridx_v8, scaled]
  exact (mul_assoc _ _ _).symm

/-! ## The column norm -/

theorem idx_v10 (n k : Fin 2048) : Read.idx_main_v106 (ix1 n) k = ix2 k n := funext fun a => Fin.ext (by
  match a with
  | ⟨0, _⟩ => rfl
  | ⟨1, _⟩ => rfl)

theorem idx_v11 (n : Fin 2048) : Read.idx_main_v107 (ix2 0 n) = ix1 n := funext fun a => Fin.ext (by
  match a with
  | ⟨0, _⟩ => rfl)

/-- The floor-guarded Euclidean norm of column n. -/
theorem norm_eq (n : Fin 2048) : Read.val_main_v110 (F := Ideal) a1 a2 (ix2 0 n) = colNorm a1 (scales a2) 3 n := by
  rw [Read.val_main_v110_apply, Read.val_main_v108_apply, Read.val_main_v107_apply, idx_v11, Read.val_main_v106_apply,
    Read.val_main_cst_11_apply, Read.val_main_v109_apply, Read.val_main_cst_12_apply]
  show max (Ideal.sqrt (Ideal.ofBits .f32 0x00000000#32 + _)) (Ideal.ofBits .f32 0x2B8CBCCC#32) = _
  rw [Ideal.ofBits_zero_f32, zero_add]
  refine congrArg (fun s => max (Ideal.sqrt s) (Ideal.ofBits .f32 0x2B8CBCCC#32)) (Finset.sum_congr rfl fun k _ => ?_)
  rw [idx_v10, Read.val_main_v105_apply, raw_eq]
  rfl

/-! ## The normalised, thresholded filter -/

theorem idx_v15 (m n : Fin 2048) : Read.idx_main_v111 (ix2 m n) = ix2 0 n := funext fun a => Fin.ext (by
  match a with
  | ⟨0, _⟩ => rfl
  | ⟨1, _⟩ => rfl)

/-- The normalised entry. -/
theorem quot_eq (m n : Fin 2048) : Read.val_main_v112 (F := Ideal) a1 a2 (ix2 m n)
    = Ideal.div (raw a1 (scales a2) 3 m n) (colNorm a1 (scales a2) 3 n) := by
  rw [Read.val_main_v112_apply, Read.val_main_v111_apply, idx_v15, raw_eq, norm_eq]
  rfl

/-- The filter entry: the normalised entry when its magnitude exceeds the threshold, else zero. -/
theorem filt_eq (m n : Fin 2048) : Read.val_main_v116 (F := Ideal) a1 a2 (ix2 m n) = filtAt a1 (scales a2) 3 m n := by
  rw [Read.val_main_v116_apply, Read.val_main_v115_apply, Read.val_main_v113_apply, quot_eq, Read.val_main_v114_apply,
    Read.val_main_cst_13_apply, Read.val_main_call6_v1_apply, Read.val_main_call6_v0_apply, Read.val_main_cst_14_apply]
  rfl

/-! ## The projected features -/

theorem idx_v22 (d : Fin 768) (c : Fin 192) : Read.idx_main_v118 (ix3 0 d c) = ix3 3 d c := funext fun a => Fin.ext (by
  match a with
  | ⟨0, _⟩ => rfl
  | ⟨1, _⟩ => rfl
  | ⟨2, _⟩ => rfl)

theorem idx_v23 (d : Fin 768) (c : Fin 192) : Read.idx_main_v119 (ix2 d c) = ix3 0 d c := funext fun a => Fin.ext (by
  have hd := d.isLt
  have hc := c.isLt
  match a with
  | ⟨0, _⟩ => rfl
  | ⟨1, _⟩ => show (d.val * 192 + c.val) / 192 % 768 = d.val; omega
  | ⟨2, _⟩ => show (d.val * 192 + c.val) % 192 = c.val; omega)

theorem lidx_v24 (i : Fin 2048) (c : Fin 192) (d : Fin 768) : Read.lidx_main_v120 (ix2 i c) d = ix2 i d := funext fun a => Fin.ext (by
  match a with
  | ⟨0, _⟩ => rfl
  | ⟨1, _⟩ => rfl)

theorem ridx_v24 (i : Fin 2048) (c : Fin 192) (d : Fin 768) : Read.ridx_main_v120 (ix2 i c) d = ix2 d c := funext fun a => Fin.ext (by
  match a with
  | ⟨0, _⟩ => rfl
  | ⟨1, _⟩ => rfl)

/-- The projected features (x·W_3)(i, c). -/
theorem proj_eq (i : Fin 2048) (c : Fin 192) : Read.val_main_v120 (F := Ideal) a0 a3 (ix2 i c) = projAt a0 a3 3 i c := by
  rw [Read.val_main_v120_apply]
  refine Finset.sum_congr rfl fun d _ => ?_
  rw [lidx_v24, ridx_v24, Read.val_main_v119_apply, idx_v23, Read.val_main_v118_apply, idx_v22]

/-! ## The first propagation, with bias and rectifier -/

theorem idx_v21 (i r : Fin 2048) : Read.idx_main_v117 (ix2 i r) = ix2 r i := funext fun a => Fin.ext (by
  match a with
  | ⟨0, _⟩ => rfl
  | ⟨1, _⟩ => rfl)

theorem lidx_v25 (i : Fin 2048) (c : Fin 192) (r : Fin 2048) : Read.lidx_main_v121 (ix2 i c) r = ix2 i r := funext fun a => Fin.ext (by
  match a with
  | ⟨0, _⟩ => rfl
  | ⟨1, _⟩ => rfl)

theorem ridx_v25 (i : Fin 2048) (c : Fin 192) (r : Fin 2048) : Read.ridx_main_v121 (ix2 i c) r = ix2 r c := funext fun a => Fin.ext (by
  match a with
  | ⟨0, _⟩ => rfl
  | ⟨1, _⟩ => rfl)

theorem idx_v26 (c : Fin 192) : Read.idx_main_v122 (ix2 0 c) = ix2 3 c := funext fun a => Fin.ext (by
  match a with
  | ⟨0, _⟩ => rfl
  | ⟨1, _⟩ => rfl)

theorem idx_v27 (c : Fin 192) : Read.idx_main_v123 (ix1 c) = ix2 0 c := funext fun a => Fin.ext (by
  match a with
  | ⟨0, _⟩ => rfl
  | ⟨1, _⟩ => exact Nat.mod_eq_of_lt c.isLt)

theorem idx_v28 (c : Fin 192) : Read.idx_main_v124 (ix2 0 c) = ix1 c := funext fun a => Fin.ext (by
  match a with
  | ⟨0, _⟩ => rfl)

theorem idx_v29 (i : Fin 2048) (c : Fin 192) : Read.idx_main_v125 (ix2 i c) = ix2 0 c := funext fun a => Fin.ext (by
  match a with
  | ⟨0, _⟩ => rfl
  | ⟨1, _⟩ => rfl)

/-- The bias row, broadcast down the rows. -/
theorem bias_eq (i : Fin 2048) (c : Fin 192) : Read.val_main_v125 (F := Ideal) a4 (ix2 i c) = b4 a4 (ix3 3 0 c) := by
  rw [Read.val_main_v125_apply, idx_v29, Read.val_main_v124_apply, idx_v28, Read.val_main_v123_apply, idx_v27,
    Read.val_main_v122_apply, idx_v26]
  rfl

/-- The hidden layer: max(Σ_r F(r,i)·y(r,c) + b(c), 0). -/
theorem hid_eq (i : Fin 2048) (c : Fin 192) : Read.val_main_v127 (F := Ideal) a0 a1 a2 a3 a4 (ix2 i c)
    = hidAt (filt a1 (scales a2)) (proj a0 a3) (b4 a4) 3 i c := by
  rw [Read.val_main_v127_apply, Read.val_main_v126_apply, bias_eq, Read.val_main_call7_v0_apply,
    Read.val_main_call7_cst_apply, Read.val_main_v121_apply]
  show max (_ + _) (Ideal.ofBits .f32 0x00000000#32) = _
  refine congrArg (fun s => max (s + b4 a4 (ix3 3 0 c)) (Ideal.ofBits .f32 0x00000000#32)) (Finset.sum_congr rfl fun r _ => ?_)
  rw [lidx_v25, ridx_v25, Read.val_main_v117_apply, idx_v21, filt_eq, proj_eq]
  rfl

/-! ## The second propagation -/

theorem idx_v32 (j i : Fin 2048) : Read.idx_main_v128 (ix2 j i) = ix2 i j := funext fun a => Fin.ext (by
  match a with
  | ⟨0, _⟩ => rfl
  | ⟨1, _⟩ => rfl)

theorem lidx_v33 (j : Fin 2048) (c : Fin 192) (i : Fin 2048) : Read.lidx_main_v129 (ix2 j c) i = ix2 j i := funext fun a => Fin.ext (by
  match a with
  | ⟨0, _⟩ => rfl
  | ⟨1, _⟩ => rfl)

theorem ridx_v33 (j : Fin 2048) (c : Fin 192) (i : Fin 2048) : Read.ridx_main_v129 (ix2 j c) i = ix2 i c := funext fun a => Fin.ext (by
  match a with
  | ⟨0, _⟩ => rfl
  | ⟨1, _⟩ => rfl)

/-- The propagated piece of scale 3: Σ_i F(i,j)·hid(i,c). -/
theorem prop_eq (j : Fin 2048) (c : Fin 192) : Read.val_main_v129 (F := Ideal) a0 a1 a2 a3 a4 (ix2 j c)
    = propAt (filt a1 (scales a2)) (proj a0 a3) (b4 a4) 3 j c := by
  rw [Read.val_main_v129_apply]
  refine Finset.sum_congr rfl fun i _ => ?_
  rw [lidx_v33, ridx_v33, Read.val_main_v128_apply, idx_v32, filt_eq, hid_eq]
  rfl

end Cert.ReferenceIdeal.RefValue.Scale3

end
-- ==== Proof.Ref.Algebra.lean ====
/-
  Two facts used where the four propagated pieces are recombined: a sum over the 768 = 4·192 joined columns
  is the sum over the four pieces of the sums over each piece's 192 columns; and the array joining four
  [2048, 192] pieces along the columns, read at column 192·t + c, is piece t at column c.
-/
import Idealize.ShloMosaic.PureOps.Ideal
import Idealize.ShloMosaic.Lib.ValueIdx
import Idealize.ShloMosaic.Lib.Pipeline.Value

namespace Cert.ReferenceIdeal.RefValue

open Idealize.ShloMosaic Idealize.ShloMosaic.ValueIdx

/-- Column 192·t + c of the joined array. -/
abbrev col (t : Fin 4) (c : Fin 192) : Fin 768 := ⟨192 * t.val + c.val, by have := t.isLt; have := c.isLt; omega⟩

/-- A sum over the 768 joined columns, grouped piece by piece. -/
theorem sum_cols {M : Type*} [AddCommMonoid M] (f : Fin 768 → M) :
    ∑ k : Fin 768, f k = ∑ t : Fin 4, ∑ c : Fin 192, f (col t c) := by
  rw [← Fintype.sum_prod_type']
  refine (Equiv.sum_comp (finProdFinEquiv : Fin 4 × Fin 192 ≃ Fin 768) f).symm.trans ?_
  refine Finset.sum_congr rfl fun x _ => congrArg f (Fin.ext ?_)
  show x.2.val + 192 * x.1.val = 192 * x.1.val + x.2.val
  omega

section Join
variable {α : Type} (x0 x1 x2 x3 : (⟨2, ![2048, 192]⟩ : Shape).Idx → α)
  (h : Shape.Concatenates [(⟨2, ![2048, 192]⟩ : Shape), ⟨2, ![2048, 192]⟩, ⟨2, ![2048, 192]⟩, ⟨2, ![2048, 192]⟩] ⟨2, ![2048, 768]⟩ 1)

/-- The four pieces as a family over the scale. -/
def pieces : Fin 4 → (⟨2, ![2048, 192]⟩ : Shape).Idx → α
  | 0 => x0
  | 1 => x1
  | 2 => x2
  | 3 => x3

/-- The joined array at row n, column 192·t + c is piece t at (n, c). -/
theorem join_apply (n : Fin 2048) (t : Fin 4) (c : Fin 192) :
    concatenate (⟨2, ![2048, 768]⟩ : Shape) 1 [⟨_, x0⟩, ⟨_, x1⟩, ⟨_, x2⟩, ⟨_, x3⟩] h (ix2 n (col t c))
      = pieces x0 x1 x2 x3 t (ix2 n c) := by
  have hb : ∀ b : Fin (⟨2, ![2048, 192]⟩ : Shape).rank, b.cast (rfl : (2 : Nat) = 2) ≠ (1 : Fin 2) →
      ((ix2 n c : (⟨2, ![2048, 192]⟩ : Shape).Idx) b).val = ((ix2 n (col t c) : (⟨2, ![2048, 768]⟩ : Shape).Idx) (b.cast rfl)).val := by
    intro b hb
    match b, hb with
    | ⟨0, _⟩, _ => rfl
    | ⟨1, _⟩, hb => exact absurd rfl hb
  match t with
  | 0 => exact concatenate_apply_piece (t := ⟨2, ![2048, 768]⟩) 1 [⟨_, x0⟩, ⟨_, x1⟩, ⟨_, x2⟩, ⟨_, x3⟩] h (ix2 n (col 0 c)) 0 (by show 0 < 4; omega) _ x0 rfl rfl 0 rfl (ix2 n c) hb (by show 0 + c.val = 192 * 0 + c.val; omega)
  | 1 => exact concatenate_apply_piece (t := ⟨2, ![2048, 768]⟩) 1 [⟨_, x0⟩, ⟨_, x1⟩, ⟨_, x2⟩, ⟨_, x3⟩] h (ix2 n (col 1 c)) 1 (by show 1 < 4; omega) _ x1 rfl rfl 192 rfl (ix2 n c) hb (by show 192 + c.val = 192 * 1 + c.val; omega)
  | 2 => exact concatenate_apply_piece (t := ⟨2, ![2048, 768]⟩) 1 [⟨_, x0⟩, ⟨_, x1⟩, ⟨_, x2⟩, ⟨_, x3⟩] h (ix2 n (col 2 c)) 2 (by show 2 < 4; omega) _ x2 rfl rfl 384 rfl (ix2 n c) hb (by show 384 + c.val = 192 * 2 + c.val; omega)
  | 3 => exact concatenate_apply_piece (t := ⟨2, ![2048, 768]⟩) 1 [⟨_, x0⟩, ⟨_, x1⟩, ⟨_, x2⟩, ⟨_, x3⟩] h (ix2 n (col 3 c)) 3 (by show 3 < 4; omega) _ x3 rfl rfl 576 rfl (ix2 n c) hb (by show 576 + c.val = 192 * 3 + c.val; omega)

end Join

end Cert.ReferenceIdeal.RefValue
-- ==== Proof.Ref.RefIsSpec.lean ====
/-
  The reference program is the specification: its result, index by index, is the recombination of the four
  propagated pieces.  The program joins the four [N, 192] pieces along the columns and multiplies by the
  [768, 768] weights; a sum over the 768 joined columns is the sum over the four pieces of the sums over
  each piece's 192 columns, and column 192·t + c of the joined array is piece t at column c.
-/
import proofs.«146850_j36850819399877_2_alg».proof.Proof.Ref.Scale0
import proofs.«146850_j36850819399877_2_alg».proof.Proof.Ref.Scale1
import proofs.«146850_j36850819399877_2_alg».proof.Proof.Ref.Scale2
import proofs.«146850_j36850819399877_2_alg».proof.Proof.Ref.Scale3
import proofs.«146850_j36850819399877_2_alg».proof.Proof.Ref.Algebra

noncomputable section

namespace Cert.ReferenceIdeal.RefValue

open Cert.ReferenceIdeal Cert.ReferenceIdeal.Gen Idealize.ShloMosaic Idealize.ShloMosaic.ValueIdx Cert.Spec
open Idealize.ShloMosaic.TcCoe Idealize.SL.Sem

variable (a0 : (⟨S2048x768, .f32⟩ : BufTy).Contents (Elt Ideal)) (a1 : (⟨S2048x2048, .f32⟩ : BufTy).Contents (Elt Ideal))
  (a2 : (⟨S1x2048x4, .f32⟩ : BufTy).Contents (Elt Ideal)) (a3 : (⟨S4x768x192, .f32⟩ : BufTy).Contents (Elt Ideal))
  (a4 : (⟨S4x192, .f32⟩ : BufTy).Contents (Elt Ideal)) (a5 : (⟨S768x768, .f32⟩ : BufTy).Contents (Elt Ideal))
  (a6 : (⟨S768, .f32⟩ : BufTy).Contents (Elt Ideal))

theorem lidx_v131 (n : Fin 2048) (d k : Fin 768) : Read.lidx_main_v131 (ix2 n d) k = ix2 n k := funext fun a => Fin.ext (by
  match a with
  | ⟨0, _⟩ => rfl
  | ⟨1, _⟩ => rfl)

theorem ridx_v131 (n : Fin 2048) (d k : Fin 768) : Read.ridx_main_v131 (ix2 n d) k = ix2 k d := funext fun a => Fin.ext (by
  match a with
  | ⟨0, _⟩ => rfl
  | ⟨1, _⟩ => rfl)

theorem idx_v132 (d : Fin 768) : Read.idx_main_v132 (ix2 0 d) = ix1 d := funext fun a => Fin.ext (by
  match a with
  | ⟨0, _⟩ => rfl)

theorem idx_v133 (n : Fin 2048) (d : Fin 768) : Read.idx_main_v133 (ix2 n d) = ix2 0 d := funext fun a => Fin.ext (by
  match a with
  | ⟨0, _⟩ => rfl
  | ⟨1, _⟩ => rfl)

/-- The joined array at row n, column 192·t + c is the propagated piece of scale t at (n, c). -/
theorem join_eq (n : Fin 2048) (t : Fin 4) (c : Fin 192) :
    Read.val_main_v130 (F := Ideal) a0 a1 a2 a3 a4 (ix2 n (col t c))
      = propAt (filt a1 (scales a2)) (proj a0 a3) (b4 a4) t n c := by
  unfold Read.val_main_v130
  refine (join_apply (Read.val_main_v33 (F := Ideal) a0 a1 a2 a3 a4) (Read.val_main_v65 (F := Ideal) a0 a1 a2 a3 a4)
    (Read.val_main_v97 (F := Ideal) a0 a1 a2 a3 a4) (Read.val_main_v129 (F := Ideal) a0 a1 a2 a3 a4)
    concatenates_S2048x192_S2048x192_S2048x192_S2048x192_S2048x768_d1 n t c).trans ?_
  match t with
  | 0 => exact Scale0.prop_eq a0 a1 a2 a3 a4 n c
  | 1 => exact Scale1.prop_eq a0 a1 a2 a3 a4 n c
  | 2 => exact Scale2.prop_eq a0 a1 a2 a3 a4 n c
  | 3 => exact Scale3.prop_eq a0 a1 a2 a3 a4 n c

/-- **The reference is the specification.** -/
theorem ref_eq : Read.val_main_v135 (F := Ideal) a0 a1 a2 a3 a4 a5 a6
    = fuse (prop (filt a1 (scales a2)) (proj a0 a3) (b4 a4)) (w5 a5) (b6 a6) := by
  funext j
  obtain ⟨n, d, rfl⟩ : ∃ (n : Fin 2048) (d : Fin 768), j = ix2 n d := ⟨j 0, j 1, eq_ix2 j⟩
  rw [Read.val_main_v135_apply, Read.val_main_v134_apply, Read.val_main_call8_v0_apply, Read.val_main_call8_cst_apply,
    Read.val_main_v133_apply, idx_v133, Read.val_main_v132_apply, idx_v132, Read.val_main_v131_apply, sum_cols]
  show max (_ + _) (Ideal.ofBits .f32 0x00000000#32) = _
  refine congrArg (fun s => max (s + b6 a6 (ix2 0 d)) (Ideal.ofBits .f32 0x00000000#32))
    (Finset.sum_congr rfl fun t _ => Finset.sum_congr rfl fun c _ => ?_)
  rw [lidx_v131, ridx_v131, join_eq]
  rfl

/-- The term the reference's run ends at is the specification of the argument arrays as the run finds them. -/
theorem ref_result (m : (ℓ : Loc nD τ sig) → Buf (Elt Ideal) ℓ) (c : Dev nD) :
    Cert.ReferenceIdeal.Value.res_main_v135 (F := Ideal) m c
      = fuse (prop (filt (m ((c.tc : Thread nD τ).loc main_arg1)) (scales (m ((c.tc : Thread nD τ).loc main_arg2))))
            (proj (m ((c.tc : Thread nD τ).loc main_arg0)) (m ((c.tc : Thread nD τ).loc main_arg3)))
            (b4 (m ((c.tc : Thread nD τ).loc main_arg4))))
          (w5 (m ((c.tc : Thread nD τ).loc main_arg5))) (b6 (m ((c.tc : Thread nD τ).loc main_arg6))) :=
  (Read.val_main_v135_eq m c).trans (ref_eq _ _ _ _ _ _ _)

/-- The reference's run, with its result stated as the specification of the arguments: every weakly fair execution
    terminates with the result array at the recombination of the four propagated pieces, the arguments unchanged. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v135)
        = fuse (prop (filt (m ((c.tc : Thread nD τ).loc main_arg1)) (scales (m ((c.tc : Thread nD τ).loc main_arg2))))
              (proj (m ((c.tc : Thread nD τ).loc main_arg0)) (m ((c.tc : Thread nD τ).loc main_arg3)))
              (b4 (m ((c.tc : Thread nD τ).loc main_arg4))))
            (w5 (m ((c.tc : Thread nD τ).loc main_arg5))) (b6 (m ((c.tc : Thread nD τ).loc main_arg6)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c).1.trans (ref_result m c), (h c).2⟩)
    (Cert.ReferenceIdeal.Value.run (F := Ideal) m ρ)

end Cert.ReferenceIdeal.RefValue

end
-- ==== Proof.lean ====
/-
  The five claims.

  Both programs of the kernel run as four kernel regions among host stretches (the run modules): every weakly fair
  execution terminates without a fault, the arguments end as launched, and the result buffer ends at what the last
  region leaves.  No operation was rewritten when the kernel was idealized, so that claim is trivial.  On the
  extended reals the result is  fuse (prop (filt e s) (proj x W) b) W' b'  of the arguments — the spectral filters
  Σ_k (e(m,k)·s(t,k))·e(n,k), column-normalised and thresholded; the projected features; two propagations through
  the transposed filter around a bias and a rectifier; the recombining product, bias and rectifier — and the
  reference computes the same function: its products are grouped e(m,k)·(s(t,k)·e(n,k)) and its last product runs
  over the four pieces laid side by side, which is associativity of the product and a regrouping of a finite
  sum, both of which hold on the extended reals without any finiteness.
-/
import proofs.«146850_j36850819399877_2_alg».proof.Defs
import proofs.«146850_j36850819399877_2_alg».proof.Proof.K.Run
import proofs.«146850_j36850819399877_2_alg».proof.Proof.KI.Result
import proofs.«146850_j36850819399877_2_alg».proof.Proof.Ref.RefIsSpec
import proofs.«146850_j36850819399877_2_alg».proof.Proof.Gen.Kernel
import proofs.«146850_j36850819399877_2_alg».proof.Proof.Gen.KernelIdeal
import proofs.«146850_j36850819399877_2_alg».proof.Proof.Gen.ReferenceIdeal
import proofs.«146850_j36850819399877_2_alg».proof.Proof.Gen.Pre_finite_inputs
import Idealize.ShloMosaic.Adequacy
import Idealize.ShloMosaic.Init

noncomputable section

namespace Cert.Proof

open Idealize.ShloMosaic Idealize.ShloMosaic.TcCoe Idealize.SL.Sem

/-- The word-level kernel runs and leaves its arguments as launched. -/
theorem frame_kernel : Cert.frame_Kernel := fun m ρ _ =>
  (θ_run Cert.Kernel.defs _ _).mono (fun _ h c => (h c).2) (Cert.Kernel.Hand.run_main m ρ)

/-- So does the kernel read on the extended reals. -/
theorem frame_kernelIdeal : Cert.frame_KernelIdeal := fun m ρ _ =>
  (θ_run Cert.KernelIdeal.defs _ _).mono (fun _ h c => (h c).2) (Cert.KernelIdeal.Hand.run_main m ρ)

/-- The reference is a straight line of host operations: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Nothing was rewritten in the idealization. -/
theorem preserves : Cert.preserves_Kernel_KernelIdeal := trivial

/-- From memories agreeing on the arguments both programs end at the same function of the arguments. -/
theorem algebraic : Cert.algebraic_KernelIdeal_ReferenceIdeal := by
  intro m ρ m' ρ' _ hagree
  refine ⟨fun c => Cert.KernelIdeal.Hand.W8 m ρ c (Proc.devRef .tc Cert.KernelIdeal.main_v12), Cert.KernelIdeal.Hand.run_main m ρ, ?_⟩
  refine (θ_run Cert.ReferenceIdeal.defs _ _).mono (fun _ h c => ⟨(h c).1.trans ?_, (h c).2⟩)
    (Cert.ReferenceIdeal.RefValue.ref_run m' ρ')
  rw [(hagree c).1, (hagree c).2.1, (hagree c).2.2.1, (hagree c).2.2.2.1, (hagree c).2.2.2.2.1, (hagree c).2.2.2.2.2.1, (hagree c).2.2.2.2.2.2]
  exact (Cert.KernelIdeal.Hand.kernel_result m ρ c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
